-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S32768x512 : Shape := ⟨2, ![32768, 512]⟩
abbrev S8192x1024 : Shape := ⟨2, ![8192, 1024]⟩
abbrev S2048x2048 : Shape := ⟨2, ![2048, 2048]⟩
abbrev S131072 : Shape := ⟨1, ![131072]⟩
abbrev S32768 : Shape := ⟨1, ![32768]⟩
abbrev S8192 : Shape := ⟨1, ![8192]⟩
abbrev S2048 : Shape := ⟨1, ![2048]⟩
abbrev S1024x3072 : Shape := ⟨2, ![1024, 3072]⟩
abbrev S1024 : Shape := ⟨1, ![1024]⟩
abbrev S512x1536 : Shape := ⟨2, ![512, 1536]⟩
abbrev S512 : Shape := ⟨1, ![512]⟩
abbrev S256x768 : Shape := ⟨2, ![256, 768]⟩
abbrev S256 : Shape := ⟨1, ![256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S1024x3072 : S_.BroadcastsInDim S1024x3072 (![] : Fin 0 → Fin S1024x3072.rank)
  reducesTo_S1024x3072_S_d0_1 : S1024x3072.ReducesTo [0, 1] S_
  bcast_S_S1024 : S_.BroadcastsInDim S1024 (![] : Fin 0 → Fin S1024.rank)
  reducesTo_S1024_S_d0 : S1024.ReducesTo [0] S_
  bcast_S_S512x1536 : S_.BroadcastsInDim S512x1536 (![] : Fin 0 → Fin S512x1536.rank)
  reducesTo_S512x1536_S_d0_1 : S512x1536.ReducesTo [0, 1] S_
  bcast_S_S512 : S_.BroadcastsInDim S512 (![] : Fin 0 → Fin S512.rank)
  reducesTo_S512_S_d0 : S512.ReducesTo [0] S_
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_arg17 : FVec F S256x768 .f32) (main_arg18 : FVec F S256 .f32) (main_v63 : IVec S_ 1) (main_v67 : IVec S_ 1) : IVec S_ 1 :=
  let main_v68 : IVec S_ 1 := andi main_v63 main_v67
  let main_v69 : FVec F S256x768 .f32 := Host.absf main_arg17
  let main_cst_26 : FVec F S_ .f32 := constant S_ .f32 0x7F800000#32
  let main_v70 : FVec F S256x768 .f32 := broadcastInDim S256x768 ![] bcast_S_S256x768 main_cst_26
  let main_v71 : IVec S256x768 1 := cmpf .olt main_v69 main_v70
  let main_c_27 : IVec S_ 1 := constantI S_ 1 1#1
  let main_v72 : IVec S_ 1 := (fun x v => Host.reduce IntOp.andi x v reducesTo_S256x768_S_d0_1 h_S_) main_v71 main_c_27
  let main_v73 : IVec S_ 1 := andi main_v68 main_v72
  let main_v74 : FVec F S256 .f32 := Host.absf main_arg18
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  main_v78

def fn_part3 {F : FTy → Type} [FloatOps F] (main_arg14 : FVec F S512 .f32) (main_arg15 : FVec F S512 .f32) (main_arg16 : FVec F S512 .f32) (main_arg17 : FVec F S256x768 .f32) (main_arg18 : FVec F S256 .f32) (main_v48 : IVec S_ 1) (main_v49 : FVec F S512x1536 .f32) (main_v50 : FVec F S512x1536 .f32) : IVec S_ 1 :=
  let main_v51 : IVec S512x1536 1 := cmpf .olt main_v49 main_v50
  let main_c_19 : IVec S_ 1 := constantI S_ 1 1#1
  let main_v52 : IVec S_ 1 := (fun x v => Host.reduce IntOp.andi x v reducesTo_S512x1536_S_d0_1 h_S_) main_v51 main_c_19
  let main_v53 : IVec S_ 1 := andi main_v48 main_v52
  let main_v54 : FVec F S512 .f32 := Host.absf main_arg14
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg15
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg16
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg17 main_arg18 main_v63 main_v67

def fn_part2 {F : FTy → Type} [FloatOps F] (main_arg10 : FVec F S1024 .f32) (main_arg11 : FVec F S1024 .f32) (main_arg12 : FVec F S1024 .f32) (main_arg13 : FVec F S512x1536 .f32) (main_arg14 : FVec F S512 .f32) (main_arg15 : FVec F S512 .f32) (main_arg16 : FVec F S512 .f32) (main_arg17 : FVec F S256x768 .f32) (main_arg18 : FVec F S256 .f32) (main_v33 : IVec S_ 1) : IVec S_ 1 :=
  let main_v34 : FVec F S1024 .f32 := Host.absf main_arg10
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg11
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg12
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S512x1536 .f32 := Host.absf main_arg13
  let main_cst_18 : FVec F S_ .f32 := constant S_ .f32 0x7F800000#32
  let main_v50 : FVec F S512x1536 .f32 := broadcastInDim S512x1536 ![] bcast_S_S512x1536 main_cst_18
  fn_part3 (F := F) main_arg14 main_arg15 main_arg16 main_arg17 main_arg18 main_v48 main_v49 main_v50

def fn_part1 {F : FTy → Type} [FloatOps F] (main_arg7 : FVec F S2048x2048 .f32) (main_arg8 : FVec F S2048 .f32) (main_arg9 : FVec F S1024x3072 .f32) (main_arg10 : FVec F S1024 .f32) (main_arg11 : FVec F S1024 .f32) (main_arg12 : FVec F S1024 .f32) (main_arg13 : FVec F S512x1536 .f32) (main_arg14 : FVec F S512 .f32) (main_arg15 : FVec F S512 .f32) (main_arg16 : FVec F S512 .f32) (main_arg17 : FVec F S256x768 .f32) (main_arg18 : FVec F S256 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg7
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg8
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S1024x3072 .f32 := Host.absf main_arg9
  let main_cst_10 : FVec F S_ .f32 := constant S_ .f32 0x7F800000#32
  let main_v30 : FVec F S1024x3072 .f32 := broadcastInDim S1024x3072 ![] bcast_S_S1024x3072 main_cst_10
  let main_v31 : IVec S1024x3072 1 := cmpf .olt main_v29 main_v30
  let main_c_11 : IVec S_ 1 := constantI S_ 1 1#1
  let main_v32 : IVec S_ 1 := (fun x v => Host.reduce IntOp.andi x v reducesTo_S1024x3072_S_d0_1 h_S_) main_v31 main_c_11
  let main_v33 : IVec S_ 1 := andi main_v28 main_v32
  fn_part2 (F := F) main_arg10 main_arg11 main_arg12 main_arg13 main_arg14 main_arg15 main_arg16 main_arg17 main_arg18 main_v33

def fn {F : FTy → Type} [FloatOps F] (main_arg0 : FVec F S131072x256 .f32) (main_arg1 : FVec F S32768x512 .f32) (main_arg2 : FVec F S8192x1024 .f32) (main_arg3 : FVec F S2048x2048 .f32) (main_arg4 : IVec S131072 32) (main_arg5 : IVec S32768 32) (main_arg6 : IVec S8192 32) (main_arg7 : FVec F S2048x2048 .f32) (main_arg8 : FVec F S2048 .f32) (main_arg9 : FVec F S1024x3072 .f32) (main_arg10 : FVec F S1024 .f32) (main_arg11 : FVec F S1024 .f32) (main_arg12 : FVec F S1024 .f32) (main_arg13 : FVec F S512x1536 .f32) (main_arg14 : FVec F S512 .f32) (main_arg15 : FVec F S512 .f32) (main_arg16 : FVec F S512 .f32) (main_arg17 : FVec F S256x768 .f32) (main_arg18 : FVec F S256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg7 main_arg8 main_arg9 main_arg10 main_arg11 main_arg12 main_arg13 main_arg14 main_arg15 main_arg16 main_arg17 main_arg18 main_v13 main_v16
-- ==== Kernel.lean ====
abbrev S131072x256 : Shape := ⟨2, ![131072, 256]⟩
abbrev S32768x512 : Shape := ⟨2, ![32768, 512]⟩
abbrev S8192x1024 : Shape := ⟨2, ![8192, 1024]⟩
abbrev S2048x2048 : Shape := ⟨2, ![2048, 2048]⟩
abbrev S131072 : Shape := ⟨1, ![131072]⟩
abbrev S32768 : Shape := ⟨1, ![32768]⟩
abbrev S8192 : Shape := ⟨1, ![8192]⟩
abbrev S2048 : Shape := ⟨1, ![2048]⟩
abbrev S1024x3072 : Shape := ⟨2, ![1024, 3072]⟩
abbrev S1024 : Shape := ⟨1, ![1024]⟩
abbrev S512x1536 : Shape := ⟨2, ![512, 1536]⟩
abbrev S512 : Shape := ⟨1, ![512]⟩
abbrev S256x768 : Shape := ⟨2, ![256, 768]⟩
abbrev S256 : Shape := ⟨1, ![256]⟩
abbrev S1024x2048 : Shape := ⟨2, ![1024, 2048]⟩
abbrev S1024x1024 : Shape := ⟨2, ![1024, 1024]⟩
abbrev S512x1024 : Shape := ⟨2, ![512, 1024]⟩
abbrev S512x512 : Shape := ⟨2, ![512, 512]⟩
abbrev S256x512 : Shape := ⟨2, ![256, 512]⟩
abbrev S256x256 : Shape := ⟨2, ![256, 256]⟩
abbrev S1x2048 : Shape := ⟨2, ![1, 2048]⟩
abbrev S256x2048 : Shape := ⟨2, ![256, 2048]⟩
abbrev S_ : Shape := ⟨0, ![]⟩
abbrev S8192x1 : Shape := ⟨2, ![8192, 1]⟩
abbrev S8192x2048 : Shape := ⟨2, ![8192, 2048]⟩
abbrev S1x1024 : Shape := ⟨2, ![1, 1024]⟩
abbrev S256x1024 : Shape := ⟨2, ![256, 1024]⟩
abbrev S8x1024 : Shape := ⟨2, ![8, 1024]⟩
abbrev S32x32 : Shape := ⟨2, ![32, 32]⟩
abbrev S32 : Shape := ⟨1, ![32]⟩
abbrev S32768x1 : Shape := ⟨2, ![32768, 1]⟩
abbrev S32768x1024 : Shape := ⟨2, ![32768, 1024]⟩
abbrev S1x512 : Shape := ⟨2, ![1, 512]⟩
abbrev S1024x512 : Shape := ⟨2, ![1024, 512]⟩
abbrev S8x512 : Shape := ⟨2, ![8, 512]⟩
abbrev S32x16 : Shape := ⟨2, ![32, 16]⟩
abbrev S131072x1 : Shape := ⟨2, ![131072, 1]⟩
abbrev S131072x512 : Shape := ⟨2, ![131072, 512]⟩
abbrev S1x256 : Shape := ⟨2, ![1, 256]⟩
abbrev S2048x512 : Shape := ⟨2, ![2048, 512]⟩
abbrev S2048x256 : Shape := ⟨2, ![2048, 256]⟩

abbrev nBuf : Space → Nat
  | .hbm => 151
  | .vmem => 45
  | .smem => 0
  | _ => 0

abbrev hbmTy0_0 (i : Nat) : BufTy := match i % 128 with
  | 0 => ⟨S131072x256, .f32⟩
  | 1 => ⟨S32768x512, .f32⟩
  | 2 => ⟨S8192x1024, .f32⟩
  | 3 => ⟨S2048x2048, .f32⟩
  | 4 => ⟨S131072, .i32⟩
  | 5 => ⟨S32768, .i32⟩
  | 6 => ⟨S8192, .i32⟩
  | 7 => ⟨S2048x2048, .f32⟩
  | 8 => ⟨S2048, .f32⟩
  | 9 => ⟨S1024x3072, .f32⟩
  | 10 => ⟨S1024, .f32⟩
  | 11 => ⟨S1024, .f32⟩
  | 12 => ⟨S1024, .f32⟩
  | 13 => ⟨S512x1536, .f32⟩
  | 14 => ⟨S512, .f32⟩
  | 15 => ⟨S512, .f32⟩
  | 16 => ⟨S512, .f32⟩
  | 17 => ⟨S256x768, .f32⟩
  | 18 => ⟨S256, .f32⟩
  | 19 => ⟨S2048x2048, .bf16⟩
  | 20 => ⟨S1024x2048, .f32⟩
  | 21 => ⟨S1024x2048, .bf16⟩
  | 22 => ⟨S1024x1024, .f32⟩
  | 23 => ⟨S1024x1024, .bf16⟩
  | 24 => ⟨S512x1024, .f32⟩
  | 25 => ⟨S512x1024, .bf16⟩
  | 26 => ⟨S512x512, .f32⟩
  | 27 => ⟨S512x512, .bf16⟩
  | 28 => ⟨S256x512, .f32⟩
  | 29 => ⟨S256x512, .bf16⟩
  | 30 => ⟨S256x256, .f32⟩
  | 31 => ⟨S256x256, .bf16⟩
  | 32 => ⟨S1x2048, .f32⟩
  | 33 => ⟨S2048x2048, .bf16⟩
  | 34 => ⟨S_, .i32⟩
  | 35 => ⟨S8192, .i32⟩
  | 36 => ⟨S8192, .i1⟩
  | 37 => ⟨S_, .i32⟩
  | 38 => ⟨S8192, .i32⟩
  | 39 => ⟨S8192, .i32⟩
  | 40 => ⟨S8192, .i32⟩
  | 41 => ⟨S8192x1, .i32⟩
  | 42 => ⟨S8192x2048, .bf16⟩
  | 43 => ⟨S1x1024, .f32⟩
  | 44 => ⟨S8192x1024, .bf16⟩
  | 45 => ⟨S256x1024, .f32⟩
  | 46 => ⟨S256x1024, .f32⟩
  | 47 => ⟨S_, .f32⟩
  | 48 => ⟨S1024, .f32⟩
  | 49 => ⟨S_, .f32⟩
  | 50 => ⟨S1024, .f32⟩
  | 51 => ⟨S1024, .f32⟩
  | 52 => ⟨S_, .f32⟩
  | 53 => ⟨S1024, .f32⟩
  | 54 => ⟨S_, .f32⟩
  | 55 => ⟨S1024, .f32⟩
  | 56 => ⟨S1024, .f32⟩
  | 57 => ⟨S32x32, .f32⟩
  | 58 => ⟨S_, .f32⟩
  | 59 => ⟨S32, .f32⟩
  | 60 => ⟨S32x32, .f32⟩
  | 61 => ⟨S_, .f32⟩
  | 62 => ⟨S32, .f32⟩
  | 63 => ⟨S_, .f32⟩
  | 64 => ⟨S32, .f32⟩
  | 65 => ⟨S32, .f32⟩
  | 66 => ⟨S_, .f32⟩
  | 67 => ⟨S32, .f32⟩
  | 68 => ⟨S32, .f32⟩
  | 69 => ⟨S32, .f32⟩
  | 70 => ⟨S32, .f32⟩
  | 71 => ⟨S_, .f32⟩
  | 72 => ⟨S32, .f32⟩
  | 73 => ⟨S32, .f32⟩
  | 74 => ⟨S32, .f32⟩
  | 75 => ⟨S_, .f32⟩
  | 76 => ⟨S32, .f32⟩
  | 77 => ⟨S32, .f32⟩
  | 78 => ⟨S32x32, .f32⟩
  | 79 => ⟨S1024, .f32⟩
  | 80 => ⟨S32x32, .f32⟩
  | 81 => ⟨S1024, .f32⟩
  | 82 => ⟨S1024, .f32⟩
  | 83 => ⟨S1024, .f32⟩
  | 84 => ⟨S1024, .f32⟩
  | 85 => ⟨S1x1024, .f32⟩
  | 86 => ⟨S1x1024, .f32⟩
  | 87 => ⟨S_, .i32⟩
  | 88 => ⟨S32768, .i32⟩
  | 89 => ⟨S32768, .i1⟩
  | 90 => ⟨S_, .i32⟩
  | 91 => ⟨S32768, .i32⟩
  | 92 => ⟨S32768, .i32⟩
  | 93 => ⟨S32768, .i32⟩
  | 94 => ⟨S32768x1, .i32⟩
  | 95 => ⟨S32768x1024, .bf16⟩
  | 96 => ⟨S1x512, .f32⟩
  | 97 => ⟨S32768x512, .bf16⟩
  | 98 => ⟨S256x512, .f32⟩
  | 99 => ⟨S256x512, .f32⟩
  | 100 => ⟨S_, .f32⟩
  | 101 => ⟨S512, .f32⟩
  | 102 => ⟨S_, .f32⟩
  | 103 => ⟨S512, .f32⟩
  | 104 => ⟨S512, .f32⟩
  | 105 => ⟨S_, .f32⟩
  | 106 => ⟨S512, .f32⟩
  | 107 => ⟨S_, .f32⟩
  | 108 => ⟨S512, .f32⟩
  | 109 => ⟨S512, .f32⟩
  | 110 => ⟨S32x16, .f32⟩
  | 111 => ⟨S_, .f32⟩
  | 112 => ⟨S32, .f32⟩
  | 113 => ⟨S32x16, .f32⟩
  | 114 => ⟨S_, .f32⟩
  | 115 => ⟨S32, .f32⟩
  | 116 => ⟨S_, .f32⟩
  | 117 => ⟨S32, .f32⟩
  | 118 => ⟨S32, .f32⟩
  | 119 => ⟨S_, .f32⟩
  | 120 => ⟨S32, .f32⟩
  | 121 => ⟨S32, .f32⟩
  | 122 => ⟨S32, .f32⟩
  | 123 => ⟨S32, .f32⟩
  | 124 => ⟨S_, .f32⟩
  | 125 => ⟨S32, .f32⟩
  | 126 => ⟨S32, .f32⟩
  | 127 => ⟨S32, .f32⟩
  | _ => ⟨S131072x256, .f32⟩

abbrev hbmTy0_1 (i : Nat) : BufTy := match i % 128 with
  | 0 => ⟨S_, .f32⟩
  | 1 => ⟨S32, .f32⟩
  | 2 => ⟨S32, .f32⟩
  | 3 => ⟨S32x16, .f32⟩
  | 4 => ⟨S512, .f32⟩
  | 5 => ⟨S32x16, .f32⟩
  | 6 => ⟨S512, .f32⟩
  | 7 => ⟨S512, .f32⟩
  | 8 => ⟨S512, .f32⟩
  | 9 => ⟨S512, .f32⟩
  | 10 => ⟨S1x512, .f32⟩
  | 11 => ⟨S1x512, .f32⟩
  | 12 => ⟨S_, .i32⟩
  | 13 => ⟨S131072, .i32⟩
  | 14 => ⟨S131072, .i1⟩
  | 15 => ⟨S_, .i32⟩
  | 16 => ⟨S131072, .i32⟩
  | 17 => ⟨S131072, .i32⟩
  | 18 => ⟨S131072, .i32⟩
  | 19 => ⟨S131072x1, .i32⟩
  | 20 => ⟨S131072x512, .bf16⟩
  | 21 => ⟨S1x256, .f32⟩
  | 22 => ⟨S131072x256, .f32⟩
  | _ => ⟨S131072x256, .f32⟩

abbrev hbmTy (i : Nat) : BufTy := match i / 128 with
  | 0 => hbmTy0_0 i
  | 1 => hbmTy0_1 i
  | _ => ⟨S131072x256, .f32⟩

abbrev bufTy : (tb : Table) → Fin (tcTables nBuf tb) → BufTy
  | .hbm, ⟨i, _⟩ => hbmTy i
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x1024, .f32⟩
  | .local _ .vmem, ⟨9, _⟩ => ⟨S256x1024, .f32⟩
  | .local _ .vmem, ⟨10, _⟩ => ⟨S1024x2048, .bf16⟩
  | .local _ .vmem, ⟨11, _⟩ => ⟨S1024x1024, .bf16⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S8x1024, .f32⟩
  | .local _ .vmem, ⟨16, _⟩ => ⟨S8x1024, .f32⟩
  | .local _ .vmem, ⟨17, _⟩ => ⟨S8x1024, .f32⟩
  | .local _ .vmem, ⟨18, _⟩ => ⟨S8x1024, .f32⟩
  | .local _ .vmem, ⟨19, _⟩ => ⟨S1024x1024, .bf16⟩
  | .local _ .vmem, ⟨20, _⟩ => ⟨S1024x1024, .bf16⟩
  | .local _ .vmem, ⟨21, _⟩ => ⟨S1024x512, .f32⟩
  | .local _ .vmem, ⟨22, _⟩ => ⟨S1024x512, .f32⟩
  | .local _ .vmem, ⟨23, _⟩ => ⟨S512x1024, .bf16⟩
  | .local _ .vmem, ⟨24, _⟩ => ⟨S512x512, .bf16⟩
  | .local _ .vmem, ⟨25, _⟩ => ⟨S1x512, .f32⟩
  | .local _ .vmem, ⟨26, _⟩ => ⟨S1x1024, .f32⟩
  | .local _ .vmem, ⟨27, _⟩ => ⟨S1x1024, .f32⟩
  | .local _ .vmem, ⟨28, _⟩ => ⟨S1024x512, .bf16⟩
  | .local _ .vmem, ⟨29, _⟩ => ⟨S1024x512, .bf16⟩
  | .local _ .vmem, ⟨30, _⟩ => ⟨S8x512, .f32⟩
  | .local _ .vmem, ⟨31, _⟩ => ⟨S8x512, .f32⟩
  | .local _ .vmem, ⟨32, _⟩ => ⟨S8x512, .f32⟩
  | .local _ .vmem, ⟨33, _⟩ => ⟨S8x512, .f32⟩
  | .local _ .vmem, ⟨34, _⟩ => ⟨S2048x512, .bf16⟩
  | .local _ .vmem, ⟨35, _⟩ => ⟨S2048x512, .bf16⟩
  | .local _ .vmem, ⟨36, _⟩ => ⟨S2048x256, .f32⟩
  | .local _ .vmem, ⟨37, _⟩ => ⟨S2048x256, .f32⟩
  | .local _ .vmem, ⟨38, _⟩ => ⟨S256x512, .bf16⟩
  | .local _ .vmem, ⟨39, _⟩ => ⟨S256x256, .bf16⟩
  | .local _ .vmem, ⟨40, _⟩ => ⟨S1x256, .f32⟩
  | .local _ .vmem, ⟨41, _⟩ => ⟨S1x512, .f32⟩
  | .local _ .vmem, ⟨42, _⟩ => ⟨S1x512, .f32⟩
  | .local _ .vmem, ⟨43, _⟩ => ⟨S2048x256, .f32⟩
  | .local _ .vmem, ⟨44, _⟩ => ⟨S2048x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23_0 : Ref sig .tc := ⟨.hbm, 44, rfl⟩
abbrev main_v23_1 : Ref sig .tc := ⟨.hbm, 45, rfl⟩
abbrev main_v23_2 : Ref sig .tc := ⟨.hbm, 46, rfl⟩
abbrev main_cst : Ref sig .tc := ⟨.hbm, 47, rfl⟩
abbrev main_v24 : Ref sig .tc := ⟨.hbm, 48, rfl⟩
abbrev main_cst_1 : Ref sig .tc := ⟨.hbm, 49, rfl⟩
abbrev main_v25 : Ref sig .tc := ⟨.hbm, 50, rfl⟩
abbrev main_v26 : Ref sig .tc := ⟨.hbm, 51, rfl⟩
abbrev main_cst_2 : Ref sig .tc := ⟨.hbm, 52, rfl⟩
abbrev main_v27 : Ref sig .tc := ⟨.hbm, 53, rfl⟩
abbrev main_cst_3 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_4 : Ref sig .tc := ⟨.hbm, 58, rfl⟩
abbrev main_v31 : Ref sig .tc := ⟨.hbm, 59, rfl⟩
abbrev main_v32 : Ref sig .tc := ⟨.hbm, 60, rfl⟩
abbrev main_cst_5 : Ref sig .tc := ⟨.hbm, 61, rfl⟩
abbrev main_v33 : Ref sig .tc := ⟨.hbm, 62, rfl⟩
abbrev main_cst_6 : Ref sig .tc := ⟨.hbm, 63, rfl⟩
abbrev main_v34 : Ref sig .tc := ⟨.hbm, 64, rfl⟩
abbrev main_v35 : Ref sig .tc := ⟨.hbm, 65, rfl⟩
abbrev main_cst_7 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_8 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_9 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_c_10 : Ref sig .tc := ⟨.hbm, 87, rfl⟩
abbrev main_v54 : Ref sig .tc := ⟨.hbm, 88, rfl⟩
abbrev main_v55 : Ref sig .tc := ⟨.hbm, 89, rfl⟩
abbrev main_c_11 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62_0 : Ref sig .tc := ⟨.hbm, 97, rfl⟩
abbrev main_v62_1 : Ref sig .tc := ⟨.hbm, 98, rfl⟩
abbrev main_v62_2 : Ref sig .tc := ⟨.hbm, 99, rfl⟩
abbrev main_cst_12 : Ref sig .tc := ⟨.hbm, 100, rfl⟩
abbrev main_v63 : Ref sig .tc := ⟨.hbm, 101, rfl⟩
abbrev main_cst_13 : Ref sig .tc := ⟨.hbm, 102, rfl⟩
abbrev main_v64 : Ref sig .tc := ⟨.hbm, 103, rfl⟩
abbrev main_v65 : Ref sig .tc := ⟨.hbm, 104, rfl⟩
abbrev main_cst_14 : Ref sig .tc := ⟨.hbm, 105, rfl⟩
abbrev main_v66 : Ref sig .tc := ⟨.hbm, 106, rfl⟩
abbrev main_cst_15 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_16 : Ref sig .tc := ⟨.hbm, 111, rfl⟩
abbrev main_v70 : Ref sig .tc := ⟨.hbm, 112, rfl⟩
abbrev main_v71 : Ref sig .tc := ⟨.hbm, 113, rfl⟩
abbrev main_cst_17 : Ref sig .tc := ⟨.hbm, 114, rfl⟩
abbrev main_v72 : Ref sig .tc := ⟨.hbm, 115, rfl⟩
abbrev main_cst_18 : Ref sig .tc := ⟨.hbm, 116, rfl⟩
abbrev main_v73 : Ref sig .tc := ⟨.hbm, 117, rfl⟩
abbrev main_v74 : Ref sig .tc := ⟨.hbm, 118, rfl⟩
abbrev main_cst_19 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_20 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_21 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_c_22 : Ref sig .tc := ⟨.hbm, 140, rfl⟩
abbrev main_v93 : Ref sig .tc := ⟨.hbm, 141, rfl⟩
abbrev main_v94 : Ref sig .tc := ⟨.hbm, 142, rfl⟩
abbrev main_c_23 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc2_stg8_0 : Ref sig .tc := ⟨.vmem, 30, rfl⟩
abbrev cc2_stg8_1 : Ref sig .tc := ⟨.vmem, 31, rfl⟩
abbrev cc2_stg9_0 : Ref sig .tc := ⟨.vmem, 32, rfl⟩
abbrev cc2_stg9_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg7_0 : Ref sig .tc := ⟨.vmem, 43, rfl⟩
abbrev cc3_stg7_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc2_sem8_0 : DmaSem sig := 30
abbrev cc2_sem8_1 : DmaSem sig := 31
abbrev cc2_sem9_0 : DmaSem sig := 32
abbrev cc2_sem9_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem7_0 : DmaSem sig := 43
abbrev cc3_sem7_1 : DmaSem sig := 44

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1024x512 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S8x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S8x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2048x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  bitsLt_bf16_f32 : FTy.bits .bf16 < FTy.bits .f32
  slices_S1024x3072_S1024x2048_0_0 : S1024x3072.Slices ![0, 0] S1024x2048
  slices_S1024x3072_S1024x1024_0_2048 : S1024x3072.Slices ![0, 2048] S1024x1024
  slices_S512x1536_S512x1024_0_0 : S512x1536.Slices ![0, 0] S512x1024
  slices_S512x1536_S512x512_0_1024 : S512x1536.Slices ![0, 1024] S512x512
  slices_S256x768_S256x512_0_0 : S256x768.Slices ![0, 0] S256x512
  slices_S256x768_S256x256_0_512 : S256x768.Slices ![0, 512] S256x256
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  packedbf16_S256x2048_S256x2048_0_0 : (Rect.unit (s := S256x2048) ![0, 0] S256x2048.size inb_S256x2048_S256x2048_0_0).PackedRows (EltTy.packing .bf16)
  bcast_S_S8192 : S_.BroadcastsInDim S8192 (![] : Fin 0 → Fin S8192.rank)
  bcast_S8192_S8192x1_0 : S8192.BroadcastsInDim S8192x1 (![0] : Fin 1 → Fin S8192x1.rank)
  shapeCasts_S1024_S1x1024 : S1024.ShapeCasts S1x1024
  shapeCasts_S256x2048_S256x2048 : S256x2048.ShapeCasts S256x2048
  inb_S256x1024_S256x1024_0_0 : ∀ a, (![0, 0] : Fin 2 → Nat) a + S256x1024.size a ≤ S256x1024.size a
  h_S256x1024 : 0 < S256x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  packedbf16_S256x1024_S256x1024_0_0 : (Rect.unit (s := S256x1024) ![0, 0] S256x1024.size inb_S256x1024_S256x1024_0_0).PackedRows (EltTy.packing .bf16)
  reduces_S256x1024_S1024 : S256x1024.Reduces [0] S1024
  broadcasts_S1x1024_S8x1024 : S1x1024.Broadcasts S8x1024
  inb_S8x1024_S8x1024_0_0 : ∀ a, (![0, 0] : Fin 2 → Nat) a + S8x1024.size a ≤ S8x1024.size a
  h_S8x1024 : 0 < S8x1024.numel
  reducesTo_S256x1024_S1024_d0 : S256x1024.ReducesTo [0] S1024
  h_S_ : 0 < S_.numel
  bcast_S_S1024 : S_.BroadcastsInDim S1024 (![] : Fin 0 → Fin S1024.rank)
  shapeCasts_S1024_S32x32 : S1024.ShapeCasts S32x32
  reducesTo_S32x32_S32_d1 : S32x32.ReducesTo [1] S32
  bcast_S_S32 : S_.BroadcastsInDim S32 (![] : Fin 0 → Fin S32.rank)
  bcast_S32_S32x32_0 : S32.BroadcastsInDim S32x32 (![0] : Fin 1 → Fin S32x32.rank)
  shapeCasts_S32x32_S1024 : S32x32.ShapeCasts S1024
  bcast_S_S32768 : S_.BroadcastsInDim S32768 (![] : Fin 0 → Fin S32768.rank)
  bcast_S32768_S32768x1_0 : S32768.BroadcastsInDim S32768x1 (![0] : Fin 1 → Fin S32768x1.rank)
  shapeCasts_S512_S1x512 : S512.ShapeCasts S1x512
  broadcasts_S1x1024_S1024x1024 : S1x1024.Broadcasts S1024x1024
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  reduces_S1024x512_S512 : S1024x512.Reduces [0] S512
  broadcasts_S1x512_S8x512 : S1x512.Broadcasts S8x512
  inb_S8x512_S8x512_0_0 : ∀ a, (![0, 0] : Fin 2 → Nat) a + S8x512.size a ≤ S8x512.size a
  h_S8x512 : 0 < S8x512.numel
  reducesTo_S256x512_S512_d0 : S256x512.ReducesTo [0] S512
  bcast_S_S512 : S_.BroadcastsInDim S512 (![] : Fin 0 → Fin S512.rank)
  shapeCasts_S512_S32x16 : S512.ShapeCasts S32x16
  reducesTo_S32x16_S32_d1 : S32x16.ReducesTo [1] S32
  bcast_S32_S32x16_0 : S32.BroadcastsInDim S32x16 (![0] : Fin 1 → Fin S32x16.rank)
  shapeCasts_S32x16_S512 : S32x16.ShapeCasts S512
  bcast_S_S131072 : S_.BroadcastsInDim S131072 (![] : Fin 0 → Fin S131072.rank)
  bcast_S131072_S131072x1_0 : S131072.BroadcastsInDim S131072x1 (![0] : Fin 1 → Fin S131072x1.rank)
  shapeCasts_S256_S1x256 : S256.ShapeCasts S1x256
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S1x512_S2048x512 : S1x512.Broadcasts S2048x512
  inb_S2048x256_S2048x256_0_0 : ∀ a, (![0, 0] : Fin 2 → Nat) a + S2048x256.size a ≤ S2048x256.size a
  h_S2048x256 : 0 < S2048x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  dot_S256x2048_S2048x2048_S256x2048_1_1_0_0_n_n_wf : DotDims.WF S256x2048 S2048x2048 S256x2048 [1] [1] [0] [0] [] []
  gather_S2048x2048_S8192x1_S8192x2048_1_0_n_n_0_1_12048_wf : GatherDims.WF S2048x2048 S8192x1 S8192x2048 [1] [0] [] [0] [] 1 ![1, 2048]
  dot_S256x2048_S1024x2048_S256x1024_1_1_0_0_n_n_wf : DotDims.WF S256x2048 S1024x2048 S256x1024 [1] [1] [0] [0] [] []
  dot_S256x1024_S1024x1024_S256x1024_1_1_0_0_n_n_wf : DotDims.WF S256x1024 S1024x1024 S256x1024 [1] [1] [0] [0] [] []
  gather_S8192x1024_S32768x1_S32768x1024_1_0_n_n_0_1_11024_wf : GatherDims.WF S8192x1024 S32768x1 S32768x1024 [1] [0] [] [0] [] 1 ![1, 1024]
  dot_S1024x1024_S512x1024_S1024x512_1_1_0_0_n_n_wf : DotDims.WF S1024x1024 S512x1024 S1024x512 [1] [1] [0] [0] [] []
  dot_S1024x512_S512x512_S1024x512_1_1_0_0_n_n_wf : DotDims.WF S1024x512 S512x512 S1024x512 [1] [1] [0] [0] [] []
  gather_S32768x512_S131072x1_S131072x512_1_0_n_n_0_1_1512_wf : GatherDims.WF S32768x512 S131072x1 S131072x512 [1] [0] [] [0] [] 1 ![1, 512]
  dot_S2048x512_S256x512_S2048x256_1_1_0_0_n_n_wf : DotDims.WF S2048x512 S256x512 S2048x256 [1] [1] [0] [0] [] []
  dot_S2048x256_S256x256_S2048x256_1_1_0_0_n_n_wf : DotDims.WF S2048x256 S256x256 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S8192x2048.size a
  hwx1_0 : ∀ i : grid1.Coords, EltTy.bits .bf16 = 32 ∨ (Rect.block (s := S8192x2048) S256x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S8192x1024.size a
  hwx1_1 : ∀ i : grid1.Coords, EltTy.bits .f32 = 32 ∨ (Rect.block (s := S8192x1024) S256x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S1024x2048.size a
  hwx1_2 : ∀ i : grid1.Coords, EltTy.bits .bf16 = 32 ∨ (Rect.block (s := S1024x2048) S1024x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1024.size a ≤ S8192x1024.size a
  hwx1_5 : ∀ i : grid1.Coords, EltTy.bits .bf16 = 32 ∨ (Rect.block (s := S8192x1024) S256x1024.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x1024.size a ≤ S256x1024.size a
  hwx1_6 : ∀ i : grid1.Coords, EltTy.bits .f32 = 32 ∨ (Rect.block (s := S256x1024) S8x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x1024.size a ≤ S256x1024.size a
  hwx1_7 : ∀ i : grid1.Coords, EltTy.bits .f32 = 32 ∨ (Rect.block (s := S256x1024) S8x1024.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S32768x1024.size a
  hwx2_0 : ∀ i : grid2.Coords, EltTy.bits .bf16 = 32 ∨ (Rect.block (s := S32768x1024) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S32768x512.size a
  hwx2_1 : ∀ i : grid2.Coords, EltTy.bits .f32 = 32 ∨ (Rect.block (s := S32768x512) S1024x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S512x1024.size a
  hwx2_2 : ∀ i : grid2.Coords, EltTy.bits .bf16 = 32 ∨ (Rect.block (s := S512x1024) S512x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .bf16 = 32 ∨ (Rect.block (s := S512x512) S512x512.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x1024.size a
  hwx2_5 : ∀ i : grid2.Coords, EltTy.bits .f32 = 32 ∨ (Rect.block (s := S1x1024) S1x1024.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1024.size a ≤ S1x1024.size a
  hwx2_6 : ∀ i : grid2.Coords, EltTy.bits .f32 = 32 ∨ (Rect.block (s := S1x1024) S1x1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x512.size a ≤ S32768x512.size a
  hwx2_7 : ∀ i : grid2.Coords, EltTy.bits .bf16 = 32 ∨ (Rect.block (s := S32768x512) S1024x512.size (cc2_transform_7 i) (hinb2_7 i)).WholeWords (EltTy.packing .bf16)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S8x512.size a ≤ S256x512.size a
  hwx2_8 : ∀ i : grid2.Coords, EltTy.bits .f32 = 32 ∨ (Rect.block (s := S256x512) S8x512.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S8x512.size a ≤ S256x512.size a
  hwx2_9 : ∀ i : grid2.Coords, EltTy.bits .f32 = 32 ∨ (Rect.block (s := S256x512) S8x512.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x512.size a ≤ S131072x512.size a
  hwx3_0 : ∀ i : grid3.Coords, EltTy.bits .bf16 = 32 ∨ (Rect.block (s := S131072x512) S2048x512.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S131072x256.size a
  hwx3_1 : ∀ i : grid3.Coords, EltTy.bits .f32 = 32 ∨ (Rect.block (s := S131072x256) S2048x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x512.size a ≤ S256x512.size a
  hwx3_2 : ∀ i : grid3.Coords, EltTy.bits .bf16 = 32 ∨ (Rect.block (s := S256x512) S256x512.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .bf16 = 32 ∨ (Rect.block (s := S256x256) S256x256.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x512.size a ≤ S1x512.size a
  hwx3_5 : ∀ i : grid3.Coords, EltTy.bits .f32 = 32 ∨ (Rect.block (s := S1x512) S1x512.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x512.size a ≤ S1x512.size a
  hwx3_6 : ∀ i : grid3.Coords, EltTy.bits .f32 = 32 ∨ (Rect.block (s := S1x512) S1x512.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2048x256.size a ≤ S131072x256.size a
  hwx3_7 : ∀ i : grid3.Coords, EltTy.bits .f32 = 32 ∨ (Rect.block (s := S131072x256) S2048x256.size (cc3_transform_7 i) (hinb3_7 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def gather_S2048x2048_S8192x1_S8192x2048_1_0_n_n_0_1_12048 : GatherDims S2048x2048 S8192x1 S8192x2048 where
  offsetDims := [1]
  collapsedSliceDims := [0]
  operandBatchingDims := []
  startIndicesBatchingDims := []
  startIndexMap := [0]
  indexVectorDim := 1
  sliceSizes := ![1, 2048]
  wf := gather_S2048x2048_S8192x1_S8192x2048_1_0_n_n_0_1_12048_wf
def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def gather_S8192x1024_S32768x1_S32768x1024_1_0_n_n_0_1_11024 : GatherDims S8192x1024 S32768x1 S32768x1024 where
  offsetDims := [1]
  collapsedSliceDims := [0]
  operandBatchingDims := []
  startIndicesBatchingDims := []
  startIndexMap := [0]
  indexVectorDim := 1
  sliceSizes := ![1, 1024]
  wf := gather_S8192x1024_S32768x1_S32768x1024_1_0_n_n_0_1_11024_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def gather_S32768x512_S131072x1_S131072x512_1_0_n_n_0_1_1512 : GatherDims S32768x512 S131072x1 S131072x512 where
  offsetDims := [1]
  collapsedSliceDims := [0]
  operandBatchingDims := []
  startIndicesBatchingDims := []
  startIndexMap := [0]
  indexVectorDim := 1
  sliceSizes := ![1, 512]
  wf := gather_S32768x512_S131072x1_S131072x512_1_0_n_n_0_1_1512_wf
def dot_S2048x512_S256x512_S2048x256_1_1_0_0_n_n : DotDims S2048x512 S256x512 S2048x256 where
  lhsContracting := [1]
  rhsContracting := [1]
  lhsNonContracting := [0]
  rhsNonContracting := [0]
  lhsBatch := []
  rhsBatch := []
  wf := dot_S2048x512_S256x512_S2048x256_1_1_0_0_n_n_wf
def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf

abbrev win0_0 : Pipeline.Window sig grid0 :=
  Pipeline.Window.ofSpec (Memref.whole main_arg3) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23_0) S256x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v23_1) S8x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v23_2) S8x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v60) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S512x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S1x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v53) S1x1024.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v62_0) S1024x512.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v62_1) S8x512.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v62_2) S8x512.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v99) S2048x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S256x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v12) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v100) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v91) S1x512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v92) S1x512.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v101) S2048x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S131072x256 : Shape := ⟨2, ![131072, 256]⟩
abbrev S32768x512 : Shape := ⟨2, ![32768, 512]⟩
abbrev S8192x1024 : Shape := ⟨2, ![8192, 1024]⟩
abbrev S2048x2048 : Shape := ⟨2, ![2048, 2048]⟩
abbrev S131072 : Shape := ⟨1, ![131072]⟩
abbrev S32768 : Shape := ⟨1, ![32768]⟩
abbrev S8192 : Shape := ⟨1, ![8192]⟩
abbrev S2048 : Shape := ⟨1, ![2048]⟩
abbrev S1024x3072 : Shape := ⟨2, ![1024, 3072]⟩
abbrev S1024 : Shape := ⟨1, ![1024]⟩
abbrev S512x1536 : Shape := ⟨2, ![512, 1536]⟩
abbrev S512 : Shape := ⟨1, ![512]⟩
abbrev S256x768 : Shape := ⟨2, ![256, 768]⟩
abbrev S256 : Shape := ⟨1, ![256]⟩
abbrev S1x2048 : Shape := ⟨2, ![1, 2048]⟩
abbrev S_ : Shape := ⟨0, ![]⟩
abbrev S8192x1 : Shape := ⟨2, ![8192, 1]⟩
abbrev S8192x2048 : Shape := ⟨2, ![8192, 2048]⟩
abbrev S8192x3072 : Shape := ⟨2, ![8192, 3072]⟩
abbrev S3072x1024 : Shape := ⟨2, ![3072, 1024]⟩
abbrev S1x1024 : Shape := ⟨2, ![1, 1024]⟩
abbrev S1024x8192 : Shape := ⟨2, ![1024, 8192]⟩
abbrev S32x262144 : Shape := ⟨2, ![32, 262144]⟩
abbrev S32 : Shape := ⟨1, ![32]⟩
abbrev S32x1 : Shape := ⟨2, ![32, 1]⟩
abbrev S32768x1 : Shape := ⟨2, ![32768, 1]⟩
abbrev S32768x1024 : Shape := ⟨2, ![32768, 1024]⟩
abbrev S32768x1536 : Shape := ⟨2, ![32768, 1536]⟩
abbrev S1536x512 : Shape := ⟨2, ![1536, 512]⟩
abbrev S1x512 : Shape := ⟨2, ![1, 512]⟩
abbrev S512x32768 : Shape := ⟨2, ![512, 32768]⟩
abbrev S32x524288 : Shape := ⟨2, ![32, 524288]⟩
abbrev S131072x1 : Shape := ⟨2, ![131072, 1]⟩
abbrev S131072x512 : Shape := ⟨2, ![131072, 512]⟩
abbrev S131072x768 : Shape := ⟨2, ![131072, 768]⟩
abbrev S768x256 : Shape := ⟨2, ![768, 256]⟩
abbrev S1x256 : Shape := ⟨2, ![1, 256]⟩

abbrev nBuf : Space → Nat
  | .hbm => 181
  | .vmem => 0
  | .smem => 0
  | _ => 0

abbrev hbmTy0_0 (i : Nat) : BufTy := match i % 128 with
  | 0 => ⟨S131072x256, .f32⟩
  | 1 => ⟨S32768x512, .f32⟩
  | 2 => ⟨S8192x1024, .f32⟩
  | 3 => ⟨S2048x2048, .f32⟩
  | 4 => ⟨S131072, .i32⟩
  | 5 => ⟨S32768, .i32⟩
  | 6 => ⟨S8192, .i32⟩
  | 7 => ⟨S2048x2048, .f32⟩
  | 8 => ⟨S2048, .f32⟩
  | 9 => ⟨S1024x3072, .f32⟩
  | 10 => ⟨S1024, .f32⟩
  | 11 => ⟨S1024, .f32⟩
  | 12 => ⟨S1024, .f32⟩
  | 13 => ⟨S512x1536, .f32⟩
  | 14 => ⟨S512, .f32⟩
  | 15 => ⟨S512, .f32⟩
  | 16 => ⟨S512, .f32⟩
  | 17 => ⟨S256x768, .f32⟩
  | 18 => ⟨S256, .f32⟩
  | 19 => ⟨S2048x2048, .f32⟩
  | 20 => ⟨S2048x2048, .f32⟩
  | 21 => ⟨S1x2048, .f32⟩
  | 22 => ⟨S2048x2048, .f32⟩
  | 23 => ⟨S2048x2048, .f32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8192x2048, .f32⟩
  | 33 => ⟨S8192x3072, .f32⟩
  | 34 => ⟨S3072x1024, .f32⟩
  | 35 => ⟨S8192x1024, .f32⟩
  | 36 => ⟨S1x1024, .f32⟩
  | 37 => ⟨S8192x1024, .f32⟩
  | 38 => ⟨S8192x1024, .f32⟩
  | 39 => ⟨S1024x8192, .f32⟩
  | 40 => ⟨S32x262144, .f32⟩
  | 41 => ⟨S_, .f32⟩
  | 42 => ⟨S32, .f32⟩
  | 43 => ⟨S32x1, .f32⟩
  | 44 => ⟨S_, .f32⟩
  | 45 => ⟨S32x1, .f32⟩
  | 46 => ⟨S32x1, .f32⟩
  | 47 => ⟨S_, .i32⟩
  | 48 => ⟨S_, .f32⟩
  | 49 => ⟨S32, .f32⟩
  | 50 => ⟨S32x1, .f32⟩
  | 51 => ⟨S_, .f32⟩
  | 52 => ⟨S32x1, .f32⟩
  | 53 => ⟨S32x1, .f32⟩
  | 54 => ⟨S32x262144, .f32⟩
  | 55 => ⟨S32x262144, .f32⟩
  | 56 => ⟨S32x262144, .f32⟩
  | 57 => ⟨S_, .f32⟩
  | 58 => ⟨S_, .f32⟩
  | 59 => ⟨S_, .f32⟩
  | 60 => ⟨S_, .f32⟩
  | 61 => ⟨S32, .f32⟩
  | 62 => ⟨S32x1, .f32⟩
  | 63 => ⟨S32x1, .f32⟩
  | 64 => ⟨S32x1, .f32⟩
  | 65 => ⟨S_, .f32⟩
  | 66 => ⟨S_, .i1⟩
  | 67 => ⟨S_, .f32⟩
  | 68 => ⟨S_, .f32⟩
  | 69 => ⟨S32x1, .f32⟩
  | 70 => ⟨S32x1, .f32⟩
  | 71 => ⟨S32x262144, .f32⟩
  | 72 => ⟨S32x262144, .f32⟩
  | 73 => ⟨S_, .f32⟩
  | 74 => ⟨S32x1, .f32⟩
  | 75 => ⟨S32x1, .f32⟩
  | 76 => ⟨S32x1, .f32⟩
  | 77 => ⟨S32x262144, .f32⟩
  | 78 => ⟨S32x262144, .f32⟩
  | 79 => ⟨S1024x8192, .f32⟩
  | 80 => ⟨S8192x1024, .f32⟩
  | 81 => ⟨S1x1024, .f32⟩
  | 82 => ⟨S8192x1024, .f32⟩
  | 83 => ⟨S8192x1024, .f32⟩
  | 84 => ⟨S1x1024, .f32⟩
  | 85 => ⟨S8192x1024, .f32⟩
  | 86 => ⟨S8192x1024, .f32⟩
  | 87 => ⟨S_, .f32⟩
  | 88 => ⟨S_, .f32⟩
  | 89 => ⟨S8192x1024, .f32⟩
  | 90 => ⟨S8192x1024, .i1⟩
  | 91 => ⟨S_, .f32⟩
  | 92 => ⟨S8192x1024, .f32⟩
  | 93 => ⟨S8192x1024, .f32⟩
  | 94 => ⟨S8192x1024, .f32⟩
  | 95 => ⟨S_, .i32⟩
  | 96 => ⟨S32768, .i32⟩
  | 97 => ⟨S32768, .i1⟩
  | 98 => ⟨S_, .i32⟩
  | 99 => ⟨S32768, .i32⟩
  | 100 => ⟨S32768, .i32⟩
  | 101 => ⟨S32768, .i32⟩
  | 102 => ⟨S32768x1, .i32⟩
  | 103 => ⟨S32768x1024, .f32⟩
  | 104 => ⟨S32768x1536, .f32⟩
  | 105 => ⟨S1536x512, .f32⟩
  | 106 => ⟨S32768x512, .f32⟩
  | 107 => ⟨S1x512, .f32⟩
  | 108 => ⟨S32768x512, .f32⟩
  | 109 => ⟨S32768x512, .f32⟩
  | 110 => ⟨S512x32768, .f32⟩
  | 111 => ⟨S32x524288, .f32⟩
  | 112 => ⟨S_, .f32⟩
  | 113 => ⟨S32, .f32⟩
  | 114 => ⟨S32x1, .f32⟩
  | 115 => ⟨S_, .f32⟩
  | 116 => ⟨S32x1, .f32⟩
  | 117 => ⟨S32x1, .f32⟩
  | 118 => ⟨S_, .i32⟩
  | 119 => ⟨S_, .f32⟩
  | 120 => ⟨S32, .f32⟩
  | 121 => ⟨S32x1, .f32⟩
  | 122 => ⟨S_, .f32⟩
  | 123 => ⟨S32x1, .f32⟩
  | 124 => ⟨S32x1, .f32⟩
  | 125 => ⟨S32x524288, .f32⟩
  | 126 => ⟨S32x524288, .f32⟩
  | 127 => ⟨S32x524288, .f32⟩
  | _ => ⟨S131072x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S32, .f32⟩
  | 5 => ⟨S32x1, .f32⟩
  | 6 => ⟨S32x1, .f32⟩
  | 7 => ⟨S32x1, .f32⟩
  | 8 => ⟨S_, .f32⟩
  | 9 => ⟨S_, .i1⟩
  | 10 => ⟨S_, .f32⟩
  | 11 => ⟨S_, .f32⟩
  | 12 => ⟨S32x1, .f32⟩
  | 13 => ⟨S32x1, .f32⟩
  | 14 => ⟨S32x524288, .f32⟩
  | 15 => ⟨S32x524288, .f32⟩
  | 16 => ⟨S_, .f32⟩
  | 17 => ⟨S32x1, .f32⟩
  | 18 => ⟨S32x1, .f32⟩
  | 19 => ⟨S32x1, .f32⟩
  | 20 => ⟨S32x524288, .f32⟩
  | 21 => ⟨S32x524288, .f32⟩
  | 22 => ⟨S512x32768, .f32⟩
  | 23 => ⟨S32768x512, .f32⟩
  | 24 => ⟨S1x512, .f32⟩
  | 25 => ⟨S32768x512, .f32⟩
  | 26 => ⟨S32768x512, .f32⟩
  | 27 => ⟨S1x512, .f32⟩
  | 28 => ⟨S32768x512, .f32⟩
  | 29 => ⟨S32768x512, .f32⟩
  | 30 => ⟨S_, .f32⟩
  | 31 => ⟨S_, .f32⟩
  | 32 => ⟨S32768x512, .f32⟩
  | 33 => ⟨S32768x512, .i1⟩
  | 34 => ⟨S_, .f32⟩
  | 35 => ⟨S32768x512, .f32⟩
  | 36 => ⟨S32768x512, .f32⟩
  | 37 => ⟨S32768x512, .f32⟩
  | 38 => ⟨S_, .i32⟩
  | 39 => ⟨S131072, .i32⟩
  | 40 => ⟨S131072, .i1⟩
  | 41 => ⟨S_, .i32⟩
  | 42 => ⟨S131072, .i32⟩
  | 43 => ⟨S131072, .i32⟩
  | 44 => ⟨S131072, .i32⟩
  | 45 => ⟨S131072x1, .i32⟩
  | 46 => ⟨S131072x512, .f32⟩
  | 47 => ⟨S131072x768, .f32⟩
  | 48 => ⟨S768x256, .f32⟩
  | 49 => ⟨S131072x256, .f32⟩
  | 50 => ⟨S1x256, .f32⟩
  | 51 => ⟨S131072x256, .f32⟩
  | 52 => ⟨S131072x256, .f32⟩
  | _ => ⟨S131072x256, .f32⟩

abbrev hbmTy (i : Nat) : BufTy := match i / 128 with
  | 0 => hbmTy0_0 i
  | 1 => hbmTy0_1 i
  | _ => ⟨S131072x256, .f32⟩

abbrev bufTy : (tb : Table) → Fin (tcTables nBuf tb) → BufTy
  | .hbm, ⟨i, _⟩ => hbmTy i
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_cst_1 : Ref sig .tc := ⟨.hbm, 44, rfl⟩
abbrev main_v22 : Ref sig .tc := ⟨.hbm, 45, rfl⟩
abbrev main_v23 : Ref sig .tc := ⟨.hbm, 46, rfl⟩
abbrev main_c_2 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_cst_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_cst_1 : Ref sig .tc := ⟨.hbm, 58, rfl⟩
abbrev main_call0_v8 : Ref sig .tc := ⟨.hbm, 59, rfl⟩
abbrev main_call0_cst_2 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_v12 : Ref sig .tc := ⟨.hbm, 64, rfl⟩
abbrev main_call0_cst_3 : Ref sig .tc := ⟨.hbm, 65, rfl⟩
abbrev main_call0_v13 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_cst_3 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_4 : Ref sig .tc := ⟨.hbm, 87, rfl⟩
abbrev main_call1_cst : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_v40 : Ref sig .tc := ⟨.hbm, 94, rfl⟩
abbrev main_c_5 : Ref sig .tc := ⟨.hbm, 95, rfl⟩
abbrev main_v41 : Ref sig .tc := ⟨.hbm, 96, rfl⟩
abbrev main_v42 : Ref sig .tc := ⟨.hbm, 97, rfl⟩
abbrev main_c_6 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_cst_7 : Ref sig .tc := ⟨.hbm, 112, rfl⟩
abbrev main_v56 : Ref sig .tc := ⟨.hbm, 113, rfl⟩
abbrev main_v57 : Ref sig .tc := ⟨.hbm, 114, rfl⟩
abbrev main_cst_8 : Ref sig .tc := ⟨.hbm, 115, rfl⟩
abbrev main_v58 : Ref sig .tc := ⟨.hbm, 116, rfl⟩
abbrev main_v59 : Ref sig .tc := ⟨.hbm, 117, rfl⟩
abbrev main_c_9 : Ref sig .tc := ⟨.hbm, 118, rfl⟩
abbrev main_call2_cst : Ref sig .tc := ⟨.hbm, 119, rfl⟩
abbrev main_call2_v0 : Ref sig .tc := ⟨.hbm, 120, rfl⟩
abbrev main_call2_v1 : Ref sig .tc := ⟨.hbm, 121, rfl⟩
abbrev main_call2_cst_0 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_call2_v5 : Ref sig .tc := ⟨.hbm, 126, rfl⟩
abbrev main_call2_v6 : Ref sig .tc := ⟨.hbm, 127, rfl⟩
abbrev main_call2_v7 : Ref sig .tc := ⟨.hbm, 128, rfl⟩
abbrev main_call2_cst_1 : Ref sig .tc := ⟨.hbm, 129, rfl⟩
abbrev main_call2_v8 : Ref sig .tc := ⟨.hbm, 130, rfl⟩
abbrev main_call2_cst_2 : Ref sig .tc := ⟨.hbm, 131, rfl⟩
abbrev main_call2_v9 : Ref sig .tc := ⟨.hbm, 132, rfl⟩
abbrev main_call2_v10 : Ref sig .tc := ⟨.hbm, 133, rfl⟩
abbrev main_call2_v11 : Ref sig .tc := ⟨.hbm, 134, rfl⟩
abbrev main_call2_v12 : Ref sig .tc := ⟨.hbm, 135, rfl⟩
abbrev main_call2_cst_3 : Ref sig .tc := ⟨.hbm, 136, rfl⟩
abbrev main_call2_v13 : Ref sig .tc := ⟨.hbm, 137, rfl⟩
abbrev main_call2_cst_4 : Ref sig .tc := ⟨.hbm, 138, rfl⟩
abbrev main_call2_call0_v0 : Ref sig .tc := ⟨.hbm, 139, rfl⟩
abbrev main_call2_call0_v1 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_cst_10 : Ref sig .tc := ⟨.hbm, 144, rfl⟩
abbrev main_v63 : Ref sig .tc := ⟨.hbm, 145, rfl⟩
abbrev main_v64 : Ref sig .tc := ⟨.hbm, 146, rfl⟩
abbrev main_v65 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_cst_11 : Ref sig .tc := ⟨.hbm, 158, rfl⟩
abbrev main_call3_cst : Ref sig .tc := ⟨.hbm, 159, rfl⟩
abbrev main_call3_v0 : Ref sig .tc := ⟨.hbm, 160, rfl⟩
abbrev main_call3_v1 : Ref sig .tc := ⟨.hbm, 161, rfl⟩
abbrev main_call3_v2 : Ref sig .tc := ⟨.hbm, 162, rfl⟩
abbrev main_call3_v3 : Ref sig .tc := ⟨.hbm, 163, rfl⟩
abbrev main_call3_v4 : Ref sig .tc := ⟨.hbm, 164, rfl⟩
abbrev main_v76 : Ref sig .tc := ⟨.hbm, 165, rfl⟩
abbrev main_c_12 : Ref sig .tc := ⟨.hbm, 166, rfl⟩
abbrev main_v77 : Ref sig .tc := ⟨.hbm, 167, rfl⟩
abbrev main_v78 : Ref sig .tc := ⟨.hbm, 168, rfl⟩
abbrev main_c_13 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x2048_S8192x1024_S8192x3072_d1 : Shape.Concatenates [S8192x2048, S8192x1024] S8192x3072 1
  transposes_S1024x3072_S3072x1024_1_0 : S1024x3072.Transposes [1, 0] S3072x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S8192x1024_S1024x8192_1_0 : S8192x1024.Transposes [1, 0] S1024x8192
  shapeCasts_S1024x8192_S32x262144 : S1024x8192.ShapeCasts S32x262144
  reducesTo_S32x262144_S32_d1 : S32x262144.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x262144_0_1 : S32x1.BroadcastsInDim S32x262144 (![0, 1] : Fin 2 → Fin S32x262144.rank)
  shapeCasts_S32x262144_S1024x8192 : S32x262144.ShapeCasts S1024x8192
  transposes_S1024x8192_S8192x1024_1_0 : S1024x8192.Transposes [1, 0] S8192x1024
  bcast_S_S8192x1024 : S_.BroadcastsInDim S8192x1024 (![] : Fin 0 → Fin S8192x1024.rank)
  bcast_S_S32768 : S_.BroadcastsInDim S32768 (![] : Fin 0 → Fin S32768.rank)
  bcast_S32768_S32768x1_0 : S32768.BroadcastsInDim S32768x1 (![0] : Fin 1 → Fin S32768x1.rank)
  concatenates_S32768x1024_S32768x512_S32768x1536_d1 : Shape.Concatenates [S32768x1024, S32768x512] S32768x1536 1
  transposes_S512x1536_S1536x512_1_0 : S512x1536.Transposes [1, 0] S1536x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  transposes_S32768x512_S512x32768_1_0 : S32768x512.Transposes [1, 0] S512x32768
  shapeCasts_S512x32768_S32x524288 : S512x32768.ShapeCasts S32x524288
  reducesTo_S32x524288_S32_d1 : S32x524288.ReducesTo [1] S32
  bcast_S32x1_S32x524288_0_1 : S32x1.BroadcastsInDim S32x524288 (![0, 1] : Fin 2 → Fin S32x524288.rank)
  shapeCasts_S32x524288_S512x32768 : S32x524288.ShapeCasts S512x32768
  transposes_S512x32768_S32768x512_1_0 : S512x32768.Transposes [1, 0] S32768x512
  bcast_S_S32768x512 : S_.BroadcastsInDim S32768x512 (![] : Fin 0 → Fin S32768x512.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x512_S131072x256_S131072x768_d1 : Shape.Concatenates [S131072x512, S131072x256] S131072x768 1
  transposes_S256x768_S768x256_1_0 : S256x768.Transposes [1, 0] S768x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  dot_S2048x2048_S2048x2048_S2048x2048_1_0_0_1_n_n_wf : DotDims.WF S2048x2048 S2048x2048 S2048x2048 [1] [0] [0] [1] [] []
  gather_S2048x2048_S8192x1_S8192x2048_1_0_n_n_0_1_12048_wf : GatherDims.WF S2048x2048 S8192x1 S8192x2048 [1] [0] [] [0] [] 1 ![1, 2048]
  dot_S8192x3072_S3072x1024_S8192x1024_1_0_0_1_n_n_wf : DotDims.WF S8192x3072 S3072x1024 S8192x1024 [1] [0] [0] [1] [] []
  gather_S8192x1024_S32768x1_S32768x1024_1_0_n_n_0_1_11024_wf : GatherDims.WF S8192x1024 S32768x1 S32768x1024 [1] [0] [] [0] [] 1 ![1, 1024]
  dot_S32768x1536_S1536x512_S32768x512_1_0_0_1_n_n_wf : DotDims.WF S32768x1536 S1536x512 S32768x512 [1] [0] [0] [1] [] []
  gather_S32768x512_S131072x1_S131072x512_1_0_n_n_0_1_1512_wf : GatherDims.WF S32768x512 S131072x1 S131072x512 [1] [0] [] [0] [] 1 ![1, 512]
  dot_S131072x768_S768x256_S131072x256_1_0_0_1_n_n_wf : DotDims.WF S131072x768 S768x256 S131072x256 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def gather_S2048x2048_S8192x1_S8192x2048_1_0_n_n_0_1_12048 : GatherDims S2048x2048 S8192x1 S8192x2048 where
  offsetDims := [1]
  collapsedSliceDims := [0]
  operandBatchingDims := []
  startIndicesBatchingDims := []
  startIndexMap := [0]
  indexVectorDim := 1
  sliceSizes := ![1, 2048]
  wf := gather_S2048x2048_S8192x1_S8192x2048_1_0_n_n_0_1_12048_wf
def dot_S8192x3072_S3072x1024_S8192x1024_1_0_0_1_n_n : DotDims S8192x3072 S3072x1024 S8192x1024 where
  lhsContracting := [1]
  rhsContracting := [0]
  lhsNonContracting := [0]
  rhsNonContracting := [1]
  lhsBatch := []
  rhsBatch := []
  wf := dot_S8192x3072_S3072x1024_S8192x1024_1_0_0_1_n_n_wf
def gather_S8192x1024_S32768x1_S32768x1024_1_0_n_n_0_1_11024 : GatherDims S8192x1024 S32768x1 S32768x1024 where
  offsetDims := [1]
  collapsedSliceDims := [0]
  operandBatchingDims := []
  startIndicesBatchingDims := []
  startIndexMap := [0]
  indexVectorDim := 1
  sliceSizes := ![1, 1024]
  wf := gather_S8192x1024_S32768x1_S32768x1024_1_0_n_n_0_1_11024_wf
def dot_S32768x1536_S1536x512_S32768x512_1_0_0_1_n_n : DotDims S32768x1536 S1536x512 S32768x512 where
  lhsContracting := [1]
  rhsContracting := [0]
  lhsNonContracting := [0]
  rhsNonContracting := [1]
  lhsBatch := []
  rhsBatch := []
  wf := dot_S32768x1536_S1536x512_S32768x512_1_0_0_1_n_n_wf
def gather_S32768x512_S131072x1_S131072x512_1_0_n_n_0_1_1512 : GatherDims S32768x512 S131072x1 S131072x512 where
  offsetDims := [1]
  collapsedSliceDims := [0]
  operandBatchingDims := []
  startIndicesBatchingDims := []
  startIndexMap := [0]
  indexVectorDim := 1
  sliceSizes := ![1, 512]
  wf := gather_S32768x512_S131072x1_S131072x512_1_0_n_n_0_1_1512_wf
def dot_S131072x768_S768x256_S131072x256_1_0_0_1_n_n : DotDims S131072x768 S768x256 S131072x256 where
  lhsContracting := [1]
  rhsContracting := [0]
  lhsNonContracting := [0]
  rhsNonContracting := [1]
  lhsBatch := []
  rhsBatch := []
  wf := dot_S131072x768_S768x256_S131072x256_1_0_0_1_n_n_wf

class Facts : Prop extends Facts₀ where

variable [Facts]
-- ==== Proof.KernelRun.lean ====
/-
  The idealized kernel's run with its result named.  @main is eight segments: four stretches of host
  operations and four pallas_call regions.  The contents of every unscoped buffer after the last
  region are the fold `Gen.W8` of the launch memory through those segments; here that fact is
  kept for the result buffer `main_v101` (the last region's output array) beside the nineteen
  argument arrays, which end as launched.
-/
import proofs.«117334_j39633958207498_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds what
    the fold of the eight segments leaves in it, and every argument array is as launched. -/
theorem result : θ_run defs (onTc (τ := τ) (main (F := F))) ⟨m, fun _ => 0, ρ⟩ (fun r => ∀ c : Dev nD,
      r.2.mem ((c.tc : Thread nD τ).loc main_v101) = W8 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v101 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c)⟩)

end Cert.KernelIdeal.Run

end
-- ==== Proof.KFold.lean ====
/-
  The idealized kernel's fold of buffer contents through @main's eight segments, read at the buffers the
  later segments use.  A stretch of host operations leaves every buffer it does not write as it found it,
  and a region leaves every buffer that is not one of its arrays as it found it; so an argument array,
  or a weight matrix prepared by the first stretch, reaches the region that reads it unchanged.
-/
import proofs.«117334_j39633958207498_2_alg».proof.Proof.Gen.KernelIdeal.Frame
import Idealize.ShloMosaic.Lib.StableHlo.Run
set_option maxRecDepth 16384
noncomputable section
namespace Cert.KernelIdeal.Fold
open Cert.KernelIdeal Cert.KernelIdeal.Gen
open Idealize.ShloMosaic Idealize.ShloMosaic.TcCoe Idealize.ShloMosaic.StableHlo
open Idealize.SL Idealize.SL.Sem
variable {F : FTy → Type} [FloatOps F]
variable (m : (ℓ : Loc nD τ sig) → Buf (Elt F) ℓ) (ρ : Dev nD → PrngReg)

/-- A stretch of host operations leaves a buffer none of them writes as it found it. -/
macro "host_keeps" : tactic => `(tactic| (
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := (by host_keeps)
    _ = m ((c : Thread nD τ).loc main_arg3) := rfl

theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := (by host_keeps)
    _ = m ((c : Thread nD τ).loc main_arg6) := rfl

theorem W2_main_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := (by host_keeps)
    _ = m ((c : Thread nD τ).loc main_arg10) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := (by host_keeps)
    _ = W1 m ρ c (Proc.devRef .tc main_arg2) := W2_of_ne m ρ c main_arg2 (by decide)
    _ = W0 m ρ c (Proc.devRef .tc main_arg2) := (by host_keeps)
    _ = m ((c : Thread nD τ).loc main_arg2) := rfl

theorem W3_main_v2 (c : Dev nD) : W3 m ρ c (Proc.devRef .tc main_v2) = W1 m ρ c (Proc.devRef .tc main_v2) :=
  calc W3 m ρ c (Proc.devRef .tc main_v2)
    _ = W2 m ρ c (Proc.devRef .tc main_v2) := (by host_keeps)
    _ = W1 m ρ c (Proc.devRef .tc main_v2) := W2_of_ne m ρ c main_v2 (by decide)

theorem W3_main_v4 (c : Dev nD) : W3 m ρ c (Proc.devRef .tc main_v4) = W1 m ρ c (Proc.devRef .tc main_v4) :=
  calc W3 m ρ c (Proc.devRef .tc main_v4)
    _ = W2 m ρ c (Proc.devRef .tc main_v4) := (by host_keeps)
    _ = W1 m ρ c (Proc.devRef .tc main_v4) := W2_of_ne m ρ c main_v4 (by decide)

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := (by host_keeps)
    _ = W1 m ρ c (Proc.devRef .tc main_arg5) := W2_of_ne m ρ c main_arg5 (by decide)
    _ = W0 m ρ c (Proc.devRef .tc main_arg5) := (by host_keeps)
    _ = m ((c : Thread nD τ).loc main_arg5) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := (by host_keeps)
    _ = W1 m ρ c (Proc.devRef .tc main_arg11) := W2_of_ne m ρ c main_arg11 (by decide)
    _ = W0 m ρ c (Proc.devRef .tc main_arg11) := (by host_keeps)
    _ = m ((c : Thread nD τ).loc main_arg11) := rfl

theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := (by host_keeps)
    _ = W1 m ρ c (Proc.devRef .tc main_arg12) := W2_of_ne m ρ c main_arg12 (by decide)
    _ = W0 m ρ c (Proc.devRef .tc main_arg12) := (by host_keeps)
    _ = m ((c : Thread nD τ).loc main_arg12) := rfl

theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := (by host_keeps)
    _ = W1 m ρ c (Proc.devRef .tc main_arg14) := W2_of_ne m ρ c main_arg14 (by decide)
    _ = W0 m ρ c (Proc.devRef .tc main_arg14) := (by host_keeps)
    _ = m ((c : Thread nD τ).loc main_arg14) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := (by host_keeps)
    _ = W3 m ρ c (Proc.devRef .tc main_arg1) := W4_of_ne m ρ c main_arg1 (by decide)
    _ = W2 m ρ c (Proc.devRef .tc main_arg1) := (by host_keeps)
    _ = W1 m ρ c (Proc.devRef .tc main_arg1) := W2_of_ne m ρ c main_arg1 (by decide)
    _ = W0 m ρ c (Proc.devRef .tc main_arg1) := (by host_keeps)
    _ = m ((c : Thread nD τ).loc main_arg1) := rfl

theorem W5_main_v6 (c : Dev nD) : W5 m ρ c (Proc.devRef .tc main_v6) = W1 m ρ c (Proc.devRef .tc main_v6) :=
  calc W5 m ρ c (Proc.devRef .tc main_v6)
    _ = W4 m ρ c (Proc.devRef .tc main_v6) := (by host_keeps)
    _ = W3 m ρ c (Proc.devRef .tc main_v6) := W4_of_ne m ρ c main_v6 (by decide)
    _ = W2 m ρ c (Proc.devRef .tc main_v6) := (by host_keeps)
    _ = W1 m ρ c (Proc.devRef .tc main_v6) := W2_of_ne m ρ c main_v6 (by decide)

theorem W5_main_v8 (c : Dev nD) : W5 m ρ c (Proc.devRef .tc main_v8) = W1 m ρ c (Proc.devRef .tc main_v8) :=
  calc W5 m ρ c (Proc.devRef .tc main_v8)
    _ = W4 m ρ c (Proc.devRef .tc main_v8) := (by host_keeps)
    _ = W3 m ρ c (Proc.devRef .tc main_v8) := W4_of_ne m ρ c main_v8 (by decide)
    _ = W2 m ρ c (Proc.devRef .tc main_v8) := (by host_keeps)
    _ = W1 m ρ c (Proc.devRef .tc main_v8) := W2_of_ne m ρ c main_v8 (by decide)

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := (by host_keeps)
    _ = W3 m ρ c (Proc.devRef .tc main_arg4) := W4_of_ne m ρ c main_arg4 (by decide)
    _ = W2 m ρ c (Proc.devRef .tc main_arg4) := (by host_keeps)
    _ = W1 m ρ c (Proc.devRef .tc main_arg4) := W2_of_ne m ρ c main_arg4 (by decide)
    _ = W0 m ρ c (Proc.devRef .tc main_arg4) := (by host_keeps)
    _ = m ((c : Thread nD τ).loc main_arg4) := rfl

theorem W6_main_arg15 (c : Dev nD) : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := (by host_keeps)
    _ = W3 m ρ c (Proc.devRef .tc main_arg15) := W4_of_ne m ρ c main_arg15 (by decide)
    _ = W2 m ρ c (Proc.devRef .tc main_arg15) := (by host_keeps)
    _ = W1 m ρ c (Proc.devRef .tc main_arg15) := W2_of_ne m ρ c main_arg15 (by decide)
    _ = W0 m ρ c (Proc.devRef .tc main_arg15) := (by host_keeps)
    _ = m ((c : Thread nD τ).loc main_arg15) := rfl

theorem W6_main_arg16 (c : Dev nD) : W6 m ρ c (Proc.devRef .tc main_arg16) = m ((c : Thread nD τ).loc main_arg16) :=
  calc W6 m ρ c (Proc.devRef .tc main_arg16)
    _ = W5 m ρ c (Proc.devRef .tc main_arg16) := W6_of_ne m ρ c main_arg16 (by decide)
    _ = W4 m ρ c (Proc.devRef .tc main_arg16) := (by host_keeps)
    _ = W3 m ρ c (Proc.devRef .tc main_arg16) := W4_of_ne m ρ c main_arg16 (by decide)
    _ = W2 m ρ c (Proc.devRef .tc main_arg16) := (by host_keeps)
    _ = W1 m ρ c (Proc.devRef .tc main_arg16) := W2_of_ne m ρ c main_arg16 (by decide)
    _ = W0 m ρ c (Proc.devRef .tc main_arg16) := (by host_keeps)
    _ = m ((c : Thread nD τ).loc main_arg16) := rfl

theorem W6_main_arg18 (c : Dev nD) : W6 m ρ c (Proc.devRef .tc main_arg18) = m ((c : Thread nD τ).loc main_arg18) :=
  calc W6 m ρ c (Proc.devRef .tc main_arg18)
    _ = W5 m ρ c (Proc.devRef .tc main_arg18) := W6_of_ne m ρ c main_arg18 (by decide)
    _ = W4 m ρ c (Proc.devRef .tc main_arg18) := (by host_keeps)
    _ = W3 m ρ c (Proc.devRef .tc main_arg18) := W4_of_ne m ρ c main_arg18 (by decide)
    _ = W2 m ρ c (Proc.devRef .tc main_arg18) := (by host_keeps)
    _ = W1 m ρ c (Proc.devRef .tc main_arg18) := W2_of_ne m ρ c main_arg18 (by decide)
    _ = W0 m ρ c (Proc.devRef .tc main_arg18) := (by host_keeps)
    _ = m ((c : Thread nD τ).loc main_arg18) := rfl

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := (by host_keeps)
    _ = W5 m ρ c (Proc.devRef .tc main_arg0) := W6_of_ne m ρ c main_arg0 (by decide)
    _ = W4 m ρ c (Proc.devRef .tc main_arg0) := (by host_keeps)
    _ = W3 m ρ c (Proc.devRef .tc main_arg0) := W4_of_ne m ρ c main_arg0 (by decide)
    _ = W2 m ρ c (Proc.devRef .tc main_arg0) := (by host_keeps)
    _ = W1 m ρ c (Proc.devRef .tc main_arg0) := W2_of_ne m ρ c main_arg0 (by decide)
    _ = W0 m ρ c (Proc.devRef .tc main_arg0) := (by host_keeps)
    _ = m ((c : Thread nD τ).loc main_arg0) := rfl

theorem W7_main_v10 (c : Dev nD) : W7 m ρ c (Proc.devRef .tc main_v10) = W1 m ρ c (Proc.devRef .tc main_v10) :=
  calc W7 m ρ c (Proc.devRef .tc main_v10)
    _ = W6 m ρ c (Proc.devRef .tc main_v10) := (by host_keeps)
    _ = W5 m ρ c (Proc.devRef .tc main_v10) := W6_of_ne m ρ c main_v10 (by decide)
    _ = W4 m ρ c (Proc.devRef .tc main_v10) := (by host_keeps)
    _ = W3 m ρ c (Proc.devRef .tc main_v10) := W4_of_ne m ρ c main_v10 (by decide)
    _ = W2 m ρ c (Proc.devRef .tc main_v10) := (by host_keeps)
    _ = W1 m ρ c (Proc.devRef .tc main_v10) := W2_of_ne m ρ c main_v10 (by decide)

theorem W7_main_v12 (c : Dev nD) : W7 m ρ c (Proc.devRef .tc main_v12) = W1 m ρ c (Proc.devRef .tc main_v12) :=
  calc W7 m ρ c (Proc.devRef .tc main_v12)
    _ = W6 m ρ c (Proc.devRef .tc main_v12) := (by host_keeps)
    _ = W5 m ρ c (Proc.devRef .tc main_v12) := W6_of_ne m ρ c main_v12 (by decide)
    _ = W4 m ρ c (Proc.devRef .tc main_v12) := (by host_keeps)
    _ = W3 m ρ c (Proc.devRef .tc main_v12) := W4_of_ne m ρ c main_v12 (by decide)
    _ = W2 m ρ c (Proc.devRef .tc main_v12) := (by host_keeps)
    _ = W1 m ρ c (Proc.devRef .tc main_v12) := W2_of_ne m ρ c main_v12 (by decide)

end Cert.KernelIdeal.Fold

end
-- ==== Proof.Stages.lean ====
/-
  The stage functions of the decoder, entry by entry, on the extended reals.  A matrix is a function of its
  two-coordinate index.  `dot x W r c` is entry (r, c) of x·Wᵀ; `lin1` and `lin2` are the linear layers (one
  operand, or a gathered and a plain operand multiplied against the two halves of the weight matrix);
  `actK a b x` is the per-channel affine map x·a + b followed by the leaky ReLU as the kernel spells it
  (kept where positive, scaled by the slope elsewhere); `lin2act` applies it to the gathered operand
  before the product.  `blockSum` is the column sum of one block of T consecutive rows, which the kernel
  stores in each of the eight rows 8·blk … 8·blk + 7 of its statistics output.
-/
import Idealize.ShloMosaic.PureOps.Ideal
import Idealize.ShloMosaic.Lib.ValueIdx

noncomputable section

namespace Cert.FPN

open Idealize.ShloMosaic Idealize.ShloMosaic.ValueIdx

/-- An a×b matrix of extended reals. -/
abbrev M (a b : Nat) := (⟨2, ![a, b]⟩ : Shape).Idx → EReal

/-- A function of two coordinates as a matrix. -/
def arr2 {a b : Nat} (f : Fin a → Fin b → EReal) : M a b :=
  fun j => f ⟨(j 0).val, idx2_lt0 j⟩ ⟨(j 1).val, idx2_lt1 j⟩

theorem arr2_apply {a b : Nat} (f : Fin a → Fin b → EReal) (r : Fin a) (c : Fin b) : arr2 f (ix2 r c) = f r c := rfl

/-- Entry (r, c) of x·Wᵀ. -/
def dot {a k n : Nat} (x : M a k) (W : M n k) (r : Fin a) (c : Fin n) : EReal := ∑ q : Fin k, x (ix2 r q) * W (ix2 c q)

/-- Entry (r, c) of x·Wᵀ + b. -/
def lin1 {a k n : Nat} (x : M a k) (W : M n k) (b : M 1 n) (r : Fin a) (c : Fin n) : EReal :=
  dot x W r c + b (ix2 (0 : Fin 1) c)

/-- Entry (r, c) of xg·Wgᵀ + xf·Wfᵀ + b. -/
def lin2 {a kg kf n : Nat} (xg : M a kg) (xf : M a kf) (Wg : M n kg) (Wf : M n kf) (b : M 1 n) (r : Fin a) (c : Fin n) : EReal :=
  (dot xg Wg r c + dot xf Wf r c) + b (ix2 (0 : Fin 1) c)

/-- The affine map x·a + b, kept where positive and scaled by the slope elsewhere. -/
def actK (a b x : EReal) : EReal :=
  Scalar.select (FloatOps.cmpf (F := Ideal) (φ := .f32) .ogt (x * a + b) (FloatOps.ofBits (F := Ideal) .f32 0x00000000#32)) (x * a + b)
    (FloatOps.ofBits (F := Ideal) .f32 0x3DCCCCCD#32 * (x * a + b))

/-- The same with the zero and the slope as parameters. -/
def actKz (z slope a b x : EReal) : EReal :=
  Scalar.select (FloatOps.cmpf (F := Ideal) (φ := .f32) .ogt (x * a + b) z) (x * a + b) (slope * (x * a + b))

theorem actK_eq (a b x : EReal) :
    actK a b x = actKz (FloatOps.ofBits (F := Ideal) .f32 0x00000000#32) (FloatOps.ofBits (F := Ideal) .f32 0x3DCCCCCD#32) a b x := rfl

/-- Entry (r, c) of act(xg)·Wgᵀ + xf·Wfᵀ + b, the activation applied channel by channel to the gathered operand. -/
def lin2act {a kg kf n : Nat} (ga gb : M 1 kg) (xg : M a kg) (xf : M a kf) (Wg : M n kg) (Wf : M n kf) (b : M 1 n)
    (r : Fin a) (c : Fin n) : EReal :=
  ((∑ q : Fin kg, actK (ga (ix2 (0 : Fin 1) q)) (gb (ix2 (0 : Fin 1) q)) (xg (ix2 r q)) * Wg (ix2 c q)) + dot xf Wf r c)
    + b (ix2 (0 : Fin 1) c)

/-- Column `c` summed over the T rows of block `R / 8`. -/
def blockSum (T : Nat) {A A8 n : Nat} (h : ∀ (R : Fin A8) (i : Fin T), R.val / 8 * T + i.val < A) (f : Fin A → Fin n → EReal)
    (R : Fin A8) (c : Fin n) : EReal :=
  ∑ i : Fin T, f ⟨R.val / 8 * T + i.val, h R i⟩ c

/-- A vector as a one-row matrix. -/
def rowOf {n : Nat} (v : (⟨1, ![n]⟩ : Shape).Idx → EReal) : M 1 n := fun j => v (ix1 (⟨(j 1).val, idx2_lt1 j⟩ : Fin n))

theorem rowOf_apply {n : Nat} (v : (⟨1, ![n]⟩ : Shape).Idx → EReal) (u : Fin 1) (c : Fin n) : rowOf v (ix2 u c) = v (ix1 c) := rfl

/-- Columns off … off + k − 1 of W. -/
def cols {n K : Nat} (off k : Nat) (h : off + k ≤ K) (W : M n K) : M n k :=
  fun j => W (ix2 (⟨(j 0).val, idx2_lt0 j⟩ : Fin n) (⟨off + (j 1).val, by have := idx2_lt1 j; omega⟩ : Fin K))

theorem cols_apply {n K : Nat} (off k : Nat) (h : off + k ≤ K) (W : M n K) (r : Fin n) (c : Fin k) :
    cols off k h W (ix2 r c) = W (ix2 r (⟨off + c.val, by have := c.isLt; omega⟩ : Fin K)) := rfl

/-- The rows a row map picks. -/
def pick {A N C : Nat} (ρ : Fin A → Fin N) (x : M N C) : M A C :=
  fun j => x (ix2 (ρ ⟨(j 0).val, idx2_lt0 j⟩) (⟨(j 1).val, idx2_lt1 j⟩ : Fin C))

theorem pick_apply {A N C : Nat} (ρ : Fin A → Fin N) (x : M N C) (i : Fin A) (c : Fin C) : pick ρ x (ix2 i c) = x (ix2 (ρ i) c) := rfl

/-! ## Group normalisation over A rows and C = G·P channels, in G groups of P consecutive channels -/

/-- The shape facts of such a group norm. -/
structure GNDims (A C G P : Nat) : Prop where
  hC : C = G * P
  hA : 0 < A
  hP : 0 < P

namespace GNDims

theorem chan_lt {A C G P : Nat} (d : GNDims A C G P) (g : Fin G) (p : Nat) (hp : p < P) : P * g.val + p < C := by
  rw [d.hC]
  calc P * g.val + p < P * g.val + P := by omega
    _ = P * (g.val + 1) := by ring
    _ ≤ P * G := Nat.mul_le_mul_left _ g.isLt
    _ = G * P := Nat.mul_comm _ _

theorem grp_lt {A C G P : Nat} (d : GNDims A C G P) (n : Fin C) : n.val / P < G :=
  Nat.div_lt_of_lt_mul (calc n.val < C := n.isLt
    _ = G * P := d.hC
    _ = P * G := Nat.mul_comm _ _)

theorem div_lt {A C G P : Nat} (d : GNDims A C G P) (q : Fin (P * A)) : q.val / A < P :=
  Nat.div_lt_of_lt_mul (calc q.val < P * A := q.isLt
    _ = A * P := Nat.mul_comm _ _)

/-- Channel p of group g. -/
def chan {A C G P : Nat} (d : GNDims A C G P) (g : Fin G) (p : Fin P) : Fin C := ⟨P * g.val + p.val, d.chan_lt g p.val p.isLt⟩

/-- The group of channel n. -/
def grp {A C G P : Nat} (d : GNDims A C G P) (n : Fin C) : Fin G := ⟨n.val / P, d.grp_lt n⟩

/-- Entry q of group g's data laid out channel after channel: row q mod A of channel P·g + q / A. -/
def entry {A C G P : Nat} (d : GNDims A C G P) (raw : Fin A → Fin C → EReal) (g : Fin G) (q : Fin (P * A)) : EReal :=
  raw ⟨q.val % A, Nat.mod_lt _ d.hA⟩ ⟨P * g.val + q.val / A, d.chan_lt g _ (d.div_lt q)⟩

/-! ### The reference's way: mean and centred second moment of each group, then normalise, scale, shift -/

def meanR {A C G P : Nat} (d : GNDims A C G P) (z cnt : EReal) (raw : Fin A → Fin C → EReal) (g : Fin G) : EReal :=
  Ideal.div (z + ∑ q : Fin (P * A), d.entry raw g q) cnt

def varR {A C G P : Nat} (d : GNDims A C G P) (z cnt cntm : EReal) (raw : Fin A → Fin C → EReal) (g : Fin G) : EReal :=
  Ideal.div (z + ∑ q : Fin (P * A), (d.entry raw g q - d.meanR z cnt raw g) * (d.entry raw g q - d.meanR z cnt raw g)) cntm

def normR {A C G P : Nat} (d : GNDims A C G P) (z cnt cntm eps : EReal) (raw : Fin A → Fin C → EReal) (γ β : Fin C → EReal) (i : Fin A) (n : Fin C) : EReal :=
  Ideal.div (raw i n - d.meanR z cnt raw (d.grp n)) (Ideal.sqrt (d.varR z cnt cntm raw (d.grp n) + eps)) * γ n + β n

/-! ### The kernel's way: from per-block column sums S and column sums of squares Q, each stored eight times -/

def sumK {A C G P : Nat} (d : GNDims A C G P) (z eight : EReal) {A8 : Nat} (S : Fin A8 → Fin C → EReal) (g : Fin G) : EReal :=
  z + ∑ p : Fin P, Ideal.div (z + ∑ R : Fin A8, S R (d.chan g p)) eight

def meanK {A C G P : Nat} (d : GNDims A C G P) (z eight cnt : EReal) {A8 : Nat} (S : Fin A8 → Fin C → EReal) (g : Fin G) : EReal :=
  Ideal.div (d.sumK z eight S g) cnt

def varK {A C G P : Nat} (d : GNDims A C G P) (z eight cnt : EReal) {A8 : Nat} (S Q : Fin A8 → Fin C → EReal) (g : Fin G) : EReal :=
  Ideal.div (d.sumK z eight Q g) cnt - d.meanK z eight cnt S g * d.meanK z eight cnt S g

def scaleK {A C G P : Nat} (d : GNDims A C G P) (z eight cnt one eps : EReal) {A8 : Nat} (S Q : Fin A8 → Fin C → EReal) (γ : Fin C → EReal) (n : Fin C) : EReal :=
  γ n * Ideal.div one (Ideal.sqrt (d.varK z eight cnt S Q (d.grp n) + eps))

def shiftK {A C G P : Nat} (d : GNDims A C G P) (z eight cnt one eps : EReal) {A8 : Nat} (S Q : Fin A8 → Fin C → EReal) (γ β : Fin C → EReal) (n : Fin C) : EReal :=
  β n - d.meanK z eight cnt S (d.grp n) * d.scaleK z eight cnt one eps S Q γ n

end GNDims

/-- The leaky ReLU as the reference spells it: kept where not negative, scaled by the slope elsewhere. -/
def actR (z slope y : EReal) : EReal :=
  Scalar.select (FloatOps.cmpf (F := Ideal) (φ := .f32) .oge y z) y (slope * y)

end Cert.FPN

end
-- ==== Proof.KHost.lean ====
/-
  The host stretches of the idealized kernel, as pure functions read at an index.  The first stretch slices
  each weight matrix into the columns that meet the gathered operand and the columns that meet the plain
  operand, and reshapes each bias to one row.  After each statistics-producing region a stretch turns the
  stored column sums S and column sums of squares Q into a per-channel scale and shift: the column sums
  over the stored rows divided by the eight copies, summed over each group's channels, divided by the
  group's number of entries (the mean and the mean square), the variance as their difference of squares,
  the reciprocal root of variance plus ε, spread back over the group's channels and folded with γ and β.
-/
import proofs.«117334_j39633958207498_2_alg».proof.Proof.Gen.KernelIdeal.Frame
import proofs.«117334_j39633958207498_2_alg».proof.Proof.Stages
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
set_option maxRecDepth 16384
noncomputable section
namespace Cert.KernelIdeal.Host
open Cert.KernelIdeal Cert.KernelIdeal.Gen
open Idealize.ShloMosaic Idealize.ShloMosaic.TcCoe Idealize.ShloMosaic.StableHlo
open Idealize.SL Idealize.SL.Sem Idealize.ShloMosaic.ValueIdx Cert.FPN

/-- A stretch of host operations leaves a buffer none of them writes as it found it. -/
macro "host_keeps" : tactic => `(tactic| (
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! The constants as the programs spell them. -/
abbrev cZ : EReal := FloatOps.ofBits (F := Ideal) .f32 0x00000000#32
abbrev cE8 : EReal := FloatOps.ofBits (F := Ideal) .f32 0x41000000#32
abbrev cCNT4 : EReal := FloatOps.ofBits (F := Ideal) .f32 0x48800000#32
abbrev cCNT3 : EReal := FloatOps.ofBits (F := Ideal) .f32 0x49000000#32
abbrev cONE : EReal := FloatOps.ofBits (F := Ideal) .f32 0x3F800000#32
abbrev cEPS : EReal := FloatOps.ofBits (F := Ideal) .f32 0x3727C5AC#32
abbrev cSL : EReal := FloatOps.ofBits (F := Ideal) .f32 0x3DCCCCCD#32

theorem d4 : GNDims 8192 1024 32 32 := ⟨by decide, by decide, by decide⟩
theorem d3 : GNDims 32768 512 32 16 := ⟨by decide, by decide, by decide⟩

/-- A function of the channel as a one-row matrix. -/
def rowFn {n : Nat} (f : Fin n → EReal) : M 1 n := fun j => f ⟨(j 1).val, idx2_lt1 j⟩

theorem rowFn_apply {n : Nat} (f : Fin n → EReal) (u : Fin 1) (c : Fin n) : rowFn f (ix2 u c) = f c := rfl

/-- A constant spread over the 32 groups. -/
def spread (b : BitVec 32) : FVec Ideal S32 .f32 := broadcastInDim S32 ![] bcast_S_S32 (constant (F := Ideal) S_ .f32 b)

theorem spread_apply (b : BitVec 32) (g : Fin 32) : spread b (ix1 g) = FloatOps.ofBits (F := Ideal) .f32 b := by
  unfold spread
  rw [broadcastInDim_scalar_apply]
  rfl

/-! ## The statistics stretch for 1024 channels in 32 groups of 32: scale and shift of each channel -/

/-- Column sums over the stored rows, divided by the eight copies. -/
def colMean4 (X : FVec Ideal S256x1024 .f32) : FVec Ideal S1024 .f32 :=
  Host.divf (Host.reduceAdd X (constant (F := Ideal) S_ .f32 0x00000000#32) reducesTo_S256x1024_S1024_d0 h_S_)
    (broadcastInDim S1024 ![] bcast_S_S1024 (constant (F := Ideal) S_ .f32 0x41000000#32))

theorem colMean4_apply (X : FVec Ideal S256x1024 .f32) (c : Fin 1024) :
    colMean4 X (ix1 c) = Ideal.div (cZ + ∑ R : Fin 256, X (ix2 R c)) cE8 := by
  unfold colMean4
  rw [hostDivf_apply, hostReduceAdd_apply, broadcastInDim_scalar_apply]
  rw [Ideal.hostReduceAdd_single reducesTo_S256x1024_S1024_d0 (by decide : S256x1024.Reduces [0] S1024)]
  refine congrArg₂ Ideal.div (congrArg₂ (· + ·) rfl (Finset.sum_congr rfl fun (R : Fin 256) _ => congrArg X ?_)) rfl
  funext ax; apply Fin.ext
  match ax with
  | ⟨0, _⟩ => rfl
  | ⟨1, _⟩ => rfl

/-- The 1024 channels regrouped as 32 rows of 32. -/
theorem regroup4_apply (x : FVec Ideal S1024 .f32) (g : Fin 32) (p : Fin 32) :
    shapeCast S32x32 x shapeCasts_S1024_S32x32 (ix2 g p) = x (ix1 (⟨32 * g.val + p.val, by have := g.isLt; have := p.isLt; omega⟩ : Fin 1024)) :=
  shapeCast_apply x _ _ _ (by
    rw [Shape.rowMajor_val_one, Shape.rowMajor_val_two]
    show 32 * g.val + p.val = g.val * 32 + p.val
    omega)

/-- … and a 32×32 array laid out as 1024 channels. -/
theorem ungroup4_apply (y : FVec Ideal S32x32 .f32) (n : Fin 1024) :
    shapeCast S1024 y shapeCasts_S32x32_S1024 (ix1 n)
      = y (ix2 (⟨n.val / 32, by have := n.isLt; omega⟩ : Fin 32) (⟨n.val % 32, Nat.mod_lt _ (by decide)⟩ : Fin 32)) :=
  shapeCast_apply y _ _ _ (by
    rw [Shape.rowMajor_val_one, Shape.rowMajor_val_two]
    show n.val / 32 * 32 + n.val % 32 = n.val
    omega)

/-- The group's sum of those column means. -/
def grpSum4 (X : FVec Ideal S256x1024 .f32) : FVec Ideal S32 .f32 :=
  Host.reduceAdd (shapeCast S32x32 (colMean4 X) shapeCasts_S1024_S32x32) (constant (F := Ideal) S_ .f32 0x00000000#32) reducesTo_S32x32_S32_d1 h_S_

theorem grpSum4_apply (X : FVec Ideal S256x1024 .f32) (g : Fin 32) :
    grpSum4 X (ix1 g) = d4.sumK cZ cE8 (fun R c => X (ix2 R c)) g := by
  unfold grpSum4
  rw [hostReduceAdd_apply, Ideal.hostReduceAdd_single reducesTo_S32x32_S32_d1 (by decide : S32x32.Reduces [1] S32)]
  unfold GNDims.sumK
  refine congrArg₂ (· + ·) rfl (Finset.sum_congr rfl fun (p : Fin 32) _ => ?_)
  have e : (by decide : S32x32.Reduces [1] S32).lift (ix1 g) p = ix2 g p := by
    funext ax; apply Fin.ext
    match ax with
    | ⟨0, _⟩ => rfl
    | ⟨1, _⟩ => rfl
  rw [e, regroup4_apply, colMean4_apply]
  rfl

def grpMean4 (X : FVec Ideal S256x1024 .f32) : FVec Ideal S32 .f32 := Host.divf (grpSum4 X) (spread 0x48800000#32)

theorem grpMean4_apply (X : FVec Ideal S256x1024 .f32) (g : Fin 32) :
    grpMean4 X (ix1 g) = d4.meanK cZ cE8 cCNT4 (fun R c => X (ix2 R c)) g := by
  unfold grpMean4
  rw [hostDivf_apply, grpSum4_apply, spread_apply]
  rfl

def grpInv4 (S Q : FVec Ideal S256x1024 .f32) : FVec Ideal S32 .f32 :=
  Host.divf (spread 0x3F800000#32)
    (Host.sqrt (addf (subf (grpMean4 Q) (mulf (grpMean4 S) (grpMean4 S))) (spread 0x3727C5AC#32)))

theorem grpInv4_apply (S Q : FVec Ideal S256x1024 .f32) (g : Fin 32) :
    grpInv4 S Q (ix1 g)
      = Ideal.div cONE (Ideal.sqrt (d4.varK cZ cE8 cCNT4 (fun R c => S (ix2 R c)) (fun R c => Q (ix2 R c)) g + cEPS)) := by
  unfold grpInv4
  rw [hostDivf_apply, spread_apply]
  show Ideal.div cONE (Ideal.sqrt ((grpMean4 Q (ix1 g) - grpMean4 S (ix1 g) * grpMean4 S (ix1 g)) + spread 0x3727C5AC#32 (ix1 g))) = _
  rw [grpMean4_apply, grpMean4_apply, spread_apply]
  rfl

/-- A per-group value read at each channel of the group. -/
def chanOf4 (v : FVec Ideal S32 .f32) : FVec Ideal S1024 .f32 :=
  shapeCast S1024 (broadcastInDim S32x32 ![0] bcast_S32_S32x32_0 v) shapeCasts_S32x32_S1024

theorem chanOf4_apply (v : FVec Ideal S32 .f32) (n : Fin 1024) :
    chanOf4 v (ix1 n) = v (ix1 (d4.grp n)) := by
  unfold chanOf4
  rw [ungroup4_apply]
  refine broadcastInDim_apply _ _ v _ _ fun ax => ?_
  match ax with
  | ⟨0, _⟩ => rfl

def gnScale4 (S Q : FVec Ideal S256x1024 .f32) (γ : FVec Ideal S1024 .f32) : FVec Ideal S1024 .f32 :=
  mulf γ (chanOf4 (grpInv4 S Q))

theorem gnScale4_apply (S Q : FVec Ideal S256x1024 .f32) (γ : FVec Ideal S1024 .f32) (n : Fin 1024) :
    gnScale4 S Q γ (ix1 n)
      = d4.scaleK cZ cE8 cCNT4 cONE cEPS (fun R c => S (ix2 R c)) (fun R c => Q (ix2 R c)) (fun n => γ (ix1 n)) n := by
  unfold gnScale4
  rw [mulf_apply, chanOf4_apply, grpInv4_apply]
  rfl

def gnShift4 (S Q : FVec Ideal S256x1024 .f32) (γ β : FVec Ideal S1024 .f32) : FVec Ideal S1024 .f32 :=
  subf β (mulf (chanOf4 (grpMean4 S)) (gnScale4 S Q γ))

theorem gnShift4_apply (S Q : FVec Ideal S256x1024 .f32) (γ β : FVec Ideal S1024 .f32) (n : Fin 1024) :
    gnShift4 S Q γ β (ix1 n)
      = d4.shiftK cZ cE8 cCNT4 cONE cEPS (fun R c => S (ix2 R c)) (fun R c => Q (ix2 R c)) (fun n => γ (ix1 n)) (fun n => β (ix1 n)) n := by
  unfold gnShift4
  rw [subf_apply, mulf_apply, chanOf4_apply, grpMean4_apply, gnScale4_apply]
  rfl

/-! ## The statistics stretch for 512 channels in 32 groups of 16: scale and shift of each channel -/

/-- Column sums over the stored rows, divided by the eight copies. -/
def colMean3 (X : FVec Ideal S256x512 .f32) : FVec Ideal S512 .f32 :=
  Host.divf (Host.reduceAdd X (constant (F := Ideal) S_ .f32 0x00000000#32) reducesTo_S256x512_S512_d0 h_S_)
    (broadcastInDim S512 ![] bcast_S_S512 (constant (F := Ideal) S_ .f32 0x41000000#32))

theorem colMean3_apply (X : FVec Ideal S256x512 .f32) (c : Fin 512) :
    colMean3 X (ix1 c) = Ideal.div (cZ + ∑ R : Fin 256, X (ix2 R c)) cE8 := by
  unfold colMean3
  rw [hostDivf_apply, hostReduceAdd_apply, broadcastInDim_scalar_apply]
  rw [Ideal.hostReduceAdd_single reducesTo_S256x512_S512_d0 (by decide : S256x512.Reduces [0] S512)]
  refine congrArg₂ Ideal.div (congrArg₂ (· + ·) rfl (Finset.sum_congr rfl fun (R : Fin 256) _ => congrArg X ?_)) rfl
  funext ax; apply Fin.ext
  match ax with
  | ⟨0, _⟩ => rfl
  | ⟨1, _⟩ => rfl

/-- The 512 channels regrouped as 32 rows of 16. -/
theorem regroup3_apply (x : FVec Ideal S512 .f32) (g : Fin 32) (p : Fin 16) :
    shapeCast S32x16 x shapeCasts_S512_S32x16 (ix2 g p) = x (ix1 (⟨16 * g.val + p.val, by have := g.isLt; have := p.isLt; omega⟩ : Fin 512)) :=
  shapeCast_apply x _ _ _ (by
    rw [Shape.rowMajor_val_one, Shape.rowMajor_val_two]
    show 16 * g.val + p.val = g.val * 16 + p.val
    omega)

/-- … and a 32×16 array laid out as 512 channels. -/
theorem ungroup3_apply (y : FVec Ideal S32x16 .f32) (n : Fin 512) :
    shapeCast S512 y shapeCasts_S32x16_S512 (ix1 n)
      = y (ix2 (⟨n.val / 16, by have := n.isLt; omega⟩ : Fin 32) (⟨n.val % 16, Nat.mod_lt _ (by decide)⟩ : Fin 16)) :=
  shapeCast_apply y _ _ _ (by
    rw [Shape.rowMajor_val_one, Shape.rowMajor_val_two]
    show n.val / 16 * 16 + n.val % 16 = n.val
    omega)

/-- The group's sum of those column means. -/
def grpSum3 (X : FVec Ideal S256x512 .f32) : FVec Ideal S32 .f32 :=
  Host.reduceAdd (shapeCast S32x16 (colMean3 X) shapeCasts_S512_S32x16) (constant (F := Ideal) S_ .f32 0x00000000#32) reducesTo_S32x16_S32_d1 h_S_

theorem grpSum3_apply (X : FVec Ideal S256x512 .f32) (g : Fin 32) :
    grpSum3 X (ix1 g) = d3.sumK cZ cE8 (fun R c => X (ix2 R c)) g := by
  unfold grpSum3
  rw [hostReduceAdd_apply, Ideal.hostReduceAdd_single reducesTo_S32x16_S32_d1 (by decide : S32x16.Reduces [1] S32)]
  unfold GNDims.sumK
  refine congrArg₂ (· + ·) rfl (Finset.sum_congr rfl fun (p : Fin 16) _ => ?_)
  have e : (by decide : S32x16.Reduces [1] S32).lift (ix1 g) p = ix2 g p := by
    funext ax; apply Fin.ext
    match ax with
    | ⟨0, _⟩ => rfl
    | ⟨1, _⟩ => rfl
  rw [e, regroup3_apply, colMean3_apply]
  rfl

def grpMean3 (X : FVec Ideal S256x512 .f32) : FVec Ideal S32 .f32 := Host.divf (grpSum3 X) (spread 0x49000000#32)

theorem grpMean3_apply (X : FVec Ideal S256x512 .f32) (g : Fin 32) :
    grpMean3 X (ix1 g) = d3.meanK cZ cE8 cCNT3 (fun R c => X (ix2 R c)) g := by
  unfold grpMean3
  rw [hostDivf_apply, grpSum3_apply, spread_apply]
  rfl

def grpInv3 (S Q : FVec Ideal S256x512 .f32) : FVec Ideal S32 .f32 :=
  Host.divf (spread 0x3F800000#32)
    (Host.sqrt (addf (subf (grpMean3 Q) (mulf (grpMean3 S) (grpMean3 S))) (spread 0x3727C5AC#32)))

theorem grpInv3_apply (S Q : FVec Ideal S256x512 .f32) (g : Fin 32) :
    grpInv3 S Q (ix1 g)
      = Ideal.div cONE (Ideal.sqrt (d3.varK cZ cE8 cCNT3 (fun R c => S (ix2 R c)) (fun R c => Q (ix2 R c)) g + cEPS)) := by
  unfold grpInv3
  rw [hostDivf_apply, spread_apply]
  show Ideal.div cONE (Ideal.sqrt ((grpMean3 Q (ix1 g) - grpMean3 S (ix1 g) * grpMean3 S (ix1 g)) + spread 0x3727C5AC#32 (ix1 g))) = _
  rw [grpMean3_apply, grpMean3_apply, spread_apply]
  rfl

/-- A per-group value read at each channel of the group. -/
def chanOf3 (v : FVec Ideal S32 .f32) : FVec Ideal S512 .f32 :=
  shapeCast S512 (broadcastInDim S32x16 ![0] bcast_S32_S32x16_0 v) shapeCasts_S32x16_S512

theorem chanOf3_apply (v : FVec Ideal S32 .f32) (n : Fin 512) :
    chanOf3 v (ix1 n) = v (ix1 (d3.grp n)) := by
  unfold chanOf3
  rw [ungroup3_apply]
  refine broadcastInDim_apply _ _ v _ _ fun ax => ?_
  match ax with
  | ⟨0, _⟩ => rfl

def gnScale3 (S Q : FVec Ideal S256x512 .f32) (γ : FVec Ideal S512 .f32) : FVec Ideal S512 .f32 :=
  mulf γ (chanOf3 (grpInv3 S Q))

theorem gnScale3_apply (S Q : FVec Ideal S256x512 .f32) (γ : FVec Ideal S512 .f32) (n : Fin 512) :
    gnScale3 S Q γ (ix1 n)
      = d3.scaleK cZ cE8 cCNT3 cONE cEPS (fun R c => S (ix2 R c)) (fun R c => Q (ix2 R c)) (fun n => γ (ix1 n)) n := by
  unfold gnScale3
  rw [mulf_apply, chanOf3_apply, grpInv3_apply]
  rfl

def gnShift3 (S Q : FVec Ideal S256x512 .f32) (γ β : FVec Ideal S512 .f32) : FVec Ideal S512 .f32 :=
  subf β (mulf (chanOf3 (grpMean3 S)) (gnScale3 S Q γ))

theorem gnShift3_apply (S Q : FVec Ideal S256x512 .f32) (γ β : FVec Ideal S512 .f32) (n : Fin 512) :
    gnShift3 S Q γ β (ix1 n)
      = d3.shiftK cZ cE8 cCNT3 cONE cEPS (fun R c => S (ix2 R c)) (fun R c => Q (ix2 R c)) (fun n => γ (ix1 n)) (fun n => β (ix1 n)) n := by
  unfold gnShift3
  rw [subf_apply, mulf_apply, chanOf3_apply, grpMean3_apply, gnScale3_apply]
  rfl

/-- A vector of 2048 entries reshaped to one row. -/
theorem row2048 (v : FVec Ideal S2048 .f32) : (shapeCast S1x2048 v shapeCasts_S2048_S1x2048 : M 1 2048) = rowOf v := by
  funext j
  obtain ⟨u, q, rfl⟩ : ∃ (u : Fin 1) (q : Fin 2048), j = ix2 u q := ⟨j 0, j 1, eq_ix2 j⟩
  rw [rowOf_apply]
  exact shapeCast_a_1a_apply v _ u q

/-- A vector of 1024 entries reshaped to one row. -/
theorem row1024 (v : FVec Ideal S1024 .f32) : (shapeCast S1x1024 v shapeCasts_S1024_S1x1024 : M 1 1024) = rowOf v := by
  funext j
  obtain ⟨u, q, rfl⟩ : ∃ (u : Fin 1) (q : Fin 1024), j = ix2 u q := ⟨j 0, j 1, eq_ix2 j⟩
  rw [rowOf_apply]
  exact shapeCast_a_1a_apply v _ u q

/-- A vector of 512 entries reshaped to one row. -/
theorem row512 (v : FVec Ideal S512 .f32) : (shapeCast S1x512 v shapeCasts_S512_S1x512 : M 1 512) = rowOf v := by
  funext j
  obtain ⟨u, q, rfl⟩ : ∃ (u : Fin 1) (q : Fin 512), j = ix2 u q := ⟨j 0, j 1, eq_ix2 j⟩
  rw [rowOf_apply]
  exact shapeCast_a_1a_apply v _ u q

/-- A vector of 256 entries reshaped to one row. -/
theorem row256 (v : FVec Ideal S256 .f32) : (shapeCast S1x256 v shapeCasts_S256_S1x256 : M 1 256) = rowOf v := by
  funext j
  obtain ⟨u, q, rfl⟩ : ∃ (u : Fin 1) (q : Fin 256), j = ix2 u q := ⟨j 0, j 1, eq_ix2 j⟩
  rw [rowOf_apply]
  exact shapeCast_a_1a_apply v _ u q

/-- The scale and the shift, each reshaped to one row, are the rows of the per-channel functions. -/
theorem scaleRow4 (S Q : FVec Ideal S256x1024 .f32) (γ : FVec Ideal S1024 .f32) :
    (shapeCast S1x1024 (gnScale4 S Q γ) shapeCasts_S1024_S1x1024 : M 1 1024)
      = rowFn (d4.scaleK cZ cE8 cCNT4 cONE cEPS (fun R c => S (ix2 R c)) (fun R c => Q (ix2 R c)) (fun n => γ (ix1 n))) := by
  rw [row1024]
  funext j
  obtain ⟨u, q, rfl⟩ : ∃ (u : Fin 1) (q : Fin 1024), j = ix2 u q := ⟨j 0, j 1, eq_ix2 j⟩
  rw [rowOf_apply, rowFn_apply, gnScale4_apply]

theorem shiftRow4 (S Q : FVec Ideal S256x1024 .f32) (γ β : FVec Ideal S1024 .f32) :
    (shapeCast S1x1024 (gnShift4 S Q γ β) shapeCasts_S1024_S1x1024 : M 1 1024)
      = rowFn (d4.shiftK cZ cE8 cCNT4 cONE cEPS (fun R c => S (ix2 R c)) (fun R c => Q (ix2 R c)) (fun n => γ (ix1 n)) (fun n => β (ix1 n))) := by
  rw [row1024]
  funext j
  obtain ⟨u, q, rfl⟩ : ∃ (u : Fin 1) (q : Fin 1024), j = ix2 u q := ⟨j 0, j 1, eq_ix2 j⟩
  rw [rowOf_apply, rowFn_apply, gnShift4_apply]

/-- The scale and the shift, each reshaped to one row, are the rows of the per-channel functions. -/
theorem scaleRow3 (S Q : FVec Ideal S256x512 .f32) (γ : FVec Ideal S512 .f32) :
    (shapeCast S1x512 (gnScale3 S Q γ) shapeCasts_S512_S1x512 : M 1 512)
      = rowFn (d3.scaleK cZ cE8 cCNT3 cONE cEPS (fun R c => S (ix2 R c)) (fun R c => Q (ix2 R c)) (fun n => γ (ix1 n))) := by
  rw [row512]
  funext j
  obtain ⟨u, q, rfl⟩ : ∃ (u : Fin 1) (q : Fin 512), j = ix2 u q := ⟨j 0, j 1, eq_ix2 j⟩
  rw [rowOf_apply, rowFn_apply, gnScale3_apply]

theorem shiftRow3 (S Q : FVec Ideal S256x512 .f32) (γ β : FVec Ideal S512 .f32) :
    (shapeCast S1x512 (gnShift3 S Q γ β) shapeCasts_S512_S1x512 : M 1 512)
      = rowFn (d3.shiftK cZ cE8 cCNT3 cONE cEPS (fun R c => S (ix2 R c)) (fun R c => Q (ix2 R c)) (fun n => γ (ix1 n)) (fun n => β (ix1 n))) := by
  rw [row512]
  funext j
  obtain ⟨u, q, rfl⟩ : ∃ (u : Fin 1) (q : Fin 512), j = ix2 u q := ⟨j 0, j 1, eq_ix2 j⟩
  rw [rowOf_apply, rowFn_apply, gnShift3_apply]

/-- Columns 0 … 2047 of the 1024×3072 weight matrix (the change of format is the identity). -/
theorem colsG4 (W : FVec Ideal S1024x3072 .f32) :
    (truncf .bf16 (extractStridedSlice S1024x2048 ![0, 0] W slices_S1024x3072_S1024x2048_0_0) bitsLt_bf16_f32 : M 1024 2048)
      = cols 0 2048 (by decide) W := by
  funext j
  obtain ⟨r, q, rfl⟩ : ∃ (r : Fin 1024) (q : Fin 2048), j = ix2 r q := ⟨j 0, j 1, eq_ix2 j⟩
  rw [cols_apply]
  show extractStridedSlice S1024x2048 ![0, 0] W slices_S1024x3072_S1024x2048_0_0 (ix2 r q) = _
  refine extractStridedSlice_apply _ W _ _ _ fun ax => ?_
  match ax with
  | ⟨0, _⟩ => show r.val = 0 + r.val; omega
  | ⟨1, _⟩ => rfl

/-- Columns 2048 … 3071 of the 1024×3072 weight matrix (the change of format is the identity). -/
theorem colsF4 (W : FVec Ideal S1024x3072 .f32) :
    (truncf .bf16 (extractStridedSlice S1024x1024 ![0, 2048] W slices_S1024x3072_S1024x1024_0_2048) bitsLt_bf16_f32 : M 1024 1024)
      = cols 2048 1024 (by decide) W := by
  funext j
  obtain ⟨r, q, rfl⟩ : ∃ (r : Fin 1024) (q : Fin 1024), j = ix2 r q := ⟨j 0, j 1, eq_ix2 j⟩
  rw [cols_apply]
  show extractStridedSlice S1024x1024 ![0, 2048] W slices_S1024x3072_S1024x1024_0_2048 (ix2 r q) = _
  refine extractStridedSlice_apply _ W _ _ _ fun ax => ?_
  match ax with
  | ⟨0, _⟩ => show r.val = 0 + r.val; omega
  | ⟨1, _⟩ => rfl

/-- Columns 0 … 1023 of the 512×1536 weight matrix (the change of format is the identity). -/
theorem colsG3 (W : FVec Ideal S512x1536 .f32) :
    (truncf .bf16 (extractStridedSlice S512x1024 ![0, 0] W slices_S512x1536_S512x1024_0_0) bitsLt_bf16_f32 : M 512 1024)
      = cols 0 1024 (by decide) W := by
  funext j
  obtain ⟨r, q, rfl⟩ : ∃ (r : Fin 512) (q : Fin 1024), j = ix2 r q := ⟨j 0, j 1, eq_ix2 j⟩
  rw [cols_apply]
  show extractStridedSlice S512x1024 ![0, 0] W slices_S512x1536_S512x1024_0_0 (ix2 r q) = _
  refine extractStridedSlice_apply _ W _ _ _ fun ax => ?_
  match ax with
  | ⟨0, _⟩ => show r.val = 0 + r.val; omega
  | ⟨1, _⟩ => rfl

/-- Columns 1024 … 1535 of the 512×1536 weight matrix (the change of format is the identity). -/
theorem colsF3 (W : FVec Ideal S512x1536 .f32) :
    (truncf .bf16 (extractStridedSlice S512x512 ![0, 1024] W slices_S512x1536_S512x512_0_1024) bitsLt_bf16_f32 : M 512 512)
      = cols 1024 512 (by decide) W := by
  funext j
  obtain ⟨r, q, rfl⟩ : ∃ (r : Fin 512) (q : Fin 512), j = ix2 r q := ⟨j 0, j 1, eq_ix2 j⟩
  rw [cols_apply]
  show extractStridedSlice S512x512 ![0, 1024] W slices_S512x1536_S512x512_0_1024 (ix2 r q) = _
  refine extractStridedSlice_apply _ W _ _ _ fun ax => ?_
  match ax with
  | ⟨0, _⟩ => show r.val = 0 + r.val; omega
  | ⟨1, _⟩ => rfl

/-- Columns 0 … 511 of the 256×768 weight matrix (the change of format is the identity). -/
theorem colsG2 (W : FVec Ideal S256x768 .f32) :
    (truncf .bf16 (extractStridedSlice S256x512 ![0, 0] W slices_S256x768_S256x512_0_0) bitsLt_bf16_f32 : M 256 512)
      = cols 0 512 (by decide) W := by
  funext j
  obtain ⟨r, q, rfl⟩ : ∃ (r : Fin 256) (q : Fin 512), j = ix2 r q := ⟨j 0, j 1, eq_ix2 j⟩
  rw [cols_apply]
  show extractStridedSlice S256x512 ![0, 0] W slices_S256x768_S256x512_0_0 (ix2 r q) = _
  refine extractStridedSlice_apply _ W _ _ _ fun ax => ?_
  match ax with
  | ⟨0, _⟩ => show r.val = 0 + r.val; omega
  | ⟨1, _⟩ => rfl

/-- Columns 512 … 767 of the 256×768 weight matrix (the change of format is the identity). -/
theorem colsF2 (W : FVec Ideal S256x768 .f32) :
    (truncf .bf16 (extractStridedSlice S256x256 ![0, 512] W slices_S256x768_S256x256_0_512) bitsLt_bf16_f32 : M 256 256)
      = cols 512 256 (by decide) W := by
  funext j
  obtain ⟨r, q, rfl⟩ : ∃ (r : Fin 256) (q : Fin 256), j = ix2 r q := ⟨j 0, j 1, eq_ix2 j⟩
  rw [cols_apply]
  show extractStridedSlice S256x256 ![0, 512] W slices_S256x768_S256x256_0_512 (ix2 r q) = _
  refine extractStridedSlice_apply _ W _ _ _ fun ax => ?_
  match ax with
  | ⟨0, _⟩ => show r.val = 0 + r.val; omega
  | ⟨1, _⟩ => rfl

end Cert.KernelIdeal.Host

end
-- ==== Proof.KReg0.lean ====
/-
  Region 0 of the idealized kernel: the input projection.  Each of the eight grid points multiplies a block
  of 256 rows of the features by the transposed weight matrix and adds the bias; the blocks tile the
  output, so after the region the output array is x·Wᵀ + b, entry by entry, of the arrays the region found.
-/
import proofs.«117334_j39633958207498_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Reg0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

/-! The product of a 256×2048 block with the transpose of a 2048×2048 block, at an entry. -/
abbrev D0 := dot_S256x2048_S2048x2048_S256x2048_1_1_0_0_n_n

theorem D0_lhs0 (i : S256x2048.Idx) (q : D0.contr.Idx) : (D0.lhsIdx i q 0).val = (i 0).val := by
  unfold DotDims.lhsIdx
  rw [dif_neg (show ¬(0 : Fin S256x2048.rank) ∈ D0.lhsBatch by decide), dif_pos (show (0 : Fin S256x2048.rank) ∈ D0.lhsNonContracting by decide)]
  rfl
theorem D0_lhs1 (i : S256x2048.Idx) (q : D0.contr.Idx) : (D0.lhsIdx i q 1).val = (q ⟨0, by decide⟩).val :=
  D0.lhsIdx_val_of_single rfl i q
theorem D0_rhs0 (i : S256x2048.Idx) (q : D0.contr.Idx) : (D0.rhsIdx i q 0).val = (i 1).val := by
  unfold DotDims.rhsIdx
  rw [dif_neg (show ¬(0 : Fin S2048x2048.rank) ∈ D0.rhsBatch by decide), dif_pos (show (0 : Fin S2048x2048.rank) ∈ D0.rhsNonContracting by decide)]
  rfl
theorem D0_rhs1 (i : S256x2048.Idx) (q : D0.contr.Idx) : (D0.rhsIdx i q 1).val = (q ⟨0, by decide⟩).val :=
  D0.rhsIdx_val_of_single rfl i q

/-- Into a zero accumulator the block product's entry (r, n) is the sum over k of lhs[r, k] · rhs[n, k]. -/
theorem D0_apply {φ₁ φ₂ : FTy} (lhs : FVec Ideal S256x2048 φ₁) (rhs : FVec Ideal S2048x2048 φ₂) (r : Fin 256) (n : Fin 2048) :
    matmul D0 none lhs rhs (constant S256x2048 .f32 0x00000000#32) (ix2 r n) = ∑ k : Fin 2048, lhs (ix2 r k) * rhs (ix2 n k) := by
  refine (Ideal.matmul_constant_zero_apply D0 none lhs rhs (ix2 r n)).trans ?_
  rw [← Equiv.sum_comp (contrEquiv1 D0 2048 rfl rfl).symm]
  refine Finset.sum_congr rfl fun k _ => ?_
  have hk := contrEquiv1_symm_val D0 2048 rfl rfl k
  have el : D0.lhsIdx (ix2 r n) ((contrEquiv1 D0 2048 rfl rfl).symm k) = ix2 r k := funext fun a => Fin.ext (by
    match a with
    | ⟨0, _⟩ => exact D0_lhs0 _ _
    | ⟨1, _⟩ => exact (D0_lhs1 _ _).trans hk)
  have er : D0.rhsIdx (ix2 r n) ((contrEquiv1 D0 2048 rfl rfl).symm k) = ix2 n k := funext fun a => Fin.ext (by
    match a with
    | ⟨0, _⟩ => exact D0_rhs0 _ _
    | ⟨1, _⟩ => exact (D0_rhs1 _ _).trans hk)
  rw [el, er]

/-- The body's stored value at an entry: the row of the feature block against the row of the weights, plus the bias. -/
theorem pay_apply (x0 : Vec Ideal S256x2048 .f32) (x1 : Vec Ideal S2048x2048 .bf16) (x2 : Vec Ideal S1x2048 .f32) (r : Fin 256) (n : Fin 2048) :
    k0_pay1 x0 x1 x2 (ix2 r n) = (∑ k : Fin 2048, x0 (ix2 r k) * x1 (ix2 n k)) + x2 (ix2 0 n) := by
  unfold k0_pay1
  rw [truncf_apply, addf_apply, D0_apply, broadcastTo_1b_ab_apply, shapeCast_self, shapeCast_self]
  simp only [truncf_apply]

variable (V : (c : Dev nD) → (b : Ref sig .tc) → Buf (Elt Ideal) ((c : Thread nD τ).loc b))

theorem idx0 : ∀ t : Fin cfg0.N, win0_0.index t (0 : Fin 2) = t.val ∧ win0_0.index t (1 : Fin 2) = 0 :=
  (by decide +kernel : ∀ t : Fin grid0.N, _)

/-- Window 0's block at point `t` is rows 256·t … 256·t + 255 of its array. -/
theorem blk0 (c : Dev nD) (t : Fin cfg0.N) (r : Fin 256) (k : Fin 2048) :
    iblk0 V c 0 t (ix2 r k) = V c (Pipeline.arrRef spec0 0) (ix2 (⟨t.val * 256 + r.val, by have ht : t.val < 8 := t.isLt; have := r.isLt; show _ < 2048; omega⟩ : Fin 2048) k) := by
  obtain ⟨e0, e1⟩ := idx0 t
  show V c (Pipeline.arrRef spec0 0) (((cfg0.win 0).blk t).view.emb (ix2 r k)) = _
  congr 1
  funext ax; apply Fin.ext
  match ax with
  | ⟨0, _⟩ => show win0_0.index t (0 : Fin 2) * 256 + 1 * r.val = t.val * 256 + r.val; omega
  | ⟨1, _⟩ => show win0_0.index t (1 : Fin 2) * 2048 + 1 * k.val = k.val; omega

theorem idx1 : ∀ t : Fin cfg0.N, win0_1.index t (0 : Fin 2) = 0 ∧ win0_1.index t (1 : Fin 2) = 0 :=
  (by decide +kernel : ∀ t : Fin grid0.N, _)

/-- Window 1's block is its whole array at every point. -/
theorem blk1 (c : Dev nD) (t : Fin cfg0.N) (r : Fin 2048) (k : Fin 2048) :
    iblk0 V c 1 t (ix2 r k) = V c (Pipeline.arrRef spec0 1) (ix2 r k) := by
  obtain ⟨e0, e1⟩ := idx1 t
  show V c (Pipeline.arrRef spec0 1) (((cfg0.win 1).blk t).view.emb (ix2 r k)) = _
  congr 1
  funext ax; apply Fin.ext
  match ax with
  | ⟨0, _⟩ => show win0_1.index t (0 : Fin 2) * 2048 + 1 * r.val = r.val; have := r.isLt; omega
  | ⟨1, _⟩ => show win0_1.index t (1 : Fin 2) * 2048 + 1 * k.val = k.val; omega

theorem idx2 : ∀ t : Fin cfg0.N, win0_2.index t (0 : Fin 2) = 0 ∧ win0_2.index t (1 : Fin 2) = 0 :=
  (by decide +kernel : ∀ t : Fin grid0.N, _)

/-- Window 2's block is its whole array at every point. -/
theorem blk2 (c : Dev nD) (t : Fin cfg0.N) (r : Fin 1) (k : Fin 2048) :
    iblk0 V c 2 t (ix2 r k) = V c (Pipeline.arrRef spec0 2) (ix2 (0 : Fin 1) k) := by
  obtain ⟨e0, e1⟩ := idx2 t
  show V c (Pipeline.arrRef spec0 2) (((cfg0.win 2).blk t).view.emb (ix2 r k)) = _
  congr 1
  funext ax; apply Fin.ext
  match ax with
  | ⟨0, _⟩ => show win0_2.index t (0 : Fin 2) * 1 + 1 * r.val = 0; have := r.isLt; omega
  | ⟨1, _⟩ => show win0_2.index t (1 : Fin 2) * 2048 + 1 * k.val = k.val; omega

theorem idx3 : ∀ t : Fin cfg0.N, win0_3.index t (0 : Fin 2) = t.val ∧ win0_3.index t (1 : Fin 2) = 0 :=
  (by decide +kernel : ∀ t : Fin grid0.N, _)

/-- Window 3's block at point `t` is rows 256·t … 256·t + 255 of its array. -/
theorem blk3 (c : Dev nD) (t : Fin cfg0.N) (r : Fin 256) (k : Fin 2048) :
    iblk0 V c 3 t (ix2 r k) = V c (Pipeline.arrRef spec0 3) (ix2 (⟨t.val * 256 + r.val, by have ht : t.val < 8 := t.isLt; have := r.isLt; show _ < 2048; omega⟩ : Fin 2048) k) := by
  obtain ⟨e0, e1⟩ := idx3 t
  show V c (Pipeline.arrRef spec0 3) (((cfg0.win 3).blk t).view.emb (ix2 r k)) = _
  congr 1
  funext ax; apply Fin.ext
  match ax with
  | ⟨0, _⟩ => show win0_3.index t (0 : Fin 2) * 256 + 1 * r.val = t.val * 256 + r.val; omega
  | ⟨1, _⟩ => show win0_3.index t (1 : Fin 2) * 2048 + 1 * k.val = k.val; omega

/-- The linear layer, entry by entry: row `i` of `x` against row `n` of `W`, plus the bias. -/
def lin (x : Vec Ideal S2048x2048 .f32) (W : Vec Ideal S2048x2048 .bf16) (b : Vec Ideal S1x2048 .f32) : Vec Ideal S2048x2048 .bf16 :=
  fun j => (∑ k : Fin 2048, x (ix2 (⟨(j 0).val, idx2_lt0 j⟩ : Fin 2048) k) * W (ix2 (⟨(j 1).val, idx2_lt1 j⟩ : Fin 2048) k))
    + b (ix2 (0 : Fin 1) (⟨(j 1).val, idx2_lt1 j⟩ : Fin 2048))

/-- What point `t` writes back is block `t` of the linear layer of the arrays the region finds. -/
theorem flushed3_eq (c : Dev nD) (t : Fin cfg0.N) :
    (dat0 V c).flushed 3 t = ((cfg0.win 3).blk t).view.read (Elt Ideal)
      (lin (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S256x2048) hz, View.ld_unit_zero (S := S2048x2048) hz, View.ld_unit_zero (S := S1x2048) hz]
  funext y
  obtain ⟨r, n, rfl⟩ : ∃ (r : Fin 256) (n : Fin 2048), y = ix2 r n := ⟨y 0, y 1, eq_ix2 y⟩
  show k0_pay1 (iblk0 V c 0 t) (iblk0 V c 1 t) (iblk0 V c 2 t) (ix2 r n)
    = lin (V c (Pipeline.arrRef spec0 0)) (V c (Pipeline.arrRef spec0 1)) (V c (Pipeline.arrRef spec0 2)) (((cfg0.win 3).blk t).view.emb (ix2 r n))
  refine (pay_apply (iblk0 V c 0 t) (iblk0 V c 1 t) (iblk0 V c 2 t) r n).trans ?_
  have hemb : ((cfg0.win 3).blk t).view.emb (ix2 r n) = ix2 (⟨t.val * 256 + r.val, by have ht : t.val < 8 := t.isLt; have := r.isLt; show _ < 2048; omega⟩ : Fin 2048) n := by
    obtain ⟨e0, e1⟩ := idx3 t
    funext ax; apply Fin.ext
    match ax with
    | ⟨0, _⟩ => show win0_3.index t (0 : Fin 2) * 256 + 1 * r.val = t.val * 256 + r.val; omega
    | ⟨1, _⟩ => show win0_3.index t (1 : Fin 2) * 2048 + 1 * n.val = n.val; omega
  rw [hemb]
  unfold lin
  simp only [blk0, blk1, blk2]

theorem mem_blk3 (t : Fin cfg0.N) (i : S2048x2048.Idx) :
    i ∈ ((cfg0.win 3).blk t).view.set ↔ ∀ ax : Fin 2, win0_3.index t ax * S256x2048.size ax ≤ (i ax).val ∧ (i ax).val < win0_3.index t ax * S256x2048.size ax + S256x2048.size ax := by
  show i ∈ ((View.whole main_v14).slice (win0_3.rect t)).set ↔ _
  rw [View.set_slice_whole, Rect.mem_set_unit]
  exact Iff.rfl

/-- Row `R` of the array lies in the block of point `R / 256`: the 8 blocks of 256 rows cover it. -/
theorem cover3 (i : S2048x2048.Idx) : ∃ t : Fin cfg0.N, (cfg0.win 3).flush t = true ∧ i ∈ ((cfg0.win 3).blk t).view.set := by
  have hi0 : (i 0).val < 2048 := (i 0).isLt
  have hi1 : (i 1).val < 2048 := (i 1).isLt
  have ht : (i 0).val / 256 < 8 := by omega
  refine ⟨⟨(i 0).val / 256, ht⟩, flush0_3 _, ?_⟩
  rw [mem_blk3]
  obtain ⟨e0, e1⟩ := idx3 ⟨(i 0).val / 256, ht⟩
  intro ax
  match ax with
  | ⟨0, _⟩ =>
    show win0_3.index ⟨(i 0).val / 256, ht⟩ (0 : Fin 2) * 256 ≤ (i 0).val ∧ (i 0).val < win0_3.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_3.index ⟨(i 0).val / 256, ht⟩ (1 : Fin 2) * 2048 ≤ (i 1).val ∧ (i 1).val < win0_3.index ⟨(i 0).val / 256, ht⟩ (1 : Fin 2) * 2048 + 2048
    rw [e1]; omega

/-- After the region this output array is that function of the arrays the region found. -/
theorem final3 (c : Dev nD) : (dat0 V c).arrAt 3 cfg0.N = lin (V c (Pipeline.arrRef spec0 0)) (V c (Pipeline.arrRef spec0 1)) (V c (Pipeline.arrRef spec0 2)) :=
  (dat0 V c).arrAt_eq_of_cover 3 _ (fun t _ => flushed3_eq V c t) cover3

end Cert.KernelIdeal.Reg0

end
-- ==== Proof.KReg1.lean ====
/-
  Region 1 of the idealized kernel: the first decoder layer and its statistics.  Each of the 32 grid points
  takes a block of 256 rows, multiplies the gathered operand by the first half of the weight matrix and the
  plain operand by the second half, adds the bias and stores the block; it also stores, eight times over,
  the block's column sums and the column sums of its squares.  The blocks tile the three outputs.
-/
import proofs.«117334_j39633958207498_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import proofs.«117334_j39633958207498_2_alg».proof.Proof.Stages

set_option maxRecDepth 16384

noncomputable section

namespace Cert.KernelIdeal.Reg1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.FPN

theorem hz : (![0, 0] : Fin 2 → Nat) = fun _ => 0 := funext fun a => by fin_cases a <;> rfl

/-! The product of a 256×2048 block with the transpose of a 1024×2048 block, at an entry. -/
abbrev D1g := dot_S256x2048_S1024x2048_S256x1024_1_1_0_0_n_n

theorem D1g_lhs0 (i : S256x1024.Idx) (q : D1g.contr.Idx) : (D1g.lhsIdx i q 0).val = (i 0).val := by
  unfold DotDims.lhsIdx
  rw [dif_neg (show ¬(0 : Fin S256x2048.rank) ∈ D1g.lhsBatch by decide), dif_pos (show (0 : Fin S256x2048.rank) ∈ D1g.lhsNonContracting by decide)]
  rfl
theorem D1g_lhs1 (i : S256x1024.Idx) (q : D1g.contr.Idx) : (D1g.lhsIdx i q 1).val = (q ⟨0, by decide⟩).val :=
  D1g.lhsIdx_val_of_single rfl i q
theorem D1g_rhs0 (i : S256x1024.Idx) (q : D1g.contr.Idx) : (D1g.rhsIdx i q 0).val = (i 1).val := by
  unfold DotDims.rhsIdx
  rw [dif_neg (show ¬(0 : Fin S1024x2048.rank) ∈ D1g.rhsBatch by decide), dif_pos (show (0 : Fin S1024x2048.rank) ∈ D1g.rhsNonContracting by decide)]
  rfl
theorem D1g_rhs1 (i : S256x1024.Idx) (q : D1g.contr.Idx) : (D1g.rhsIdx i q 1).val = (q ⟨0, by decide⟩).val :=
  D1g.rhsIdx_val_of_single rfl i q

/-- Into a zero accumulator the block product's entry (r, n) is the sum over k of lhs[r, k] · rhs[n, k]. -/
theorem D1g_apply {φ₁ φ₂ : FTy} (lhs : FVec Ideal S256x2048 φ₁) (rhs : FVec Ideal S1024x2048 φ₂) (r : Fin 256) (n : Fin 1024) :
    matmul D1g none lhs rhs (constant S256x1024 .f32 0x00000000#32) (ix2 r n) = ∑ k : Fin 2048, lhs (ix2 r k) * rhs (ix2 n k) := by
  refine (Ideal.matmul_constant_zero_apply D1g none lhs rhs (ix2 r n)).trans ?_
  rw [← Equiv.sum_comp (contrEquiv1 D1g 2048 rfl rfl).symm]
  refine Finset.sum_congr rfl fun k _ => ?_
  have hk := contrEquiv1_symm_val D1g 2048 rfl rfl k
  have el : D1g.lhsIdx (ix2 r n) ((contrEquiv1 D1g 2048 rfl rfl).symm k) = ix2 r k := funext fun a => Fin.ext (by
    match a with
    | ⟨0, _⟩ => exact D1g_lhs0 _ _
    | ⟨1, _⟩ => exact (D1g_lhs1 _ _).trans hk)
  have er : D1g.rhsIdx (ix2 r n) ((contrEquiv1 D1g 2048 rfl rfl).symm k) = ix2 n k := funext fun a => Fin.ext (by
    match a with
    | ⟨0, _⟩ => exact D1g_rhs0 _ _
    | ⟨1, _⟩ => exact (D1g_rhs1 _ _).trans hk)
  rw [el, er]

/-! The product of a 256×1024 block with the transpose of a 1024×1024 block, at an entry. -/
abbrev D1f := dot_S256x1024_S1024x1024_S256x1024_1_1_0_0_n_n

theorem D1f_lhs0 (i : S256x1024.Idx) (q : D1f.contr.Idx) : (D1f.lhsIdx i q 0).val = (i 0).val := by
  unfold DotDims.lhsIdx
  rw [dif_neg (show ¬(0 : Fin S256x1024.rank) ∈ D1f.lhsBatch by decide), dif_pos (show (0 : Fin S256x1024.rank) ∈ D1f.lhsNonContracting by decide)]
  rfl
theorem D1f_lhs1 (i : S256x1024.Idx) (q : D1f.contr.Idx) : (D1f.lhsIdx i q 1).val = (q ⟨0, by decide⟩).val :=
  D1f.lhsIdx_val_of_single rfl i q
theorem D1f_rhs0 (i : S256x1024.Idx) (q : D1f.contr.Idx) : (D1f.rhsIdx i q 0).val = (i 1).val := by
  unfold DotDims.rhsIdx
  rw [dif_neg (show ¬(0 : Fin S1024x1024.rank) ∈ D1f.rhsBatch by decide), dif_pos (show (0 : Fin S1024x1024.rank) ∈ D1f.rhsNonContracting by decide)]
  rfl
theorem D1f_rhs1 (i : S256x1024.Idx) (q : D1f.contr.Idx) : (D1f.rhsIdx i q 1).val = (q ⟨0, by decide⟩).val :=
  D1f.rhsIdx_val_of_single rfl i q

/-- Into a zero accumulator the block product's entry (r, n) is the sum over k of lhs[r, k] · rhs[n, k]. -/
theorem D1f_apply {φ₁ φ₂ : FTy} (lhs : FVec Ideal S256x1024 φ₁) (rhs : FVec Ideal S1024x1024 φ₂) (r : Fin 256) (n : Fin 1024) :
    matmul D1f none lhs rhs (constant S256x1024 .f32 0x00000000#32) (ix2 r n) = ∑ k : Fin 1024, lhs (ix2 r k) * rhs (ix2 n k) := by
  refine (Ideal.matmul_constant_zero_apply D1f none lhs rhs (ix2 r n)).trans ?_
  rw [← Equiv.sum_comp (contrEquiv1 D1f 1024 rfl rfl).symm]
  refine Finset.sum_congr rfl fun k _ => ?_
  have hk := contrEquiv1_symm_val D1f 1024 rfl rfl k
  have el : D1f.lhsIdx (ix2 r n) ((contrEquiv1 D1f 1024 rfl rfl).symm k) = ix2 r k := funext fun a => Fin.ext (by
    match a with
    | ⟨0, _⟩ => exact D1f_lhs0 _ _
    | ⟨1, _⟩ => exact (D1f_lhs1 _ _).trans hk)
  have er : D1f.rhsIdx (ix2 r n) ((contrEquiv1 D1f 1024 rfl rfl).symm k) = ix2 n k := funext fun a => Fin.ext (by
    match a with
    | ⟨0, _⟩ => exact D1f_rhs0 _ _
    | ⟨1, _⟩ => exact (D1f_rhs1 _ _).trans hk)
  rw [el, er]

/-- The layer's block at an entry. -/
theorem pay1_apply (x0 : Vec Ideal S256x2048 .bf16) (x1 : Vec Ideal S256x1024 .f32) (x2 : Vec Ideal S1024x2048 .bf16)
    (x3 : Vec Ideal S1024x1024 .bf16) (x4 : Vec Ideal S1x1024 .f32) (r : Fin 256) (n : Fin 1024) :
    k1_pay1 x0 x1 x2 x3 x4 (ix2 r n)
      = ((∑ k : Fin 2048, x0 (ix2 r k) * x2 (ix2 n k)) + ∑ k : Fin 1024, x1 (ix2 r k) * x3 (ix2 n k)) + x4 (ix2 (0 : Fin 1) n) := by
  unfold k1_pay1
  simp only [shapeCast_self]
  rw [addf_apply, addf_apply, D1g_apply, D1f_apply, broadcastTo_1b_ab_apply]
  simp only [truncf_apply]

/-- The stored block is the layer's block (the change of format is the identity). -/
theorem pay2_apply (x0 : Vec Ideal S256x2048 .bf16) (x1 : Vec Ideal S256x1024 .f32) (x2 : Vec Ideal S1024x2048 .bf16)
    (x3 : Vec Ideal S1024x1024 .bf16) (x4 : Vec Ideal S1x1024 .f32) (j : S256x1024.Idx) :
    k1_pay2 x0 x1 x2 x3 x4 j = k1_pay1 x0 x1 x2 x3 x4 j := rfl

/-- Summing a 256×1024 block over its rows, read at a column. -/
theorem colsum_apply (x : FVec Ideal S256x1024 .f32) (n : Fin 1024) :
    multiReduction .add [0] S1024 x 0x00000000#32 reduces_S256x1024_S1024 (.inl rfl) rfl (ix1 n) = ∑ i : Fin 256, x (ix2 i n) := by
  refine (Ideal.multiReduction_add_single x _ reduces_S256x1024_S1024 _ _ (ix1 n)).trans ?_
  refine Finset.sum_congr rfl fun i _ => congrArg x ?_
  funext ax; apply Fin.ext
  match ax with
  | ⟨0, _⟩ => rfl
  | ⟨1, _⟩ => rfl

/-- Each of the eight stored rows is the block's column sums. -/
theorem pay3_apply (x0 : Vec Ideal S256x2048 .bf16) (x1 : Vec Ideal S256x1024 .f32) (x2 : Vec Ideal S1024x2048 .bf16)
    (x3 : Vec Ideal S1024x1024 .bf16) (x4 : Vec Ideal S1x1024 .f32) (s : Fin 8) (n : Fin 1024) :
    k1_pay3 x0 x1 x2 x3 x4 (ix2 s n) = ∑ i : Fin 256, k1_pay1 x0 x1 x2 x3 x4 (ix2 i n) := by
  unfold k1_pay3
  rw [broadcastTo_1b_ab_apply, shapeCast_self, shapeCast_a_1a_apply, colsum_apply]

/-- … and of the squares. -/
theorem pay4_apply (x0 : Vec Ideal S256x2048 .bf16) (x1 : Vec Ideal S256x1024 .f32) (x2 : Vec Ideal S1024x2048 .bf16)
    (x3 : Vec Ideal S1024x1024 .bf16) (x4 : Vec Ideal S1x1024 .f32) (s : Fin 8) (n : Fin 1024) :
    k1_pay4 x0 x1 x2 x3 x4 (ix2 s n) = ∑ i : Fin 256, k1_pay1 x0 x1 x2 x3 x4 (ix2 i n) * k1_pay1 x0 x1 x2 x3 x4 (ix2 i n) := by
  unfold k1_pay4
  rw [broadcastTo_1b_ab_apply, shapeCast_self, shapeCast_a_1a_apply, colsum_apply]
  simp only [mulf_apply]

variable (V : (c : Dev nD) → (b : Ref sig .tc) → Buf (Elt Ideal) ((c : Thread nD τ).loc b))

theorem idx0 : ∀ t : Fin cfg1.N, win1_0.index t (0 : Fin 2) = t.val ∧ win1_0.index t (1 : Fin 2) = 0 :=
  (by decide +kernel : ∀ t : Fin grid1.N, _)

/-- Window 0's block at point `t` is rows 256·t … 256·t + 255 of its array. -/
theorem blk0 (c : Dev nD) (t : Fin cfg1.N) (r : Fin 256) (k : Fin 2048) :
    iblk1 V c 0 t (ix2 r k) = V c (Pipeline.arrRef spec1 0) (ix2 (⟨t.val * 256 + r.val, by have ht : t.val < 32 := t.isLt; have := r.isLt; show _ < 8192; omega⟩ : Fin 8192) k) := by
  obtain ⟨e0, e1⟩ := idx0 t
  show V c (Pipeline.arrRef spec1 0) (((cfg1.win 0).blk t).view.emb (ix2 r k)) = _
  congr 1
  funext ax; apply Fin.ext
  match ax with
  | ⟨0, _⟩ => show win1_0.index t (0 : Fin 2) * 256 + 1 * r.val = t.val * 256 + r.val; omega
  | ⟨1, _⟩ => show win1_0.index t (1 : Fin 2) * 2048 + 1 * k.val = k.val; omega

theorem idx1 : ∀ t : Fin cfg1.N, win1_1.index t (0 : Fin 2) = t.val ∧ win1_1.index t (1 : Fin 2) = 0 :=
  (by decide +kernel : ∀ t : Fin grid1.N, _)

/-- Window 1's block at point `t` is rows 256·t … 256·t + 255 of its array. -/
theorem blk1 (c : Dev nD) (t : Fin cfg1.N) (r : Fin 256) (k : Fin 1024) :
    iblk1 V c 1 t (ix2 r k) = V c (Pipeline.arrRef spec1 1) (ix2 (⟨t.val * 256 + r.val, by have ht : t.val < 32 := t.isLt; have := r.isLt; show _ < 8192; omega⟩ : Fin 8192) k) := by
  obtain ⟨e0, e1⟩ := idx1 t
  show V c (Pipeline.arrRef spec1 1) (((cfg1.win 1).blk t).view.emb (ix2 r k)) = _
  congr 1
  funext ax; apply Fin.ext
  match ax with
  | ⟨0, _⟩ => show win1_1.index t (0 : Fin 2) * 256 + 1 * r.val = t.val * 256 + r.val; omega
  | ⟨1, _⟩ => show win1_1.index t (1 : Fin 2) * 1024 + 1 * k.val = k.val; omega

theorem idx2 : ∀ t : Fin cfg1.N, win1_2.index t (0 : Fin 2) = 0 ∧ win1_2.index t (1 : Fin 2) = 0 :=
  (by decide +kernel : ∀ t : Fin grid1.N, _)

/-- Window 2's block is its whole array at every point. -/
theorem blk2 (c : Dev nD) (t : Fin cfg1.N) (r : Fin 1024) (k : Fin 2048) :
    iblk1 V c 2 t (ix2 r k) = V c (Pipeline.arrRef spec1 2) (ix2 r k) := by
  obtain ⟨e0, e1⟩ := idx2 t
  show V c (Pipeline.arrRef spec1 2) (((cfg1.win 2).blk t).view.emb (ix2 r k)) = _
  congr 1
  funext ax; apply Fin.ext
  match ax with
  | ⟨0, _⟩ => show win1_2.index t (0 : Fin 2) * 1024 + 1 * r.val = r.val; have := r.isLt; omega
  | ⟨1, _⟩ => show win1_2.index t (1 : Fin 2) * 2048 + 1 * k.val = k.val; omega

theorem idx3 : ∀ t : Fin cfg1.N, win1_3.index t (0 : Fin 2) = 0 ∧ win1_3.index t (1 : Fin 2) = 0 :=
  (by decide +kernel : ∀ t : Fin grid1.N, _)

/-- Window 3's block is its whole array at every point. -/
theorem blk3 (c : Dev nD) (t : Fin cfg1.N) (r : Fin 1024) (k : Fin 1024) :
    iblk1 V c 3 t (ix2 r k) = V c (Pipeline.arrRef spec1 3) (ix2 r k) := by
  obtain ⟨e0, e1⟩ := idx3 t
  show V c (Pipeline.arrRef spec1 3) (((cfg1.win 3).blk t).view.emb (ix2 r k)) = _
  congr 1
  funext ax; apply Fin.ext
  match ax with
  | ⟨0, _⟩ => show win1_3.index t (0 : Fin 2) * 1024 + 1 * r.val = r.val; have := r.isLt; omega
  | ⟨1, _⟩ => show win1_3.index t (1 : Fin 2) * 1024 + 1 * k.val = k.val; omega

theorem idx4 : ∀ t : Fin cfg1.N, win1_4.index t (0 : Fin 2) = 0 ∧ win1_4.index t (1 : Fin 2) = 0 :=
  (by decide +kernel : ∀ t : Fin grid1.N, _)

/-- Window 4's block is its whole array at every point. -/
theorem blk4 (c : Dev nD) (t : Fin cfg1.N) (r : Fin 1) (k : Fin 1024) :
    iblk1 V c 4 t (ix2 r k) = V c (Pipeline.arrRef spec1 4) (ix2 (0 : Fin 1) k) := by
  obtain ⟨e0, e1⟩ := idx4 t
  show V c (Pipeline.arrRef spec1 4) (((cfg1.win 4).blk t).view.emb (ix2 r k)) = _
  congr 1
  funext ax; apply Fin.ext
  match ax with
  | ⟨0, _⟩ => show win1_4.index t (0 : Fin 2) * 1 + 1 * r.val = 0; have := r.isLt; omega
  | ⟨1, _⟩ => show win1_4.index t (1 : Fin 2) * 1024 + 1 * k.val = k.val; omega

theorem idx5 : ∀ t : Fin cfg1.N, win1_5.index t (0 : Fin 2) = t.val ∧ win1_5.index t (1 : Fin 2) = 0 :=
  (by decide +kernel : ∀ t : Fin grid1.N, _)

/-- Window 5's block at point `t` is rows 256·t … 256·t + 255 of its array. -/
theorem blk5 (c : Dev nD) (t : Fin cfg1.N) (r : Fin 256) (k : Fin 1024) :
    iblk1 V c 5 t (ix2 r k) = V c (Pipeline.arrRef spec1 5) (ix2 (⟨t.val * 256 + r.val, by have ht : t.val < 32 := t.isLt; have := r.isLt; show _ < 8192; omega⟩ : Fin 8192) k) := by
  obtain ⟨e0, e1⟩ := idx5 t
  show V c (Pipeline.arrRef spec1 5) (((cfg1.win 5).blk t).view.emb (ix2 r k)) = _
  congr 1
  funext ax; apply Fin.ext
  match ax with
  | ⟨0, _⟩ => show win1_5.index t (0 : Fin 2) * 256 + 1 * r.val = t.val * 256 + r.val; omega
  | ⟨1, _⟩ => show win1_5.index t (1 : Fin 2) * 1024 + 1 * k.val = k.val; omega

theorem idx6 : ∀ t : Fin cfg1.N, win1_6.index t (0 : Fin 2) = t.val ∧ win1_6.index t (1 : Fin 2) = 0 :=
  (by decide +kernel : ∀ t : Fin grid1.N, _)

/-- Window 6's block at point `t` is rows 8·t … 8·t + 7 of its array. -/
theorem blk6 (c : Dev nD) (t : Fin cfg1.N) (r : Fin 8) (k : Fin 1024) :
    iblk1 V c 6 t (ix2 r k) = V c (Pipeline.arrRef spec1 6) (ix2 (⟨t.val * 8 + r.val, by have ht : t.val < 32 := t.isLt; have := r.isLt; show _ < 256; omega⟩ : Fin 256) k) := by
  obtain ⟨e0, e1⟩ := idx6 t
  show V c (Pipeline.arrRef spec1 6) (((cfg1.win 6).blk t).view.emb (ix2 r k)) = _
  congr 1
  funext ax; apply Fin.ext
  match ax with
  | ⟨0, _⟩ => show win1_6.index t (0 : Fin 2) * 8 + 1 * r.val = t.val * 8 + r.val; omega
  | ⟨1, _⟩ => show win1_6.index t (1 : Fin 2) * 1024 + 1 * k.val = k.val; omega

theorem idx7 : ∀ t : Fin cfg1.N, win1_7.index t (0 : Fin 2) = t.val ∧ win1_7.index t (1 : Fin 2) = 0 :=
  (by decide +kernel : ∀ t : Fin grid1.N, _)

/-- Window 7's block at point `t` is rows 8·t … 8·t + 7 of its array. -/
theorem blk7 (c : Dev nD) (t : Fin cfg1.N) (r : Fin 8) (k : Fin 1024) :
    iblk1 V c 7 t (ix2 r k) = V c (Pipeline.arrRef spec1 7) (ix2 (⟨t.val * 8 + r.val, by have ht : t.val < 32 := t.isLt; have := r.isLt; show _ < 256; omega⟩ : Fin 256) k) := by
  obtain ⟨e0, e1⟩ := idx7 t
  show V c (Pipeline.arrRef spec1 7) (((cfg1.win 7).blk t).view.emb (ix2 r k)) = _
  congr 1
  funext ax; apply Fin.ext
  match ax with
  | ⟨0, _⟩ => show win1_7.index t (0 : Fin 2) * 8 + 1 * r.val = t.val * 8 + r.val; omega
  | ⟨1, _⟩ => show win1_7.index t (1 : Fin 2) * 1024 + 1 * k.val = k.val; omega

theorem rows_lt (R : Fin 256) (i : Fin 256) : R.val / 8 * 256 + i.val < 8192 := by
  have := R.isLt; have := i.isLt; omega

/-- The layer's block at an entry, over the arrays the region finds. -/
theorem pay1_blk (c : Dev nD) (t : Fin cfg1.N) (r : Fin 256) (n : Fin 1024) :
    k1_pay1 (iblk1 V c 0 t) (iblk1 V c 1 t) (iblk1 V c 2 t) (iblk1 V c 3 t) (iblk1 V c 4 t) (ix2 r n)
      = lin2 (V c (Pipeline.arrRef spec1 0)) (V c (Pipeline.arrRef spec1 1)) (V c (Pipeline.arrRef spec1 2)) (V c (Pipeline.arrRef spec1 3)) (V c (Pipeline.arrRef spec1 4)) (⟨t.val * 256 + r.val, by have ht : t.val < 32 := t.isLt; have := r.isLt; omega⟩ : Fin 8192) n := by
  rw [pay1_apply]
  unfold lin2 dot
  simp only [blk0, blk1, blk2, blk3, blk4]

theorem flushed5_eq (c : Dev nD) (t : Fin cfg1.N) :
    (dat1 V c).flushed 5 t = ((cfg1.win 5).blk t).view.read (Elt Ideal) (arr2 (lin2 (V c (Pipeline.arrRef spec1 0)) (V c (Pipeline.arrRef spec1 1)) (V c (Pipeline.arrRef spec1 2)) (V c (Pipeline.arrRef spec1 3)) (V c (Pipeline.arrRef spec1 4)))) := by
  show (cfg1.win 5).cut (grid1.coords t) ((dat1 V c).after 5 t) = _
  rw [after1_5]
  unfold out1_5
  rw [View.canon_unit_zero hz]
  simp only [View.ld_unit_zero (S := S256x2048) hz, View.ld_unit_zero (S := S256x1024) hz, View.ld_unit_zero (S := S1024x2048) hz,
    View.ld_unit_zero (S := S1024x1024) hz, View.ld_unit_zero (S := S1x1024) hz]
  funext y
  obtain ⟨r, n, rfl⟩ : ∃ (r : Fin 256) (n : Fin 1024), y = ix2 r n := ⟨y 0, y 1, eq_ix2 y⟩
  show k1_pay2 (iblk1 V c 0 t) (iblk1 V c 1 t) (iblk1 V c 2 t) (iblk1 V c 3 t) (iblk1 V c 4 t) (ix2 r n) = arr2 (lin2 (V c (Pipeline.arrRef spec1 0)) (V c (Pipeline.arrRef spec1 1)) (V c (Pipeline.arrRef spec1 2)) (V c (Pipeline.arrRef spec1 3)) (V c (Pipeline.arrRef spec1 4))) (((cfg1.win 5).blk t).view.emb (ix2 r n))
  rw [pay2_apply, pay1_blk]
  have hemb : ((cfg1.win 5).blk t).view.emb (ix2 r n) = ix2 (⟨t.val * 256 + r.val, by have ht : t.val < 32 := t.isLt; have := r.isLt; show _ < 8192; omega⟩ : Fin 8192) n := by
    obtain ⟨e0, e1⟩ := idx5 t
    funext ax; apply Fin.ext
    match ax with
    | ⟨0, _⟩ => show win1_5.index t (0 : Fin 2) * 256 + 1 * r.val = t.val * 256 + r.val; omega
    | ⟨1, _⟩ => show win1_5.index t (1 : Fin 2) * 1024 + 1 * n.val = n.val; omega
  rw [hemb, arr2_apply]

theorem flushed6_eq (c : Dev nD) (t : Fin cfg1.N) :
    (dat1 V c).flushed 6 t = ((cfg1.win 6).blk t).view.read (Elt Ideal) (arr2 (blockSum 256 rows_lt (lin2 (V c (Pipeline.arrRef spec1 0)) (V c (Pipeline.arrRef spec1 1)) (V c (Pipeline.arrRef spec1 2)) (V c (Pipeline.arrRef spec1 3)) (V c (Pipeline.arrRef spec1 4))))) := by
  show (cfg1.win 6).cut (grid1.coords t) ((dat1 V c).after 6 t) = _
  rw [after1_6]
  unfold out1_6
  rw [View.canon_unit_zero hz]
  simp only [View.ld_unit_zero (S := S256x2048) hz, View.ld_unit_zero (S := S256x1024) hz, View.ld_unit_zero (S := S1024x2048) hz,
    View.ld_unit_zero (S := S1024x1024) hz, View.ld_unit_zero (S := S1x1024) hz]
  funext y
  obtain ⟨r, n, rfl⟩ : ∃ (r : Fin 8) (n : Fin 1024), y = ix2 r n := ⟨y 0, y 1, eq_ix2 y⟩
  show k1_pay3 (iblk1 V c 0 t) (iblk1 V c 1 t) (iblk1 V c 2 t) (iblk1 V c 3 t) (iblk1 V c 4 t) (ix2 r n) = arr2 (blockSum 256 rows_lt (lin2 (V c (Pipeline.arrRef spec1 0)) (V c (Pipeline.arrRef spec1 1)) (V c (Pipeline.arrRef spec1 2)) (V c (Pipeline.arrRef spec1 3)) (V c (Pipeline.arrRef spec1 4)))) (((cfg1.win 6).blk t).view.emb (ix2 r n))
  rw [pay3_apply]
  have hemb : ((cfg1.win 6).blk t).view.emb (ix2 r n) = ix2 (⟨t.val * 8 + r.val, by have ht : t.val < 32 := t.isLt; have := r.isLt; show _ < 256; omega⟩ : Fin 256) n := by
    obtain ⟨e0, e1⟩ := idx6 t
    funext ax; apply Fin.ext
    match ax with
    | ⟨0, _⟩ => show win1_6.index t (0 : Fin 2) * 8 + 1 * r.val = t.val * 8 + r.val; omega
    | ⟨1, _⟩ => show win1_6.index t (1 : Fin 2) * 1024 + 1 * n.val = n.val; omega
  rw [hemb, arr2_apply]
  unfold blockSum
  refine Finset.sum_congr rfl fun i _ => ?_
  rw [pay1_blk]
  congr 1
  apply Fin.ext
  show t.val * 256 + i.val = (t.val * 8 + r.val) / 8 * 256 + i.val
  have := r.isLt; omega

theorem flushed7_eq (c : Dev nD) (t : Fin cfg1.N) :
    (dat1 V c).flushed 7 t = ((cfg1.win 7).blk t).view.read (Elt Ideal)
      (arr2 (blockSum 256 rows_lt fun R n => lin2 (V c (Pipeline.arrRef spec1 0)) (V c (Pipeline.arrRef spec1 1)) (V c (Pipeline.arrRef spec1 2)) (V c (Pipeline.arrRef spec1 3)) (V c (Pipeline.arrRef spec1 4)) R n * lin2 (V c (Pipeline.arrRef spec1 0)) (V c (Pipeline.arrRef spec1 1)) (V c (Pipeline.arrRef spec1 2)) (V c (Pipeline.arrRef spec1 3)) (V c (Pipeline.arrRef spec1 4)) R n)) := by
  show (cfg1.win 7).cut (grid1.coords t) ((dat1 V c).after 7 t) = _
  rw [after1_7]
  unfold out1_7
  rw [View.canon_unit_zero hz]
  simp only [View.ld_unit_zero (S := S256x2048) hz, View.ld_unit_zero (S := S256x1024) hz, View.ld_unit_zero (S := S1024x2048) hz,
    View.ld_unit_zero (S := S1024x1024) hz, View.ld_unit_zero (S := S1x1024) hz]
  funext y
  obtain ⟨r, n, rfl⟩ : ∃ (r : Fin 8) (n : Fin 1024), y = ix2 r n := ⟨y 0, y 1, eq_ix2 y⟩
  show k1_pay4 (iblk1 V c 0 t) (iblk1 V c 1 t) (iblk1 V c 2 t) (iblk1 V c 3 t) (iblk1 V c 4 t) (ix2 r n) = arr2 (blockSum 256 rows_lt fun R n => lin2 (V c (Pipeline.arrRef spec1 0)) (V c (Pipeline.arrRef spec1 1)) (V c (Pipeline.arrRef spec1 2)) (V c (Pipeline.arrRef spec1 3)) (V c (Pipeline.arrRef spec1 4)) R n * lin2 (V c (Pipeline.arrRef spec1 0)) (V c (Pipeline.arrRef spec1 1)) (V c (Pipeline.arrRef spec1 2)) (V c (Pipeline.arrRef spec1 3)) (V c (Pipeline.arrRef spec1 4)) R n) (((cfg1.win 7).blk t).view.emb (ix2 r n))
  rw [pay4_apply]
  have hemb : ((cfg1.win 7).blk t).view.emb (ix2 r n) = ix2 (⟨t.val * 8 + r.val, by have ht : t.val < 32 := t.isLt; have := r.isLt; show _ < 256; omega⟩ : Fin 256) n := by
    obtain ⟨e0, e1⟩ := idx7 t
    funext ax; apply Fin.ext
    match ax with
    | ⟨0, _⟩ => show win1_7.index t (0 : Fin 2) * 8 + 1 * r.val = t.val * 8 + r.val; omega
    | ⟨1, _⟩ => show win1_7.index t (1 : Fin 2) * 1024 + 1 * n.val = n.val; omega
  rw [hemb, arr2_apply]
  unfold blockSum
  refine Finset.sum_congr rfl fun i _ => ?_
  rw [pay1_blk]
  have e : (⟨t.val * 256 + i.val, by have ht : t.val < 32 := t.isLt; have := i.isLt; omega⟩ : Fin 8192)
      = ⟨(⟨t.val * 8 + r.val, by have ht : t.val < 32 := t.isLt; have := r.isLt; show _ < 256; omega⟩ : Fin 256).val / 8 * 256 + i.val, rows_lt _ i⟩ := by
    apply Fin.ext
    show t.val * 256 + i.val = (t.val * 8 + r.val) / 8 * 256 + i.val
    have := r.isLt; omega
  rw [e]

theorem mem_blk5 (t : Fin cfg1.N) (i : S8192x1024.Idx) :
    i ∈ ((cfg1.win 5).blk t).view.set ↔ ∀ ax : Fin 2, win1_5.index t ax * S256x1024.size ax ≤ (i ax).val ∧ (i ax).val < win1_5.index t ax * S256x1024.size ax + S256x1024.size ax := by
  show i ∈ ((View.whole main_v23_0).slice (win1_5.rect t)).set ↔ _
  rw [View.set_slice_whole, Rect.mem_set_unit]
  exact Iff.rfl

/-- Row `R` of the array lies in the block of point `R / 256`: the 32 blocks of 256 rows cover it. -/
theorem cover5 (i : S8192x1024.Idx) : ∃ t : Fin cfg1.N, (cfg1.win 5).flush t = true ∧ i ∈ ((cfg1.win 5).blk t).view.set := by
  have hi0 : (i 0).val < 8192 := (i 0).isLt
  have hi1 : (i 1).val < 1024 := (i 1).isLt
  have ht : (i 0).val / 256 < 32 := by omega
  refine ⟨⟨(i 0).val / 256, ht⟩, flush1_5 _, ?_⟩
  rw [mem_blk5]
  obtain ⟨e0, e1⟩ := idx5 ⟨(i 0).val / 256, ht⟩
  intro ax
  match ax with
  | ⟨0, _⟩ =>
    show win1_5.index ⟨(i 0).val / 256, ht⟩ (0 : Fin 2) * 256 ≤ (i 0).val ∧ (i 0).val < win1_5.index ⟨(i 0).val / 256, ht⟩ (0 : Fin 2) * 256 + 256
    rw [e0]; show (i 0).val / 256 * 256 ≤ (i 0).val ∧ (i 0).val < (i 0).val / 256 * 256 + 256; omega
  | ⟨1, _⟩ =>
    show win1_5.index ⟨(i 0).val / 256, ht⟩ (1 : Fin 2) * 1024 ≤ (i 1).val ∧ (i 1).val < win1_5.index ⟨(i 0).val / 256, ht⟩ (1 : Fin 2) * 1024 + 1024
    rw [e1]; omega

/-- After the region this output array is that function of the arrays the region found. -/
theorem final5 (c : Dev nD) : (dat1 V c).arrAt 5 cfg1.N = arr2 (lin2 (V c (Pipeline.arrRef spec1 0)) (V c (Pipeline.arrRef spec1 1)) (V c (Pipeline.arrRef spec1 2)) (V c (Pipeline.arrRef spec1 3)) (V c (Pipeline.arrRef spec1 4))) :=
  (dat1 V c).arrAt_eq_of_cover 5 _ (fun t _ => flushed5_eq V c t) cover5

theorem mem_blk6 (t : Fin cfg1.N) (i : S256x1024.Idx) :
    i ∈ ((cfg1.win 6).blk t).view.set ↔ ∀ ax : Fin 2, win1_6.index t ax * S8x1024.size ax ≤ (i ax).val ∧ (i ax).val < win1_6.index t ax * S8x1024.size ax + S8x1024.size ax := by
  show i ∈ ((View.whole main_v23_1).slice (win1_6.rect t)).set ↔ _
  rw [View.set_slice_whole, Rect.mem_set_unit]
  exact Iff.rfl

/-- Row `R` of the array lies in the block of point `R / 8`: the 32 blocks of 8 rows cover it. -/
theorem cover6 (i : S256x1024.Idx) : ∃ t : Fin cfg1.N, (cfg1.win 6).flush t = true ∧ i ∈ ((cfg1.win 6).blk t).view.set := by
  have hi0 : (i 0).val < 256 := (i 0).isLt
  have hi1 : (i 1).val < 1024 := (i 1).isLt
  have ht : (i 0).val / 8 < 32 := by omega
  refine ⟨⟨(i 0).val / 8, ht⟩, flush1_6 _, ?_⟩
  rw [mem_blk6]
  obtain ⟨e0, e1⟩ := idx6 ⟨(i 0).val / 8, ht⟩
  intro ax
  match ax with
  | ⟨0, _⟩ =>
    show win1_6.index ⟨(i 0).val / 8, ht⟩ (0 : Fin 2) * 8 ≤ (i 0).val ∧ (i 0).val < win1_6.index ⟨(i 0).val / 8, ht⟩ (0 : Fin 2) * 8 + 8
    rw [e0]; show (i 0).val / 8 * 8 ≤ (i 0).val ∧ (i 0).val < (i 0).val / 8 * 8 + 8; omega
  | ⟨1, _⟩ =>
    show win1_6.index ⟨(i 0).val / 8, ht⟩ (1 : Fin 2) * 1024 ≤ (i 1).val ∧ (i 1).val < win1_6.index ⟨(i 0).val / 8, ht⟩ (1 : Fin 2) * 1024 + 1024
    rw [e1]; omega

/-- After the region this output array is that function of the arrays the region found. -/
theorem final6 (c : Dev nD) : (dat1 V c).arrAt 6 cfg1.N = arr2 (blockSum 256 rows_lt (lin2 (V c (Pipeline.arrRef spec1 0)) (V c (Pipeline.arrRef spec1 1)) (V c (Pipeline.arrRef spec1 2)) (V c (Pipeline.arrRef spec1 3)) (V c (Pipeline.arrRef spec1 4)))) :=
  (dat1 V c).arrAt_eq_of_cover 6 _ (fun t _ => flushed6_eq V c t) cover6

theorem mem_blk7 (t : Fin cfg1.N) (i : S256x1024.Idx) :
    i ∈ ((cfg1.win 7).blk t).view.set ↔ ∀ ax : Fin 2, win1_7.index t ax * S8x1024.size ax ≤ (i ax).val ∧ (i ax).val < win1_7.index t ax * S8x1024.size ax + S8x1024.size ax := by
  show i ∈ ((View.whole main_v23_2).slice (win1_7.rect t)).set ↔ _
  rw [View.set_slice_whole, Rect.mem_set_unit]
  exact Iff.rfl

/-- Row `R` of the array lies in the block of point `R / 8`: the 32 blocks of 8 rows cover it. -/
theorem cover7 (i : S256x1024.Idx) : ∃ t : Fin cfg1.N, (cfg1.win 7).flush t = true ∧ i ∈ ((cfg1.win 7).blk t).view.set := by
  have hi0 : (i 0).val < 256 := (i 0).isLt
  have hi1 : (i 1).val < 1024 := (i 1).isLt
  have ht : (i 0).val / 8 < 32 := by omega
  refine ⟨⟨(i 0).val / 8, ht⟩, flush1_7 _, ?_⟩
  rw [mem_blk7]
  obtain ⟨e0, e1⟩ := idx7 ⟨(i 0).val / 8, ht⟩
  intro ax
  match ax with
  | ⟨0, _⟩ =>
    show win1_7.index ⟨(i 0).val / 8, ht⟩ (0 : Fin 2) * 8 ≤ (i 0).val ∧ (i 0).val < win1_7.index ⟨(i 0).val / 8, ht⟩ (0 : Fin 2) * 8 + 8
    rw [e0]; show (i 0).val / 8 * 8 ≤ (i 0).val ∧ (i 0).val < (i 0).val / 8 * 8 + 8; omega
  | ⟨1, _⟩ =>
    show win1_7.index ⟨(i 0).val / 8, ht⟩ (1 : Fin 2) * 1024 ≤ (i 1).val ∧ (i 1).val < win1_7.index ⟨(i 0).val / 8, ht⟩ (1 : Fin 2) * 1024 + 1024
    rw [e1]; omega

/-- After the region this output array is that function of the arrays the region found. -/
theorem final7 (c : Dev nD) : (dat1 V c).arrAt 7 cfg1.N = arr2 (blockSum 256 rows_lt fun R n => lin2 (V c (Pipeline.arrRef spec1 0)) (V c (Pipeline.arrRef spec1 1)) (V c (Pipeline.arrRef spec1 2)) (V c (Pipeline.arrRef spec1 3)) (V c (Pipeline.arrRef spec1 4)) R n * lin2 (V c (Pipeline.arrRef spec1 0)) (V c (Pipeline.arrRef spec1 1)) (V c (Pipeline.arrRef spec1 2)) (V c (Pipeline.arrRef spec1 3)) (V c (Pipeline.arrRef spec1 4)) R n) :=
  (dat1 V c).arrAt_eq_of_cover 7 _ (fun t _ => flushed7_eq V c t) cover7

end Cert.KernelIdeal.Reg1

end
-- ==== Proof.KReg2.lean ====
/-
  Region 2 of the idealized kernel: the second decoder layer and its statistics.  Each of the 32 grid points
  takes a block of 1024 rows; the gathered operand goes through the first layer's per-channel affine map
  and leaky ReLU before it is multiplied by the first half of the weight matrix, the plain operand is
  multiplied by the second half, and the bias is added.  The block is stored, and eight times over its
  column sums and the column sums of its squares.  The blocks tile the three outputs.
-/
import proofs.«117334_j39633958207498_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import proofs.«117334_j39633958207498_2_alg».proof.Proof.Stages

set_option maxRecDepth 16384

noncomputable section

namespace Cert.KernelIdeal.Reg2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.FPN

theorem hz : (![0, 0] : Fin 2 → Nat) = fun _ => 0 := funext fun a => by fin_cases a <;> rfl

/-! The product of a 1024×1024 block with the transpose of a 512×1024 block, at an entry. -/
abbrev D2g := dot_S1024x1024_S512x1024_S1024x512_1_1_0_0_n_n

theorem D2g_lhs0 (i : S1024x512.Idx) (q : D2g.contr.Idx) : (D2g.lhsIdx i q 0).val = (i 0).val := by
  unfold DotDims.lhsIdx
  rw [dif_neg (show ¬(0 : Fin S1024x1024.rank) ∈ D2g.lhsBatch by decide), dif_pos (show (0 : Fin S1024x1024.rank) ∈ D2g.lhsNonContracting by decide)]
  rfl
theorem D2g_lhs1 (i : S1024x512.Idx) (q : D2g.contr.Idx) : (D2g.lhsIdx i q 1).val = (q ⟨0, by decide⟩).val :=
  D2g.lhsIdx_val_of_single rfl i q
theorem D2g_rhs0 (i : S1024x512.Idx) (q : D2g.contr.Idx) : (D2g.rhsIdx i q 0).val = (i 1).val := by
  unfold DotDims.rhsIdx
  rw [dif_neg (show ¬(0 : Fin S512x1024.rank) ∈ D2g.rhsBatch by decide), dif_pos (show (0 : Fin S512x1024.rank) ∈ D2g.rhsNonContracting by decide)]
  rfl
theorem D2g_rhs1 (i : S1024x512.Idx) (q : D2g.contr.Idx) : (D2g.rhsIdx i q 1).val = (q ⟨0, by decide⟩).val :=
  D2g.rhsIdx_val_of_single rfl i q

/-- Into a zero accumulator the block product's entry (r, n) is the sum over k of lhs[r, k] · rhs[n, k]. -/
theorem D2g_apply {φ₁ φ₂ : FTy} (lhs : FVec Ideal S1024x1024 φ₁) (rhs : FVec Ideal S512x1024 φ₂) (r : Fin 1024) (n : Fin 512) :
    matmul D2g none lhs rhs (constant S1024x512 .f32 0x00000000#32) (ix2 r n) = ∑ k : Fin 1024, lhs (ix2 r k) * rhs (ix2 n k) := by
  refine (Ideal.matmul_constant_zero_apply D2g none lhs rhs (ix2 r n)).trans ?_
  rw [← Equiv.sum_comp (contrEquiv1 D2g 1024 rfl rfl).symm]
  refine Finset.sum_congr rfl fun k _ => ?_
  have hk := contrEquiv1_symm_val D2g 1024 rfl rfl k
  have el : D2g.lhsIdx (ix2 r n) ((contrEquiv1 D2g 1024 rfl rfl).symm k) = ix2 r k := funext fun a => Fin.ext (by
    match a with
    | ⟨0, _⟩ => exact D2g_lhs0 _ _
    | ⟨1, _⟩ => exact (D2g_lhs1 _ _).trans hk)
  have er : D2g.rhsIdx (ix2 r n) ((contrEquiv1 D2g 1024 rfl rfl).symm k) = ix2 n k := funext fun a => Fin.ext (by
    match a with
    | ⟨0, _⟩ => exact D2g_rhs0 _ _
    | ⟨1, _⟩ => exact (D2g_rhs1 _ _).trans hk)
  rw [el, er]

/-! The product of a 1024×512 block with the transpose of a 512×512 block, at an entry. -/
abbrev D2f := dot_S1024x512_S512x512_S1024x512_1_1_0_0_n_n

theorem D2f_lhs0 (i : S1024x512.Idx) (q : D2f.contr.Idx) : (D2f.lhsIdx i q 0).val = (i 0).val := by
  unfold DotDims.lhsIdx
  rw [dif_neg (show ¬(0 : Fin S1024x512.rank) ∈ D2f.lhsBatch by decide), dif_pos (show (0 : Fin S1024x512.rank) ∈ D2f.lhsNonContracting by decide)]
  rfl
theorem D2f_lhs1 (i : S1024x512.Idx) (q : D2f.contr.Idx) : (D2f.lhsIdx i q 1).val = (q ⟨0, by decide⟩).val :=
  D2f.lhsIdx_val_of_single rfl i q
theorem D2f_rhs0 (i : S1024x512.Idx) (q : D2f.contr.Idx) : (D2f.rhsIdx i q 0).val = (i 1).val := by
  unfold DotDims.rhsIdx
  rw [dif_neg (show ¬(0 : Fin S512x512.rank) ∈ D2f.rhsBatch by decide), dif_pos (show (0 : Fin S512x512.rank) ∈ D2f.rhsNonContracting by decide)]
  rfl
theorem D2f_rhs1 (i : S1024x512.Idx) (q : D2f.contr.Idx) : (D2f.rhsIdx i q 1).val = (q ⟨0, by decide⟩).val :=
  D2f.rhsIdx_val_of_single rfl i q

/-- Into a zero accumulator the block product's entry (r, n) is the sum over k of lhs[r, k] · rhs[n, k]. -/
theorem D2f_apply {φ₁ φ₂ : FTy} (lhs : FVec Ideal S1024x512 φ₁) (rhs : FVec Ideal S512x512 φ₂) (r : Fin 1024) (n : Fin 512) :
    matmul D2f none lhs rhs (constant S1024x512 .f32 0x00000000#32) (ix2 r n) = ∑ k : Fin 512, lhs (ix2 r k) * rhs (ix2 n k) := by
  refine (Ideal.matmul_constant_zero_apply D2f none lhs rhs (ix2 r n)).trans ?_
  rw [← Equiv.sum_comp (contrEquiv1 D2f 512 rfl rfl).symm]
  refine Finset.sum_congr rfl fun k _ => ?_
  have hk := contrEquiv1_symm_val D2f 512 rfl rfl k
  have el : D2f.lhsIdx (ix2 r n) ((contrEquiv1 D2f 512 rfl rfl).symm k) = ix2 r k := funext fun a => Fin.ext (by
    match a with
    | ⟨0, _⟩ => exact D2f_lhs0 _ _
    | ⟨1, _⟩ => exact (D2f_lhs1 _ _).trans hk)
  have er : D2f.rhsIdx (ix2 r n) ((contrEquiv1 D2f 512 rfl rfl).symm k) = ix2 n k := funext fun a => Fin.ext (by
    match a with
    | ⟨0, _⟩ => exact D2f_rhs0 _ _
    | ⟨1, _⟩ => exact (D2f_rhs1 _ _).trans hk)
  rw [el, er]

/-- The layer's block at an entry. -/
theorem pay3_apply (x0 : Vec Ideal S1024x1024 .bf16) (a : Vec Ideal S1x1024 .f32) (ab : Vec Ideal S1x1024 .f32) (xf : Vec Ideal S1024x512 .f32)
    (Wg : Vec Ideal S512x1024 .bf16) (Wf : Vec Ideal S512x512 .bf16) (b : Vec Ideal S1x512 .f32) (r : Fin 1024) (n : Fin 512) :
    k2_pay3 x0 a ab xf Wg Wf b (ix2 r n)
      = ((∑ k : Fin 1024, actK (a (ix2 (0 : Fin 1) k)) (ab (ix2 (0 : Fin 1) k)) (x0 (ix2 r k)) * Wg (ix2 n k))
          + ∑ k : Fin 512, xf (ix2 r k) * Wf (ix2 n k)) + b (ix2 (0 : Fin 1) n) := by
  unfold k2_pay3
  simp only [shapeCast_self]
  rw [addf_apply, addf_apply, D2g_apply, D2f_apply, broadcastTo_1b_ab_apply]
  simp only [truncf_apply, extf_apply, select_apply, cmpf_apply, mulf_apply, addf_apply, broadcast_apply, broadcastTo_1b_ab_apply]
  rfl

/-- The stored block is the layer's block (the change of format is the identity). -/
theorem pay4_apply (x0 : Vec Ideal S1024x1024 .bf16) (a : Vec Ideal S1x1024 .f32) (ab : Vec Ideal S1x1024 .f32) (xf : Vec Ideal S1024x512 .f32)
    (Wg : Vec Ideal S512x1024 .bf16) (Wf : Vec Ideal S512x512 .bf16) (b : Vec Ideal S1x512 .f32) (j : S1024x512.Idx) :
    k2_pay4 x0 a ab xf Wg Wf b j = k2_pay3 x0 a ab xf Wg Wf b j := rfl

/-- Summing a 1024×512 block over its rows, read at a column. -/
theorem colsum_apply (x : FVec Ideal S1024x512 .f32) (n : Fin 512) :
    multiReduction .add [0] S512 x 0x00000000#32 reduces_S1024x512_S512 (.inl rfl) rfl (ix1 n) = ∑ i : Fin 1024, x (ix2 i n) := by
  refine (Ideal.multiReduction_add_single x _ reduces_S1024x512_S512 _ _ (ix1 n)).trans ?_
  refine Finset.sum_congr rfl fun i _ => congrArg x ?_
  funext ax; apply Fin.ext
  match ax with
  | ⟨0, _⟩ => rfl
  | ⟨1, _⟩ => rfl

/-- Each of the eight stored rows is the block's column sums. -/
theorem pay15_apply (x0 : Vec Ideal S1024x1024 .bf16) (a : Vec Ideal S1x1024 .f32) (ab : Vec Ideal S1x1024 .f32) (xf : Vec Ideal S1024x512 .f32)
    (Wg : Vec Ideal S512x1024 .bf16) (Wf : Vec Ideal S512x512 .bf16) (b : Vec Ideal S1x512 .f32) (s : Fin 8) (n : Fin 512) :
    k2_pay1 (k2_pay5 x0 a ab xf Wg Wf b) (ix2 s n) = ∑ i : Fin 1024, k2_pay3 x0 a ab xf Wg Wf b (ix2 i n) := by
  unfold k2_pay1 k2_pay5
  rw [broadcastTo_1b_ab_apply, shapeCast_self, shapeCast_a_1a_apply, colsum_apply]

/-- … and of the squares. -/
theorem pay26_apply (x0 : Vec Ideal S1024x1024 .bf16) (a : Vec Ideal S1x1024 .f32) (ab : Vec Ideal S1x1024 .f32) (xf : Vec Ideal S1024x512 .f32)
    (Wg : Vec Ideal S512x1024 .bf16) (Wf : Vec Ideal S512x512 .bf16) (b : Vec Ideal S1x512 .f32) (s : Fin 8) (n : Fin 512) :
    k2_pay2 (k2_pay6 x0 a ab xf Wg Wf b) (ix2 s n)
      = ∑ i : Fin 1024, k2_pay3 x0 a ab xf Wg Wf b (ix2 i n) * k2_pay3 x0 a ab xf Wg Wf b (ix2 i n) := by
  unfold k2_pay2 k2_pay6
  rw [broadcastTo_1b_ab_apply, shapeCast_self, shapeCast_a_1a_apply, colsum_apply]
  simp only [mulf_apply]

variable (V : (c : Dev nD) → (b : Ref sig .tc) → Buf (Elt Ideal) ((c : Thread nD τ).loc b))

theorem idx0 : ∀ t : Fin cfg2.N, win2_0.index t (0 : Fin 2) = t.val ∧ win2_0.index t (1 : Fin 2) = 0 :=
  (by decide +kernel : ∀ t : Fin grid2.N, _)

/-- Window 0's block at point `t` is rows 1024·t … 1024·t + 1023 of its array. -/
theorem blk0 (c : Dev nD) (t : Fin cfg2.N) (r : Fin 1024) (k : Fin 1024) :
    iblk2 V c 0 t (ix2 r k) = V c (Pipeline.arrRef spec2 0) (ix2 (⟨t.val * 1024 + r.val, by have ht : t.val < 32 := t.isLt; have := r.isLt; show _ < 32768; omega⟩ : Fin 32768) k) := by
  obtain ⟨e0, e1⟩ := idx0 t
  show V c (Pipeline.arrRef spec2 0) (((cfg2.win 0).blk t).view.emb (ix2 r k)) = _
  congr 1
  funext ax; apply Fin.ext
  match ax with
  | ⟨0, _⟩ => show win2_0.index t (0 : Fin 2) * 1024 + 1 * r.val = t.val * 1024 + r.val; omega
  | ⟨1, _⟩ => show win2_0.index t (1 : Fin 2) * 1024 + 1 * k.val = k.val; omega

theorem idx1 : ∀ t : Fin cfg2.N, win2_1.index t (0 : Fin 2) = t.val ∧ win2_1.index t (1 : Fin 2) = 0 :=
  (by decide +kernel : ∀ t : Fin grid2.N, _)

/-- Window 1's block at point `t` is rows 1024·t … 1024·t + 1023 of its array. -/
theorem blk1 (c : Dev nD) (t : Fin cfg2.N) (r : Fin 1024) (k : Fin 512) :
    iblk2 V c 1 t (ix2 r k) = V c (Pipeline.arrRef spec2 1) (ix2 (⟨t.val * 1024 + r.val, by have ht : t.val < 32 := t.isLt; have := r.isLt; show _ < 32768; omega⟩ : Fin 32768) k) := by
  obtain ⟨e0, e1⟩ := idx1 t
  show V c (Pipeline.arrRef spec2 1) (((cfg2.win 1).blk t).view.emb (ix2 r k)) = _
  congr 1
  funext ax; apply Fin.ext
  match ax with
  | ⟨0, _⟩ => show win2_1.index t (0 : Fin 2) * 1024 + 1 * r.val = t.val * 1024 + r.val; omega
  | ⟨1, _⟩ => show win2_1.index t (1 : Fin 2) * 512 + 1 * k.val = k.val; omega

theorem idx2 : ∀ t : Fin cfg2.N, win2_2.index t (0 : Fin 2) = 0 ∧ win2_2.index t (1 : Fin 2) = 0 :=
  (by decide +kernel : ∀ t : Fin grid2.N, _)

/-- Window 2's block is its whole array at every point. -/
theorem blk2 (c : Dev nD) (t : Fin cfg2.N) (r : Fin 512) (k : Fin 1024) :
    iblk2 V c 2 t (ix2 r k) = V c (Pipeline.arrRef spec2 2) (ix2 r k) := by
  obtain ⟨e0, e1⟩ := idx2 t
  show V c (Pipeline.arrRef spec2 2) (((cfg2.win 2).blk t).view.emb (ix2 r k)) = _
  congr 1
  funext ax; apply Fin.ext
  match ax with
  | ⟨0, _⟩ => show win2_2.index t (0 : Fin 2) * 512 + 1 * r.val = r.val; have := r.isLt; omega
  | ⟨1, _⟩ => show win2_2.index t (1 : Fin 2) * 1024 + 1 * k.val = k.val; omega

theorem idx3 : ∀ t : Fin cfg2.N, win2_3.index t (0 : Fin 2) = 0 ∧ win2_3.index t (1 : Fin 2) = 0 :=
  (by decide +kernel : ∀ t : Fin grid2.N, _)

/-- Window 3's block is its whole array at every point. -/
theorem blk3 (c : Dev nD) (t : Fin cfg2.N) (r : Fin 512) (k : Fin 512) :
    iblk2 V c 3 t (ix2 r k) = V c (Pipeline.arrRef spec2 3) (ix2 r k) := by
  obtain ⟨e0, e1⟩ := idx3 t
  show V c (Pipeline.arrRef spec2 3) (((cfg2.win 3).blk t).view.emb (ix2 r k)) = _
  congr 1
  funext ax; apply Fin.ext
  match ax with
  | ⟨0, _⟩ => show win2_3.index t (0 : Fin 2) * 512 + 1 * r.val = r.val; have := r.isLt; omega
  | ⟨1, _⟩ => show win2_3.index t (1 : Fin 2) * 512 + 1 * k.val = k.val; omega

theorem idx4 : ∀ t : Fin cfg2.N, win2_4.index t (0 : Fin 2) = 0 ∧ win2_4.index t (1 : Fin 2) = 0 :=
  (by decide +kernel : ∀ t : Fin grid2.N, _)

/-- Window 4's block is its whole array at every point. -/
theorem blk4 (c : Dev nD) (t : Fin cfg2.N) (r : Fin 1) (k : Fin 512) :
    iblk2 V c 4 t (ix2 r k) = V c (Pipeline.arrRef spec2 4) (ix2 (0 : Fin 1) k) := by
  obtain ⟨e0, e1⟩ := idx4 t
  show V c (Pipeline.arrRef spec2 4) (((cfg2.win 4).blk t).view.emb (ix2 r k)) = _
  congr 1
  funext ax; apply Fin.ext
  match ax with
  | ⟨0, _⟩ => show win2_4.index t (0 : Fin 2) * 1 + 1 * r.val = 0; have := r.isLt; omega
  | ⟨1, _⟩ => show win2_4.index t (1 : Fin 2) * 512 + 1 * k.val = k.val; omega

theorem idx5 : ∀ t : Fin cfg2.N, win2_5.index t (0 : Fin 2) = 0 ∧ win2_5.index t (1 : Fin 2) = 0 :=
  (by decide +kernel : ∀ t : Fin grid2.N, _)

/-- Window 5's block is its whole array at every point. -/
theorem blk5 (c : Dev nD) (t : Fin cfg2.N) (r : Fin 1) (k : Fin 1024) :
    iblk2 V c 5 t (ix2 r k) = V c (Pipeline.arrRef spec2 5) (ix2 (0 : Fin 1) k) := by
  obtain ⟨e0, e1⟩ := idx5 t
  show V c (Pipeline.arrRef spec2 5) (((cfg2.win 5).blk t).view.emb (ix2 r k)) = _
  congr 1
  funext ax; apply Fin.ext
  match ax with
  | ⟨0, _⟩ => show win2_5.index t (0 : Fin 2) * 1 + 1 * r.val = 0; have := r.isLt; omega
  | ⟨1, _⟩ => show win2_5.index t (1 : Fin 2) * 1024 + 1 * k.val = k.val; omega

theorem idx6 : ∀ t : Fin cfg2.N, win2_6.index t (0 : Fin 2) = 0 ∧ win2_6.index t (1 : Fin 2) = 0 :=
  (by decide +kernel : ∀ t : Fin grid2.N, _)

/-- Window 6's block is its whole array at every point. -/
theorem blk6 (c : Dev nD) (t : Fin cfg2.N) (r : Fin 1) (k : Fin 1024) :
    iblk2 V c 6 t (ix2 r k) = V c (Pipeline.arrRef spec2 6) (ix2 (0 : Fin 1) k) := by
  obtain ⟨e0, e1⟩ := idx6 t
  show V c (Pipeline.arrRef spec2 6) (((cfg2.win 6).blk t).view.emb (ix2 r k)) = _
  congr 1
  funext ax; apply Fin.ext
  match ax with
  | ⟨0, _⟩ => show win2_6.index t (0 : Fin 2) * 1 + 1 * r.val = 0; have := r.isLt; omega
  | ⟨1, _⟩ => show win2_6.index t (1 : Fin 2) * 1024 + 1 * k.val = k.val; omega

theorem idx7 : ∀ t : Fin cfg2.N, win2_7.index t (0 : Fin 2) = t.val ∧ win2_7.index t (1 : Fin 2) = 0 :=
  (by decide +kernel : ∀ t : Fin grid2.N, _)

/-- Window 7's block at point `t` is rows 1024·t … 1024·t + 1023 of its array. -/
theorem blk7 (c : Dev nD) (t : Fin cfg2.N) (r : Fin 1024) (k : Fin 512) :
    iblk2 V c 7 t (ix2 r k) = V c (Pipeline.arrRef spec2 7) (ix2 (⟨t.val * 1024 + r.val, by have ht : t.val < 32 := t.isLt; have := r.isLt; show _ < 32768; omega⟩ : Fin 32768) k) := by
  obtain ⟨e0, e1⟩ := idx7 t
  show V c (Pipeline.arrRef spec2 7) (((cfg2.win 7).blk t).view.emb (ix2 r k)) = _
  congr 1
  funext ax; apply Fin.ext
  match ax with
  | ⟨0, _⟩ => show win2_7.index t (0 : Fin 2) * 1024 + 1 * r.val = t.val * 1024 + r.val; omega
  | ⟨1, _⟩ => show win2_7.index t (1 : Fin 2) * 512 + 1 * k.val = k.val; omega

theorem idx8 : ∀ t : Fin cfg2.N, win2_8.index t (0 : Fin 2) = t.val ∧ win2_8.index t (1 : Fin 2) = 0 :=
  (by decide +kernel : ∀ t : Fin grid2.N, _)

/-- Window 8's block at point `t` is rows 8·t … 8·t + 7 of its array. -/
theorem blk8 (c : Dev nD) (t : Fin cfg2.N) (r : Fin 8) (k : Fin 512) :
    iblk2 V c 8 t (ix2 r k) = V c (Pipeline.arrRef spec2 8) (ix2 (⟨t.val * 8 + r.val, by have ht : t.val < 32 := t.isLt; have := r.isLt; show _ < 256; omega⟩ : Fin 256) k) := by
  obtain ⟨e0, e1⟩ := idx8 t
  show V c (Pipeline.arrRef spec2 8) (((cfg2.win 8).blk t).view.emb (ix2 r k)) = _
  congr 1
  funext ax; apply Fin.ext
  match ax with
  | ⟨0, _⟩ => show win2_8.index t (0 : Fin 2) * 8 + 1 * r.val = t.val * 8 + r.val; omega
  | ⟨1, _⟩ => show win2_8.index t (1 : Fin 2) * 512 + 1 * k.val = k.val; omega

theorem idx9 : ∀ t : Fin cfg2.N, win2_9.index t (0 : Fin 2) = t.val ∧ win2_9.index t (1 : Fin 2) = 0 :=
  (by decide +kernel : ∀ t : Fin grid2.N, _)

/-- Window 9's block at point `t` is rows 8·t … 8·t + 7 of its array. -/
theorem blk9 (c : Dev nD) (t : Fin cfg2.N) (r : Fin 8) (k : Fin 512) :
    iblk2 V c 9 t (ix2 r k) = V c (Pipeline.arrRef spec2 9) (ix2 (⟨t.val * 8 + r.val, by have ht : t.val < 32 := t.isLt; have := r.isLt; show _ < 256; omega⟩ : Fin 256) k) := by
  obtain ⟨e0, e1⟩ := idx9 t
  show V c (Pipeline.arrRef spec2 9) (((cfg2.win 9).blk t).view.emb (ix2 r k)) = _
  congr 1
  funext ax; apply Fin.ext
  match ax with
  | ⟨0, _⟩ => show win2_9.index t (0 : Fin 2) * 8 + 1 * r.val = t.val * 8 + r.val; omega
  | ⟨1, _⟩ => show win2_9.index t (1 : Fin 2) * 512 + 1 * k.val = k.val; omega

theorem rows_lt (R : Fin 256) (i : Fin 1024) : R.val / 8 * 1024 + i.val < 32768 := by
  have := R.isLt; have := i.isLt; omega

/-- The layer's block at an entry, over the arrays the region finds. -/
theorem pay3_blk (c : Dev nD) (t : Fin cfg2.N) (r : Fin 1024) (n : Fin 512) :
    k2_pay3 (iblk2 V c 0 t) (iblk2 V c 5 t) (iblk2 V c 6 t) (iblk2 V c 1 t) (iblk2 V c 2 t) (iblk2 V c 3 t) (iblk2 V c 4 t) (ix2 r n)
      = lin2act (V c (Pipeline.arrRef spec2 5)) (V c (Pipeline.arrRef spec2 6)) (V c (Pipeline.arrRef spec2 0)) (V c (Pipeline.arrRef spec2 1)) (V c (Pipeline.arrRef spec2 2)) (V c (Pipeline.arrRef spec2 3)) (V c (Pipeline.arrRef spec2 4)) (⟨t.val * 1024 + r.val, by have ht : t.val < 32 := t.isLt; have := r.isLt; omega⟩ : Fin 32768) n := by
  rw [pay3_apply]
  unfold lin2act dot
  simp only [blk0, blk1, blk2, blk3, blk4, blk5, blk6]

set_option maxHeartbeats 4000000 in
theorem flushed7_eq (c : Dev nD) (t : Fin cfg2.N) :
    (dat2 V c).flushed 7 t = ((cfg2.win 7).blk t).view.read (Elt Ideal) (arr2 (lin2act (V c (Pipeline.arrRef spec2 5)) (V c (Pipeline.arrRef spec2 6)) (V c (Pipeline.arrRef spec2 0)) (V c (Pipeline.arrRef spec2 1)) (V c (Pipeline.arrRef spec2 2)) (V c (Pipeline.arrRef spec2 3)) (V c (Pipeline.arrRef spec2 4)))) := by
  show (cfg2.win 7).cut (grid2.coords t) ((dat2 V c).after 7 t) = _
  rw [after2_7]
  unfold out2_7
  rw [View.canon_unit_zero hz]
  simp only [View.ld_unit_zero (S := S1024x1024) hz, View.ld_unit_zero (S := S1024x512) hz, View.ld_unit_zero (S := S512x1024) hz,
    View.ld_unit_zero (S := S512x512) hz, View.ld_unit_zero (S := S1x512) hz, View.ld_unit_zero (S := S1x1024) hz]
  funext y
  obtain ⟨r, n, rfl⟩ : ∃ (r : Fin 1024) (n : Fin 512), y = ix2 r n := ⟨y 0, y 1, eq_ix2 y⟩
  show k2_pay3 (iblk2 V c 0 t) (iblk2 V c 5 t) (iblk2 V c 6 t) (iblk2 V c 1 t) (iblk2 V c 2 t) (iblk2 V c 3 t) (iblk2 V c 4 t) (ix2 r n) = arr2 (lin2act (V c (Pipeline.arrRef spec2 5)) (V c (Pipeline.arrRef spec2 6)) (V c (Pipeline.arrRef spec2 0)) (V c (Pipeline.arrRef spec2 1)) (V c (Pipeline.arrRef spec2 2)) (V c (Pipeline.arrRef spec2 3)) (V c (Pipeline.arrRef spec2 4))) (((cfg2.win 7).blk t).view.emb (ix2 r n))
  refine (pay3_blk V c t r n).trans ?_
  have hemb : ((cfg2.win 7).blk t).view.emb (ix2 r n) = ix2 (⟨t.val * 1024 + r.val, by have ht : t.val < 32 := t.isLt; have := r.isLt; show _ < 32768; omega⟩ : Fin 32768) n := by
    obtain ⟨e0, e1⟩ := idx7 t
    funext ax; apply Fin.ext
    match ax with
    | ⟨0, _⟩ => show win2_7.index t (0 : Fin 2) * 1024 + 1 * r.val = t.val * 1024 + r.val; omega
    | ⟨1, _⟩ => show win2_7.index t (1 : Fin 2) * 512 + 1 * n.val = n.val; omega
  exact ((congrArg (arr2 (lin2act (V c (Pipeline.arrRef spec2 5)) (V c (Pipeline.arrRef spec2 6)) (V c (Pipeline.arrRef spec2 0)) (V c (Pipeline.arrRef spec2 1)) (V c (Pipeline.arrRef spec2 2)) (V c (Pipeline.arrRef spec2 3)) (V c (Pipeline.arrRef spec2 4)))) hemb).trans (arr2_apply _ _ _)).symm

set_option maxHeartbeats 4000000 in
theorem flushed8_eq (c : Dev nD) (t : Fin cfg2.N) :
    (dat2 V c).flushed 8 t = ((cfg2.win 8).blk t).view.read (Elt Ideal) (arr2 (blockSum 1024 rows_lt (lin2act (V c (Pipeline.arrRef spec2 5)) (V c (Pipeline.arrRef spec2 6)) (V c (Pipeline.arrRef spec2 0)) (V c (Pipeline.arrRef spec2 1)) (V c (Pipeline.arrRef spec2 2)) (V c (Pipeline.arrRef spec2 3)) (V c (Pipeline.arrRef spec2 4))))) := by
  show (cfg2.win 8).cut (grid2.coords t) ((dat2 V c).after 8 t) = _
  rw [after2_8]
  unfold out2_8
  rw [View.canon_unit_zero hz]
  simp only [View.ld_unit_zero (S := S1024x1024) hz, View.ld_unit_zero (S := S1024x512) hz, View.ld_unit_zero (S := S512x1024) hz,
    View.ld_unit_zero (S := S512x512) hz, View.ld_unit_zero (S := S1x512) hz, View.ld_unit_zero (S := S1x1024) hz]
  funext y
  obtain ⟨r, n, rfl⟩ : ∃ (r : Fin 8) (n : Fin 512), y = ix2 r n := ⟨y 0, y 1, eq_ix2 y⟩
  show k2_pay1 (k2_pay5 (iblk2 V c 0 t) (iblk2 V c 5 t) (iblk2 V c 6 t) (iblk2 V c 1 t) (iblk2 V c 2 t) (iblk2 V c 3 t) (iblk2 V c 4 t)) (ix2 r n) = arr2 (blockSum 1024 rows_lt (lin2act (V c (Pipeline.arrRef spec2 5)) (V c (Pipeline.arrRef spec2 6)) (V c (Pipeline.arrRef spec2 0)) (V c (Pipeline.arrRef spec2 1)) (V c (Pipeline.arrRef spec2 2)) (V c (Pipeline.arrRef spec2 3)) (V c (Pipeline.arrRef spec2 4)))) (((cfg2.win 8).blk t).view.emb (ix2 r n))
  refine (pay15_apply (iblk2 V c 0 t) (iblk2 V c 5 t) (iblk2 V c 6 t) (iblk2 V c 1 t) (iblk2 V c 2 t) (iblk2 V c 3 t) (iblk2 V c 4 t) r n).trans ?_
  have hemb : ((cfg2.win 8).blk t).view.emb (ix2 r n) = ix2 (⟨t.val * 8 + r.val, by have ht : t.val < 32 := t.isLt; have := r.isLt; show _ < 256; omega⟩ : Fin 256) n := by
    obtain ⟨e0, e1⟩ := idx8 t
    funext ax; apply Fin.ext
    match ax with
    | ⟨0, _⟩ => show win2_8.index t (0 : Fin 2) * 8 + 1 * r.val = t.val * 8 + r.val; omega
    | ⟨1, _⟩ => show win2_8.index t (1 : Fin 2) * 512 + 1 * n.val = n.val; omega
  refine Eq.trans ?_ ((congrArg (arr2 (blockSum 1024 rows_lt (lin2act (V c (Pipeline.arrRef spec2 5)) (V c (Pipeline.arrRef spec2 6)) (V c (Pipeline.arrRef spec2 0)) (V c (Pipeline.arrRef spec2 1)) (V c (Pipeline.arrRef spec2 2)) (V c (Pipeline.arrRef spec2 3)) (V c (Pipeline.arrRef spec2 4))))) hemb).trans (arr2_apply _ _ _)).symm
  unfold blockSum
  refine Finset.sum_congr rfl fun i _ => ?_
  refine (pay3_blk V c t i n).trans ?_
  congr 1
  apply Fin.ext
  show t.val * 1024 + i.val = (t.val * 8 + r.val) / 8 * 1024 + i.val
  have := r.isLt; omega

set_option maxHeartbeats 4000000 in
theorem flushed9_eq (c : Dev nD) (t : Fin cfg2.N) :
    (dat2 V c).flushed 9 t = ((cfg2.win 9).blk t).view.read (Elt Ideal)
      (arr2 (blockSum 1024 rows_lt fun R n => lin2act (V c (Pipeline.arrRef spec2 5)) (V c (Pipeline.arrRef spec2 6)) (V c (Pipeline.arrRef spec2 0)) (V c (Pipeline.arrRef spec2 1)) (V c (Pipeline.arrRef spec2 2)) (V c (Pipeline.arrRef spec2 3)) (V c (Pipeline.arrRef spec2 4)) R n * lin2act (V c (Pipeline.arrRef spec2 5)) (V c (Pipeline.arrRef spec2 6)) (V c (Pipeline.arrRef spec2 0)) (V c (Pipeline.arrRef spec2 1)) (V c (Pipeline.arrRef spec2 2)) (V c (Pipeline.arrRef spec2 3)) (V c (Pipeline.arrRef spec2 4)) R n)) := by
  show (cfg2.win 9).cut (grid2.coords t) ((dat2 V c).after 9 t) = _
  rw [after2_9]
  unfold out2_9
  rw [View.canon_unit_zero hz]
  simp only [View.ld_unit_zero (S := S1024x1024) hz, View.ld_unit_zero (S := S1024x512) hz, View.ld_unit_zero (S := S512x1024) hz,
    View.ld_unit_zero (S := S512x512) hz, View.ld_unit_zero (S := S1x512) hz, View.ld_unit_zero (S := S1x1024) hz]
  funext y
  obtain ⟨r, n, rfl⟩ : ∃ (r : Fin 8) (n : Fin 512), y = ix2 r n := ⟨y 0, y 1, eq_ix2 y⟩
  show k2_pay2 (k2_pay6 (iblk2 V c 0 t) (iblk2 V c 5 t) (iblk2 V c 6 t) (iblk2 V c 1 t) (iblk2 V c 2 t) (iblk2 V c 3 t) (iblk2 V c 4 t)) (ix2 r n) = arr2 (blockSum 1024 rows_lt fun R n => lin2act (V c (Pipeline.arrRef spec2 5)) (V c (Pipeline.arrRef spec2 6)) (V c (Pipeline.arrRef spec2 0)) (V c (Pipeline.arrRef spec2 1)) (V c (Pipeline.arrRef spec2 2)) (V c (Pipeline.arrRef spec2 3)) (V c (Pipeline.arrRef spec2 4)) R n * lin2act (V c (Pipeline.arrRef spec2 5)) (V c (Pipeline.arrRef spec2 6)) (V c (Pipeline.arrRef spec2 0)) (V c (Pipeline.arrRef spec2 1)) (V c (Pipeline.arrRef spec2 2)) (V c (Pipeline.arrRef spec2 3)) (V c (Pipeline.arrRef spec2 4)) R n) (((cfg2.win 9).blk t).view.emb (ix2 r n))
  refine (pay26_apply (iblk2 V c 0 t) (iblk2 V c 5 t) (iblk2 V c 6 t) (iblk2 V c 1 t) (iblk2 V c 2 t) (iblk2 V c 3 t) (iblk2 V c 4 t) r n).trans ?_
  have hemb : ((cfg2.win 9).blk t).view.emb (ix2 r n) = ix2 (⟨t.val * 8 + r.val, by have ht : t.val < 32 := t.isLt; have := r.isLt; show _ < 256; omega⟩ : Fin 256) n := by
    obtain ⟨e0, e1⟩ := idx9 t
    funext ax; apply Fin.ext
    match ax with
    | ⟨0, _⟩ => show win2_9.index t (0 : Fin 2) * 8 + 1 * r.val = t.val * 8 + r.val; omega
    | ⟨1, _⟩ => show win2_9.index t (1 : Fin 2) * 512 + 1 * n.val = n.val; omega
  refine Eq.trans ?_ ((congrArg (arr2 (blockSum 1024 rows_lt fun R n => lin2act (V c (Pipeline.arrRef spec2 5)) (V c (Pipeline.arrRef spec2 6)) (V c (Pipeline.arrRef spec2 0)) (V c (Pipeline.arrRef spec2 1)) (V c (Pipeline.arrRef spec2 2)) (V c (Pipeline.arrRef spec2 3)) (V c (Pipeline.arrRef spec2 4)) R n * lin2act (V c (Pipeline.arrRef spec2 5)) (V c (Pipeline.arrRef spec2 6)) (V c (Pipeline.arrRef spec2 0)) (V c (Pipeline.arrRef spec2 1)) (V c (Pipeline.arrRef spec2 2)) (V c (Pipeline.arrRef spec2 3)) (V c (Pipeline.arrRef spec2 4)) R n)) hemb).trans (arr2_apply _ _ _)).symm
  unfold blockSum
  refine Finset.sum_congr rfl fun i _ => ?_
  rw [pay3_blk V c t i n]
  have e : (⟨t.val * 1024 + i.val, by have ht : t.val < 32 := t.isLt; have := i.isLt; omega⟩ : Fin 32768)
      = ⟨(⟨t.val * 8 + r.val, by have ht : t.val < 32 := t.isLt; have := r.isLt; show _ < 256; omega⟩ : Fin 256).val / 8 * 1024 + i.val, rows_lt _ i⟩ := by
    apply Fin.ext
    show t.val * 1024 + i.val = (t.val * 8 + r.val) / 8 * 1024 + i.val
    have := r.isLt; omega
  rw [e]

theorem mem_blk7 (t : Fin cfg2.N) (i : S32768x512.Idx) :
    i ∈ ((cfg2.win 7).blk t).view.set ↔ ∀ ax : Fin 2, win2_7.index t ax * S1024x512.size ax ≤ (i ax).val ∧ (i ax).val < win2_7.index t ax * S1024x512.size ax + S1024x512.size ax := by
  show i ∈ ((View.whole main_v62_0).slice (win2_7.rect t)).set ↔ _
  rw [View.set_slice_whole, Rect.mem_set_unit]
  exact Iff.rfl

/-- Row `R` of the array lies in the block of point `R / 1024`: the 32 blocks of 1024 rows cover it. -/
theorem cover7 (i : S32768x512.Idx) : ∃ t : Fin cfg2.N, (cfg2.win 7).flush t = true ∧ i ∈ ((cfg2.win 7).blk t).view.set := by
  have hi0 : (i 0).val < 32768 := (i 0).isLt
  have hi1 : (i 1).val < 512 := (i 1).isLt
  have ht : (i 0).val / 1024 < 32 := by omega
  refine ⟨⟨(i 0).val / 1024, ht⟩, flush2_7 _, ?_⟩
  rw [mem_blk7]
  obtain ⟨e0, e1⟩ := idx7 ⟨(i 0).val / 1024, ht⟩
  intro ax
  match ax with
  | ⟨0, _⟩ =>
    show win2_7.index ⟨(i 0).val / 1024, ht⟩ (0 : Fin 2) * 1024 ≤ (i 0).val ∧ (i 0).val < win2_7.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win2_7.index ⟨(i 0).val / 1024, ht⟩ (1 : Fin 2) * 512 ≤ (i 1).val ∧ (i 1).val < win2_7.index ⟨(i 0).val / 1024, ht⟩ (1 : Fin 2) * 512 + 512
    rw [e1]; omega

/-- After the region this output array is that function of the arrays the region found. -/
theorem final7 (c : Dev nD) : (dat2 V c).arrAt 7 cfg2.N = arr2 (lin2act (V c (Pipeline.arrRef spec2 5)) (V c (Pipeline.arrRef spec2 6)) (V c (Pipeline.arrRef spec2 0)) (V c (Pipeline.arrRef spec2 1)) (V c (Pipeline.arrRef spec2 2)) (V c (Pipeline.arrRef spec2 3)) (V c (Pipeline.arrRef spec2 4))) :=
  (dat2 V c).arrAt_eq_of_cover 7 _ (fun t _ => flushed7_eq V c t) cover7

theorem mem_blk8 (t : Fin cfg2.N) (i : S256x512.Idx) :
    i ∈ ((cfg2.win 8).blk t).view.set ↔ ∀ ax : Fin 2, win2_8.index t ax * S8x512.size ax ≤ (i ax).val ∧ (i ax).val < win2_8.index t ax * S8x512.size ax + S8x512.size ax := by
  show i ∈ ((View.whole main_v62_1).slice (win2_8.rect t)).set ↔ _
  rw [View.set_slice_whole, Rect.mem_set_unit]
  exact Iff.rfl

/-- Row `R` of the array lies in the block of point `R / 8`: the 32 blocks of 8 rows cover it. -/
theorem cover8 (i : S256x512.Idx) : ∃ t : Fin cfg2.N, (cfg2.win 8).flush t = true ∧ i ∈ ((cfg2.win 8).blk t).view.set := by
  have hi0 : (i 0).val < 256 := (i 0).isLt
  have hi1 : (i 1).val < 512 := (i 1).isLt
  have ht : (i 0).val / 8 < 32 := by omega
  refine ⟨⟨(i 0).val / 8, ht⟩, flush2_8 _, ?_⟩
  rw [mem_blk8]
  obtain ⟨e0, e1⟩ := idx8 ⟨(i 0).val / 8, ht⟩
  intro ax
  match ax with
  | ⟨0, _⟩ =>
    show win2_8.index ⟨(i 0).val / 8, ht⟩ (0 : Fin 2) * 8 ≤ (i 0).val ∧ (i 0).val < win2_8.index ⟨(i 0).val / 8, ht⟩ (0 : Fin 2) * 8 + 8
    rw [e0]; show (i 0).val / 8 * 8 ≤ (i 0).val ∧ (i 0).val < (i 0).val / 8 * 8 + 8; omega
  | ⟨1, _⟩ =>
    show win2_8.index ⟨(i 0).val / 8, ht⟩ (1 : Fin 2) * 512 ≤ (i 1).val ∧ (i 1).val < win2_8.index ⟨(i 0).val / 8, ht⟩ (1 : Fin 2) * 512 + 512
    rw [e1]; omega

/-- After the region this output array is that function of the arrays the region found. -/
theorem final8 (c : Dev nD) : (dat2 V c).arrAt 8 cfg2.N = arr2 (blockSum 1024 rows_lt (lin2act (V c (Pipeline.arrRef spec2 5)) (V c (Pipeline.arrRef spec2 6)) (V c (Pipeline.arrRef spec2 0)) (V c (Pipeline.arrRef spec2 1)) (V c (Pipeline.arrRef spec2 2)) (V c (Pipeline.arrRef spec2 3)) (V c (Pipeline.arrRef spec2 4)))) :=
  (dat2 V c).arrAt_eq_of_cover 8 _ (fun t _ => flushed8_eq V c t) cover8

theorem mem_blk9 (t : Fin cfg2.N) (i : S256x512.Idx) :
    i ∈ ((cfg2.win 9).blk t).view.set ↔ ∀ ax : Fin 2, win2_9.index t ax * S8x512.size ax ≤ (i ax).val ∧ (i ax).val < win2_9.index t ax * S8x512.size ax + S8x512.size ax := by
  show i ∈ ((View.whole main_v62_2).slice (win2_9.rect t)).set ↔ _
  rw [View.set_slice_whole, Rect.mem_set_unit]
  exact Iff.rfl

/-- Row `R` of the array lies in the block of point `R / 8`: the 32 blocks of 8 rows cover it. -/
theorem cover9 (i : S256x512.Idx) : ∃ t : Fin cfg2.N, (cfg2.win 9).flush t = true ∧ i ∈ ((cfg2.win 9).blk t).view.set := by
  have hi0 : (i 0).val < 256 := (i 0).isLt
  have hi1 : (i 1).val < 512 := (i 1).isLt
  have ht : (i 0).val / 8 < 32 := by omega
  refine ⟨⟨(i 0).val / 8, ht⟩, flush2_9 _, ?_⟩
  rw [mem_blk9]
  obtain ⟨e0, e1⟩ := idx9 ⟨(i 0).val / 8, ht⟩
  intro ax
  match ax with
  | ⟨0, _⟩ =>
    show win2_9.index ⟨(i 0).val / 8, ht⟩ (0 : Fin 2) * 8 ≤ (i 0).val ∧ (i 0).val < win2_9.index ⟨(i 0).val / 8, ht⟩ (0 : Fin 2) * 8 + 8
    rw [e0]; show (i 0).val / 8 * 8 ≤ (i 0).val ∧ (i 0).val < (i 0).val / 8 * 8 + 8; omega
  | ⟨1, _⟩ =>
    show win2_9.index ⟨(i 0).val / 8, ht⟩ (1 : Fin 2) * 512 ≤ (i 1).val ∧ (i 1).val < win2_9.index ⟨(i 0).val / 8, ht⟩ (1 : Fin 2) * 512 + 512
    rw [e1]; omega

/-- After the region this output array is that function of the arrays the region found. -/
theorem final9 (c : Dev nD) : (dat2 V c).arrAt 9 cfg2.N = arr2 (blockSum 1024 rows_lt fun R n => lin2act (V c (Pipeline.arrRef spec2 5)) (V c (Pipeline.arrRef spec2 6)) (V c (Pipeline.arrRef spec2 0)) (V c (Pipeline.arrRef spec2 1)) (V c (Pipeline.arrRef spec2 2)) (V c (Pipeline.arrRef spec2 3)) (V c (Pipeline.arrRef spec2 4)) R n * lin2act (V c (Pipeline.arrRef spec2 5)) (V c (Pipeline.arrRef spec2 6)) (V c (Pipeline.arrRef spec2 0)) (V c (Pipeline.arrRef spec2 1)) (V c (Pipeline.arrRef spec2 2)) (V c (Pipeline.arrRef spec2 3)) (V c (Pipeline.arrRef spec2 4)) R n) :=
  (dat2 V c).arrAt_eq_of_cover 9 _ (fun t _ => flushed9_eq V c t) cover9

end Cert.KernelIdeal.Reg2

end
-- ==== Proof.KReg3.lean ====
/-
  Region 3 of the idealized kernel: the last linear layer.  Each of the 64 grid points takes a block of 2048
  rows: the gathered operand goes through the previous stage's per-channel affine map and leaky ReLU, is
  multiplied by the first half of the weight matrix, the plain operand by the second half, and the bias is
  added.  The blocks tile the output, so after the region the output array is that function, entry by
  entry, of the arrays the region found.
-/
import proofs.«117334_j39633958207498_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import proofs.«117334_j39633958207498_2_alg».proof.Proof.Stages

set_option maxRecDepth 16384

noncomputable section

namespace Cert.KernelIdeal.Reg3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.FPN

theorem hz : (![0, 0] : Fin 2 → Nat) = fun _ => 0 := funext fun a => by fin_cases a <;> rfl

/-! The product of a 2048×512 block with the transpose of a 256×512 block, at an entry. -/
abbrev D3g := dot_S2048x512_S256x512_S2048x256_1_1_0_0_n_n

theorem D3g_lhs0 (i : S2048x256.Idx) (q : D3g.contr.Idx) : (D3g.lhsIdx i q 0).val = (i 0).val := by
  unfold DotDims.lhsIdx
  rw [dif_neg (show ¬(0 : Fin S2048x512.rank) ∈ D3g.lhsBatch by decide), dif_pos (show (0 : Fin S2048x512.rank) ∈ D3g.lhsNonContracting by decide)]
  rfl
theorem D3g_lhs1 (i : S2048x256.Idx) (q : D3g.contr.Idx) : (D3g.lhsIdx i q 1).val = (q ⟨0, by decide⟩).val :=
  D3g.lhsIdx_val_of_single rfl i q
theorem D3g_rhs0 (i : S2048x256.Idx) (q : D3g.contr.Idx) : (D3g.rhsIdx i q 0).val = (i 1).val := by
  unfold DotDims.rhsIdx
  rw [dif_neg (show ¬(0 : Fin S256x512.rank) ∈ D3g.rhsBatch by decide), dif_pos (show (0 : Fin S256x512.rank) ∈ D3g.rhsNonContracting by decide)]
  rfl
theorem D3g_rhs1 (i : S2048x256.Idx) (q : D3g.contr.Idx) : (D3g.rhsIdx i q 1).val = (q ⟨0, by decide⟩).val :=
  D3g.rhsIdx_val_of_single rfl i q

/-- Into a zero accumulator the block product's entry (r, n) is the sum over k of lhs[r, k] · rhs[n, k]. -/
theorem D3g_apply {φ₁ φ₂ : FTy} (lhs : FVec Ideal S2048x512 φ₁) (rhs : FVec Ideal S256x512 φ₂) (r : Fin 2048) (n : Fin 256) :
    matmul D3g none lhs rhs (constant S2048x256 .f32 0x00000000#32) (ix2 r n) = ∑ k : Fin 512, lhs (ix2 r k) * rhs (ix2 n k) := by
  refine (Ideal.matmul_constant_zero_apply D3g none lhs rhs (ix2 r n)).trans ?_
  rw [← Equiv.sum_comp (contrEquiv1 D3g 512 rfl rfl).symm]
  refine Finset.sum_congr rfl fun k _ => ?_
  have hk := contrEquiv1_symm_val D3g 512 rfl rfl k
  have el : D3g.lhsIdx (ix2 r n) ((contrEquiv1 D3g 512 rfl rfl).symm k) = ix2 r k := funext fun a => Fin.ext (by
    match a with
    | ⟨0, _⟩ => exact D3g_lhs0 _ _
    | ⟨1, _⟩ => exact (D3g_lhs1 _ _).trans hk)
  have er : D3g.rhsIdx (ix2 r n) ((contrEquiv1 D3g 512 rfl rfl).symm k) = ix2 n k := funext fun a => Fin.ext (by
    match a with
    | ⟨0, _⟩ => exact D3g_rhs0 _ _
    | ⟨1, _⟩ => exact (D3g_rhs1 _ _).trans hk)
  rw [el, er]

/-! The product of a 2048×256 block with the transpose of a 256×256 block, at an entry. -/
abbrev D3f := dot_S2048x256_S256x256_S2048x256_1_1_0_0_n_n

theorem D3f_lhs0 (i : S2048x256.Idx) (q : D3f.contr.Idx) : (D3f.lhsIdx i q 0).val = (i 0).val := by
  unfold DotDims.lhsIdx
  rw [dif_neg (show ¬(0 : Fin S2048x256.rank) ∈ D3f.lhsBatch by decide), dif_pos (show (0 : Fin S2048x256.rank) ∈ D3f.lhsNonContracting by decide)]
  rfl
theorem D3f_lhs1 (i : S2048x256.Idx) (q : D3f.contr.Idx) : (D3f.lhsIdx i q 1).val = (q ⟨0, by decide⟩).val :=
  D3f.lhsIdx_val_of_single rfl i q
theorem D3f_rhs0 (i : S2048x256.Idx) (q : D3f.contr.Idx) : (D3f.rhsIdx i q 0).val = (i 1).val := by
  unfold DotDims.rhsIdx
  rw [dif_neg (show ¬(0 : Fin S256x256.rank) ∈ D3f.rhsBatch by decide), dif_pos (show (0 : Fin S256x256.rank) ∈ D3f.rhsNonContracting by decide)]
  rfl
theorem D3f_rhs1 (i : S2048x256.Idx) (q : D3f.contr.Idx) : (D3f.rhsIdx i q 1).val = (q ⟨0, by decide⟩).val :=
  D3f.rhsIdx_val_of_single rfl i q

/-- Into a zero accumulator the block product's entry (r, n) is the sum over k of lhs[r, k] · rhs[n, k]. -/
theorem D3f_apply {φ₁ φ₂ : FTy} (lhs : FVec Ideal S2048x256 φ₁) (rhs : FVec Ideal S256x256 φ₂) (r : Fin 2048) (n : Fin 256) :
    matmul D3f none lhs rhs (constant S2048x256 .f32 0x00000000#32) (ix2 r n) = ∑ k : Fin 256, lhs (ix2 r k) * rhs (ix2 n k) := by
  refine (Ideal.matmul_constant_zero_apply D3f none lhs rhs (ix2 r n)).trans ?_
  rw [← Equiv.sum_comp (contrEquiv1 D3f 256 rfl rfl).symm]
  refine Finset.sum_congr rfl fun k _ => ?_
  have hk := contrEquiv1_symm_val D3f 256 rfl rfl k
  have el : D3f.lhsIdx (ix2 r n) ((contrEquiv1 D3f 256 rfl rfl).symm k) = ix2 r k := funext fun a => Fin.ext (by
    match a with
    | ⟨0, _⟩ => exact D3f_lhs0 _ _
    | ⟨1, _⟩ => exact (D3f_lhs1 _ _).trans hk)
  have er : D3f.rhsIdx (ix2 r n) ((contrEquiv1 D3f 256 rfl rfl).symm k) = ix2 n k := funext fun a => Fin.ext (by
    match a with
    | ⟨0, _⟩ => exact D3f_rhs0 _ _
    | ⟨1, _⟩ => exact (D3f_rhs1 _ _).trans hk)
  rw [el, er]

/-- The body's stored value at an entry. -/
theorem pay_apply (x0 : Vec Ideal S2048x512 .bf16) (a : Vec Ideal S1x512 .f32) (ab : Vec Ideal S1x512 .f32) (xf : Vec Ideal S2048x256 .f32)
    (Wg : Vec Ideal S256x512 .bf16) (Wf : Vec Ideal S256x256 .bf16) (b : Vec Ideal S1x256 .f32) (r : Fin 2048) (n : Fin 256) :
    k3_pay1 x0 a ab xf Wg Wf b (ix2 r n)
      = ((∑ k : Fin 512, actK (a (ix2 (0 : Fin 1) k)) (ab (ix2 (0 : Fin 1) k)) (x0 (ix2 r k)) * Wg (ix2 n k))
          + ∑ k : Fin 256, xf (ix2 r k) * Wf (ix2 n k)) + b (ix2 (0 : Fin 1) n) := by
  unfold k3_pay1
  simp only [shapeCast_self]
  rw [addf_apply, addf_apply, D3g_apply, D3f_apply, broadcastTo_1b_ab_apply]
  simp only [truncf_apply, extf_apply, select_apply, cmpf_apply, mulf_apply, addf_apply, broadcast_apply, broadcastTo_1b_ab_apply]
  rfl

variable (V : (c : Dev nD) → (b : Ref sig .tc) → Buf (Elt Ideal) ((c : Thread nD τ).loc b))

theorem idx0 : ∀ t : Fin cfg3.N, win3_0.index t (0 : Fin 2) = t.val ∧ win3_0.index t (1 : Fin 2) = 0 :=
  (by decide +kernel : ∀ t : Fin grid3.N, _)

/-- Window 0's block at point `t` is rows 2048·t … 2048·t + 2047 of its array. -/
theorem blk0 (c : Dev nD) (t : Fin cfg3.N) (r : Fin 2048) (k : Fin 512) :
    iblk3 V c 0 t (ix2 r k) = V c (Pipeline.arrRef spec3 0) (ix2 (⟨t.val * 2048 + r.val, by have ht : t.val < 64 := t.isLt; have := r.isLt; show _ < 131072; omega⟩ : Fin 131072) k) := by
  obtain ⟨e0, e1⟩ := idx0 t
  show V c (Pipeline.arrRef spec3 0) (((cfg3.win 0).blk t).view.emb (ix2 r k)) = _
  congr 1
  funext ax; apply Fin.ext
  match ax with
  | ⟨0, _⟩ => show win3_0.index t (0 : Fin 2) * 2048 + 1 * r.val = t.val * 2048 + r.val; omega
  | ⟨1, _⟩ => show win3_0.index t (1 : Fin 2) * 512 + 1 * k.val = k.val; omega

theorem idx1 : ∀ t : Fin cfg3.N, win3_1.index t (0 : Fin 2) = t.val ∧ win3_1.index t (1 : Fin 2) = 0 :=
  (by decide +kernel : ∀ t : Fin grid3.N, _)

/-- Window 1's block at point `t` is rows 2048·t … 2048·t + 2047 of its array. -/
theorem blk1 (c : Dev nD) (t : Fin cfg3.N) (r : Fin 2048) (k : Fin 256) :
    iblk3 V c 1 t (ix2 r k) = V c (Pipeline.arrRef spec3 1) (ix2 (⟨t.val * 2048 + r.val, by have ht : t.val < 64 := t.isLt; have := r.isLt; show _ < 131072; omega⟩ : Fin 131072) k) := by
  obtain ⟨e0, e1⟩ := idx1 t
  show V c (Pipeline.arrRef spec3 1) (((cfg3.win 1).blk t).view.emb (ix2 r k)) = _
  congr 1
  funext ax; apply Fin.ext
  match ax with
  | ⟨0, _⟩ => show win3_1.index t (0 : Fin 2) * 2048 + 1 * r.val = t.val * 2048 + r.val; omega
  | ⟨1, _⟩ => show win3_1.index t (1 : Fin 2) * 256 + 1 * k.val = k.val; omega

theorem idx2 : ∀ t : Fin cfg3.N, win3_2.index t (0 : Fin 2) = 0 ∧ win3_2.index t (1 : Fin 2) = 0 :=
  (by decide +kernel : ∀ t : Fin grid3.N, _)

/-- Window 2's block is its whole array at every point. -/
theorem blk2 (c : Dev nD) (t : Fin cfg3.N) (r : Fin 256) (k : Fin 512) :
    iblk3 V c 2 t (ix2 r k) = V c (Pipeline.arrRef spec3 2) (ix2 r k) := by
  obtain ⟨e0, e1⟩ := idx2 t
  show V c (Pipeline.arrRef spec3 2) (((cfg3.win 2).blk t).view.emb (ix2 r k)) = _
  congr 1
  funext ax; apply Fin.ext
  match ax with
  | ⟨0, _⟩ => show win3_2.index t (0 : Fin 2) * 256 + 1 * r.val = r.val; have := r.isLt; omega
  | ⟨1, _⟩ => show win3_2.index t (1 : Fin 2) * 512 + 1 * k.val = k.val; omega

theorem idx3 : ∀ t : Fin cfg3.N, win3_3.index t (0 : Fin 2) = 0 ∧ win3_3.index t (1 : Fin 2) = 0 :=
  (by decide +kernel : ∀ t : Fin grid3.N, _)

/-- Window 3's block is its whole array at every point. -/
theorem blk3 (c : Dev nD) (t : Fin cfg3.N) (r : Fin 256) (k : Fin 256) :
    iblk3 V c 3 t (ix2 r k) = V c (Pipeline.arrRef spec3 3) (ix2 r k) := by
  obtain ⟨e0, e1⟩ := idx3 t
  show V c (Pipeline.arrRef spec3 3) (((cfg3.win 3).blk t).view.emb (ix2 r k)) = _
  congr 1
  funext ax; apply Fin.ext
  match ax with
  | ⟨0, _⟩ => show win3_3.index t (0 : Fin 2) * 256 + 1 * r.val = r.val; have := r.isLt; omega
  | ⟨1, _⟩ => show win3_3.index t (1 : Fin 2) * 256 + 1 * k.val = k.val; omega

theorem idx4 : ∀ t : Fin cfg3.N, win3_4.index t (0 : Fin 2) = 0 ∧ win3_4.index t (1 : Fin 2) = 0 :=
  (by decide +kernel : ∀ t : Fin grid3.N, _)

/-- Window 4's block is its whole array at every point. -/
theorem blk4 (c : Dev nD) (t : Fin cfg3.N) (r : Fin 1) (k : Fin 256) :
    iblk3 V c 4 t (ix2 r k) = V c (Pipeline.arrRef spec3 4) (ix2 (0 : Fin 1) k) := by
  obtain ⟨e0, e1⟩ := idx4 t
  show V c (Pipeline.arrRef spec3 4) (((cfg3.win 4).blk t).view.emb (ix2 r k)) = _
  congr 1
  funext ax; apply Fin.ext
  match ax with
  | ⟨0, _⟩ => show win3_4.index t (0 : Fin 2) * 1 + 1 * r.val = 0; have := r.isLt; omega
  | ⟨1, _⟩ => show win3_4.index t (1 : Fin 2) * 256 + 1 * k.val = k.val; omega

theorem idx5 : ∀ t : Fin cfg3.N, win3_5.index t (0 : Fin 2) = 0 ∧ win3_5.index t (1 : Fin 2) = 0 :=
  (by decide +kernel : ∀ t : Fin grid3.N, _)

/-- Window 5's block is its whole array at every point. -/
theorem blk5 (c : Dev nD) (t : Fin cfg3.N) (r : Fin 1) (k : Fin 512) :
    iblk3 V c 5 t (ix2 r k) = V c (Pipeline.arrRef spec3 5) (ix2 (0 : Fin 1) k) := by
  obtain ⟨e0, e1⟩ := idx5 t
  show V c (Pipeline.arrRef spec3 5) (((cfg3.win 5).blk t).view.emb (ix2 r k)) = _
  congr 1
  funext ax; apply Fin.ext
  match ax with
  | ⟨0, _⟩ => show win3_5.index t (0 : Fin 2) * 1 + 1 * r.val = 0; have := r.isLt; omega
  | ⟨1, _⟩ => show win3_5.index t (1 : Fin 2) * 512 + 1 * k.val = k.val; omega

theorem idx6 : ∀ t : Fin cfg3.N, win3_6.index t (0 : Fin 2) = 0 ∧ win3_6.index t (1 : Fin 2) = 0 :=
  (by decide +kernel : ∀ t : Fin grid3.N, _)

/-- Window 6's block is its whole array at every point. -/
theorem blk6 (c : Dev nD) (t : Fin cfg3.N) (r : Fin 1) (k : Fin 512) :
    iblk3 V c 6 t (ix2 r k) = V c (Pipeline.arrRef spec3 6) (ix2 (0 : Fin 1) k) := by
  obtain ⟨e0, e1⟩ := idx6 t
  show V c (Pipeline.arrRef spec3 6) (((cfg3.win 6).blk t).view.emb (ix2 r k)) = _
  congr 1
  funext ax; apply Fin.ext
  match ax with
  | ⟨0, _⟩ => show win3_6.index t (0 : Fin 2) * 1 + 1 * r.val = 0; have := r.isLt; omega
  | ⟨1, _⟩ => show win3_6.index t (1 : Fin 2) * 512 + 1 * k.val = k.val; omega

theorem idx7 : ∀ t : Fin cfg3.N, win3_7.index t (0 : Fin 2) = t.val ∧ win3_7.index t (1 : Fin 2) = 0 :=
  (by decide +kernel : ∀ t : Fin grid3.N, _)

/-- Window 7's block at point `t` is rows 2048·t … 2048·t + 2047 of its array. -/
theorem blk7 (c : Dev nD) (t : Fin cfg3.N) (r : Fin 2048) (k : Fin 256) :
    iblk3 V c 7 t (ix2 r k) = V c (Pipeline.arrRef spec3 7) (ix2 (⟨t.val * 2048 + r.val, by have ht : t.val < 64 := t.isLt; have := r.isLt; show _ < 131072; omega⟩ : Fin 131072) k) := by
  obtain ⟨e0, e1⟩ := idx7 t
  show V c (Pipeline.arrRef spec3 7) (((cfg3.win 7).blk t).view.emb (ix2 r k)) = _
  congr 1
  funext ax; apply Fin.ext
  match ax with
  | ⟨0, _⟩ => show win3_7.index t (0 : Fin 2) * 2048 + 1 * r.val = t.val * 2048 + r.val; omega
  | ⟨1, _⟩ => show win3_7.index t (1 : Fin 2) * 256 + 1 * k.val = k.val; omega

/-- What point `t` writes back is block `t` of the layer of the arrays the region finds. -/
theorem flushed7_eq (c : Dev nD) (t : Fin cfg3.N) :
    (dat3 V c).flushed 7 t = ((cfg3.win 7).blk t).view.read (Elt Ideal)
      (arr2 (lin2act (V c (Pipeline.arrRef spec3 5)) (V c (Pipeline.arrRef spec3 6)) (V c (Pipeline.arrRef spec3 0)) (V c (Pipeline.arrRef spec3 1))
        (V c (Pipeline.arrRef spec3 2)) (V c (Pipeline.arrRef spec3 3)) (V c (Pipeline.arrRef spec3 4)))) := by
  show (cfg3.win 7).cut (grid3.coords t) ((dat3 V c).after 7 t) = _
  rw [after3_7]
  unfold out3_7
  rw [View.canon_unit_zero hz]
  simp only [View.ld_unit_zero (S := S2048x512) hz, View.ld_unit_zero (S := S2048x256) hz, View.ld_unit_zero (S := S256x512) hz,
    View.ld_unit_zero (S := S256x256) hz, View.ld_unit_zero (S := S1x256) hz, View.ld_unit_zero (S := S1x512) hz]
  funext y
  obtain ⟨r, n, rfl⟩ : ∃ (r : Fin 2048) (n : Fin 256), y = ix2 r n := ⟨y 0, y 1, eq_ix2 y⟩
  show k3_pay1 (iblk3 V c 0 t) (iblk3 V c 5 t) (iblk3 V c 6 t) (iblk3 V c 1 t) (iblk3 V c 2 t) (iblk3 V c 3 t) (iblk3 V c 4 t) (ix2 r n)
    = arr2 (lin2act (V c (Pipeline.arrRef spec3 5)) (V c (Pipeline.arrRef spec3 6)) (V c (Pipeline.arrRef spec3 0)) (V c (Pipeline.arrRef spec3 1))
        (V c (Pipeline.arrRef spec3 2)) (V c (Pipeline.arrRef spec3 3)) (V c (Pipeline.arrRef spec3 4))) (((cfg3.win 7).blk t).view.emb (ix2 r n))
  refine (pay_apply (iblk3 V c 0 t) (iblk3 V c 5 t) (iblk3 V c 6 t) (iblk3 V c 1 t) (iblk3 V c 2 t) (iblk3 V c 3 t) (iblk3 V c 4 t) r n).trans ?_
  have hemb : ((cfg3.win 7).blk t).view.emb (ix2 r n) = ix2 (⟨t.val * 2048 + r.val, by have ht : t.val < 64 := t.isLt; have := r.isLt; show _ < 131072; omega⟩ : Fin 131072) n := by
    obtain ⟨e0, e1⟩ := idx7 t
    funext ax; apply Fin.ext
    match ax with
    | ⟨0, _⟩ => show win3_7.index t (0 : Fin 2) * 2048 + 1 * r.val = t.val * 2048 + r.val; omega
    | ⟨1, _⟩ => show win3_7.index t (1 : Fin 2) * 256 + 1 * n.val = n.val; omega
  rw [hemb, arr2_apply]
  unfold lin2act dot
  simp only [blk0, blk1, blk2, blk3, blk4, blk5, blk6]

theorem mem_blk7 (t : Fin cfg3.N) (i : S131072x256.Idx) :
    i ∈ ((cfg3.win 7).blk t).view.set ↔ ∀ ax : Fin 2, win3_7.index t ax * S2048x256.size ax ≤ (i ax).val ∧ (i ax).val < win3_7.index t ax * S2048x256.size ax + S2048x256.size ax := by
  show i ∈ ((View.whole main_v101).slice (win3_7.rect t)).set ↔ _
  rw [View.set_slice_whole, Rect.mem_set_unit]
  exact Iff.rfl

/-- Row `R` of the array lies in the block of point `R / 2048`: the 64 blocks of 2048 rows cover it. -/
theorem cover7 (i : S131072x256.Idx) : ∃ t : Fin cfg3.N, (cfg3.win 7).flush t = true ∧ i ∈ ((cfg3.win 7).blk t).view.set := by
  have hi0 : (i 0).val < 131072 := (i 0).isLt
  have hi1 : (i 1).val < 256 := (i 1).isLt
  have ht : (i 0).val / 2048 < 64 := by omega
  refine ⟨⟨(i 0).val / 2048, ht⟩, flush3_7 _, ?_⟩
  rw [mem_blk7]
  obtain ⟨e0, e1⟩ := idx7 ⟨(i 0).val / 2048, ht⟩
  intro ax
  match ax with
  | ⟨0, _⟩ =>
    show win3_7.index ⟨(i 0).val / 2048, ht⟩ (0 : Fin 2) * 2048 ≤ (i 0).val ∧ (i 0).val < win3_7.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win3_7.index ⟨(i 0).val / 2048, ht⟩ (1 : Fin 2) * 256 ≤ (i 1).val ∧ (i 1).val < win3_7.index ⟨(i 0).val / 2048, ht⟩ (1 : Fin 2) * 256 + 256
    rw [e1]; omega

/-- After the region this output array is that function of the arrays the region found. -/
theorem final7 (c : Dev nD) : (dat3 V c).arrAt 7 cfg3.N = arr2 (lin2act (V c (Pipeline.arrRef spec3 5)) (V c (Pipeline.arrRef spec3 6)) (V c (Pipeline.arrRef spec3 0)) (V c (Pipeline.arrRef spec3 1))
        (V c (Pipeline.arrRef spec3 2)) (V c (Pipeline.arrRef spec3 3)) (V c (Pipeline.arrRef spec3 4))) :=
  (dat3 V c).arrAt_eq_of_cover 7 _ (fun t _ => flushed7_eq V c t) cover7

end Cert.KernelIdeal.Reg3

end
-- ==== Proof.LibGather.lean ====
/-
  The row gather `x[idx]` of a matrix, read at an index.  For an operand of shape [N, C], start indices of shape
  [A, 1] and a result of shape [A, C], with the result's column axis the only offset axis, the operand's row axis
  collapsed and named by the start index map, no batching axes and slices of one row: the result's entry (i, k) is
  the operand's entry (ρ i, k), where the row ρ i is the start index `idx[i, 0]` read signed and clamped into
  [0, N − 1].  The row does not depend on the column, and the column is the result's own.
-/
import Idealize.ShloMosaic.PureOps.Ideal
import Idealize.ShloMosaic.Lib.ValueIdx

noncomputable section

namespace Cert.FPN

open Idealize.ShloMosaic Idealize.ShloMosaic.ValueIdx

variable {α : Type}

/-- The dimension numbers of a row gather; their conditions `wf` are decided on literal shapes. -/
abbrev rowDims (N A C : Nat) (wf : GatherDims.WF ⟨2, ![N, C]⟩ ⟨2, ![A, 1]⟩ ⟨2, ![A, C]⟩ [1] [0] [] [0] [] 1 ![1, C]) :
    GatherDims ⟨2, ![N, C]⟩ ⟨2, ![A, 1]⟩ ⟨2, ![A, C]⟩ where
  offsetDims := [1]
  collapsedSliceDims := [0]
  operandBatchingDims := []
  startIndicesBatchingDims := []
  startIndexMap := [0]
  indexVectorDim := 1
  sliceSizes := ![1, C]
  wf := wf

/-- The operand row that result row `i` reads: the row coordinate of the operand index of the result's entry (i, 0). -/
def rowMap {N A C w : Nat} (d : GatherDims ⟨2, ![N, C]⟩ ⟨2, ![A, 1]⟩ ⟨2, ![A, C]⟩) (idx : IVec ⟨2, ![A, 1]⟩ w) (hC : 0 < C)
    (i : Fin A) : Fin N :=
  ⟨(d.operandIdx (ix2 i ⟨0, hC⟩) idx 0).val, (d.operandIdx (ix2 i ⟨0, hC⟩) idx 0).isLt⟩

section Rows
variable {N A C w : Nat} (wf : GatherDims.WF ⟨2, ![N, C]⟩ ⟨2, ![A, 1]⟩ ⟨2, ![A, C]⟩ [1] [0] [] [0] [] 1 ![1, C])

/-- No axis is a batching axis. -/
theorem rowDims_batchCoord (j : (⟨2, ![A, C]⟩ : Shape).Idx) (a : Fin 2) : (rowDims N A C wf).batchCoord j a = 0 :=
  GatherDims.batchCoord_eq_zero _ _ _ List.not_mem_nil

/-- The row axis is collapsed: it carries no offset. -/
theorem rowDims_offCoord_row (j : (⟨2, ![A, C]⟩ : Shape).Idx) : (rowDims N A C wf).offCoord j 0 = 0 :=
  GatherDims.offCoord_eq_zero _ _ _ (fun h => ((GatherDims.mem_sKept _ _).mp h).1 (List.mem_singleton.mpr rfl))

/-- The start on the row axis is the start index of the result's row, read signed and clamped; the column plays no part. -/
theorem rowDims_start_row (idx : IVec ⟨2, ![A, 1]⟩ w) (i : Fin A) (k : Fin C) :
    (rowDims N A C wf).start (ix2 i k) idx 0 = min (idx (ix2 i (0 : Fin 1))).toInt.toNat (N - 1) := by
  unfold GatherDims.start
  rw [dif_pos (show (0 : Fin 2) ∈ (rowDims N A C wf).startIndexMap from List.mem_singleton.mpr rfl)]
  have hsi : (rowDims N A C wf).siIdx (ix2 i k) ⟨List.idxOf (0 : Fin 2) (rowDims N A C wf).startIndexMap,
      List.idxOf_lt_length_iff.2 (List.mem_singleton.mpr rfl)⟩ = ix2 i (0 : Fin 1) := by
    funext b; refine Fin.ext ?_
    match b with
    | ⟨0, _⟩ => rfl
    | ⟨1, _⟩ => rfl
  rw [hsi]
  rfl

/-- The row a result row reads, as a number. -/
theorem rowMap_val (idx : IVec ⟨2, ![A, 1]⟩ w) (hC : 0 < C) (i : Fin A) :
    (rowMap (rowDims N A C wf) idx hC i).val = min (idx (ix2 i (0 : Fin 1))).toInt.toNat (N - 1) := by
  show (rowDims N A C wf).start (ix2 i ⟨0, hC⟩) idx 0 + (rowDims N A C wf).batchCoord (ix2 i ⟨0, hC⟩) 0
      + (rowDims N A C wf).offCoord (ix2 i ⟨0, hC⟩) 0 = _
  rw [rowDims_batchCoord, rowDims_offCoord_row, rowDims_start_row]
  rfl

/-- THE ROW GATHER READ AT (i, k): the operand at row `rowMap … i`, column `k`. -/
theorem gather_rows_apply (hC : 0 < C) (x : (⟨2, ![N, C]⟩ : Shape).Idx → α) (idx : IVec ⟨2, ![A, 1]⟩ w) (i : Fin A) (k : Fin C) :
    Host.gather (rowDims N A C wf) x idx (ix2 i k) = x (ix2 (rowMap (rowDims N A C wf) idx hC i) k) := by
  unfold Host.gather
  congr 1
  funext a
  refine Fin.ext ?_
  match a with
  | ⟨0, _⟩ =>
    show (rowDims N A C wf).start (ix2 i k) idx 0 + (rowDims N A C wf).batchCoord (ix2 i k) 0
        + (rowDims N A C wf).offCoord (ix2 i k) 0 = (rowMap (rowDims N A C wf) idx hC i).val
    rw [rowDims_batchCoord, rowDims_offCoord_row, rowDims_start_row, rowMap_val]
    rfl
  | ⟨1, _⟩ =>
    show (rowDims N A C wf).start (ix2 i k) idx 1 + (rowDims N A C wf).batchCoord (ix2 i k) 1
        + (rowDims N A C wf).offCoord (ix2 i k) 1 = k.val
    have hs1 : (rowDims N A C wf).start (ix2 i k) idx 1 = 0 := by
      unfold GatherDims.start
      rw [dif_neg (show (1 : Fin 2) ∉ ([0] : List (Fin 2)) by decide)]
    have ho1 : (rowDims N A C wf).offCoord (ix2 i k) 1 = k.val := by
      unfold GatherDims.offCoord
      rw [dif_pos ((GatherDims.mem_sKept (rowDims N A C wf) 1).mpr
        ⟨(show (1 : Fin 2) ∉ ([0] : List (Fin 2)) by decide), List.not_mem_nil⟩)]
      rfl
    rw [rowDims_batchCoord, hs1, ho1]
    omega

/-- The same for any record equal to `rowDims` (a program's own record of these dimension numbers: equal by `rfl`). -/
theorem gather_rows_apply_of_eq (d : GatherDims ⟨2, ![N, C]⟩ ⟨2, ![A, 1]⟩ ⟨2, ![A, C]⟩) (hd : d = rowDims N A C wf) (hC : 0 < C)
    (x : (⟨2, ![N, C]⟩ : Shape).Idx → α) (idx : IVec ⟨2, ![A, 1]⟩ w) (i : Fin A) (k : Fin C) :
    Host.gather d x idx (ix2 i k) = x (ix2 (rowMap d idx hC i) k) := by
  subst hd
  exact gather_rows_apply wf hC x idx i k

/-- Its row map as a number. -/
theorem rowMap_val_of_eq (d : GatherDims ⟨2, ![N, C]⟩ ⟨2, ![A, 1]⟩ ⟨2, ![A, C]⟩) (hd : d = rowDims N A C wf)
    (idx : IVec ⟨2, ![A, 1]⟩ w) (hC : 0 < C) (i : Fin A) :
    (rowMap d idx hC i).val = min (idx (ix2 i (0 : Fin 1))).toInt.toNat (N - 1) := by
  subst hd
  exact rowMap_val wf idx hC i

end Rows

end Cert.FPN

end
-- ==== Proof.KValue.lean ====
/-
  The idealized kernel's result as one expression of the argument arrays.  Region by region: the contents a
  region finds in its windows are read back through the fold (argument arrays and prepared weight slices
  unchanged; a gathered operand as the picked rows of the previous region's output; the per-channel scale
  and shift as the statistics stretch computes them from the previous region's block sums), and the
  region's outputs are the layer of those.  x5 is the input projection; r4 the first decoder layer;
  (a4, ab4) its normalisation folded to scale and shift; r3 the second layer on the activated, gathered
  r4; (a3, ab3) likewise; the result is the last layer on the activated, gathered r3.
-/
import proofs.«117334_j39633958207498_2_alg».proof.Proof.KFold
import proofs.«117334_j39633958207498_2_alg».proof.Proof.KHost
import proofs.«117334_j39633958207498_2_alg».proof.Proof.KReg0
import proofs.«117334_j39633958207498_2_alg».proof.Proof.KReg1
import proofs.«117334_j39633958207498_2_alg».proof.Proof.KReg2
import proofs.«117334_j39633958207498_2_alg».proof.Proof.KReg3
import proofs.«117334_j39633958207498_2_alg».proof.Proof.LibGather
set_option maxRecDepth 16384
noncomputable section
namespace Cert.KernelIdeal.Value
open Cert.KernelIdeal Cert.KernelIdeal.Gen Cert.KernelIdeal.Fold Cert.KernelIdeal.Host Cert.FPN
open Idealize.ShloMosaic Idealize.ShloMosaic.TcCoe Idealize.ShloMosaic.StableHlo Idealize.ShloMosaic.ValueIdx
open Idealize.SL Idealize.SL.Sem
variable (m : (ℓ : Loc nD τ sig) → Buf (Elt Ideal) ℓ) (ρ : Dev nD → PrngReg) (c : Dev nD)

/-- The launch contents of an argument array. -/
abbrev arg (b : Ref sig .tc) : Buf (Elt Ideal) ((c : Thread nD τ).loc b) := m ((c : Thread nD τ).loc b)

/-- The row indices as both programs normalise them (a negative index counts from the end), one per result row. -/
def nIdx4 (u : IVec S8192 32) : IVec S8192x1 32 :=
  broadcastInDim S8192x1 ![0] bcast_S8192_S8192x1_0
    (select (cmpi .slt u (broadcastInDim S8192 ![] bcast_S_S8192 (constantI S_ 32 0#32)))
      (addi u (broadcastInDim S8192 ![] bcast_S_S8192 (constantI S_ 32 2048#32))) u)

/-- The row indices as both programs normalise them (a negative index counts from the end), one per result row. -/
def nIdx3 (u : IVec S32768 32) : IVec S32768x1 32 :=
  broadcastInDim S32768x1 ![0] bcast_S32768_S32768x1_0
    (select (cmpi .slt u (broadcastInDim S32768 ![] bcast_S_S32768 (constantI S_ 32 0#32)))
      (addi u (broadcastInDim S32768 ![] bcast_S_S32768 (constantI S_ 32 8192#32))) u)

/-- The row indices as both programs normalise them (a negative index counts from the end), one per result row. -/
def nIdx2 (u : IVec S131072 32) : IVec S131072x1 32 :=
  broadcastInDim S131072x1 ![0] bcast_S131072_S131072x1_0
    (select (cmpi .slt u (broadcastInDim S131072 ![] bcast_S_S131072 (constantI S_ 32 0#32)))
      (addi u (broadcastInDim S131072 ![] bcast_S_S131072 (constantI S_ 32 32768#32))) u)

abbrev gd4 := gather_S2048x2048_S8192x1_S8192x2048_1_0_n_n_0_1_12048

/-- The gather is a choice of rows. -/
theorem gather4_eq (x : M 2048 2048) (idx : IVec S8192x1 32) :
    (Host.gather gd4 x idx : M 8192 2048) = pick (rowMap gd4 idx (by decide)) x := by
  funext j
  obtain ⟨i, k, rfl⟩ : ∃ (i : Fin 8192) (k : Fin 2048), j = ix2 i k := ⟨j 0, j 1, eq_ix2 j⟩
  rw [pick_apply]
  exact gather_rows_apply_of_eq (by decide) gd4 rfl (by decide) x idx i k

abbrev gd3 := gather_S8192x1024_S32768x1_S32768x1024_1_0_n_n_0_1_11024

/-- The gather is a choice of rows. -/
theorem gather3_eq (x : M 8192 1024) (idx : IVec S32768x1 32) :
    (Host.gather gd3 x idx : M 32768 1024) = pick (rowMap gd3 idx (by decide)) x := by
  funext j
  obtain ⟨i, k, rfl⟩ : ∃ (i : Fin 32768) (k : Fin 1024), j = ix2 i k := ⟨j 0, j 1, eq_ix2 j⟩
  rw [pick_apply]
  exact gather_rows_apply_of_eq (by decide) gd3 rfl (by decide) x idx i k

abbrev gd2 := gather_S32768x512_S131072x1_S131072x512_1_0_n_n_0_1_1512

/-- The gather is a choice of rows. -/
theorem gather2_eq (x : M 32768 512) (idx : IVec S131072x1 32) :
    (Host.gather gd2 x idx : M 131072 512) = pick (rowMap gd2 idx (by decide)) x := by
  funext j
  obtain ⟨i, k, rfl⟩ : ∃ (i : Fin 131072) (k : Fin 512), j = ix2 i k := ⟨j 0, j 1, eq_ix2 j⟩
  rw [pick_apply]
  exact gather_rows_apply_of_eq (by decide) gd2 rfl (by decide) x idx i k

/-! ## The stage values -/

def kX5 : M 2048 2048 := arr2 (lin1 (arg m c main_arg3) (arg m c main_arg7) (rowOf (arg m c main_arg8)))

def kR4 : Fin 8192 → Fin 1024 → EReal :=
  lin2 (pick (rowMap gd4 (nIdx4 (arg m c main_arg6)) (by decide)) (kX5 m c)) (arg m c main_arg2) (cols 0 2048 (by decide) (arg m c main_arg9)) (cols 2048 1024 (by decide) (arg m c main_arg9)) (rowOf (arg m c main_arg10))

def kA4 : Fin 1024 → EReal :=
  d4.scaleK cZ cE8 cCNT4 cONE cEPS (blockSum 256 Reg1.rows_lt (kR4 m c)) (blockSum 256 Reg1.rows_lt fun R n => kR4 m c R n * kR4 m c R n)
    (fun n => (arg m c main_arg11) (ix1 n))

def kAb4 : Fin 1024 → EReal :=
  d4.shiftK cZ cE8 cCNT4 cONE cEPS (blockSum 256 Reg1.rows_lt (kR4 m c)) (blockSum 256 Reg1.rows_lt fun R n => kR4 m c R n * kR4 m c R n)
    (fun n => (arg m c main_arg11) (ix1 n)) (fun n => (arg m c main_arg12) (ix1 n))

def kR3 : Fin 32768 → Fin 512 → EReal :=
  lin2act (rowFn (kA4 m c)) (rowFn (kAb4 m c)) (pick (rowMap gd3 (nIdx3 (arg m c main_arg5)) (by decide)) (arr2 (kR4 m c))) (arg m c main_arg1)
    (cols 0 1024 (by decide) (arg m c main_arg13)) (cols 1024 512 (by decide) (arg m c main_arg13)) (rowOf (arg m c main_arg14))

def kA3 : Fin 512 → EReal :=
  d3.scaleK cZ cE8 cCNT3 cONE cEPS (blockSum 1024 Reg2.rows_lt (kR3 m c)) (blockSum 1024 Reg2.rows_lt fun R n => kR3 m c R n * kR3 m c R n)
    (fun n => (arg m c main_arg15) (ix1 n))

def kAb3 : Fin 512 → EReal :=
  d3.shiftK cZ cE8 cCNT3 cONE cEPS (blockSum 1024 Reg2.rows_lt (kR3 m c)) (blockSum 1024 Reg2.rows_lt fun R n => kR3 m c R n * kR3 m c R n)
    (fun n => (arg m c main_arg15) (ix1 n)) (fun n => (arg m c main_arg16) (ix1 n))

def kOut : Fin 131072 → Fin 256 → EReal :=
  lin2act (rowFn (kA3 m c)) (rowFn (kAb3 m c)) (pick (rowMap gd2 (nIdx2 (arg m c main_arg4)) (by decide)) (arr2 (kR3 m c))) (arg m c main_arg0)
    (cols 0 512 (by decide) (arg m c main_arg17)) (cols 512 256 (by decide) (arg m c main_arg17)) (rowOf (arg m c main_arg18))

/-! ## The first stretch: weights and the first bias -/

theorem W1_v0 : (W1 m ρ c (Proc.devRef .tc main_v0) : M 2048 2048) = ((arg m c main_arg7) : M 2048 2048) := by
  show (StableHlo.after hostOps0 (fun b => m (c, b)) (Proc.devRef .tc main_v0) : M 2048 2048) = _
  after_results
  rfl

theorem W1_v13 : (W1 m ρ c (Proc.devRef .tc main_v13) : M 1 2048) = rowOf (arg m c main_arg8) := by
  refine Eq.trans ?_ (row2048 (arg m c main_arg8))
  show (StableHlo.after hostOps0 (fun b => m (c, b)) (Proc.devRef .tc main_v13) : M 1 2048) = _
  after_results
  rfl

theorem W1_main_v2 : (W1 m ρ c (Proc.devRef .tc main_v2) : M 1024 2048) = cols 0 2048 (by decide) (arg m c main_arg9) := by
  show (StableHlo.after hostOps0 (fun b => m (c, b)) (Proc.devRef .tc main_v2) : M 1024 2048) = _
  after_results
  exact colsG4 (arg m c main_arg9)

theorem W1_main_v4 : (W1 m ρ c (Proc.devRef .tc main_v4) : M 1024 1024) = cols 2048 1024 (by decide) (arg m c main_arg9) := by
  show (StableHlo.after hostOps0 (fun b => m (c, b)) (Proc.devRef .tc main_v4) : M 1024 1024) = _
  after_results
  exact colsF4 (arg m c main_arg9)

theorem W1_main_v6 : (W1 m ρ c (Proc.devRef .tc main_v6) : M 512 1024) = cols 0 1024 (by decide) (arg m c main_arg13) := by
  show (StableHlo.after hostOps0 (fun b => m (c, b)) (Proc.devRef .tc main_v6) : M 512 1024) = _
  after_results
  exact colsG3 (arg m c main_arg13)

theorem W1_main_v8 : (W1 m ρ c (Proc.devRef .tc main_v8) : M 512 512) = cols 1024 512 (by decide) (arg m c main_arg13) := by
  show (StableHlo.after hostOps0 (fun b => m (c, b)) (Proc.devRef .tc main_v8) : M 512 512) = _
  after_results
  exact colsF3 (arg m c main_arg13)

theorem W1_main_v10 : (W1 m ρ c (Proc.devRef .tc main_v10) : M 256 512) = cols 0 512 (by decide) (arg m c main_arg17) := by
  show (StableHlo.after hostOps0 (fun b => m (c, b)) (Proc.devRef .tc main_v10) : M 256 512) = _
  after_results
  exact colsG2 (arg m c main_arg17)

theorem W1_main_v12 : (W1 m ρ c (Proc.devRef .tc main_v12) : M 256 256) = cols 512 256 (by decide) (arg m c main_arg17) := by
  show (StableHlo.after hostOps0 (fun b => m (c, b)) (Proc.devRef .tc main_v12) : M 256 256) = _
  after_results
  exact colsF2 (arg m c main_arg17)

theorem lin_eq (x : Vec Ideal S2048x2048 .f32) (W : Vec Ideal S2048x2048 .bf16) (b : Vec Ideal S1x2048 .f32) :
    (Reg0.lin x W b : M 2048 2048) = arr2 (lin1 x W b) := rfl

/-! ## Region 0 -/

theorem x5_eq : (W2 m ρ c (Proc.devRef .tc main_v14) : M 2048 2048) = kX5 m c := by
  refine (W2_arr m ρ c 3).trans ((Reg0.final3 (V1 m ρ) c).trans ?_)
  show (Reg0.lin (W1 m ρ c (Proc.devRef .tc main_arg3)) (W1 m ρ c (Proc.devRef .tc main_v0)) (W1 m ρ c (Proc.devRef .tc main_v13)) : M 2048 2048) = _
  rw [lin_eq, W1_main_arg3, W1_v0, W1_v13]
  rfl

/-! ## Region 1 -/

theorem W3_v21 : (W3 m ρ c (Proc.devRef .tc main_v21) : M 8192 2048) = pick (rowMap gd4 (nIdx4 (arg m c main_arg6)) (by decide)) (kX5 m c) := by
  show (StableHlo.after hostOps1 (W2 m ρ c) (Proc.devRef .tc main_v21) : M 8192 2048) = _
  after_results
  rw [W2_main_arg6, x5_eq]
  exact gather4_eq (kX5 m c) (nIdx4 (arg m c main_arg6))

theorem W3_v22 : (W3 m ρ c (Proc.devRef .tc main_v22) : M 1 1024) = rowOf (arg m c main_arg10) := by
  refine Eq.trans ?_ (row1024 (arg m c main_arg10))
  show (StableHlo.after hostOps1 (W2 m ρ c) (Proc.devRef .tc main_v22) : M 1 1024) = _
  after_results
  rw [W2_main_arg10]
  rfl

theorem entry1 : lin2 (W3 m ρ c (Proc.devRef .tc main_v21)) (W3 m ρ c (Proc.devRef .tc main_arg2)) (W3 m ρ c (Proc.devRef .tc main_v2))
      (W3 m ρ c (Proc.devRef .tc main_v4)) (W3 m ρ c (Proc.devRef .tc main_v22)) = kR4 m c := by
  rw [W3_v21, W3_main_arg2, W3_main_v2, W3_main_v4, W1_main_v2, W1_main_v4, W3_v22]
  rfl

theorem raw4_eq : (W4 m ρ c (Proc.devRef .tc main_v23_0) : M 8192 1024) = arr2 (kR4 m c) := by
  refine (W4_arr m ρ c 5).trans ((Reg1.final5 (V3 m ρ) c).trans ?_)
  exact congrArg arr2 (entry1 m ρ c)

theorem sum4_eq : (W4 m ρ c (Proc.devRef .tc main_v23_1) : M 256 1024) = arr2 (blockSum 256 Reg1.rows_lt (kR4 m c)) := by
  refine (W4_arr m ρ c 6).trans ((Reg1.final6 (V3 m ρ) c).trans ?_)
  exact congrArg (fun f => arr2 (blockSum 256 Reg1.rows_lt f)) (entry1 m ρ c)

theorem sumsq4_eq : (W4 m ρ c (Proc.devRef .tc main_v23_2) : M 256 1024)
    = arr2 (blockSum 256 Reg1.rows_lt fun R n => kR4 m c R n * kR4 m c R n) := by
  refine (W4_arr m ρ c 7).trans ((Reg1.final7 (V3 m ρ) c).trans ?_)
  exact congrArg (fun f : Fin 8192 → Fin 1024 → EReal => arr2 (blockSum 256 Reg1.rows_lt fun R n => f R n * f R n)) (entry1 m ρ c)

/-! ## Region 2 -/

theorem W5_v60 : (W5 m ρ c (Proc.devRef .tc main_v60) : M 32768 1024)
    = pick (rowMap gd3 (nIdx3 (arg m c main_arg5)) (by decide)) (arr2 (kR4 m c)) := by
  show (StableHlo.after hostOps2 (W4 m ρ c) (Proc.devRef .tc main_v60) : M 32768 1024) = _
  after_results_simp
  rw [W4_main_arg5, raw4_eq]
  exact gather3_eq (arr2 (kR4 m c)) (nIdx3 (arg m c main_arg5))

theorem W5_v61 : (W5 m ρ c (Proc.devRef .tc main_v61) : M 1 512) = rowOf (arg m c main_arg14) := by
  refine Eq.trans ?_ (row512 (arg m c main_arg14))
  show (StableHlo.after hostOps2 (W4 m ρ c) (Proc.devRef .tc main_v61) : M 1 512) = _
  after_results_simp
  rw [W4_main_arg14]
  rfl

set_option maxHeartbeats 2000000 in
theorem W5_v52 : (W5 m ρ c (Proc.devRef .tc main_v52) : M 1 1024) = rowFn (kA4 m c) := by
  have e : (StableHlo.after hostOps2 (W4 m ρ c) (Proc.devRef .tc main_v52) : M 1 1024)
      = shapeCast S1x1024 (gnScale4 (W4 m ρ c (Proc.devRef .tc main_v23_1)) (W4 m ρ c (Proc.devRef .tc main_v23_2)) (W4 m ρ c (Proc.devRef .tc main_arg11))) shapeCasts_S1024_S1x1024 := by
    after_results_simp
    rfl
  refine e.trans ?_
  rw [scaleRow4, sum4_eq, sumsq4_eq, W4_main_arg11]
  rfl

set_option maxHeartbeats 2000000 in
theorem W5_v53 : (W5 m ρ c (Proc.devRef .tc main_v53) : M 1 1024) = rowFn (kAb4 m c) := by
  have e : (StableHlo.after hostOps2 (W4 m ρ c) (Proc.devRef .tc main_v53) : M 1 1024)
      = shapeCast S1x1024 (gnShift4 (W4 m ρ c (Proc.devRef .tc main_v23_1)) (W4 m ρ c (Proc.devRef .tc main_v23_2)) (W4 m ρ c (Proc.devRef .tc main_arg11)) (W4 m ρ c (Proc.devRef .tc main_arg12))) shapeCasts_S1024_S1x1024 := by
    after_results_simp
    rfl
  refine e.trans ?_
  rw [shiftRow4, sum4_eq, sumsq4_eq, W4_main_arg11, W4_main_arg12]
  rfl

theorem entry2 : lin2act (W5 m ρ c (Proc.devRef .tc main_v52)) (W5 m ρ c (Proc.devRef .tc main_v53)) (W5 m ρ c (Proc.devRef .tc main_v60))
      (W5 m ρ c (Proc.devRef .tc main_arg1)) (W5 m ρ c (Proc.devRef .tc main_v6)) (W5 m ρ c (Proc.devRef .tc main_v8))
      (W5 m ρ c (Proc.devRef .tc main_v61)) = kR3 m c := by
  rw [W5_v52, W5_v53, W5_v60, W5_main_arg1, W5_main_v6, W5_main_v8, W1_main_v6, W1_main_v8, W5_v61]
  rfl

theorem raw3_eq : (W6 m ρ c (Proc.devRef .tc main_v62_0) : M 32768 512) = arr2 (kR3 m c) := by
  refine (W6_arr m ρ c 7).trans ((Reg2.final7 (V5 m ρ) c).trans ?_)
  exact congrArg arr2 (entry2 m ρ c)

theorem sum3_eq : (W6 m ρ c (Proc.devRef .tc main_v62_1) : M 256 512) = arr2 (blockSum 1024 Reg2.rows_lt (kR3 m c)) := by
  refine (W6_arr m ρ c 8).trans ((Reg2.final8 (V5 m ρ) c).trans ?_)
  exact congrArg (fun f => arr2 (blockSum 1024 Reg2.rows_lt f)) (entry2 m ρ c)

theorem sumsq3_eq : (W6 m ρ c (Proc.devRef .tc main_v62_2) : M 256 512)
    = arr2 (blockSum 1024 Reg2.rows_lt fun R n => kR3 m c R n * kR3 m c R n) := by
  refine (W6_arr m ρ c 9).trans ((Reg2.final9 (V5 m ρ) c).trans ?_)
  exact congrArg (fun f : Fin 32768 → Fin 512 → EReal => arr2 (blockSum 1024 Reg2.rows_lt fun R n => f R n * f R n)) (entry2 m ρ c)

/-! ## Region 3 -/

theorem W7_v99 : (W7 m ρ c (Proc.devRef .tc main_v99) : M 131072 512)
    = pick (rowMap gd2 (nIdx2 (arg m c main_arg4)) (by decide)) (arr2 (kR3 m c)) := by
  show (StableHlo.after hostOps3 (W6 m ρ c) (Proc.devRef .tc main_v99) : M 131072 512) = _
  after_results_simp
  rw [W6_main_arg4, raw3_eq]
  exact gather2_eq (arr2 (kR3 m c)) (nIdx2 (arg m c main_arg4))

theorem W7_v100 : (W7 m ρ c (Proc.devRef .tc main_v100) : M 1 256) = rowOf (arg m c main_arg18) := by
  refine Eq.trans ?_ (row256 (arg m c main_arg18))
  show (StableHlo.after hostOps3 (W6 m ρ c) (Proc.devRef .tc main_v100) : M 1 256) = _
  after_results_simp
  rw [W6_main_arg18]
  rfl

set_option maxHeartbeats 2000000 in
theorem W7_v91 : (W7 m ρ c (Proc.devRef .tc main_v91) : M 1 512) = rowFn (kA3 m c) := by
  have e : (StableHlo.after hostOps3 (W6 m ρ c) (Proc.devRef .tc main_v91) : M 1 512)
      = shapeCast S1x512 (gnScale3 (W6 m ρ c (Proc.devRef .tc main_v62_1)) (W6 m ρ c (Proc.devRef .tc main_v62_2)) (W6 m ρ c (Proc.devRef .tc main_arg15))) shapeCasts_S512_S1x512 := by
    after_results_simp
    rfl
  refine e.trans ?_
  rw [scaleRow3, sum3_eq, sumsq3_eq, W6_main_arg15]
  rfl

set_option maxHeartbeats 2000000 in
theorem W7_v92 : (W7 m ρ c (Proc.devRef .tc main_v92) : M 1 512) = rowFn (kAb3 m c) := by
  have e : (StableHlo.after hostOps3 (W6 m ρ c) (Proc.devRef .tc main_v92) : M 1 512)
      = shapeCast S1x512 (gnShift3 (W6 m ρ c (Proc.devRef .tc main_v62_1)) (W6 m ρ c (Proc.devRef .tc main_v62_2)) (W6 m ρ c (Proc.devRef .tc main_arg15)) (W6 m ρ c (Proc.devRef .tc main_arg16))) shapeCasts_S512_S1x512 := by
    after_results_simp
    rfl
  refine e.trans ?_
  rw [shiftRow3, sum3_eq, sumsq3_eq, W6_main_arg15, W6_main_arg16]
  rfl

theorem entry3 : lin2act (W7 m ρ c (Proc.devRef .tc main_v91)) (W7 m ρ c (Proc.devRef .tc main_v92)) (W7 m ρ c (Proc.devRef .tc main_v99))
      (W7 m ρ c (Proc.devRef .tc main_arg0)) (W7 m ρ c (Proc.devRef .tc main_v10)) (W7 m ρ c (Proc.devRef .tc main_v12))
      (W7 m ρ c (Proc.devRef .tc main_v100)) = kOut m c := by
  rw [W7_v91, W7_v92, W7_v99, W7_main_arg0, W7_main_v10, W7_main_v12, W1_main_v10, W1_main_v12, W7_v100]
  rfl

/-- The kernel's result buffer after @main: the last layer of the activated, gathered second layer. -/
theorem result_eq : (W8 m ρ c (Proc.devRef .tc main_v101) : M 131072 256) = arr2 (kOut m c) := by
  refine (W8_arr m ρ c 7).trans ((Reg3.final7 (V7 m ρ) c).trans ?_)
  exact congrArg arr2 (entry3 m ρ c)

end Cert.KernelIdeal.Value

end
-- ==== Proof.Consts.lean ====
/-
  The float constants the two programs spell, as the extended reals their patterns denote at the ideal
  instance.  The counts 262144 = 8192·32 and 524288 = 32768·16 are the numbers of entries in one group of
  channels; 8 is the number of copies of each block's column sum the kernel stores; ε and the
  leaky-ReLU slope are only needed as a positive, respectively a finite, real.
-/
import Idealize.ShloMosaic.PureOps.Ideal
import Idealize.ShloMosaic.PureOps.Ideal.Laws

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

theorem ofBits_count4 : Ideal.ofBits .f32 0x48800000#32 = ((262144 : ℝ) : EReal) := by
  simp [Ideal.ofBits, Ideal.ieee, -EReal.coe_mul]; norm_num

theorem ofBits_count3 : Ideal.ofBits .f32 0x49000000#32 = ((524288 : ℝ) : EReal) := by
  simp [Ideal.ofBits, Ideal.ieee, -EReal.coe_mul]; norm_num

/-- ε, the f32 nearest 1e-5, is a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

/-- The leaky-ReLU slope, the f32 nearest 0.1, is a real. -/
theorem ofBits_slope : ∃ s : ℝ, Ideal.ofBits .f32 0x3DCCCCCD#32 = (s : EReal) := by
  exact ⟨_, by simp [Ideal.ofBits, Ideal.ieee, -EReal.coe_mul]; rfl⟩

end Cert.Consts

end
-- ==== Proof.LibGroupNorm.lean ====
/-
  Group normalisation followed by a leaky ReLU, computed two ways on the extended reals, agree when every
  input is finite.  The plan: every sub-expression of both computations is the coercion of the matching
  real expression (the group sum, the mean, the centred second moment, the reciprocal root, the affine
  map), so the claim reduces to identities of real arithmetic: the block sums stored eight times add up
  to eight times the column sums, (∑ (x − m)²)/N = (∑ x²)/N − m² for the mean m of N numbers, and
  ((x − m)/s)·γ + β = x·(γ/s) + (β − m·(γ/s)).  The two spellings of the leaky ReLU differ only at 0,
  where both give 0.
-/
import Mathlib
import Idealize.ShloMosaic.PureOps.Ideal.Laws
import Idealize.ShloMosaic.Lib.ValueIdx
import proofs.«117334_j39633958207498_2_alg».proof.Proof.Stages

noncomputable section

namespace Cert.FPN

open Idealize.ShloMosaic Idealize.ShloMosaic.ValueIdx

/-! ## Sums -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Summing the T-row block sums over all 8·nb statistics rows counts every row of the nb·T-row array eight
    times: row R = 8·blk + s of the statistics holds the sum of rows blk·T … blk·T + T − 1. -/
theorem sum_blockRows {α : Type*} [AddCommMonoid α] {T nb A A8 : Nat} (hA : A = nb * T) (hA8 : A8 = nb * 8)
    (h : ∀ (R : Fin A8) (i : Fin T), R.val / 8 * T + i.val < A) (f : Fin A → α) :
    ∑ R : Fin A8, ∑ i : Fin T, f ⟨R.val / 8 * T + i.val, h R i⟩ = 8 • ∑ r : Fin A, f r := by
  subst hA hA8
  rw [← Equiv.sum_comp (finProdFinEquiv : Fin nb × Fin 8 ≃ Fin (nb * 8)), Fintype.sum_prod_type,
    ← Equiv.sum_comp (finProdFinEquiv : Fin nb × Fin T ≃ Fin (nb * T)) f, Fintype.sum_prod_type, Finset.smul_sum]
  refine Finset.sum_congr rfl fun blk _ => ?_
  have key : ∀ (s : Fin 8) (i : Fin T),
      (⟨(finProdFinEquiv (blk, s)).val / 8 * T + i.val, h _ i⟩ : Fin (nb * T)) = finProdFinEquiv (blk, i) := by
    intro s i
    apply Fin.ext
    simp only [finProdFinEquiv_apply_val]
    have : (s.val + 8 * blk.val) / 8 = blk.val := by omega
    rw [this, Nat.mul_comm, Nat.add_comm]
  simp only [key, Finset.sum_const, Finset.card_univ, Fintype.card_fin]

/-- A group's P·A entries, laid out channel after channel (entry q is row q mod A of channel q / A of the
    group), summed in that order, is the double sum over the group's channels and the rows. -/
theorem GNDims.sum_entry {α : Type*} [AddCommMonoid α] {A C G P : Nat} (d : GNDims A C G P) (F : Fin A → Fin C → α)
    (g : Fin G) :
    ∑ q : Fin (P * A), F ⟨q.val % A, Nat.mod_lt _ d.hA⟩ ⟨P * g.val + q.val / A, d.chan_lt g _ (d.div_lt q)⟩
      = ∑ p : Fin P, ∑ r : Fin A, F r (d.chan g p) := by
  rw [← Equiv.sum_comp (finProdFinEquiv : Fin P × Fin A ≃ Fin (P * A)), Fintype.sum_prod_type]
  refine Finset.sum_congr rfl fun p _ => Finset.sum_congr rfl fun r _ => ?_
  have h1 : (finProdFinEquiv (p, r)).val % A = r.val := by
    simp only [finProdFinEquiv_apply_val]
    rw [Nat.add_mul_mod_self_left, Nat.mod_eq_of_lt r.isLt]
  have h2 : (finProdFinEquiv (p, r)).val / A = p.val := by
    simp only [finProdFinEquiv_apply_val]
    rw [Nat.add_mul_div_left _ _ d.hA, Nat.div_eq_of_lt r.isLt, Nat.zero_add]
  congr 1
  · exact Fin.ext h1
  · exact Fin.ext (by simp only [GNDims.chan, h2])

/-! ## The real counterparts of the statistics -/

section RealSide
variable {A C G P : Nat}

/-- The sum of a real array over group g: its P channels, all A rows. -/
def GNDims.rsum (d : GNDims A C G P) (x : Fin A → Fin C → ℝ) (g : Fin G) : ℝ :=
  ∑ p : Fin P, ∑ r : Fin A, x r (d.chan g p)

/-- The mean of group g: the sum times 1/N. -/
def GNDims.rmean (d : GNDims A C G P) (N : ℝ) (x : Fin A → Fin C → ℝ) (g : Fin G) : ℝ := d.rsum x g * (1 / N)

/-- The centred second moment of group g. -/
def GNDims.rvar (d : GNDims A C G P) (N : ℝ) (x : Fin A → Fin C → ℝ) (g : Fin G) : ℝ :=
  d.rsum (fun r c => (x r c - d.rmean N x g) * (x r c - d.rmean N x g)) g * (1 / N)

/-- The normalised, scaled and shifted entry. -/
def GNDims.rnorm (d : GNDims A C G P) (N e : ℝ) (x : Fin A → Fin C → ℝ) (γ β : Fin C → ℝ) (i : Fin A) (n : Fin C) : ℝ :=
  (x i n - d.rmean N x (d.grp n)) * (1 / Real.sqrt (d.rvar N x (d.grp n) + e)) * γ n + β n

/-- A centred second moment is a sum of squares over a positive count: it is not negative. -/
theorem GNDims.rvar_nonneg (d : GNDims A C G P) {N : ℝ} (hN : 0 < N) (x : Fin A → Fin C → ℝ) (g : Fin G) :
    0 ≤ d.rvar N x g := by
  unfold GNDims.rvar GNDims.rsum
  exact mul_nonneg (Finset.sum_nonneg fun _ _ => Finset.sum_nonneg fun _ _ => mul_self_nonneg _) (by positivity)

/-- (∑ (x − m)²)/N = (∑ x²)/N − m² when m is the mean of the N = P·A numbers summed. -/
theorem GNDims.rvar_eq (d : GNDims A C G P) {N : ℝ} (hN : N = ((P * A : ℕ) : ℝ)) (hN0 : N ≠ 0)
    (x : Fin A → Fin C → ℝ) (g : Fin G) :
    d.rvar N x g = d.rsum (fun r c => x r c * x r c) g * (1 / N) - d.rmean N x g * d.rmean N x g := by
  obtain ⟨m, hm⟩ : ∃ m, m = d.rmean N x g := ⟨_, rfl⟩
  have hS : d.rsum x g = m * N := by rw [hm, GNDims.rmean]; field_simp
  have expand : d.rsum (fun r c => (x r c - m) * (x r c - m)) g
      = d.rsum (fun r c => x r c * x r c) g - 2 * m * d.rsum x g + N * (m * m) := by
    unfold GNDims.rsum
    simp only [show ∀ a : ℝ, (a - m) * (a - m) = a * a - 2 * m * a + m * m from fun a => by ring,
      Finset.sum_add_distrib, Finset.sum_sub_distrib, ← Finset.mul_sum, Finset.sum_const, Finset.card_univ,
      Fintype.card_fin, nsmul_eq_mul, hN]
    push_cast; ring
  unfold GNDims.rvar
  rw [← hm, expand, hS]
  field_simp
  ring

/-! ## The reference's statistics are the coercions of the real ones -/

/-- The sum of a group's entries, of a finite array. -/
theorem GNDims.entry_sum_coe (d : GNDims A C G P) (x : Fin A → Fin C → ℝ) (g : Fin G) :
    ∑ q : Fin (P * A), d.entry (fun r c => ((x r c : ℝ) : EReal)) g q = ((d.rsum x g : ℝ) : EReal) := by
  have h := d.sum_entry (fun r c => ((x r c : ℝ) : EReal)) g
  unfold GNDims.rsum
  simp only [coe_finset_sum]
  exact h

/-- The reference's mean of a finite array is the real mean. -/
theorem GNDims.meanR_coe (d : GNDims A C G P) {N : ℝ} (hN : N ≠ 0) (x : Fin A → Fin C → ℝ) (g : Fin G) :
    d.meanR 0 (N : EReal) (fun r c => ((x r c : ℝ) : EReal)) g = ((d.rmean N x g : ℝ) : EReal) := by
  rw [GNDims.meanR, zero_add, d.entry_sum_coe, Ideal.div_coe hN, ← EReal.coe_mul, GNDims.rmean]

/-- The reference's centred second moment of a finite array is the real one. -/
theorem GNDims.varR_coe (d : GNDims A C G P) {N : ℝ} (hN : N ≠ 0) (x : Fin A → Fin C → ℝ) (g : Fin G) :
    d.varR 0 (N : EReal) (N : EReal) (fun r c => ((x r c : ℝ) : EReal)) g = ((d.rvar N x g : ℝ) : EReal) := by
  have h := d.sum_entry (fun r c => (((x r c : ℝ) : EReal) - ((d.rmean N x g : ℝ) : EReal))
    * (((x r c : ℝ) : EReal) - ((d.rmean N x g : ℝ) : EReal))) g
  have h' : ∑ q : Fin (P * A), (d.entry (fun r c => ((x r c : ℝ) : EReal)) g q - ((d.rmean N x g : ℝ) : EReal))
        * (d.entry (fun r c => ((x r c : ℝ) : EReal)) g q - ((d.rmean N x g : ℝ) : EReal))
      = ((d.rsum (fun r c => (x r c - d.rmean N x g) * (x r c - d.rmean N x g)) g : ℝ) : EReal) := by
    refine h.trans ?_
    unfold GNDims.rsum
    simp only [coe_finset_sum, EReal.coe_mul, EReal.coe_sub]
  rw [GNDims.varR, zero_add, d.meanR_coe hN, h', Ideal.div_coe hN, ← EReal.coe_mul, GNDims.rvar]

/-- The reference's normalised entry of finite data is the real one: the second moment plus a positive ε is
    positive, so its root is a nonzero real and the division is a product with the reciprocal. -/
theorem GNDims.normR_coe (d : GNDims A C G P) {N e : ℝ} (hN : 0 < N) (he : 0 < e) (x : Fin A → Fin C → ℝ)
    (γ β : Fin C → ℝ) (i : Fin A) (n : Fin C) :
    d.normR 0 (N : EReal) (N : EReal) (e : EReal) (fun r c => ((x r c : ℝ) : EReal)) (fun c => ((γ c : ℝ) : EReal))
        (fun c => ((β c : ℝ) : EReal)) i n
      = ((d.rnorm N e x γ β i n : ℝ) : EReal) := by
  have hv := d.rvar_nonneg hN x (d.grp n)
  have hpos : 0 < d.rvar N x (d.grp n) + e := by linarith
  have hs : Real.sqrt (d.rvar N x (d.grp n) + e) ≠ 0 := (Real.sqrt_pos.mpr hpos).ne'
  rw [GNDims.normR, d.meanR_coe hN.ne', d.varR_coe hN.ne', ← EReal.coe_add, Ideal.sqrt_coe, if_neg (not_lt.mpr hpos.le),
    Ideal.div_coe hs, ← EReal.coe_sub, ← EReal.coe_mul, ← EReal.coe_mul, ← EReal.coe_add, GNDims.rnorm]

end RealSide

/-! ## The kernel's statistics are the coercions of the same real ones -/

section KernelSide
variable {A C G P T nb A8 : Nat}

/-- A block sum of a finite array is the coercion of the real block sum. -/
theorem blockSum_coe {n : Nat} (h : ∀ (R : Fin A8) (i : Fin T), R.val / 8 * T + i.val < A) (f : Fin A → Fin n → ℝ)
    (R : Fin A8) (c : Fin n) :
    blockSum T h (fun r c => ((f r c : ℝ) : EReal)) R c
      = ((∑ i : Fin T, f ⟨R.val / 8 * T + i.val, h R i⟩ c : ℝ) : EReal) := by
  rw [blockSum, coe_finset_sum]

/-- The statistics rows of a column add up to eight times the column's sum. -/
theorem sum_blockSum_coe {n : Nat} (hA : A = nb * T) (hA8 : A8 = nb * 8)
    (h : ∀ (R : Fin A8) (i : Fin T), R.val / 8 * T + i.val < A) (f : Fin A → Fin n → ℝ) (c : Fin n) :
    ∑ R : Fin A8, blockSum T h (fun r c => ((f r c : ℝ) : EReal)) R c = ((8 * ∑ r : Fin A, f r c : ℝ) : EReal) := by
  simp only [blockSum_coe]
  rw [← coe_finset_sum, sum_blockRows hA hA8 h (fun r => f r c), nsmul_eq_mul]
  norm_num

/-- The kernel's group sum — per channel, the statistics rows summed and divided by eight, then summed over the
    group's channels — is the group's real sum. -/
theorem GNDims.sumK_coe (d : GNDims A C G P) (hA : A = nb * T) (hA8 : A8 = nb * 8)
    (h : ∀ (R : Fin A8) (i : Fin T), R.val / 8 * T + i.val < A) (f : Fin A → Fin C → ℝ) (g : Fin G) :
    d.sumK 0 ((8 : ℝ) : EReal) (blockSum T h (fun r c => ((f r c : ℝ) : EReal))) g = ((d.rsum f g : ℝ) : EReal) := by
  have h8 : (8 : ℝ) ≠ 0 := by norm_num
  rw [GNDims.sumK, zero_add]
  simp only [zero_add, sum_blockSum_coe hA hA8 h f, Ideal.div_coe h8, ← EReal.coe_mul, ← coe_finset_sum]
  congr 1
  unfold GNDims.rsum
  exact Finset.sum_congr rfl fun p _ => by ring

/-- The kernel's mean is the real mean. -/
theorem GNDims.meanK_coe (d : GNDims A C G P) (hA : A = nb * T) (hA8 : A8 = nb * 8)
    (h : ∀ (R : Fin A8) (i : Fin T), R.val / 8 * T + i.val < A) {N : ℝ} (hN : N ≠ 0) (x : Fin A → Fin C → ℝ) (g : Fin G) :
    d.meanK 0 ((8 : ℝ) : EReal) (N : EReal) (blockSum T h (fun r c => ((x r c : ℝ) : EReal))) g
      = ((d.rmean N x g : ℝ) : EReal) := by
  rw [GNDims.meanK, d.sumK_coe hA hA8 h, Ideal.div_coe hN, ← EReal.coe_mul, GNDims.rmean]

/-- The kernel's E[x²] − m² is the real centred second moment, N = P·A being the number of terms. -/
theorem GNDims.varK_coe (d : GNDims A C G P) (hA : A = nb * T) (hA8 : A8 = nb * 8)
    (h : ∀ (R : Fin A8) (i : Fin T), R.val / 8 * T + i.val < A) {N : ℝ} (hN : N = ((P * A : ℕ) : ℝ)) (hN0 : N ≠ 0)
    (x : Fin A → Fin C → ℝ) (g : Fin G) :
    d.varK 0 ((8 : ℝ) : EReal) (N : EReal) (blockSum T h (fun r c => ((x r c : ℝ) : EReal)))
        (blockSum T h (fun r c => ((x r c : ℝ) : EReal) * ((x r c : ℝ) : EReal))) g
      = ((d.rvar N x g : ℝ) : EReal) := by
  have hq : (fun (r : Fin A) (c : Fin C) => ((x r c : ℝ) : EReal) * ((x r c : ℝ) : EReal))
      = fun r c => ((x r c * x r c : ℝ) : EReal) := by
    funext r c; rw [EReal.coe_mul]
  rw [GNDims.varK, hq, d.sumK_coe hA hA8 h (fun r c => x r c * x r c), d.meanK_coe hA hA8 h hN0, Ideal.div_coe hN0,
    ← EReal.coe_mul, ← EReal.coe_mul, ← EReal.coe_sub, d.rvar_eq hN hN0]

/-- The kernel's per-channel scale γ·(1/√(v + ε)) is real. -/
theorem GNDims.scaleK_coe (d : GNDims A C G P) (hA : A = nb * T) (hA8 : A8 = nb * 8)
    (h : ∀ (R : Fin A8) (i : Fin T), R.val / 8 * T + i.val < A) {N e : ℝ} (hN : N = ((P * A : ℕ) : ℝ)) (hN0 : 0 < N)
    (he : 0 < e) (x : Fin A → Fin C → ℝ) (γ : Fin C → ℝ) (n : Fin C) :
    d.scaleK 0 ((8 : ℝ) : EReal) (N : EReal) ((1 : ℝ) : EReal) (e : EReal) (blockSum T h (fun r c => ((x r c : ℝ) : EReal)))
        (blockSum T h (fun r c => ((x r c : ℝ) : EReal) * ((x r c : ℝ) : EReal))) (fun c => ((γ c : ℝ) : EReal)) n
      = ((γ n * (1 * (1 / Real.sqrt (d.rvar N x (d.grp n) + e))) : ℝ) : EReal) := by
  have hv := d.rvar_nonneg hN0 x (d.grp n)
  have hpos : 0 < d.rvar N x (d.grp n) + e := by linarith
  have hs : Real.sqrt (d.rvar N x (d.grp n) + e) ≠ 0 := (Real.sqrt_pos.mpr hpos).ne'
  rw [GNDims.scaleK, d.varK_coe hA hA8 h hN hN0.ne', ← EReal.coe_add, Ideal.sqrt_coe, if_neg (not_lt.mpr hpos.le),
    Ideal.div_coe hs, ← EReal.coe_mul, ← EReal.coe_mul]

/-- The kernel's per-channel shift β − m·scale is real. -/
theorem GNDims.shiftK_coe (d : GNDims A C G P) (hA : A = nb * T) (hA8 : A8 = nb * 8)
    (h : ∀ (R : Fin A8) (i : Fin T), R.val / 8 * T + i.val < A) {N e : ℝ} (hN : N = ((P * A : ℕ) : ℝ)) (hN0 : 0 < N)
    (he : 0 < e) (x : Fin A → Fin C → ℝ) (γ β : Fin C → ℝ) (n : Fin C) :
    d.shiftK 0 ((8 : ℝ) : EReal) (N : EReal) ((1 : ℝ) : EReal) (e : EReal) (blockSum T h (fun r c => ((x r c : ℝ) : EReal)))
        (blockSum T h (fun r c => ((x r c : ℝ) : EReal) * ((x r c : ℝ) : EReal))) (fun c => ((γ c : ℝ) : EReal))
        (fun c => ((β c : ℝ) : EReal)) n
      = ((β n - d.rmean N x (d.grp n) * (γ n * (1 * (1 / Real.sqrt (d.rvar N x (d.grp n) + e)))) : ℝ) : EReal) := by
  rw [GNDims.shiftK, d.scaleK_coe hA hA8 h hN hN0 he, d.meanK_coe hA hA8 h hN0.ne', ← EReal.coe_mul, ← EReal.coe_sub]

end KernelSide

/-! ## The two spellings of the leaky ReLU -/

/-- A selection on a decided bit is an if-then-else. -/
theorem select_ofBool {α : Type} (p : Prop) [Decidable p] (u v : α) :
    Scalar.select (BitVec.ofBool (decide p)) u v = if p then u else v := by
  by_cases hp : p <;> simp [Scalar.select, hp]

/-- The kernel's activation of real data: x·a + b where that is positive, the slope times it elsewhere. -/
theorem actKz_coe (s a b x : ℝ) :
    actKz 0 (s : EReal) (a : EReal) (b : EReal) (x : EReal)
      = ((if 0 < x * a + b then x * a + b else s * (x * a + b) : ℝ) : EReal) := by
  rw [actKz, ← EReal.coe_mul, ← EReal.coe_add, ← EReal.coe_mul]
  show Scalar.select (BitVec.ofBool (decide ((0 : EReal) < ((x * a + b : ℝ) : EReal)))) _ _ = _
  rw [select_ofBool]
  simp only [EReal.coe_pos]
  split_ifs <;> rfl

/-- The reference's activation of a real: y where that is not negative, the slope times it elsewhere. -/
theorem actR_coe (s y : ℝ) :
    actR 0 (s : EReal) (y : EReal) = ((if 0 ≤ y then y else s * y : ℝ) : EReal) := by
  rw [actR, ← EReal.coe_mul]
  show Scalar.select (BitVec.ofBool (decide ((0 : EReal) ≤ ((y : ℝ) : EReal)))) _ _ = _
  rw [select_ofBool]
  simp only [EReal.coe_nonneg]
  split_ifs <;> rfl

/-- The two spellings differ only at 0, where the slope times 0 is 0. -/
theorem leaky_agree (s y : ℝ) : (if 0 < y then y else s * y) = (if 0 ≤ y then y else s * y) := by
  rcases lt_trichotomy 0 y with h | h | h
  · rw [if_pos h, if_pos h.le]
  · subst h; simp
  · rw [if_neg (not_lt.mpr h.le), if_neg (not_le.mpr h)]

/-! ## The bridge -/

/-- On finite inputs the kernel's group norm and leaky ReLU — statistics from block sums stored eight times,
    E[x²] − m², folded into a per-channel scale and shift — equals the reference's: mean, centred second
    moment, ((x − m)/√(v + ε))·γ + β, leaky ReLU.  Both sides are coercions of reals; there the affine identity
    ((x − m)/s)·γ + β = x·(γ/s) + (β − m·(γ/s)) and the agreement of the two activations finish. -/
theorem groupnorm_bridge {A C G P T nb A8 : Nat} (d : GNDims A C G P) (hA : A = nb * T) (hA8 : A8 = nb * 8)
    (hrows : ∀ (R : Fin A8) (i : Fin T), R.val / 8 * T + i.val < A)
    (raw : Fin A → Fin C → EReal) (γ β : Fin C → EReal)
    (hraw : ∀ i n, ∃ x : ℝ, raw i n = (x : EReal)) (hγ : ∀ n, ∃ x : ℝ, γ n = (x : EReal))
    (hβ : ∀ n, ∃ x : ℝ, β n = (x : EReal))
    (z eight cnt cntm one eps slope : EReal)
    (hz : z = 0) (h8 : eight = ((8 : ℝ) : EReal)) (hcnt : cnt = (((P * A : ℕ) : ℝ) : EReal)) (hcntm : cntm = cnt)
    (h1 : one = ((1 : ℝ) : EReal)) (heps : ∃ e : ℝ, 0 < e ∧ eps = (e : EReal)) (hslope : ∃ s : ℝ, slope = (s : EReal))
    (i : Fin A) (n : Fin C) :
    actKz z slope
        (d.scaleK z eight cnt one eps (blockSum T hrows raw) (blockSum T hrows fun r c => raw r c * raw r c) γ n)
        (d.shiftK z eight cnt one eps (blockSum T hrows raw) (blockSum T hrows fun r c => raw r c * raw r c) γ β n)
        (raw i n)
      = actR z slope (d.normR z cnt cntm eps raw γ β i n) := by
  obtain ⟨e, he, rfl⟩ := heps
  obtain ⟨s, rfl⟩ := hslope
  choose x hx using hraw
  choose gm hgm using hγ
  choose bt hbt using hβ
  obtain rfl : raw = fun r c => ((x r c : ℝ) : EReal) := funext fun r => funext fun c => hx r c
  obtain rfl : γ = fun c => ((gm c : ℝ) : EReal) := funext hgm
  obtain rfl : β = fun c => ((bt c : ℝ) : EReal) := funext hbt
  subst hz h8 hcntm hcnt h1
  have hNpos : (0 : ℝ) < ((P * A : ℕ) : ℝ) := by exact_mod_cast Nat.mul_pos d.hP d.hA
  beta_reduce
  rw [d.scaleK_coe hA hA8 hrows rfl hNpos he, d.shiftK_coe hA hA8 hrows rfl hNpos he, d.normR_coe hNpos he,
    actKz_coe, actR_coe, leaky_agree]
  congr 1
  have hy : x i n * (gm n * (1 * (1 / Real.sqrt (d.rvar ((P * A : ℕ) : ℝ) x (d.grp n) + e))))
        + (bt n - d.rmean ((P * A : ℕ) : ℝ) x (d.grp n)
            * (gm n * (1 * (1 / Real.sqrt (d.rvar ((P * A : ℕ) : ℝ) x (d.grp n) + e)))))
      = d.rnorm ((P * A : ℕ) : ℝ) e x gm bt i n := by
    unfold GNDims.rnorm; ring
  rw [hy]

/-- On finite inputs the reference's activated group norm is finite. -/
theorem act_norm_real {A C G P : Nat} (d : GNDims A C G P)
    (raw : Fin A → Fin C → EReal) (γ β : Fin C → EReal)
    (hraw : ∀ i n, ∃ x : ℝ, raw i n = (x : EReal)) (hγ : ∀ n, ∃ x : ℝ, γ n = (x : EReal))
    (hβ : ∀ n, ∃ x : ℝ, β n = (x : EReal))
    (z cnt cntm eps slope : EReal)
    (hz : z = 0) (hcnt : cnt = (((P * A : ℕ) : ℝ) : EReal)) (hcntm : cntm = cnt)
    (heps : ∃ e : ℝ, 0 < e ∧ eps = (e : EReal)) (hslope : ∃ s : ℝ, slope = (s : EReal))
    (i : Fin A) (n : Fin C) :
    ∃ y : ℝ, actR z slope (d.normR z cnt cntm eps raw γ β i n) = (y : EReal) := by
  obtain ⟨e, he, rfl⟩ := heps
  obtain ⟨s, rfl⟩ := hslope
  choose x hx using hraw
  choose gm hgm using hγ
  choose bt hbt using hβ
  obtain rfl : raw = fun r c => ((x r c : ℝ) : EReal) := funext fun r => funext fun c => hx r c
  obtain rfl : γ = fun c => ((gm c : ℝ) : EReal) := funext hgm
  obtain rfl : β = fun c => ((bt c : ℝ) : EReal) := funext hbt
  subst hz hcntm hcnt
  have hNpos : (0 : ℝ) < ((P * A : ℕ) : ℝ) := by exact_mod_cast Nat.mul_pos d.hP d.hA
  rw [d.normR_coe hNpos he, actR_coe]
  exact ⟨_, rfl⟩

/-! ## Finite operands give finite products and linear layers -/

/-- An entry of x·Wᵀ with finite operands is finite. -/
theorem dot_real {a k n : Nat} (x : M a k) (W : M n k) (hx : ∀ j, ∃ r : ℝ, x j = (r : EReal))
    (hW : ∀ j, ∃ r : ℝ, W j = (r : EReal)) (r : Fin a) (c : Fin n) : ∃ y : ℝ, dot x W r c = (y : EReal) := by
  choose fx hfx using hx
  choose fW hfW using hW
  refine ⟨∑ q : Fin k, fx (ix2 r q) * fW (ix2 c q), ?_⟩
  rw [dot, coe_finset_sum]
  exact Finset.sum_congr rfl fun q _ => by rw [hfx, hfW, EReal.coe_mul]

/-- An entry of x·Wᵀ + b with finite operands and bias is finite. -/
theorem lin1_real {a k n : Nat} (x : M a k) (W : M n k) (b : M 1 n) (hx : ∀ j, ∃ r : ℝ, x j = (r : EReal))
    (hW : ∀ j, ∃ r : ℝ, W j = (r : EReal)) (hb : ∀ j, ∃ r : ℝ, b j = (r : EReal)) (r : Fin a) (c : Fin n) :
    ∃ y : ℝ, lin1 x W b r c = (y : EReal) := by
  obtain ⟨y, hy⟩ := dot_real x W hx hW r c
  obtain ⟨t, ht⟩ := hb (ix2 (0 : Fin 1) c)
  exact ⟨y + t, by rw [lin1, hy, ht, EReal.coe_add]⟩

/-- An entry of xg·Wgᵀ + xf·Wfᵀ + b with finite operands and bias is finite. -/
theorem lin2_real {a kg kf n : Nat} (xg : M a kg) (xf : M a kf) (Wg : M n kg) (Wf : M n kf) (b : M 1 n)
    (hxg : ∀ j, ∃ r : ℝ, xg j = (r : EReal)) (hxf : ∀ j, ∃ r : ℝ, xf j = (r : EReal))
    (hWg : ∀ j, ∃ r : ℝ, Wg j = (r : EReal)) (hWf : ∀ j, ∃ r : ℝ, Wf j = (r : EReal))
    (hb : ∀ j, ∃ r : ℝ, b j = (r : EReal)) (r : Fin a) (c : Fin n) :
    ∃ y : ℝ, lin2 xg xf Wg Wf b r c = (y : EReal) := by
  obtain ⟨y1, hy1⟩ := dot_real xg Wg hxg hWg r c
  obtain ⟨y2, hy2⟩ := dot_real xf Wf hxf hWf r c
  obtain ⟨t, ht⟩ := hb (ix2 (0 : Fin 1) c)
  exact ⟨y1 + y2 + t, by rw [lin2, hy1, hy2, ht, EReal.coe_add, EReal.coe_add]⟩

end Cert.FPN

end
-- ==== Proof.LibDecoder.lean ====
/-
  The whole decoder in its two forms, entry by entry, and their equality on finite inputs.  Three linear
  layers feed two group normalisations with leaky ReLU.  The kernel's form keeps each normalisation as a
  per-channel scale and shift, computed from block sums, and applies it to the gathered operand of the
  next layer; the reference's form normalises and activates the whole array first.  Stage by stage the
  two agree because the normalised, activated entries agree, every intermediate array being finite.
-/
import Mathlib
import Idealize.ShloMosaic.PureOps.Ideal.Laws
import Idealize.ShloMosaic.Lib.ValueIdx
import proofs.«117334_j39633958207498_2_alg».proof.Proof.Stages
import proofs.«117334_j39633958207498_2_alg».proof.Proof.Consts
import proofs.«117334_j39633958207498_2_alg».proof.Proof.LibGroupNorm

noncomputable section

namespace Cert.FPN

open Idealize.ShloMosaic Idealize.ShloMosaic.ValueIdx

/-! ## The constants as the programs spell them -/

/-- Zero. -/
abbrev cZ : EReal := FloatOps.ofBits (F := Ideal) .f32 0x00000000#32
/-- Eight, the number of copies of each block sum. -/
abbrev cE8 : EReal := FloatOps.ofBits (F := Ideal) .f32 0x41000000#32
/-- 262144 = 32·8192, the number of entries of one group at the first normalisation. -/
abbrev cCNT4 : EReal := FloatOps.ofBits (F := Ideal) .f32 0x48800000#32
/-- 524288 = 16·32768, the number of entries of one group at the second normalisation. -/
abbrev cCNT3 : EReal := FloatOps.ofBits (F := Ideal) .f32 0x49000000#32
/-- One. -/
abbrev cONE : EReal := FloatOps.ofBits (F := Ideal) .f32 0x3F800000#32
/-- ε. -/
abbrev cEPS : EReal := FloatOps.ofBits (F := Ideal) .f32 0x3727C5AC#32
/-- The slope of the leaky ReLU. -/
abbrev cSL : EReal := FloatOps.ofBits (F := Ideal) .f32 0x3DCCCCCD#32

/-- A vector of k extended reals. -/
abbrev V1 (k : Nat) := (⟨1, ![k]⟩ : Shape).Idx → EReal

/-- A function of the channel as a one-row matrix. -/
def rowFn {n : Nat} (f : Fin n → EReal) : M 1 n := fun j => f ⟨(j 1).val, idx2_lt1 j⟩

theorem rowFn_apply {n : Nat} (f : Fin n → EReal) (u : Fin 1) (c : Fin n) : rowFn f (ix2 u c) = f c := rfl

/-! ## Finite arrays stay finite under the index operations -/

/-- A function with real values, read as a matrix, has real entries. -/
theorem arr2_real {a b : Nat} (f : Fin a → Fin b → EReal) (hf : ∀ r c, ∃ y : ℝ, f r c = (y : EReal)) :
    ∀ j, ∃ y : ℝ, arr2 f j = (y : EReal) := fun _ => hf _ _

/-- A real vector as a one-row matrix has real entries. -/
theorem rowOf_real {n : Nat} (v : V1 n) (hv : ∀ j, ∃ y : ℝ, v j = (y : EReal)) :
    ∀ j, ∃ y : ℝ, rowOf v j = (y : EReal) := fun _ => hv _

/-- A block of columns of a real matrix has real entries. -/
theorem cols_real {n K : Nat} (off k : Nat) (h : off + k ≤ K) (W : M n K) (hW : ∀ j, ∃ y : ℝ, W j = (y : EReal)) :
    ∀ j, ∃ y : ℝ, cols off k h W j = (y : EReal) := fun _ => hW _

/-- Picked rows of a real matrix have real entries. -/
theorem pick_real {A N C : Nat} (ρ : Fin A → Fin N) (x : M N C) (hx : ∀ j, ∃ y : ℝ, x j = (y : EReal)) :
    ∀ j, ∃ y : ℝ, pick ρ x j = (y : EReal) := fun _ => hx _

/-! ## One stage: a linear layer after a group normalisation, in the two forms -/

/-- The layer fed the per-channel scale and shift (applied, with the leaky ReLU, to the gathered operand)
    equals the layer fed the normalised and activated array, when the array, γ and β are finite. -/
theorem stage_eq {A C G P T nb A8 a kf n : Nat} (d : GNDims A C G P) (hA : A = nb * T) (hA8 : A8 = nb * 8)
    (hrows : ∀ (R : Fin A8) (i : Fin T), R.val / 8 * T + i.val < A)
    (raw : Fin A → Fin C → EReal) (γ β : Fin C → EReal)
    (hraw : ∀ i n, ∃ x : ℝ, raw i n = (x : EReal)) (hγ : ∀ n, ∃ x : ℝ, γ n = (x : EReal))
    (hβ : ∀ n, ∃ x : ℝ, β n = (x : EReal))
    (cnt cntm : EReal) (hcnt : cnt = (((P * A : ℕ) : ℝ) : EReal)) (hcntm : cntm = cnt)
    (ρ : Fin a → Fin A) (xf : M a kf) (Wg : M n C) (Wf : M n kf) (b : M 1 n) (r : Fin a) (c : Fin n) :
    lin2act
        (rowFn fun m => d.scaleK cZ cE8 cnt cONE cEPS (blockSum T hrows raw) (blockSum T hrows fun R m => raw R m * raw R m) γ m)
        (rowFn fun m => d.shiftK cZ cE8 cnt cONE cEPS (blockSum T hrows raw) (blockSum T hrows fun R m => raw R m * raw R m) γ β m)
        (pick ρ (arr2 raw)) xf Wg Wf b r c
      = lin2 (pick ρ (arr2 fun i m => actR cZ cSL (d.normR cZ cnt cntm cEPS raw γ β i m))) xf Wg Wf b r c := by
  rw [lin2act, lin2]
  congr 1
  congr 1
  rw [dot]
  refine Finset.sum_congr rfl fun q _ => ?_
  simp only [rowFn_apply, pick_apply, arr2_apply, actK_eq]
  rw [groupnorm_bridge d hA hA8 hrows raw γ β hraw hγ hβ cZ cE8 cnt cntm cONE cEPS cSL Consts.ofBits_zero
    Consts.ofBits_eight hcnt hcntm Consts.ofBits_one Consts.ofBits_eps Consts.ofBits_slope (ρ r) q]

/-! ## The decoder's arrays -/

/-- The first linear layer, as a matrix. -/
def decX5 (f5 : M 2048 2048) (Win : M 2048 2048) (bin : V1 2048) : M 2048 2048 := arr2 (lin1 f5 Win (rowOf bin))

/-- The second linear layer: gathered rows of the first against one half of the weights, the plain operand against
    the other. -/
def decR4 (f5 : M 2048 2048) (Win : M 2048 2048) (bin : V1 2048) (f4 : M 8192 1024) (W4 : M 1024 3072) (b4 : V1 1024)
    (ρ4 : Fin 8192 → Fin 2048) : Fin 8192 → Fin 1024 → EReal :=
  lin2 (pick ρ4 (decX5 f5 Win bin)) f4 (cols 0 2048 (by decide) W4) (cols 2048 1024 (by decide) W4) (rowOf b4)

/-- The kernel's per-channel scale of the first normalisation. -/
def decA4 (f5 : M 2048 2048) (Win : M 2048 2048) (bin : V1 2048) (f4 : M 8192 1024) (W4 : M 1024 3072) (b4 g4 : V1 1024)
    (ρ4 : Fin 8192 → Fin 2048) (d4 : GNDims 8192 1024 32 32)
    (h4 : ∀ (R : Fin 256) (i : Fin 256), R.val / 8 * 256 + i.val < 8192) (n : Fin 1024) : EReal :=
  d4.scaleK cZ cE8 cCNT4 cONE cEPS (blockSum 256 h4 (decR4 f5 Win bin f4 W4 b4 ρ4))
    (blockSum 256 h4 fun R n => decR4 f5 Win bin f4 W4 b4 ρ4 R n * decR4 f5 Win bin f4 W4 b4 ρ4 R n)
    (fun n => g4 (ix1 n)) n

/-- The kernel's per-channel shift of the first normalisation. -/
def decAb4 (f5 : M 2048 2048) (Win : M 2048 2048) (bin : V1 2048) (f4 : M 8192 1024) (W4 : M 1024 3072)
    (b4 g4 be4 : V1 1024) (ρ4 : Fin 8192 → Fin 2048) (d4 : GNDims 8192 1024 32 32)
    (h4 : ∀ (R : Fin 256) (i : Fin 256), R.val / 8 * 256 + i.val < 8192) (n : Fin 1024) : EReal :=
  d4.shiftK cZ cE8 cCNT4 cONE cEPS (blockSum 256 h4 (decR4 f5 Win bin f4 W4 b4 ρ4))
    (blockSum 256 h4 fun R n => decR4 f5 Win bin f4 W4 b4 ρ4 R n * decR4 f5 Win bin f4 W4 b4 ρ4 R n)
    (fun n => g4 (ix1 n)) (fun n => be4 (ix1 n)) n

/-- The kernel's third linear layer: scale, shift and leaky ReLU applied to the gathered operand. -/
def decR3K (f5 : M 2048 2048) (Win : M 2048 2048) (bin : V1 2048) (f4 : M 8192 1024) (W4 : M 1024 3072)
    (b4 g4 be4 : V1 1024) (f3 : M 32768 512) (W3 : M 512 1536) (b3 : V1 512)
    (ρ4 : Fin 8192 → Fin 2048) (ρ3 : Fin 32768 → Fin 8192) (d4 : GNDims 8192 1024 32 32)
    (h4 : ∀ (R : Fin 256) (i : Fin 256), R.val / 8 * 256 + i.val < 8192) : Fin 32768 → Fin 512 → EReal :=
  lin2act (rowFn (decA4 f5 Win bin f4 W4 b4 g4 ρ4 d4 h4)) (rowFn (decAb4 f5 Win bin f4 W4 b4 g4 be4 ρ4 d4 h4))
    (pick ρ3 (arr2 (decR4 f5 Win bin f4 W4 b4 ρ4))) f3 (cols 0 1024 (by decide) W3) (cols 1024 512 (by decide) W3)
    (rowOf b3)

/-- The kernel's per-channel scale of the second normalisation. -/
def decA3 (f5 : M 2048 2048) (Win : M 2048 2048) (bin : V1 2048) (f4 : M 8192 1024) (W4 : M 1024 3072)
    (b4 g4 be4 : V1 1024) (f3 : M 32768 512) (W3 : M 512 1536) (b3 g3 : V1 512)
    (ρ4 : Fin 8192 → Fin 2048) (ρ3 : Fin 32768 → Fin 8192) (d4 : GNDims 8192 1024 32 32) (d3 : GNDims 32768 512 32 16)
    (h4 : ∀ (R : Fin 256) (i : Fin 256), R.val / 8 * 256 + i.val < 8192)
    (h3 : ∀ (R : Fin 256) (i : Fin 1024), R.val / 8 * 1024 + i.val < 32768) (n : Fin 512) : EReal :=
  d3.scaleK cZ cE8 cCNT3 cONE cEPS (blockSum 1024 h3 (decR3K f5 Win bin f4 W4 b4 g4 be4 f3 W3 b3 ρ4 ρ3 d4 h4))
    (blockSum 1024 h3 fun R n => decR3K f5 Win bin f4 W4 b4 g4 be4 f3 W3 b3 ρ4 ρ3 d4 h4 R n
      * decR3K f5 Win bin f4 W4 b4 g4 be4 f3 W3 b3 ρ4 ρ3 d4 h4 R n)
    (fun n => g3 (ix1 n)) n

/-- The kernel's per-channel shift of the second normalisation. -/
def decAb3 (f5 : M 2048 2048) (Win : M 2048 2048) (bin : V1 2048) (f4 : M 8192 1024) (W4 : M 1024 3072)
    (b4 g4 be4 : V1 1024) (f3 : M 32768 512) (W3 : M 512 1536) (b3 g3 be3 : V1 512)
    (ρ4 : Fin 8192 → Fin 2048) (ρ3 : Fin 32768 → Fin 8192) (d4 : GNDims 8192 1024 32 32) (d3 : GNDims 32768 512 32 16)
    (h4 : ∀ (R : Fin 256) (i : Fin 256), R.val / 8 * 256 + i.val < 8192)
    (h3 : ∀ (R : Fin 256) (i : Fin 1024), R.val / 8 * 1024 + i.val < 32768) (n : Fin 512) : EReal :=
  d3.shiftK cZ cE8 cCNT3 cONE cEPS (blockSum 1024 h3 (decR3K f5 Win bin f4 W4 b4 g4 be4 f3 W3 b3 ρ4 ρ3 d4 h4))
    (blockSum 1024 h3 fun R n => decR3K f5 Win bin f4 W4 b4 g4 be4 f3 W3 b3 ρ4 ρ3 d4 h4 R n
      * decR3K f5 Win bin f4 W4 b4 g4 be4 f3 W3 b3 ρ4 ρ3 d4 h4 R n)
    (fun n => g3 (ix1 n)) (fun n => be3 (ix1 n)) n

/-- The kernel's result. -/
def decOutK (f5 : M 2048 2048) (Win : M 2048 2048) (bin : V1 2048) (f4 : M 8192 1024) (W4 : M 1024 3072)
    (b4 g4 be4 : V1 1024) (f3 : M 32768 512) (W3 : M 512 1536) (b3 g3 be3 : V1 512)
    (f2 : M 131072 256) (W2 : M 256 768) (b2 : V1 256)
    (ρ4 : Fin 8192 → Fin 2048) (ρ3 : Fin 32768 → Fin 8192) (ρ2 : Fin 131072 → Fin 32768)
    (d4 : GNDims 8192 1024 32 32) (d3 : GNDims 32768 512 32 16)
    (h4 : ∀ (R : Fin 256) (i : Fin 256), R.val / 8 * 256 + i.val < 8192)
    (h3 : ∀ (R : Fin 256) (i : Fin 1024), R.val / 8 * 1024 + i.val < 32768) : Fin 131072 → Fin 256 → EReal :=
  lin2act (rowFn (decA3 f5 Win bin f4 W4 b4 g4 be4 f3 W3 b3 g3 ρ4 ρ3 d4 d3 h4 h3))
    (rowFn (decAb3 f5 Win bin f4 W4 b4 g4 be4 f3 W3 b3 g3 be3 ρ4 ρ3 d4 d3 h4 h3))
    (pick ρ2 (arr2 (decR3K f5 Win bin f4 W4 b4 g4 be4 f3 W3 b3 ρ4 ρ3 d4 h4))) f2 (cols 0 512 (by decide) W2)
    (cols 512 256 (by decide) W2) (rowOf b2)

/-- The reference's first normalisation with its leaky ReLU. -/
def decAct4 (f5 : M 2048 2048) (Win : M 2048 2048) (bin : V1 2048) (f4 : M 8192 1024) (W4 : M 1024 3072)
    (b4 g4 be4 : V1 1024) (ρ4 : Fin 8192 → Fin 2048) (cntm4 : EReal) (d4 : GNDims 8192 1024 32 32)
    (i : Fin 8192) (n : Fin 1024) : EReal :=
  actR cZ cSL (d4.normR cZ cCNT4 cntm4 cEPS (decR4 f5 Win bin f4 W4 b4 ρ4) (fun n => g4 (ix1 n)) (fun n => be4 (ix1 n)) i n)

/-- The reference's third linear layer. -/
def decR3R (f5 : M 2048 2048) (Win : M 2048 2048) (bin : V1 2048) (f4 : M 8192 1024) (W4 : M 1024 3072)
    (b4 g4 be4 : V1 1024) (f3 : M 32768 512) (W3 : M 512 1536) (b3 : V1 512)
    (ρ4 : Fin 8192 → Fin 2048) (ρ3 : Fin 32768 → Fin 8192) (cntm4 : EReal) (d4 : GNDims 8192 1024 32 32) :
    Fin 32768 → Fin 512 → EReal :=
  lin2 (pick ρ3 (arr2 (decAct4 f5 Win bin f4 W4 b4 g4 be4 ρ4 cntm4 d4))) f3 (cols 0 1024 (by decide) W3)
    (cols 1024 512 (by decide) W3) (rowOf b3)

/-- The reference's second normalisation with its leaky ReLU. -/
def decAct3 (f5 : M 2048 2048) (Win : M 2048 2048) (bin : V1 2048) (f4 : M 8192 1024) (W4 : M 1024 3072)
    (b4 g4 be4 : V1 1024) (f3 : M 32768 512) (W3 : M 512 1536) (b3 g3 be3 : V1 512)
    (ρ4 : Fin 8192 → Fin 2048) (ρ3 : Fin 32768 → Fin 8192) (cntm4 cntm3 : EReal)
    (d4 : GNDims 8192 1024 32 32) (d3 : GNDims 32768 512 32 16) (i : Fin 32768) (n : Fin 512) : EReal :=
  actR cZ cSL (d3.normR cZ cCNT3 cntm3 cEPS (decR3R f5 Win bin f4 W4 b4 g4 be4 f3 W3 b3 ρ4 ρ3 cntm4 d4)
    (fun n => g3 (ix1 n)) (fun n => be3 (ix1 n)) i n)

/-- The reference's result. -/
def decOutR (f5 : M 2048 2048) (Win : M 2048 2048) (bin : V1 2048) (f4 : M 8192 1024) (W4 : M 1024 3072)
    (b4 g4 be4 : V1 1024) (f3 : M 32768 512) (W3 : M 512 1536) (b3 g3 be3 : V1 512)
    (f2 : M 131072 256) (W2 : M 256 768) (b2 : V1 256)
    (ρ4 : Fin 8192 → Fin 2048) (ρ3 : Fin 32768 → Fin 8192) (ρ2 : Fin 131072 → Fin 32768) (cntm4 cntm3 : EReal)
    (d4 : GNDims 8192 1024 32 32) (d3 : GNDims 32768 512 32 16) : Fin 131072 → Fin 256 → EReal :=
  lin2 (pick ρ2 (arr2 (decAct3 f5 Win bin f4 W4 b4 g4 be4 f3 W3 b3 g3 be3 ρ4 ρ3 cntm4 cntm3 d4 d3))) f2
    (cols 0 512 (by decide) W2) (cols 512 256 (by decide) W2) (rowOf b2)

/-! ## The two forms agree on finite inputs -/

/-- The count of the first normalisation is the number of entries of a group: 32 channels of 8192 rows. -/
theorem cCNT4_eq : cCNT4 = (((32 * 8192 : ℕ) : ℝ) : EReal) := by
  have h : (262144 : ℝ) = ((32 * 8192 : ℕ) : ℝ) := by norm_num
  rw [show cCNT4 = ((262144 : ℝ) : EReal) from Consts.ofBits_count4, h]

/-- The count of the second normalisation is the number of entries of a group: 16 channels of 32768 rows. -/
theorem cCNT3_eq : cCNT3 = (((16 * 32768 : ℕ) : ℝ) : EReal) := by
  have h : (524288 : ℝ) = ((16 * 32768 : ℕ) : ℝ) := by norm_num
  rw [show cCNT3 = ((524288 : ℝ) : EReal) from Consts.ofBits_count3, h]

/-- With every input finite the kernel's form of the decoder and the reference's give the same entries: the second
    layer's output is finite, so the first stage's two forms agree and the third layer's output is finite in turn;
    then the same one stage later. -/
theorem decoder_eq (f5 : M 2048 2048) (Win : M 2048 2048) (bin : V1 2048) (f4 : M 8192 1024) (W4 : M 1024 3072)
    (b4 g4 be4 : V1 1024) (f3 : M 32768 512) (W3 : M 512 1536) (b3 g3 be3 : V1 512)
    (f2 : M 131072 256) (W2 : M 256 768) (b2 : V1 256)
    (ρ4 : Fin 8192 → Fin 2048) (ρ3 : Fin 32768 → Fin 8192) (ρ2 : Fin 131072 → Fin 32768) (cntm4 cntm3 : EReal)
    (hcntm4 : cntm4 = ((262144 : ℝ) : EReal)) (hcntm3 : cntm3 = ((524288 : ℝ) : EReal))
    (d4 : GNDims 8192 1024 32 32) (d3 : GNDims 32768 512 32 16)
    (h4 : ∀ (R : Fin 256) (i : Fin 256), R.val / 8 * 256 + i.val < 8192)
    (h3 : ∀ (R : Fin 256) (i : Fin 1024), R.val / 8 * 1024 + i.val < 32768)
    (hf5 : ∀ j, ∃ r : ℝ, f5 j = (r : EReal)) (hWin : ∀ j, ∃ r : ℝ, Win j = (r : EReal))
    (hbin : ∀ j, ∃ r : ℝ, bin j = (r : EReal)) (hf4 : ∀ j, ∃ r : ℝ, f4 j = (r : EReal))
    (hW4 : ∀ j, ∃ r : ℝ, W4 j = (r : EReal)) (hb4 : ∀ j, ∃ r : ℝ, b4 j = (r : EReal))
    (hg4 : ∀ j, ∃ r : ℝ, g4 j = (r : EReal)) (hbe4 : ∀ j, ∃ r : ℝ, be4 j = (r : EReal))
    (hf3 : ∀ j, ∃ r : ℝ, f3 j = (r : EReal)) (hW3 : ∀ j, ∃ r : ℝ, W3 j = (r : EReal))
    (hb3 : ∀ j, ∃ r : ℝ, b3 j = (r : EReal)) (hg3 : ∀ j, ∃ r : ℝ, g3 j = (r : EReal))
    (hbe3 : ∀ j, ∃ r : ℝ, be3 j = (r : EReal)) (hf2 : ∀ j, ∃ r : ℝ, f2 j = (r : EReal))
    (hW2 : ∀ j, ∃ r : ℝ, W2 j = (r : EReal)) (hb2 : ∀ j, ∃ r : ℝ, b2 j = (r : EReal))
    (i : Fin 131072) (n : Fin 256) :
    decOutK f5 Win bin f4 W4 b4 g4 be4 f3 W3 b3 g3 be3 f2 W2 b2 ρ4 ρ3 ρ2 d4 d3 h4 h3 i n
      = decOutR f5 Win bin f4 W4 b4 g4 be4 f3 W3 b3 g3 be3 f2 W2 b2 ρ4 ρ3 ρ2 cntm4 cntm3 d4 d3 i n := by
  have hc4 : cntm4 = cCNT4 := hcntm4.trans Consts.ofBits_count4.symm
  have hc3 : cntm3 = cCNT3 := hcntm3.trans Consts.ofBits_count3.symm
  have hx5 : ∀ j, ∃ y : ℝ, decX5 f5 Win bin j = (y : EReal) :=
    arr2_real _ fun r c => lin1_real _ _ _ hf5 hWin (rowOf_real _ hbin) r c
  have hr4 : ∀ i n, ∃ y : ℝ, decR4 f5 Win bin f4 W4 b4 ρ4 i n = (y : EReal) := fun i n =>
    lin2_real _ _ _ _ _ (pick_real _ _ hx5) hf4 (cols_real _ _ _ _ hW4) (cols_real _ _ _ _ hW4) (rowOf_real _ hb4) i n
  have hR3 : decR3K f5 Win bin f4 W4 b4 g4 be4 f3 W3 b3 ρ4 ρ3 d4 h4
      = decR3R f5 Win bin f4 W4 b4 g4 be4 f3 W3 b3 ρ4 ρ3 cntm4 d4 := by
    funext i n
    exact stage_eq d4 (nb := 32) (by norm_num) (by norm_num) h4 (decR4 f5 Win bin f4 W4 b4 ρ4) (fun n => g4 (ix1 n))
      (fun n => be4 (ix1 n)) hr4 (fun _ => hg4 _) (fun _ => hbe4 _) cCNT4 cntm4 cCNT4_eq hc4 ρ3 f3 _ _ _ i n
  have hact4 : ∀ i n, ∃ y : ℝ, decAct4 f5 Win bin f4 W4 b4 g4 be4 ρ4 cntm4 d4 i n = (y : EReal) := fun i n =>
    act_norm_real d4 _ _ _ hr4 (fun _ => hg4 _) (fun _ => hbe4 _) cZ cCNT4 cntm4 cEPS cSL Consts.ofBits_zero cCNT4_eq hc4
      Consts.ofBits_eps Consts.ofBits_slope i n
  have hr3 : ∀ i n, ∃ y : ℝ, decR3R f5 Win bin f4 W4 b4 g4 be4 f3 W3 b3 ρ4 ρ3 cntm4 d4 i n = (y : EReal) := fun i n =>
    lin2_real _ _ _ _ _ (pick_real _ _ (arr2_real _ hact4)) hf3 (cols_real _ _ _ _ hW3) (cols_real _ _ _ _ hW3)
      (rowOf_real _ hb3) i n
  unfold decOutK decOutR decA3 decAb3 decAct3
  rw [hR3]
  exact stage_eq d3 (nb := 32) (by norm_num) (by norm_num) h3 (decR3R f5 Win bin f4 W4 b4 g4 be4 f3 W3 b3 ρ4 ρ3 cntm4 d4)
    (fun n => g3 (ix1 n)) (fun n => be3 (ix1 n)) hr3 (fun _ => hg3 _) (fun _ => hbe3 _) cCNT3 cntm3 cCNT3_eq hc3 ρ2 f2 _ _ _ i n

end Cert.FPN

end
-- ==== Proof.RefRun.lean ====
/- The idealized reference program's run, read back. @main's operations — the functions it calls unfolded at
   their calls, each callee operation at that call's own buffers — are listed in order as six consecutive stretches,
   one per layer of the computation: the first linear layer, then twice (a linear layer over gathered rows; a group
   normalisation followed by a leaky rectifier), then the last linear layer. Each stretch's value at the buffer the
   next one reads is a named function of the contents it reads; the run states the result buffer as the composition
   of those six values of the nineteen argument arrays, and every argument unchanged. -/
import proofs.«117334_j39633958207498_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, stretch by stretch -/

/-- Operations 1 … 5 of 162: the first linear layer (writes the buffer of %4). -/
abbrev s0 : List (HloOp τ sig (Elt F)) :=
  [ StableHlo.unary main_arg7 main_v0 ((transpose S2048x2048 [1, 0] · transposes_S2048x2048_S2048x2048_1_0) : (⟨S2048x2048, .f32⟩ : BufTy).Contents (Elt F) → (⟨S2048x2048, .f32⟩ : BufTy).Contents (Elt F)),
    StableHlo.binary main_arg3 main_v0 main_v1 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.unary main_arg8 main_v2 (broadcastInDim S1x2048 ![1] bcast_S2048_S1x2048_1 : (⟨S2048, .f32⟩ : BufTy).Contents (Elt F) → (⟨S1x2048, .f32⟩ : BufTy).Contents (Elt F)),
    StableHlo.unary main_v2 main_v3 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v1 main_v3 main_v4 (addf : (⟨S2048x2048, .f32⟩ : BufTy).Contents (Elt F) → (⟨S2048x2048, .f32⟩ : BufTy).Contents (Elt F) → (⟨S2048x2048, .f32⟩ : BufTy).Contents (Elt F)) ]

/-- Operations 6 … 20 of 162: the decoder-4 linear layer (through %17). -/
abbrev s1 : List (HloOp τ sig (Elt F)) :=
  [ StableHlo.nullary main_c (constantI S_ 32 0#32),
    StableHlo.unary main_c main_v5 (broadcastInDim S8192 ![] bcast_S_S8192 : (⟨S_, .i32⟩ : BufTy).Contents (Elt F) → (⟨S8192, .i32⟩ : BufTy).Contents (Elt F)),
    StableHlo.binary main_arg6 main_v5 main_v6 (cmpi .slt : (⟨S8192, .i32⟩ : BufTy).Contents (Elt F) → (⟨S8192, .i32⟩ : BufTy).Contents (Elt F) → (⟨S8192, .i1⟩ : BufTy).Contents (Elt F)),
    StableHlo.nullary main_c_0 (constantI S_ 32 2048#32),
    StableHlo.unary main_c_0 main_v7 (broadcastInDim S8192 ![] bcast_S_S8192 : (⟨S_, .i32⟩ : BufTy).Contents (Elt F) → (⟨S8192, .i32⟩ : BufTy).Contents (Elt F)),
    StableHlo.binary main_arg6 main_v7 main_v8 (addi : (⟨S8192, .i32⟩ : BufTy).Contents (Elt F) → (⟨S8192, .i32⟩ : BufTy).Contents (Elt F) → (⟨S8192, .i32⟩ : BufTy).Contents (Elt F)),
    StableHlo.ternary main_v6 main_v8 main_arg6 main_v9 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v9 main_v10 (broadcastInDim S8192x1 ![0] bcast_S8192_S8192x1_0 : (⟨S8192, .i32⟩ : BufTy).Contents (Elt F) → (⟨S8192x1, .i32⟩ : BufTy).Contents (Elt F)),
    StableHlo.binary main_v4 main_v10 main_v11 ((fun x i => Host.gather gather_S2048x2048_S8192x1_S8192x2048_1_0_n_n_0_1_12048 x i) : (⟨S2048x2048, .f32⟩ : BufTy).Contents (Elt F) → (⟨S8192x1, .i32⟩ : BufTy).Contents (Elt F) → (⟨S8192x2048, .f32⟩ : BufTy).Contents (Elt F)),
    StableHlo.binary main_v11 main_arg2 main_v12 ((fun a b => concatenate S8192x3072 1 [⟨S8192x2048, a⟩, ⟨S8192x1024, b⟩] concatenates_S8192x2048_S8192x1024_S8192x3072_d1) : (⟨S8192x2048, .f32⟩ : BufTy).Contents (Elt F) → (⟨S8192x1024, .f32⟩ : BufTy).Contents (Elt F) → (⟨S8192x3072, .f32⟩ : BufTy).Contents (Elt F)),
    StableHlo.unary main_arg9 main_v13 ((transpose S3072x1024 [1, 0] · transposes_S1024x3072_S3072x1024_1_0) : (⟨S1024x3072, .f32⟩ : BufTy).Contents (Elt F) → (⟨S3072x1024, .f32⟩ : BufTy).Contents (Elt F)),
    StableHlo.binary main_v12 main_v13 main_v14 ((fun l r => Host.dotGeneral dot_S8192x3072_S3072x1024_S8192x1024_1_0_0_1_n_n none l r) : (⟨S8192x3072, .f32⟩ : BufTy).Contents (Elt F) → (⟨S3072x1024, .f32⟩ : BufTy).Contents (Elt F) → (⟨S8192x1024, .f32⟩ : BufTy).Contents (Elt F)),
    StableHlo.unary main_arg10 main_v15 (broadcastInDim S1x1024 ![1] bcast_S1024_S1x1024_1 : (⟨S1024, .f32⟩ : BufTy).Contents (Elt F) → (⟨S1x1024, .f32⟩ : BufTy).Contents (Elt F)),
    StableHlo.unary main_v15 main_v16 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v14 main_v16 main_v17 (addf : (⟨S8192x1024, .f32⟩ : BufTy).Contents (Elt F) → (⟨S8192x1024, .f32⟩ : BufTy).Contents (Elt F) → (⟨S8192x1024, .f32⟩ : BufTy).Contents (Elt F)) ]

/-- Operations 21 … 76 of 162: the first group normalisation and leaky rectifier (through %40). -/
abbrev s2 : List (HloOp τ sig (Elt F)) :=
  [ StableHlo.unary main_v17 main_v18 ((transpose S1024x8192 [1, 0] · transposes_S8192x1024_S1024x8192_1_0) : (⟨S8192x1024, .f32⟩ : BufTy).Contents (Elt F) → (⟨S1024x8192, .f32⟩ : BufTy).Contents (Elt F)),
    StableHlo.reshape main_v18 main_v19 rfl shapeCasts_S1024x8192_S32x262144,
    StableHlo.nullary main_cst (constant S_ .f32 0x00000000#32),
    StableHlo.binary main_v19 main_cst main_v20 ((fun x v => Host.reduceAdd x v reducesTo_S32x262144_S32_d1 h_S_) : (⟨S32x262144, .f32⟩ : BufTy).Contents (Elt F) → (⟨S_, .f32⟩ : BufTy).Contents (Elt F) → (⟨S32, .f32⟩ : BufTy).Contents (Elt F)),
    StableHlo.unary main_v20 main_v21 (broadcastInDim S32x1 ![0] bcast_S32_S32x1_0 : (⟨S32, .f32⟩ : BufTy).Contents (Elt F) → (⟨S32x1, .f32⟩ : BufTy).Contents (Elt F)),
    StableHlo.nullary main_cst_1 (constant S_ .f32 0x48800000#32),
    StableHlo.unary main_cst_1 main_v22 (broadcastInDim S32x1 ![] bcast_S_S32x1 : (⟨S_, .f32⟩ : BufTy).Contents (Elt F) → (⟨S32x1, .f32⟩ : BufTy).Contents (Elt F)),
    StableHlo.binary main_v21 main_v22 main_v23 (Host.divf : (⟨S32x1, .f32⟩ : BufTy).Contents (Elt F) → (⟨S32x1, .f32⟩ : BufTy).Contents (Elt F) → (⟨S32x1, .f32⟩ : BufTy).Contents (Elt F)),
    StableHlo.nullary main_c_2 (constantI S_ 32 0#32),
    StableHlo.TRef.nullary (StableHlo.TRef.of (T := ⟨S_, .f32⟩) main_call0_cst) (constant S_ .f32 0x00000000#32),
    StableHlo.TRef.binary (StableHlo.TRef.of (T := ⟨S32x262144, .f32⟩) main_v19) (StableHlo.TRef.of (T := ⟨S_, .f32⟩) main_call0_cst) (StableHlo.TRef.of (T := ⟨S32, .f32⟩) main_call0_v0) (fun x v => Host.reduceAdd x v reducesTo_S32x262144_S32_d1 h_S_),
    StableHlo.TRef.unary (StableHlo.TRef.of (T := ⟨S32, .f32⟩) main_call0_v0) (StableHlo.TRef.of (T := ⟨S32x1, .f32⟩) main_call0_v1) (broadcastInDim S32x1 ![0] bcast_S32_S32x1_0),
    StableHlo.TRef.nullary (StableHlo.TRef.of (T := ⟨S_, .f32⟩) main_call0_cst_0) (constant S_ .f32 0x48800000#32),
    StableHlo.TRef.unary (StableHlo.TRef.of (T := ⟨S_, .f32⟩) main_call0_cst_0) (StableHlo.TRef.of (T := ⟨S32x1, .f32⟩) main_call0_v2) (broadcastInDim S32x1 ![] bcast_S_S32x1),
    StableHlo.TRef.binary (StableHlo.TRef.of (T := ⟨S32x1, .f32⟩) main_call0_v1) (StableHlo.TRef.of (T := ⟨S32x1, .f32⟩) main_call0_v2) (StableHlo.TRef.of (T := ⟨S32x1, .f32⟩) main_call0_v3) Host.divf,
    StableHlo.TRef.unary (StableHlo.TRef.of (T := ⟨S32x1, .f32⟩) main_call0_v3) (StableHlo.TRef.of (T := ⟨S32x262144, .f32⟩) main_call0_v4) (broadcastInDim S32x262144 ![0, 1] bcast_S32x1_S32x262144_0_1),
    StableHlo.TRef.binary (StableHlo.TRef.of (T := ⟨S32x262144, .f32⟩) main_v19) (StableHlo.TRef.of (T := ⟨S32x262144, .f32⟩) main_call0_v4) (StableHlo.TRef.of (T := ⟨S32x262144, .f32⟩) main_call0_v5) subf,
    StableHlo.TRef.binary (StableHlo.TRef.of (T := ⟨S32x262144, .f32⟩) main_call0_v5) (StableHlo.TRef.of (T := ⟨S32x262144, .f32⟩) main_call0_v5) (StableHlo.TRef.of (T := ⟨S32x262144, .f32⟩) main_call0_v6) mulf,
    StableHlo.TRef.unary (StableHlo.TRef.of (T := ⟨S_, .i32⟩) main_c_2) (StableHlo.TRef.of (T := ⟨S_, .f32⟩) main_call0_v7) (sitofp .f32),
    StableHlo.TRef.nullary (StableHlo.TRef.of (T := ⟨S_, .f32⟩) main_call0_cst_1) (constant S_ .f32 0x48800000#32),
    StableHlo.TRef.binary (StableHlo.TRef.of (T := ⟨S_, .f32⟩) main_call0_cst_1) (StableHlo.TRef.of (T := ⟨S_, .f32⟩) main_call0_v7) (StableHlo.TRef.of (T := ⟨S_, .f32⟩) main_call0_v8) subf,
    StableHlo.TRef.nullary (StableHlo.TRef.of (T := ⟨S_, .f32⟩) main_call0_cst_2) (constant S_ .f32 0x00000000#32),
    StableHlo.TRef.binary (StableHlo.TRef.of (T := ⟨S32x262144, .f32⟩) main_call0_v6) (StableHlo.TRef.of (T := ⟨S_, .f32⟩) main_call0_cst_2) (StableHlo.TRef.of (T := ⟨S32, .f32⟩) main_call0_v9) (fun x v => Host.reduceAdd x v reducesTo_S32x262144_S32_d1 h_S_),
    StableHlo.TRef.unary (StableHlo.TRef.of (T := ⟨S32, .f32⟩) main_call0_v9) (StableHlo.TRef.of (T := ⟨S32x1, .f32⟩) main_call0_v10) (broadcastInDim S32x1 ![0] bcast_S32_S32x1_0),
    StableHlo.TRef.unary (StableHlo.TRef.of (T := ⟨S_, .f32⟩) main_call0_v8) (StableHlo.TRef.of (T := ⟨S32x1, .f32⟩) main_call0_v11) (broadcastInDim S32x1 ![] bcast_S_S32x1),
    StableHlo.TRef.binary (StableHlo.TRef.of (T := ⟨S32x1, .f32⟩) main_call0_v10) (StableHlo.TRef.of (T := ⟨S32x1, .f32⟩) main_call0_v11) (StableHlo.TRef.of (T := ⟨S32x1, .f32⟩) main_call0_v12) Host.divf,
    StableHlo.TRef.nullary (StableHlo.TRef.of (T := ⟨S_, .f32⟩) main_call0_cst_3) (constant S_ .f32 0x00000000#32),
    StableHlo.TRef.binary (StableHlo.TRef.of (T := ⟨S_, .f32⟩) main_call0_v8) (StableHlo.TRef.of (T := ⟨S_, .f32⟩) main_call0_cst_3) (StableHlo.TRef.of (T := ⟨S_, .i1⟩) main_call0_v13) (cmpf .ogt),
    StableHlo.TRef.nullary (StableHlo.TRef.of (T := ⟨S_, .f32⟩) main_call0_cst_4) (constant S_ .f32 0x7FC00000#32),
    StableHlo.TRef.unary (StableHlo.TRef.of (T := ⟨S_, .f32⟩) main_call0_cst_4) (StableHlo.TRef.of (T := ⟨S_, .f32⟩) main_call0_call0_v0) id,
    StableHlo.TRef.unary (StableHlo.TRef.of (T := ⟨S_, .f32⟩) main_call0_call0_v0) (StableHlo.TRef.of (T := ⟨S32x1, .f32⟩) main_call0_call0_v1) (broadcastInDim S32x1 ![] bcast_S_S32x1),
    StableHlo.TRef.ternary (StableHlo.TRef.of (T := ⟨S_, .i1⟩) main_call0_v13) (StableHlo.TRef.of (T := ⟨S32x1, .f32⟩) main_call0_v12) (StableHlo.TRef.of (T := ⟨S32x1, .f32⟩) main_call0_call0_v1) (StableHlo.TRef.of (T := ⟨S32x1, .f32⟩) main_v24) (fun p a b => select (broadcastInDim S32x1 ![] bcast_S_S32x1 p) a b),
    StableHlo.unary main_v23 main_v25 (broadcastInDim S32x262144 ![0, 1] bcast_S32x1_S32x262144_0_1 : (⟨S32x1, .f32⟩ : BufTy).Contents (Elt F) → (⟨S32x262144, .f32⟩ : BufTy).Contents (Elt F)),
    StableHlo.binary main_v19 main_v25 main_v26 (subf : (⟨S32x262144, .f32⟩ : BufTy).Contents (Elt F) → (⟨S32x262144, .f32⟩ : BufTy).Contents (Elt F) → (⟨S32x262144, .f32⟩ : BufTy).Contents (Elt F)),
    StableHlo.nullary main_cst_3 (constant S_ .f32 0x3727C5AC#32),
    StableHlo.unary main_cst_3 main_v27 (broadcastInDim S32x1 ![] bcast_S_S32x1 : (⟨S_, .f32⟩ : BufTy).Contents (Elt F) → (⟨S32x1, .f32⟩ : BufTy).Contents (Elt F)),
    StableHlo.binary main_v24 main_v27 main_v28 (addf : (⟨S32x1, .f32⟩ : BufTy).Contents (Elt F) → (⟨S32x1, .f32⟩ : BufTy).Contents (Elt F) → (⟨S32x1, .f32⟩ : BufTy).Contents (Elt F)),
    StableHlo.unary main_v28 main_v29 (Host.sqrt : (⟨S32x1, .f32⟩ : BufTy).Contents (Elt F) → (⟨S32x1, .f32⟩ : BufTy).Contents (Elt F)),
    StableHlo.unary main_v29 main_v30 (broadcastInDim S32x262144 ![0, 1] bcast_S32x1_S32x262144_0_1 : (⟨S32x1, .f32⟩ : BufTy).Contents (Elt F) → (⟨S32x262144, .f32⟩ : BufTy).Contents (Elt F)),
    StableHlo.binary main_v26 main_v30 main_v31 (Host.divf : (⟨S32x262144, .f32⟩ : BufTy).Contents (Elt F) → (⟨S32x262144, .f32⟩ : BufTy).Contents (Elt F) → (⟨S32x262144, .f32⟩ : BufTy).Contents (Elt F)),
    StableHlo.reshape main_v31 main_v32 rfl shapeCasts_S32x262144_S1024x8192,
    StableHlo.unary main_v32 main_v33 ((transpose S8192x1024 [1, 0] · transposes_S1024x8192_S8192x1024_1_0) : (⟨S1024x8192, .f32⟩ : BufTy).Contents (Elt F) → (⟨S8192x1024, .f32⟩ : BufTy).Contents (Elt F)),
    StableHlo.unary main_arg11 main_v34 (broadcastInDim S1x1024 ![1] bcast_S1024_S1x1024_1 : (⟨S1024, .f32⟩ : BufTy).Contents (Elt F) → (⟨S1x1024, .f32⟩ : BufTy).Contents (Elt F)),
    StableHlo.unary main_v34 main_v35 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v33 main_v35 main_v36 (mulf : (⟨S8192x1024, .f32⟩ : BufTy).Contents (Elt F) → (⟨S8192x1024, .f32⟩ : BufTy).Contents (Elt F) → (⟨S8192x1024, .f32⟩ : BufTy).Contents (Elt F)),
    StableHlo.unary main_arg12 main_v37 (broadcastInDim S1x1024 ![1] bcast_S1024_S1x1024_1 : (⟨S1024, .f32⟩ : BufTy).Contents (Elt F) → (⟨S1x1024, .f32⟩ : BufTy).Contents (Elt F)),
    StableHlo.unary main_v37 main_v38 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v36 main_v38 main_v39 (addf : (⟨S8192x1024, .f32⟩ : BufTy).Contents (Elt F) → (⟨S8192x1024, .f32⟩ : BufTy).Contents (Elt F) → (⟨S8192x1024, .f32⟩ : BufTy).Contents (Elt F)),
    StableHlo.nullary main_cst_4 (constant S_ .f32 0x3DCCCCCD#32),
    StableHlo.TRef.nullary (StableHlo.TRef.of (T := ⟨S_, .f32⟩) main_call1_cst) (constant S_ .f32 0x00000000#32),
    StableHlo.TRef.unary (StableHlo.TRef.of (T := ⟨S_, .f32⟩) main_call1_cst) (StableHlo.TRef.of (T := ⟨S8192x1024, .f32⟩) main_call1_v0) (broadcastInDim S8192x1024 ![] bcast_S_S8192x1024),
    StableHlo.TRef.binary (StableHlo.TRef.of (T := ⟨S8192x1024, .f32⟩) main_v39) (StableHlo.TRef.of (T := ⟨S8192x1024, .f32⟩) main_call1_v0) (StableHlo.TRef.of (T := ⟨S8192x1024, .i1⟩) main_call1_v1) (cmpf .oge),
    StableHlo.TRef.unary (StableHlo.TRef.of (T := ⟨S_, .f32⟩) main_cst_4) (StableHlo.TRef.of (T := ⟨S_, .f32⟩) main_call1_v2) id,
    StableHlo.TRef.unary (StableHlo.TRef.of (T := ⟨S_, .f32⟩) main_call1_v2) (StableHlo.TRef.of (T := ⟨S8192x1024, .f32⟩) main_call1_v3) (broadcastInDim S8192x1024 ![] bcast_S_S8192x1024),
    StableHlo.TRef.binary (StableHlo.TRef.of (T := ⟨S8192x1024, .f32⟩) main_call1_v3) (StableHlo.TRef.of (T := ⟨S8192x1024, .f32⟩) main_v39) (StableHlo.TRef.of (T := ⟨S8192x1024, .f32⟩) main_call1_v4) mulf,
    StableHlo.TRef.ternary (StableHlo.TRef.of (T := ⟨S8192x1024, .i1⟩) main_call1_v1) (StableHlo.TRef.of (T := ⟨S8192x1024, .f32⟩) main_v39) (StableHlo.TRef.of (T := ⟨S8192x1024, .f32⟩) main_call1_v4) (StableHlo.TRef.of (T := ⟨S8192x1024, .f32⟩) main_v40) select ]

/-- Operations 77 … 91 of 162: the decoder-3 linear layer (through %53). -/
abbrev s3 : List (HloOp τ sig (Elt F)) :=
  [ StableHlo.nullary main_c_5 (constantI S_ 32 0#32),
    StableHlo.unary main_c_5 main_v41 (broadcastInDim S32768 ![] bcast_S_S32768 : (⟨S_, .i32⟩ : BufTy).Contents (Elt F) → (⟨S32768, .i32⟩ : BufTy).Contents (Elt F)),
    StableHlo.binary main_arg5 main_v41 main_v42 (cmpi .slt : (⟨S32768, .i32⟩ : BufTy).Contents (Elt F) → (⟨S32768, .i32⟩ : BufTy).Contents (Elt F) → (⟨S32768, .i1⟩ : BufTy).Contents (Elt F)),
    StableHlo.nullary main_c_6 (constantI S_ 32 8192#32),
    StableHlo.unary main_c_6 main_v43 (broadcastInDim S32768 ![] bcast_S_S32768 : (⟨S_, .i32⟩ : BufTy).Contents (Elt F) → (⟨S32768, .i32⟩ : BufTy).Contents (Elt F)),
    StableHlo.binary main_arg5 main_v43 main_v44 (addi : (⟨S32768, .i32⟩ : BufTy).Contents (Elt F) → (⟨S32768, .i32⟩ : BufTy).Contents (Elt F) → (⟨S32768, .i32⟩ : BufTy).Contents (Elt F)),
    StableHlo.ternary main_v42 main_v44 main_arg5 main_v45 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v45 main_v46 (broadcastInDim S32768x1 ![0] bcast_S32768_S32768x1_0 : (⟨S32768, .i32⟩ : BufTy).Contents (Elt F) → (⟨S32768x1, .i32⟩ : BufTy).Contents (Elt F)),
    StableHlo.binary main_v40 main_v46 main_v47 ((fun x i => Host.gather gather_S8192x1024_S32768x1_S32768x1024_1_0_n_n_0_1_11024 x i) : (⟨S8192x1024, .f32⟩ : BufTy).Contents (Elt F) → (⟨S32768x1, .i32⟩ : BufTy).Contents (Elt F) → (⟨S32768x1024, .f32⟩ : BufTy).Contents (Elt F)),
    StableHlo.binary main_v47 main_arg1 main_v48 ((fun a b => concatenate S32768x1536 1 [⟨S32768x1024, a⟩, ⟨S32768x512, b⟩] concatenates_S32768x1024_S32768x512_S32768x1536_d1) : (⟨S32768x1024, .f32⟩ : BufTy).Contents (Elt F) → (⟨S32768x512, .f32⟩ : BufTy).Contents (Elt F) → (⟨S32768x1536, .f32⟩ : BufTy).Contents (Elt F)),
    StableHlo.unary main_arg13 main_v49 ((transpose S1536x512 [1, 0] · transposes_S512x1536_S1536x512_1_0) : (⟨S512x1536, .f32⟩ : BufTy).Contents (Elt F) → (⟨S1536x512, .f32⟩ : BufTy).Contents (Elt F)),
    StableHlo.binary main_v48 main_v49 main_v50 ((fun l r => Host.dotGeneral dot_S32768x1536_S1536x512_S32768x512_1_0_0_1_n_n none l r) : (⟨S32768x1536, .f32⟩ : BufTy).Contents (Elt F) → (⟨S1536x512, .f32⟩ : BufTy).Contents (Elt F) → (⟨S32768x512, .f32⟩ : BufTy).Contents (Elt F)),
    StableHlo.unary main_arg14 main_v51 (broadcastInDim S1x512 ![1] bcast_S512_S1x512_1 : (⟨S512, .f32⟩ : BufTy).Contents (Elt F) → (⟨S1x512, .f32⟩ : BufTy).Contents (Elt F)),
    StableHlo.unary main_v51 main_v52 (broadcastInDim S32768x512 ![0, 1] bcast_S1x512_S32768x512_0_1 : (⟨S1x512, .f32⟩ : BufTy).Contents (Elt F) → (⟨S32768x512, .f32⟩ : BufTy).Contents (Elt F)),
    StableHlo.binary main_v50 main_v52 main_v53 (addf : (⟨S32768x512, .f32⟩ : BufTy).Contents (Elt F) → (⟨S32768x512, .f32⟩ : BufTy).Contents (Elt F) → (⟨S32768x512, .f32⟩ : BufTy).Contents (Elt F)) ]

/-- Operations 92 … 147 of 162: the second group normalisation and leaky rectifier (through %76). -/
abbrev s4 : List (HloOp τ sig (Elt F)) :=
  [ StableHlo.unary main_v53 main_v54 ((transpose S512x32768 [1, 0] · transposes_S32768x512_S512x32768_1_0) : (⟨S32768x512, .f32⟩ : BufTy).Contents (Elt F) → (⟨S512x32768, .f32⟩ : BufTy).Contents (Elt F)),
    StableHlo.reshape main_v54 main_v55 rfl shapeCasts_S512x32768_S32x524288,
    StableHlo.nullary main_cst_7 (constant S_ .f32 0x00000000#32),
    StableHlo.binary main_v55 main_cst_7 main_v56 ((fun x v => Host.reduceAdd x v reducesTo_S32x524288_S32_d1 h_S_) : (⟨S32x524288, .f32⟩ : BufTy).Contents (Elt F) → (⟨S_, .f32⟩ : BufTy).Contents (Elt F) → (⟨S32, .f32⟩ : BufTy).Contents (Elt F)),
    StableHlo.unary main_v56 main_v57 (broadcastInDim S32x1 ![0] bcast_S32_S32x1_0 : (⟨S32, .f32⟩ : BufTy).Contents (Elt F) → (⟨S32x1, .f32⟩ : BufTy).Contents (Elt F)),
    StableHlo.nullary main_cst_8 (constant S_ .f32 0x49000000#32),
    StableHlo.unary main_cst_8 main_v58 (broadcastInDim S32x1 ![] bcast_S_S32x1 : (⟨S_, .f32⟩ : BufTy).Contents (Elt F) → (⟨S32x1, .f32⟩ : BufTy).Contents (Elt F)),
    StableHlo.binary main_v57 main_v58 main_v59 (Host.divf : (⟨S32x1, .f32⟩ : BufTy).Contents (Elt F) → (⟨S32x1, .f32⟩ : BufTy).Contents (Elt F) → (⟨S32x1, .f32⟩ : BufTy).Contents (Elt F)),
    StableHlo.nullary main_c_9 (constantI S_ 32 0#32),
    StableHlo.TRef.nullary (StableHlo.TRef.of (T := ⟨S_, .f32⟩) main_call2_cst) (constant S_ .f32 0x00000000#32),
    StableHlo.TRef.binary (StableHlo.TRef.of (T := ⟨S32x524288, .f32⟩) main_v55) (StableHlo.TRef.of (T := ⟨S_, .f32⟩) main_call2_cst) (StableHlo.TRef.of (T := ⟨S32, .f32⟩) main_call2_v0) (fun x v => Host.reduceAdd x v reducesTo_S32x524288_S32_d1 h_S_),
    StableHlo.TRef.unary (StableHlo.TRef.of (T := ⟨S32, .f32⟩) main_call2_v0) (StableHlo.TRef.of (T := ⟨S32x1, .f32⟩) main_call2_v1) (broadcastInDim S32x1 ![0] bcast_S32_S32x1_0),
    StableHlo.TRef.nullary (StableHlo.TRef.of (T := ⟨S_, .f32⟩) main_call2_cst_0) (constant S_ .f32 0x49000000#32),
    StableHlo.TRef.unary (StableHlo.TRef.of (T := ⟨S_, .f32⟩) main_call2_cst_0) (StableHlo.TRef.of (T := ⟨S32x1, .f32⟩) main_call2_v2) (broadcastInDim S32x1 ![] bcast_S_S32x1),
    StableHlo.TRef.binary (StableHlo.TRef.of (T := ⟨S32x1, .f32⟩) main_call2_v1) (StableHlo.TRef.of (T := ⟨S32x1, .f32⟩) main_call2_v2) (StableHlo.TRef.of (T := ⟨S32x1, .f32⟩) main_call2_v3) Host.divf,
    StableHlo.TRef.unary (StableHlo.TRef.of (T := ⟨S32x1, .f32⟩) main_call2_v3) (StableHlo.TRef.of (T := ⟨S32x524288, .f32⟩) main_call2_v4) (broadcastInDim S32x524288 ![0, 1] bcast_S32x1_S32x524288_0_1),
    StableHlo.TRef.binary (StableHlo.TRef.of (T := ⟨S32x524288, .f32⟩) main_v55) (StableHlo.TRef.of (T := ⟨S32x524288, .f32⟩) main_call2_v4) (StableHlo.TRef.of (T := ⟨S32x524288, .f32⟩) main_call2_v5) subf,
    StableHlo.TRef.binary (StableHlo.TRef.of (T := ⟨S32x524288, .f32⟩) main_call2_v5) (StableHlo.TRef.of (T := ⟨S32x524288, .f32⟩) main_call2_v5) (StableHlo.TRef.of (T := ⟨S32x524288, .f32⟩) main_call2_v6) mulf,
    StableHlo.TRef.unary (StableHlo.TRef.of (T := ⟨S_, .i32⟩) main_c_9) (StableHlo.TRef.of (T := ⟨S_, .f32⟩) main_call2_v7) (sitofp .f32),
    StableHlo.TRef.nullary (StableHlo.TRef.of (T := ⟨S_, .f32⟩) main_call2_cst_1) (constant S_ .f32 0x49000000#32),
    StableHlo.TRef.binary (StableHlo.TRef.of (T := ⟨S_, .f32⟩) main_call2_cst_1) (StableHlo.TRef.of (T := ⟨S_, .f32⟩) main_call2_v7) (StableHlo.TRef.of (T := ⟨S_, .f32⟩) main_call2_v8) subf,
    StableHlo.TRef.nullary (StableHlo.TRef.of (T := ⟨S_, .f32⟩) main_call2_cst_2) (constant S_ .f32 0x00000000#32),
    StableHlo.TRef.binary (StableHlo.TRef.of (T := ⟨S32x524288, .f32⟩) main_call2_v6) (StableHlo.TRef.of (T := ⟨S_, .f32⟩) main_call2_cst_2) (StableHlo.TRef.of (T := ⟨S32, .f32⟩) main_call2_v9) (fun x v => Host.reduceAdd x v reducesTo_S32x524288_S32_d1 h_S_),
    StableHlo.TRef.unary (StableHlo.TRef.of (T := ⟨S32, .f32⟩) main_call2_v9) (StableHlo.TRef.of (T := ⟨S32x1, .f32⟩) main_call2_v10) (broadcastInDim S32x1 ![0] bcast_S32_S32x1_0),
    StableHlo.TRef.unary (StableHlo.TRef.of (T := ⟨S_, .f32⟩) main_call2_v8) (StableHlo.TRef.of (T := ⟨S32x1, .f32⟩) main_call2_v11) (broadcastInDim S32x1 ![] bcast_S_S32x1),
    StableHlo.TRef.binary (StableHlo.TRef.of (T := ⟨S32x1, .f32⟩) main_call2_v10) (StableHlo.TRef.of (T := ⟨S32x1, .f32⟩) main_call2_v11) (StableHlo.TRef.of (T := ⟨S32x1, .f32⟩) main_call2_v12) Host.divf,
    StableHlo.TRef.nullary (StableHlo.TRef.of (T := ⟨S_, .f32⟩) main_call2_cst_3) (constant S_ .f32 0x00000000#32),
    StableHlo.TRef.binary (StableHlo.TRef.of (T := ⟨S_, .f32⟩) main_call2_v8) (StableHlo.TRef.of (T := ⟨S_, .f32⟩) main_call2_cst_3) (StableHlo.TRef.of (T := ⟨S_, .i1⟩) main_call2_v13) (cmpf .ogt),
    StableHlo.TRef.nullary (StableHlo.TRef.of (T := ⟨S_, .f32⟩) main_call2_cst_4) (constant S_ .f32 0x7FC00000#32),
    StableHlo.TRef.unary (StableHlo.TRef.of (T := ⟨S_, .f32⟩) main_call2_cst_4) (StableHlo.TRef.of (T := ⟨S_, .f32⟩) main_call2_call0_v0) id,
    StableHlo.TRef.unary (StableHlo.TRef.of (T := ⟨S_, .f32⟩) main_call2_call0_v0) (StableHlo.TRef.of (T := ⟨S32x1, .f32⟩) main_call2_call0_v1) (broadcastInDim S32x1 ![] bcast_S_S32x1),
    StableHlo.TRef.ternary (StableHlo.TRef.of (T := ⟨S_, .i1⟩) main_call2_v13) (StableHlo.TRef.of (T := ⟨S32x1, .f32⟩) main_call2_v12) (StableHlo.TRef.of (T := ⟨S32x1, .f32⟩) main_call2_call0_v1) (StableHlo.TRef.of (T := ⟨S32x1, .f32⟩) main_v60) (fun p a b => select (broadcastInDim S32x1 ![] bcast_S_S32x1 p) a b),
    StableHlo.unary main_v59 main_v61 (broadcastInDim S32x524288 ![0, 1] bcast_S32x1_S32x524288_0_1 : (⟨S32x1, .f32⟩ : BufTy).Contents (Elt F) → (⟨S32x524288, .f32⟩ : BufTy).Contents (Elt F)),
    StableHlo.binary main_v55 main_v61 main_v62 (subf : (⟨S32x524288, .f32⟩ : BufTy).Contents (Elt F) → (⟨S32x524288, .f32⟩ : BufTy).Contents (Elt F) → (⟨S32x524288, .f32⟩ : BufTy).Contents (Elt F)),
    StableHlo.nullary main_cst_10 (constant S_ .f32 0x3727C5AC#32),
    StableHlo.unary main_cst_10 main_v63 (broadcastInDim S32x1 ![] bcast_S_S32x1 : (⟨S_, .f32⟩ : BufTy).Contents (Elt F) → (⟨S32x1, .f32⟩ : BufTy).Contents (Elt F)),
    StableHlo.binary main_v60 main_v63 main_v64 (addf : (⟨S32x1, .f32⟩ : BufTy).Contents (Elt F) → (⟨S32x1, .f32⟩ : BufTy).Contents (Elt F) → (⟨S32x1, .f32⟩ : BufTy).Contents (Elt F)),
    StableHlo.unary main_v64 main_v65 (Host.sqrt : (⟨S32x1, .f32⟩ : BufTy).Contents (Elt F) → (⟨S32x1, .f32⟩ : BufTy).Contents (Elt F)),
    StableHlo.unary main_v65 main_v66 (broadcastInDim S32x524288 ![0, 1] bcast_S32x1_S32x524288_0_1 : (⟨S32x1, .f32⟩ : BufTy).Contents (Elt F) → (⟨S32x524288, .f32⟩ : BufTy).Contents (Elt F)),
    StableHlo.binary main_v62 main_v66 main_v67 (Host.divf : (⟨S32x524288, .f32⟩ : BufTy).Contents (Elt F) → (⟨S32x524288, .f32⟩ : BufTy).Contents (Elt F) → (⟨S32x524288, .f32⟩ : BufTy).Contents (Elt F)),
    StableHlo.reshape main_v67 main_v68 rfl shapeCasts_S32x524288_S512x32768,
    StableHlo.unary main_v68 main_v69 ((transpose S32768x512 [1, 0] · transposes_S512x32768_S32768x512_1_0) : (⟨S512x32768, .f32⟩ : BufTy).Contents (Elt F) → (⟨S32768x512, .f32⟩ : BufTy).Contents (Elt F)),
    StableHlo.unary main_arg15 main_v70 (broadcastInDim S1x512 ![1] bcast_S512_S1x512_1 : (⟨S512, .f32⟩ : BufTy).Contents (Elt F) → (⟨S1x512, .f32⟩ : BufTy).Contents (Elt F)),
    StableHlo.unary main_v70 main_v71 (broadcastInDim S32768x512 ![0, 1] bcast_S1x512_S32768x512_0_1 : (⟨S1x512, .f32⟩ : BufTy).Contents (Elt F) → (⟨S32768x512, .f32⟩ : BufTy).Contents (Elt F)),
    StableHlo.binary main_v69 main_v71 main_v72 (mulf : (⟨S32768x512, .f32⟩ : BufTy).Contents (Elt F) → (⟨S32768x512, .f32⟩ : BufTy).Contents (Elt F) → (⟨S32768x512, .f32⟩ : BufTy).Contents (Elt F)),
    StableHlo.unary main_arg16 main_v73 (broadcastInDim S1x512 ![1] bcast_S512_S1x512_1 : (⟨S512, .f32⟩ : BufTy).Contents (Elt F) → (⟨S1x512, .f32⟩ : BufTy).Contents (Elt F)),
    StableHlo.unary main_v73 main_v74 (broadcastInDim S32768x512 ![0, 1] bcast_S1x512_S32768x512_0_1 : (⟨S1x512, .f32⟩ : BufTy).Contents (Elt F) → (⟨S32768x512, .f32⟩ : BufTy).Contents (Elt F)),
    StableHlo.binary main_v72 main_v74 main_v75 (addf : (⟨S32768x512, .f32⟩ : BufTy).Contents (Elt F) → (⟨S32768x512, .f32⟩ : BufTy).Contents (Elt F) → (⟨S32768x512, .f32⟩ : BufTy).Contents (Elt F)),
    StableHlo.nullary main_cst_11 (constant S_ .f32 0x3DCCCCCD#32),
    StableHlo.TRef.nullary (StableHlo.TRef.of (T := ⟨S_, .f32⟩) main_call3_cst) (constant S_ .f32 0x00000000#32),
    StableHlo.TRef.unary (StableHlo.TRef.of (T := ⟨S_, .f32⟩) main_call3_cst) (StableHlo.TRef.of (T := ⟨S32768x512, .f32⟩) main_call3_v0) (broadcastInDim S32768x512 ![] bcast_S_S32768x512),
    StableHlo.TRef.binary (StableHlo.TRef.of (T := ⟨S32768x512, .f32⟩) main_v75) (StableHlo.TRef.of (T := ⟨S32768x512, .f32⟩) main_call3_v0) (StableHlo.TRef.of (T := ⟨S32768x512, .i1⟩) main_call3_v1) (cmpf .oge),
    StableHlo.TRef.unary (StableHlo.TRef.of (T := ⟨S_, .f32⟩) main_cst_11) (StableHlo.TRef.of (T := ⟨S_, .f32⟩) main_call3_v2) id,
    StableHlo.TRef.unary (StableHlo.TRef.of (T := ⟨S_, .f32⟩) main_call3_v2) (StableHlo.TRef.of (T := ⟨S32768x512, .f32⟩) main_call3_v3) (broadcastInDim S32768x512 ![] bcast_S_S32768x512),
    StableHlo.TRef.binary (StableHlo.TRef.of (T := ⟨S32768x512, .f32⟩) main_call3_v3) (StableHlo.TRef.of (T := ⟨S32768x512, .f32⟩) main_v75) (StableHlo.TRef.of (T := ⟨S32768x512, .f32⟩) main_call3_v4) mulf,
    StableHlo.TRef.ternary (StableHlo.TRef.of (T := ⟨S32768x512, .i1⟩) main_call3_v1) (StableHlo.TRef.of (T := ⟨S32768x512, .f32⟩) main_v75) (StableHlo.TRef.of (T := ⟨S32768x512, .f32⟩) main_call3_v4) (StableHlo.TRef.of (T := ⟨S32768x512, .f32⟩) main_v76) select ]

/-- Operations 148 … 162 of 162: the last linear layer (through the result %89). -/
abbrev s5 : List (HloOp τ sig (Elt F)) :=
  [ StableHlo.nullary main_c_12 (constantI S_ 32 0#32),
    StableHlo.unary main_c_12 main_v77 (broadcastInDim S131072 ![] bcast_S_S131072 : (⟨S_, .i32⟩ : BufTy).Contents (Elt F) → (⟨S131072, .i32⟩ : BufTy).Contents (Elt F)),
    StableHlo.binary main_arg4 main_v77 main_v78 (cmpi .slt : (⟨S131072, .i32⟩ : BufTy).Contents (Elt F) → (⟨S131072, .i32⟩ : BufTy).Contents (Elt F) → (⟨S131072, .i1⟩ : BufTy).Contents (Elt F)),
    StableHlo.nullary main_c_13 (constantI S_ 32 32768#32),
    StableHlo.unary main_c_13 main_v79 (broadcastInDim S131072 ![] bcast_S_S131072 : (⟨S_, .i32⟩ : BufTy).Contents (Elt F) → (⟨S131072, .i32⟩ : BufTy).Contents (Elt F)),
    StableHlo.binary main_arg4 main_v79 main_v80 (addi : (⟨S131072, .i32⟩ : BufTy).Contents (Elt F) → (⟨S131072, .i32⟩ : BufTy).Contents (Elt F) → (⟨S131072, .i32⟩ : BufTy).Contents (Elt F)),
    StableHlo.ternary main_v78 main_v80 main_arg4 main_v81 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v81 main_v82 (broadcastInDim S131072x1 ![0] bcast_S131072_S131072x1_0 : (⟨S131072, .i32⟩ : BufTy).Contents (Elt F) → (⟨S131072x1, .i32⟩ : BufTy).Contents (Elt F)),
    StableHlo.binary main_v76 main_v82 main_v83 ((fun x i => Host.gather gather_S32768x512_S131072x1_S131072x512_1_0_n_n_0_1_1512 x i) : (⟨S32768x512, .f32⟩ : BufTy).Contents (Elt F) → (⟨S131072x1, .i32⟩ : BufTy).Contents (Elt F) → (⟨S131072x512, .f32⟩ : BufTy).Contents (Elt F)),
    StableHlo.binary main_v83 main_arg0 main_v84 ((fun a b => concatenate S131072x768 1 [⟨S131072x512, a⟩, ⟨S131072x256, b⟩] concatenates_S131072x512_S131072x256_S131072x768_d1) : (⟨S131072x512, .f32⟩ : BufTy).Contents (Elt F) → (⟨S131072x256, .f32⟩ : BufTy).Contents (Elt F) → (⟨S131072x768, .f32⟩ : BufTy).Contents (Elt F)),
    StableHlo.unary main_arg17 main_v85 ((transpose S768x256 [1, 0] · transposes_S256x768_S768x256_1_0) : (⟨S256x768, .f32⟩ : BufTy).Contents (Elt F) → (⟨S768x256, .f32⟩ : BufTy).Contents (Elt F)),
    StableHlo.binary main_v84 main_v85 main_v86 ((fun l r => Host.dotGeneral dot_S131072x768_S768x256_S131072x256_1_0_0_1_n_n none l r) : (⟨S131072x768, .f32⟩ : BufTy).Contents (Elt F) → (⟨S768x256, .f32⟩ : BufTy).Contents (Elt F) → (⟨S131072x256, .f32⟩ : BufTy).Contents (Elt F)),
    StableHlo.unary main_arg18 main_v87 (broadcastInDim S1x256 ![1] bcast_S256_S1x256_1 : (⟨S256, .f32⟩ : BufTy).Contents (Elt F) → (⟨S1x256, .f32⟩ : BufTy).Contents (Elt F)),
    StableHlo.unary main_v87 main_v88 (broadcastInDim S131072x256 ![0, 1] bcast_S1x256_S131072x256_0_1 : (⟨S1x256, .f32⟩ : BufTy).Contents (Elt F) → (⟨S131072x256, .f32⟩ : BufTy).Contents (Elt F)),
    StableHlo.binary main_v86 main_v88 main_v89 (addf : (⟨S131072x256, .f32⟩ : BufTy).Contents (Elt F) → (⟨S131072x256, .f32⟩ : BufTy).Contents (Elt F) → (⟨S131072x256, .f32⟩ : BufTy).Contents (Elt F)) ]

/-- The part of the fourth stretch that lies in @main's first window, and the part in its second. -/
abbrev s3a : List (HloOp τ sig (Elt F)) :=
  [ StableHlo.nullary main_c_5 (constantI S_ 32 0#32),
    StableHlo.unary main_c_5 main_v41 (broadcastInDim S32768 ![] bcast_S_S32768 : (⟨S_, .i32⟩ : BufTy).Contents (Elt F) → (⟨S32768, .i32⟩ : BufTy).Contents (Elt F)),
    StableHlo.binary main_arg5 main_v41 main_v42 (cmpi .slt : (⟨S32768, .i32⟩ : BufTy).Contents (Elt F) → (⟨S32768, .i32⟩ : BufTy).Contents (Elt F) → (⟨S32768, .i1⟩ : BufTy).Contents (Elt F)),
    StableHlo.nullary main_c_6 (constantI S_ 32 8192#32),
    StableHlo.unary main_c_6 main_v43 (broadcastInDim S32768 ![] bcast_S_S32768 : (⟨S_, .i32⟩ : BufTy).Contents (Elt F) → (⟨S32768, .i32⟩ : BufTy).Contents (Elt F)),
    StableHlo.binary main_arg5 main_v43 main_v44 (addi : (⟨S32768, .i32⟩ : BufTy).Contents (Elt F) → (⟨S32768, .i32⟩ : BufTy).Contents (Elt F) → (⟨S32768, .i32⟩ : BufTy).Contents (Elt F)),
    StableHlo.ternary main_v42 main_v44 main_arg5 main_v45 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v45 main_v46 (broadcastInDim S32768x1 ![0] bcast_S32768_S32768x1_0 : (⟨S32768, .i32⟩ : BufTy).Contents (Elt F) → (⟨S32768x1, .i32⟩ : BufTy).Contents (Elt F)),
    StableHlo.binary main_v40 main_v46 main_v47 ((fun x i => Host.gather gather_S8192x1024_S32768x1_S32768x1024_1_0_n_n_0_1_11024 x i) : (⟨S8192x1024, .f32⟩ : BufTy).Contents (Elt F) → (⟨S32768x1, .i32⟩ : BufTy).Contents (Elt F) → (⟨S32768x1024, .f32⟩ : BufTy).Contents (Elt F)),
    StableHlo.binary main_v47 main_arg1 main_v48 ((fun a b => concatenate S32768x1536 1 [⟨S32768x1024, a⟩, ⟨S32768x512, b⟩] concatenates_S32768x1024_S32768x512_S32768x1536_d1) : (⟨S32768x1024, .f32⟩ : BufTy).Contents (Elt F) → (⟨S32768x512, .f32⟩ : BufTy).Contents (Elt F) → (⟨S32768x1536, .f32⟩ : BufTy).Contents (Elt F)),
    StableHlo.unary main_arg13 main_v49 ((transpose S1536x512 [1, 0] · transposes_S512x1536_S1536x512_1_0) : (⟨S512x1536, .f32⟩ : BufTy).Contents (Elt F) → (⟨S1536x512, .f32⟩ : BufTy).Contents (Elt F)),
    StableHlo.binary main_v48 main_v49 main_v50 ((fun l r => Host.dotGeneral dot_S32768x1536_S1536x512_S32768x512_1_0_0_1_n_n none l r) : (⟨S32768x1536, .f32⟩ : BufTy).Contents (Elt F) → (⟨S1536x512, .f32⟩ : BufTy).Contents (Elt F) → (⟨S32768x512, .f32⟩ : BufTy).Contents (Elt F)) ]

abbrev s3b : List (HloOp τ sig (Elt F)) :=
  [ StableHlo.unary main_arg14 main_v51 (broadcastInDim S1x512 ![1] bcast_S512_S1x512_1 : (⟨S512, .f32⟩ : BufTy).Contents (Elt F) → (⟨S1x512, .f32⟩ : BufTy).Contents (Elt F)),
    StableHlo.unary main_v51 main_v52 (broadcastInDim S32768x512 ![0, 1] bcast_S1x512_S32768x512_0_1 : (⟨S1x512, .f32⟩ : BufTy).Contents (Elt F) → (⟨S32768x512, .f32⟩ : BufTy).Contents (Elt F)),
    StableHlo.binary main_v50 main_v52 main_v53 (addf : (⟨S32768x512, .f32⟩ : BufTy).Contents (Elt F) → (⟨S32768x512, .f32⟩ : BufTy).Contents (Elt F) → (⟨S32768x512, .f32⟩ : BufTy).Contents (Elt F)) ]

theorem s3_eq : (s3 : List (HloOp τ sig (Elt F))) = s3a ++ s3b := rfl

/-- @main's 162 operations, in order, every called function's operations at its call. -/
abbrev ops : List (HloOp τ sig (Elt F)) :=
  s0 ++ (s1 ++ (s2 ++ (s3 ++ (s4 ++ s5))))

/-! ## @main is that straight line -/

set_option maxRecDepth 8192 in
set_option maxHeartbeats 4000000 in
/-- @main's first window is its operations in order: the called functions' definitions unfold at their calls and the
    buffer records at their fields. -/
theorem part0_eq (c : Dev nD) : main_part0 (F := F) c = seq (s0 ++ (s1 ++ (s2 ++ s3a))) := rfl

set_option maxRecDepth 8192 in
set_option maxHeartbeats 4000000 in
/-- The same for @main's second window. -/
theorem part1_eq (c : Dev nD) : main_part1 (F := F) c = seq (s3b ++ (s4 ++ s5)) := rfl

/-- The two windows' lists joined are the six stretches joined. -/
theorem ops_eq : (ops : List (HloOp τ sig (Elt F))) = (s0 ++ (s1 ++ (s2 ++ s3a))) ++ (s3b ++ (s4 ++ s5)) := by
  simp only [ops, s3_eq, List.append_assoc]

/-- @main runs its two windows in turn, so it is the whole list run in order. -/
theorem main_eq (c : Dev nD) : main (F := F) c = seq ops := by
  rw [ops_eq, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem s0_sub : (s0 : List (HloOp τ sig (Elt F))).Forall fun op => op.bufs ⊆ tcRefs τ sig :=
  ⟨unary_bufs_sub .., binary_bufs_sub .., unary_bufs_sub .., unary_bufs_sub .., binary_bufs_sub ..⟩

set_option maxRecDepth 8192 in
theorem s1_sub : (s1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub ..⟩

set_option maxRecDepth 8192 in
theorem s2_sub : (s2 : List (HloOp τ sig (Elt F))).Forall fun op => op.bufs ⊆ tcRefs τ sig :=
  ⟨unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., reshape_bufs_sub .., unary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

set_option maxRecDepth 8192 in
theorem s3_sub : (s3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub ..⟩

set_option maxRecDepth 8192 in
theorem s4_sub : (s4 : List (HloOp τ sig (Elt F))).Forall fun op => op.bufs ⊆ tcRefs τ sig :=
  ⟨unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., reshape_bufs_sub .., unary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

set_option maxRecDepth 8192 in
theorem s5_sub : (s5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub ..⟩

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp s0_sub op h, List.forall_iff_forall_mem.mp s1_sub op h, List.forall_iff_forall_mem.mp s2_sub op h, List.forall_iff_forall_mem.mp s3_sub op h, List.forall_iff_forall_mem.mp s4_sub op h, List.forall_iff_forall_mem.mp s5_sub op h]

/-! ## What each stretch writes, and what it leaves alone -/

/-- Running two lists one after the other folds the second from where the first ends. -/
theorem after_append' : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_append' l₁ l₂]

/-- An operation that writes exactly the reference `y`, a member of the list `W`, writes inside `W`. -/
theorem writes_sub_of_mem {op : HloOp τ sig (Elt F)} {W : List (Ref sig .tc)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-- The references stretch `s0` writes, in order. -/
abbrev s0_W : List (Ref sig .tc) := [main_v0, main_v1, main_v2, main_v3, main_v4]
set_option maxRecDepth 8192 in
theorem s0_writes : (s0 : List (HloOp τ sig (Elt F))).Forall fun op => op.writes ⊆ (s0_W.map (Proc.devRef (τ := τ) .tc)).toFinset :=
  ⟨writes_sub_of_mem main_v0 rfl (by decide),
   writes_sub_of_mem main_v1 rfl (by decide),
   writes_sub_of_mem main_v2 rfl (by decide),
   writes_sub_of_mem main_v3 rfl (by decide),
   writes_sub_of_mem main_v4 rfl (by decide)⟩

/-- The references stretch `s1` writes, in order. -/
abbrev s1_W : List (Ref sig .tc) := [main_c, main_v5, main_v6, main_c_0, main_v7, main_v8, main_v9, main_v10, main_v11, main_v12, main_v13, main_v14, main_v15, main_v16, main_v17]
set_option maxRecDepth 8192 in
theorem s1_writes : (s1 : List (HloOp τ sig (Elt F))).Forall fun op => op.writes ⊆ (s1_W.map (Proc.devRef (τ := τ) .tc)).toFinset :=
  ⟨writes_sub_of_mem main_c rfl (by decide),
   writes_sub_of_mem main_v5 rfl (by decide),
   writes_sub_of_mem main_v6 rfl (by decide),
   writes_sub_of_mem main_c_0 rfl (by decide),
   writes_sub_of_mem main_v7 rfl (by decide),
   writes_sub_of_mem main_v8 rfl (by decide),
   writes_sub_of_mem main_v9 rfl (by decide),
   writes_sub_of_mem main_v10 rfl (by decide),
   writes_sub_of_mem main_v11 rfl (by decide),
   writes_sub_of_mem main_v12 rfl (by decide),
   writes_sub_of_mem main_v13 rfl (by decide),
   writes_sub_of_mem main_v14 rfl (by decide),
   writes_sub_of_mem main_v15 rfl (by decide),
   writes_sub_of_mem main_v16 rfl (by decide),
   writes_sub_of_mem main_v17 rfl (by decide)⟩

/-- The references stretch `s2` writes, in order. -/
abbrev s2_W : List (Ref sig .tc) := [main_v18, main_v19, main_cst, main_v20, main_v21, main_cst_1, main_v22, main_v23, main_c_2, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v24, main_v25, main_v26, main_cst_3, main_v27, main_v28, main_v29, main_v30, main_v31, main_v32, main_v33, main_v34, main_v35, main_v36, main_v37, main_v38, main_v39, main_cst_4, main_call1_cst, main_call1_v0, main_call1_v1, main_call1_v2, main_call1_v3, main_call1_v4, main_v40]
set_option maxRecDepth 8192 in
theorem s2_writes : (s2 : List (HloOp τ sig (Elt F))).Forall fun op => op.writes ⊆ (s2_W.map (Proc.devRef (τ := τ) .tc)).toFinset :=
  ⟨writes_sub_of_mem main_v18 rfl (by decide),
   writes_sub_of_mem main_v19 rfl (by decide),
   writes_sub_of_mem main_cst rfl (by decide),
   writes_sub_of_mem main_v20 rfl (by decide),
   writes_sub_of_mem main_v21 rfl (by decide),
   writes_sub_of_mem main_cst_1 rfl (by decide),
   writes_sub_of_mem main_v22 rfl (by decide),
   writes_sub_of_mem main_v23 rfl (by decide),
   writes_sub_of_mem main_c_2 rfl (by decide),
   writes_sub_of_mem main_call0_cst rfl (by decide),
   writes_sub_of_mem main_call0_v0 rfl (by decide),
   writes_sub_of_mem main_call0_v1 rfl (by decide),
   writes_sub_of_mem main_call0_cst_0 rfl (by decide),
   writes_sub_of_mem main_call0_v2 rfl (by decide),
   writes_sub_of_mem main_call0_v3 rfl (by decide),
   writes_sub_of_mem main_call0_v4 rfl (by decide),
   writes_sub_of_mem main_call0_v5 rfl (by decide),
   writes_sub_of_mem main_call0_v6 rfl (by decide),
   writes_sub_of_mem main_call0_v7 rfl (by decide),
   writes_sub_of_mem main_call0_cst_1 rfl (by decide),
   writes_sub_of_mem main_call0_v8 rfl (by decide),
   writes_sub_of_mem main_call0_cst_2 rfl (by decide),
   writes_sub_of_mem main_call0_v9 rfl (by decide),
   writes_sub_of_mem main_call0_v10 rfl (by decide),
   writes_sub_of_mem main_call0_v11 rfl (by decide),
   writes_sub_of_mem main_call0_v12 rfl (by decide),
   writes_sub_of_mem main_call0_cst_3 rfl (by decide),
   writes_sub_of_mem main_call0_v13 rfl (by decide),
   writes_sub_of_mem main_call0_cst_4 rfl (by decide),
   writes_sub_of_mem main_call0_call0_v0 rfl (by decide),
   writes_sub_of_mem main_call0_call0_v1 rfl (by decide),
   writes_sub_of_mem main_v24 rfl (by decide),
   writes_sub_of_mem main_v25 rfl (by decide),
   writes_sub_of_mem main_v26 rfl (by decide),
   writes_sub_of_mem main_cst_3 rfl (by decide),
   writes_sub_of_mem main_v27 rfl (by decide),
   writes_sub_of_mem main_v28 rfl (by decide),
   writes_sub_of_mem main_v29 rfl (by decide),
   writes_sub_of_mem main_v30 rfl (by decide),
   writes_sub_of_mem main_v31 rfl (by decide),
   writes_sub_of_mem main_v32 rfl (by decide),
   writes_sub_of_mem main_v33 rfl (by decide),
   writes_sub_of_mem main_v34 rfl (by decide),
   writes_sub_of_mem main_v35 rfl (by decide),
   writes_sub_of_mem main_v36 rfl (by decide),
   writes_sub_of_mem main_v37 rfl (by decide),
   writes_sub_of_mem main_v38 rfl (by decide),
   writes_sub_of_mem main_v39 rfl (by decide),
   writes_sub_of_mem main_cst_4 rfl (by decide),
   writes_sub_of_mem main_call1_cst rfl (by decide),
   writes_sub_of_mem main_call1_v0 rfl (by decide),
   writes_sub_of_mem main_call1_v1 rfl (by decide),
   writes_sub_of_mem main_call1_v2 rfl (by decide),
   writes_sub_of_mem main_call1_v3 rfl (by decide),
   writes_sub_of_mem main_call1_v4 rfl (by decide),
   writes_sub_of_mem main_v40 rfl (by decide)⟩

/-- The references stretch `s3` writes, in order. -/
abbrev s3_W : List (Ref sig .tc) := [main_c_5, main_v41, main_v42, main_c_6, main_v43, main_v44, main_v45, main_v46, main_v47, main_v48, main_v49, main_v50, main_v51, main_v52, main_v53]
set_option maxRecDepth 8192 in
theorem s3_writes : (s3 : List (HloOp τ sig (Elt F))).Forall fun op => op.writes ⊆ (s3_W.map (Proc.devRef (τ := τ) .tc)).toFinset :=
  ⟨writes_sub_of_mem main_c_5 rfl (by decide),
   writes_sub_of_mem main_v41 rfl (by decide),
   writes_sub_of_mem main_v42 rfl (by decide),
   writes_sub_of_mem main_c_6 rfl (by decide),
   writes_sub_of_mem main_v43 rfl (by decide),
   writes_sub_of_mem main_v44 rfl (by decide),
   writes_sub_of_mem main_v45 rfl (by decide),
   writes_sub_of_mem main_v46 rfl (by decide),
   writes_sub_of_mem main_v47 rfl (by decide),
   writes_sub_of_mem main_v48 rfl (by decide),
   writes_sub_of_mem main_v49 rfl (by decide),
   writes_sub_of_mem main_v50 rfl (by decide),
   writes_sub_of_mem main_v51 rfl (by decide),
   writes_sub_of_mem main_v52 rfl (by decide),
   writes_sub_of_mem main_v53 rfl (by decide)⟩

/-- The references stretch `s4` writes, in order. -/
abbrev s4_W : List (Ref sig .tc) := [main_v54, main_v55, main_cst_7, main_v56, main_v57, main_cst_8, main_v58, main_v59, main_c_9, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v60, main_v61, main_v62, main_cst_10, main_v63, main_v64, main_v65, main_v66, main_v67, main_v68, main_v69, main_v70, main_v71, main_v72, main_v73, main_v74, main_v75, main_cst_11, main_call3_cst, main_call3_v0, main_call3_v1, main_call3_v2, main_call3_v3, main_call3_v4, main_v76]
set_option maxRecDepth 8192 in
theorem s4_writes : (s4 : List (HloOp τ sig (Elt F))).Forall fun op => op.writes ⊆ (s4_W.map (Proc.devRef (τ := τ) .tc)).toFinset :=
  ⟨writes_sub_of_mem main_v54 rfl (by decide),
   writes_sub_of_mem main_v55 rfl (by decide),
   writes_sub_of_mem main_cst_7 rfl (by decide),
   writes_sub_of_mem main_v56 rfl (by decide),
   writes_sub_of_mem main_v57 rfl (by decide),
   writes_sub_of_mem main_cst_8 rfl (by decide),
   writes_sub_of_mem main_v58 rfl (by decide),
   writes_sub_of_mem main_v59 rfl (by decide),
   writes_sub_of_mem main_c_9 rfl (by decide),
   writes_sub_of_mem main_call2_cst rfl (by decide),
   writes_sub_of_mem main_call2_v0 rfl (by decide),
   writes_sub_of_mem main_call2_v1 rfl (by decide),
   writes_sub_of_mem main_call2_cst_0 rfl (by decide),
   writes_sub_of_mem main_call2_v2 rfl (by decide),
   writes_sub_of_mem main_call2_v3 rfl (by decide),
   writes_sub_of_mem main_call2_v4 rfl (by decide),
   writes_sub_of_mem main_call2_v5 rfl (by decide),
   writes_sub_of_mem main_call2_v6 rfl (by decide),
   writes_sub_of_mem main_call2_v7 rfl (by decide),
   writes_sub_of_mem main_call2_cst_1 rfl (by decide),
   writes_sub_of_mem main_call2_v8 rfl (by decide),
   writes_sub_of_mem main_call2_cst_2 rfl (by decide),
   writes_sub_of_mem main_call2_v9 rfl (by decide),
   writes_sub_of_mem main_call2_v10 rfl (by decide),
   writes_sub_of_mem main_call2_v11 rfl (by decide),
   writes_sub_of_mem main_call2_v12 rfl (by decide),
   writes_sub_of_mem main_call2_cst_3 rfl (by decide),
   writes_sub_of_mem main_call2_v13 rfl (by decide),
   writes_sub_of_mem main_call2_cst_4 rfl (by decide),
   writes_sub_of_mem main_call2_call0_v0 rfl (by decide),
   writes_sub_of_mem main_call2_call0_v1 rfl (by decide),
   writes_sub_of_mem main_v60 rfl (by decide),
   writes_sub_of_mem main_v61 rfl (by decide),
   writes_sub_of_mem main_v62 rfl (by decide),
   writes_sub_of_mem main_cst_10 rfl (by decide),
   writes_sub_of_mem main_v63 rfl (by decide),
   writes_sub_of_mem main_v64 rfl (by decide),
   writes_sub_of_mem main_v65 rfl (by decide),
   writes_sub_of_mem main_v66 rfl (by decide),
   writes_sub_of_mem main_v67 rfl (by decide),
   writes_sub_of_mem main_v68 rfl (by decide),
   writes_sub_of_mem main_v69 rfl (by decide),
   writes_sub_of_mem main_v70 rfl (by decide),
   writes_sub_of_mem main_v71 rfl (by decide),
   writes_sub_of_mem main_v72 rfl (by decide),
   writes_sub_of_mem main_v73 rfl (by decide),
   writes_sub_of_mem main_v74 rfl (by decide),
   writes_sub_of_mem main_v75 rfl (by decide),
   writes_sub_of_mem main_cst_11 rfl (by decide),
   writes_sub_of_mem main_call3_cst rfl (by decide),
   writes_sub_of_mem main_call3_v0 rfl (by decide),
   writes_sub_of_mem main_call3_v1 rfl (by decide),
   writes_sub_of_mem main_call3_v2 rfl (by decide),
   writes_sub_of_mem main_call3_v3 rfl (by decide),
   writes_sub_of_mem main_call3_v4 rfl (by decide),
   writes_sub_of_mem main_v76 rfl (by decide)⟩

/-- The references stretch `s5` writes, in order. -/
abbrev s5_W : List (Ref sig .tc) := [main_c_12, main_v77, main_v78, main_c_13, main_v79, main_v80, main_v81, main_v82, main_v83, main_v84, main_v85, main_v86, main_v87, main_v88, main_v89]
set_option maxRecDepth 8192 in
theorem s5_writes : (s5 : List (HloOp τ sig (Elt F))).Forall fun op => op.writes ⊆ (s5_W.map (Proc.devRef (τ := τ) .tc)).toFinset :=
  ⟨writes_sub_of_mem main_c_12 rfl (by decide),
   writes_sub_of_mem main_v77 rfl (by decide),
   writes_sub_of_mem main_v78 rfl (by decide),
   writes_sub_of_mem main_c_13 rfl (by decide),
   writes_sub_of_mem main_v79 rfl (by decide),
   writes_sub_of_mem main_v80 rfl (by decide),
   writes_sub_of_mem main_v81 rfl (by decide),
   writes_sub_of_mem main_v82 rfl (by decide),
   writes_sub_of_mem main_v83 rfl (by decide),
   writes_sub_of_mem main_v84 rfl (by decide),
   writes_sub_of_mem main_v85 rfl (by decide),
   writes_sub_of_mem main_v86 rfl (by decide),
   writes_sub_of_mem main_v87 rfl (by decide),
   writes_sub_of_mem main_v88 rfl (by decide),
   writes_sub_of_mem main_v89 rfl (by decide)⟩

/-! ## The value each stretch leaves, as a function of what it reads

Each definition is the stretch's operations applied in order to the contents named by its parameters: `aK` the
contents of @main's argument K, and `x5`, `raw4`, `act4`, `raw3`, `act3` the value the stretch before left. A value
read more than once inside a stretch has a name of its own. -/

/-- The first linear layer: the features times the transposed weight, plus the bias broadcast over the rows. -/
def stageX5 (a3 : (⟨S2048x2048, .f32⟩ : BufTy).Contents (Elt F)) (a7 : (⟨S2048x2048, .f32⟩ : BufTy).Contents (Elt F)) (a8 : (⟨S2048, .f32⟩ : BufTy).Contents (Elt F)) : (⟨S2048x2048, .f32⟩ : BufTy).Contents (Elt F) :=
  addf (Host.dotGeneral dot_S2048x2048_S2048x2048_S2048x2048_1_0_0_1_n_n none a3 (transpose S2048x2048 [1, 0] a7 transposes_S2048x2048_S2048x2048_1_0)) (broadcastInDim S2048x2048 ![0, 1] bcast_S1x2048_S2048x2048_0_1 (broadcastInDim S1x2048 ![1] bcast_S2048_S1x2048_1 a8))

/-- The decoder-4 linear layer: rows of the previous stage gathered at the wrapped indices (a negative index has the row count added), joined with the skip features along the columns, times the transposed weight, plus the bias broadcast over the rows. -/
def stageRaw4 (x5 : (⟨S2048x2048, .f32⟩ : BufTy).Contents (Elt F)) (a2 : (⟨S8192x1024, .f32⟩ : BufTy).Contents (Elt F)) (a6 : (⟨S8192, .i32⟩ : BufTy).Contents (Elt F)) (a9 : (⟨S1024x3072, .f32⟩ : BufTy).Contents (Elt F)) (a10 : (⟨S1024, .f32⟩ : BufTy).Contents (Elt F)) : (⟨S8192x1024, .f32⟩ : BufTy).Contents (Elt F) :=
  addf (Host.dotGeneral dot_S8192x3072_S3072x1024_S8192x1024_1_0_0_1_n_n none (concatenate S8192x3072 1 [⟨S8192x2048, (Host.gather gather_S2048x2048_S8192x1_S8192x2048_1_0_n_n_0_1_12048 x5 (broadcastInDim S8192x1 ![0] bcast_S8192_S8192x1_0 (select (cmpi .slt a6 (broadcastInDim S8192 ![] bcast_S_S8192 (constantI S_ 32 0#32 : (⟨S_, .i32⟩ : BufTy).Contents (Elt F)))) (addi a6 (broadcastInDim S8192 ![] bcast_S_S8192 (constantI S_ 32 2048#32 : (⟨S_, .i32⟩ : BufTy).Contents (Elt F)))) a6)))⟩, ⟨S8192x1024, a2⟩] concatenates_S8192x2048_S8192x1024_S8192x3072_d1) (transpose S3072x1024 [1, 0] a9 transposes_S1024x3072_S3072x1024_1_0)) (broadcastInDim S8192x1024 ![0, 1] bcast_S1x1024_S8192x1024_0_1 (broadcastInDim S1x1024 ![1] bcast_S1024_S1x1024_1 a10))

/-- The group norm's input at stage 4: the layer's output transposed and regrouped as 32 groups of 262144 elements. -/
def gnIn4 (raw4 : (⟨S8192x1024, .f32⟩ : BufTy).Contents (Elt F)) : (⟨S32x262144, .f32⟩ : BufTy).Contents (Elt F) :=
  (shapeCast S32x262144 (transpose S1024x8192 [1, 0] raw4 transposes_S8192x1024_S1024x8192_1_0) shapeCasts_S1024x8192_S32x262144 : (⟨S32x262144, .f32⟩ : BufTy).Contents (Elt F))

/-- Each element's deviation from its group's mean (the group's sum divided by 262144), at stage 4. -/
def gnDev4 (raw4 : (⟨S8192x1024, .f32⟩ : BufTy).Contents (Elt F)) : (⟨S32x262144, .f32⟩ : BufTy).Contents (Elt F) :=
  subf (gnIn4 raw4) (broadcastInDim S32x262144 ![0, 1] bcast_S32x1_S32x262144_0_1 (Host.divf (broadcastInDim S32x1 ![0] bcast_S32_S32x1_0 (Host.reduceAdd (gnIn4 raw4) (constant S_ .f32 0x00000000#32 : (⟨S_, .f32⟩ : BufTy).Contents (Elt F)) reducesTo_S32x262144_S32_d1 h_S_)) (broadcastInDim S32x1 ![] bcast_S_S32x1 (constant S_ .f32 0x48800000#32 : (⟨S_, .f32⟩ : BufTy).Contents (Elt F)))))

/-- The variance's divisor at stage 4: 262144 minus the correction 0. -/
def gnCnt4 : (⟨S_, .f32⟩ : BufTy).Contents (Elt F) :=
  subf (constant S_ .f32 0x48800000#32 : (⟨S_, .f32⟩ : BufTy).Contents (Elt F)) (sitofp .f32 (constantI S_ 32 0#32 : (⟨S_, .i32⟩ : BufTy).Contents (Elt F)))

/-- The group norm's output at stage 4 before the activation: deviation from the group mean over the square root of the group variance plus 1e-5, laid back as rows by channels, times the scale and plus the shift, each broadcast over the rows. -/
def gnOut4 (raw4 : (⟨S8192x1024, .f32⟩ : BufTy).Contents (Elt F)) (a11 : (⟨S1024, .f32⟩ : BufTy).Contents (Elt F)) (a12 : (⟨S1024, .f32⟩ : BufTy).Contents (Elt F)) : (⟨S8192x1024, .f32⟩ : BufTy).Contents (Elt F) :=
  addf (mulf (transpose S8192x1024 [1, 0] (shapeCast S1024x8192 (Host.divf (subf (gnIn4 raw4) (broadcastInDim S32x262144 ![0, 1] bcast_S32x1_S32x262144_0_1 (Host.divf (broadcastInDim S32x1 ![0] bcast_S32_S32x1_0 (Host.reduceAdd (gnIn4 raw4) (constant S_ .f32 0x00000000#32 : (⟨S_, .f32⟩ : BufTy).Contents (Elt F)) reducesTo_S32x262144_S32_d1 h_S_)) (broadcastInDim S32x1 ![] bcast_S_S32x1 (constant S_ .f32 0x48800000#32 : (⟨S_, .f32⟩ : BufTy).Contents (Elt F)))))) (broadcastInDim S32x262144 ![0, 1] bcast_S32x1_S32x262144_0_1 (Host.sqrt (addf (select (broadcastInDim S32x1 ![] bcast_S_S32x1 (cmpf .ogt gnCnt4 (constant S_ .f32 0x00000000#32 : (⟨S_, .f32⟩ : BufTy).Contents (Elt F)))) (Host.divf (broadcastInDim S32x1 ![0] bcast_S32_S32x1_0 (Host.reduceAdd (mulf (gnDev4 raw4) (gnDev4 raw4)) (constant S_ .f32 0x00000000#32 : (⟨S_, .f32⟩ : BufTy).Contents (Elt F)) reducesTo_S32x262144_S32_d1 h_S_)) (broadcastInDim S32x1 ![] bcast_S_S32x1 gnCnt4)) (broadcastInDim S32x1 ![] bcast_S_S32x1 (id (constant S_ .f32 0x7FC00000#32 : (⟨S_, .f32⟩ : BufTy).Contents (Elt F))))) (broadcastInDim S32x1 ![] bcast_S_S32x1 (constant S_ .f32 0x3727C5AC#32 : (⟨S_, .f32⟩ : BufTy).Contents (Elt F))))))) shapeCasts_S32x262144_S1024x8192 : (⟨S1024x8192, .f32⟩ : BufTy).Contents (Elt F)) transposes_S1024x8192_S8192x1024_1_0) (broadcastInDim S8192x1024 ![0, 1] bcast_S1x1024_S8192x1024_0_1 (broadcastInDim S1x1024 ![1] bcast_S1024_S1x1024_1 a11))) (broadcastInDim S8192x1024 ![0, 1] bcast_S1x1024_S8192x1024_0_1 (broadcastInDim S1x1024 ![1] bcast_S1024_S1x1024_1 a12))

/-- The leaky rectifier at stage 4: the value where it is at least zero, a tenth of it elsewhere. -/
def stageAct4 (raw4 : (⟨S8192x1024, .f32⟩ : BufTy).Contents (Elt F)) (a11 : (⟨S1024, .f32⟩ : BufTy).Contents (Elt F)) (a12 : (⟨S1024, .f32⟩ : BufTy).Contents (Elt F)) : (⟨S8192x1024, .f32⟩ : BufTy).Contents (Elt F) :=
  select (cmpf .oge (gnOut4 raw4 a11 a12) (broadcastInDim S8192x1024 ![] bcast_S_S8192x1024 (constant S_ .f32 0x00000000#32 : (⟨S_, .f32⟩ : BufTy).Contents (Elt F)))) (gnOut4 raw4 a11 a12) (mulf (broadcastInDim S8192x1024 ![] bcast_S_S8192x1024 (id (constant S_ .f32 0x3DCCCCCD#32 : (⟨S_, .f32⟩ : BufTy).Contents (Elt F)))) (gnOut4 raw4 a11 a12))

/-- The decoder-3 linear layer: rows of the activated stage-4 output gathered at the wrapped indices, joined with the skip features, times the transposed weight, plus the bias. -/
def stageRaw3 (act4 : (⟨S8192x1024, .f32⟩ : BufTy).Contents (Elt F)) (a1 : (⟨S32768x512, .f32⟩ : BufTy).Contents (Elt F)) (a5 : (⟨S32768, .i32⟩ : BufTy).Contents (Elt F)) (a13 : (⟨S512x1536, .f32⟩ : BufTy).Contents (Elt F)) (a14 : (⟨S512, .f32⟩ : BufTy).Contents (Elt F)) : (⟨S32768x512, .f32⟩ : BufTy).Contents (Elt F) :=
  addf (Host.dotGeneral dot_S32768x1536_S1536x512_S32768x512_1_0_0_1_n_n none (concatenate S32768x1536 1 [⟨S32768x1024, (Host.gather gather_S8192x1024_S32768x1_S32768x1024_1_0_n_n_0_1_11024 act4 (broadcastInDim S32768x1 ![0] bcast_S32768_S32768x1_0 (select (cmpi .slt a5 (broadcastInDim S32768 ![] bcast_S_S32768 (constantI S_ 32 0#32 : (⟨S_, .i32⟩ : BufTy).Contents (Elt F)))) (addi a5 (broadcastInDim S32768 ![] bcast_S_S32768 (constantI S_ 32 8192#32 : (⟨S_, .i32⟩ : BufTy).Contents (Elt F)))) a5)))⟩, ⟨S32768x512, a1⟩] concatenates_S32768x1024_S32768x512_S32768x1536_d1) (transpose S1536x512 [1, 0] a13 transposes_S512x1536_S1536x512_1_0)) (broadcastInDim S32768x512 ![0, 1] bcast_S1x512_S32768x512_0_1 (broadcastInDim S1x512 ![1] bcast_S512_S1x512_1 a14))

/-- The group norm's input at stage 3: the layer's output transposed and regrouped as 32 groups of 524288 elements. -/
def gnIn3 (raw3 : (⟨S32768x512, .f32⟩ : BufTy).Contents (Elt F)) : (⟨S32x524288, .f32⟩ : BufTy).Contents (Elt F) :=
  (shapeCast S32x524288 (transpose S512x32768 [1, 0] raw3 transposes_S32768x512_S512x32768_1_0) shapeCasts_S512x32768_S32x524288 : (⟨S32x524288, .f32⟩ : BufTy).Contents (Elt F))

/-- Each element's deviation from its group's mean (the group's sum divided by 524288), at stage 3. -/
def gnDev3 (raw3 : (⟨S32768x512, .f32⟩ : BufTy).Contents (Elt F)) : (⟨S32x524288, .f32⟩ : BufTy).Contents (Elt F) :=
  subf (gnIn3 raw3) (broadcastInDim S32x524288 ![0, 1] bcast_S32x1_S32x524288_0_1 (Host.divf (broadcastInDim S32x1 ![0] bcast_S32_S32x1_0 (Host.reduceAdd (gnIn3 raw3) (constant S_ .f32 0x00000000#32 : (⟨S_, .f32⟩ : BufTy).Contents (Elt F)) reducesTo_S32x524288_S32_d1 h_S_)) (broadcastInDim S32x1 ![] bcast_S_S32x1 (constant S_ .f32 0x49000000#32 : (⟨S_, .f32⟩ : BufTy).Contents (Elt F)))))

/-- The variance's divisor at stage 3: 524288 minus the correction 0. -/
def gnCnt3 : (⟨S_, .f32⟩ : BufTy).Contents (Elt F) :=
  subf (constant S_ .f32 0x49000000#32 : (⟨S_, .f32⟩ : BufTy).Contents (Elt F)) (sitofp .f32 (constantI S_ 32 0#32 : (⟨S_, .i32⟩ : BufTy).Contents (Elt F)))

/-- The group norm's output at stage 3 before the activation. -/
def gnOut3 (raw3 : (⟨S32768x512, .f32⟩ : BufTy).Contents (Elt F)) (a15 : (⟨S512, .f32⟩ : BufTy).Contents (Elt F)) (a16 : (⟨S512, .f32⟩ : BufTy).Contents (Elt F)) : (⟨S32768x512, .f32⟩ : BufTy).Contents (Elt F) :=
  addf (mulf (transpose S32768x512 [1, 0] (shapeCast S512x32768 (Host.divf (subf (gnIn3 raw3) (broadcastInDim S32x524288 ![0, 1] bcast_S32x1_S32x524288_0_1 (Host.divf (broadcastInDim S32x1 ![0] bcast_S32_S32x1_0 (Host.reduceAdd (gnIn3 raw3) (constant S_ .f32 0x00000000#32 : (⟨S_, .f32⟩ : BufTy).Contents (Elt F)) reducesTo_S32x524288_S32_d1 h_S_)) (broadcastInDim S32x1 ![] bcast_S_S32x1 (constant S_ .f32 0x49000000#32 : (⟨S_, .f32⟩ : BufTy).Contents (Elt F)))))) (broadcastInDim S32x524288 ![0, 1] bcast_S32x1_S32x524288_0_1 (Host.sqrt (addf (select (broadcastInDim S32x1 ![] bcast_S_S32x1 (cmpf .ogt gnCnt3 (constant S_ .f32 0x00000000#32 : (⟨S_, .f32⟩ : BufTy).Contents (Elt F)))) (Host.divf (broadcastInDim S32x1 ![0] bcast_S32_S32x1_0 (Host.reduceAdd (mulf (gnDev3 raw3) (gnDev3 raw3)) (constant S_ .f32 0x00000000#32 : (⟨S_, .f32⟩ : BufTy).Contents (Elt F)) reducesTo_S32x524288_S32_d1 h_S_)) (broadcastInDim S32x1 ![] bcast_S_S32x1 gnCnt3)) (broadcastInDim S32x1 ![] bcast_S_S32x1 (id (constant S_ .f32 0x7FC00000#32 : (⟨S_, .f32⟩ : BufTy).Contents (Elt F))))) (broadcastInDim S32x1 ![] bcast_S_S32x1 (constant S_ .f32 0x3727C5AC#32 : (⟨S_, .f32⟩ : BufTy).Contents (Elt F))))))) shapeCasts_S32x524288_S512x32768 : (⟨S512x32768, .f32⟩ : BufTy).Contents (Elt F)) transposes_S512x32768_S32768x512_1_0) (broadcastInDim S32768x512 ![0, 1] bcast_S1x512_S32768x512_0_1 (broadcastInDim S1x512 ![1] bcast_S512_S1x512_1 a15))) (broadcastInDim S32768x512 ![0, 1] bcast_S1x512_S32768x512_0_1 (broadcastInDim S1x512 ![1] bcast_S512_S1x512_1 a16))

/-- The leaky rectifier at stage 3. -/
def stageAct3 (raw3 : (⟨S32768x512, .f32⟩ : BufTy).Contents (Elt F)) (a15 : (⟨S512, .f32⟩ : BufTy).Contents (Elt F)) (a16 : (⟨S512, .f32⟩ : BufTy).Contents (Elt F)) : (⟨S32768x512, .f32⟩ : BufTy).Contents (Elt F) :=
  select (cmpf .oge (gnOut3 raw3 a15 a16) (broadcastInDim S32768x512 ![] bcast_S_S32768x512 (constant S_ .f32 0x00000000#32 : (⟨S_, .f32⟩ : BufTy).Contents (Elt F)))) (gnOut3 raw3 a15 a16) (mulf (broadcastInDim S32768x512 ![] bcast_S_S32768x512 (id (constant S_ .f32 0x3DCCCCCD#32 : (⟨S_, .f32⟩ : BufTy).Contents (Elt F)))) (gnOut3 raw3 a15 a16))

/-- The last linear layer: rows of the activated stage-3 output gathered at the wrapped indices, joined with the skip features, times the transposed weight, plus the bias. -/
def stageOut (act3 : (⟨S32768x512, .f32⟩ : BufTy).Contents (Elt F)) (a0 : (⟨S131072x256, .f32⟩ : BufTy).Contents (Elt F)) (a4 : (⟨S131072, .i32⟩ : BufTy).Contents (Elt F)) (a17 : (⟨S256x768, .f32⟩ : BufTy).Contents (Elt F)) (a18 : (⟨S256, .f32⟩ : BufTy).Contents (Elt F)) : (⟨S131072x256, .f32⟩ : BufTy).Contents (Elt F) :=
  addf (Host.dotGeneral dot_S131072x768_S768x256_S131072x256_1_0_0_1_n_n none (concatenate S131072x768 1 [⟨S131072x512, (Host.gather gather_S32768x512_S131072x1_S131072x512_1_0_n_n_0_1_1512 act3 (broadcastInDim S131072x1 ![0] bcast_S131072_S131072x1_0 (select (cmpi .slt a4 (broadcastInDim S131072 ![] bcast_S_S131072 (constantI S_ 32 0#32 : (⟨S_, .i32⟩ : BufTy).Contents (Elt F)))) (addi a4 (broadcastInDim S131072 ![] bcast_S_S131072 (constantI S_ 32 32768#32 : (⟨S_, .i32⟩ : BufTy).Contents (Elt F)))) a4)))⟩, ⟨S131072x256, a0⟩] concatenates_S131072x512_S131072x256_S131072x768_d1) (transpose S768x256 [1, 0] a17 transposes_S256x768_S768x256_1_0)) (broadcastInDim S131072x256 ![0, 1] bcast_S1x256_S131072x256_0_1 (broadcastInDim S1x256 ![1] bcast_S256_S1x256_1 a18))

/-! ## Each stretch's result, from any contents -/

set_option maxRecDepth 8192 in
/-- After stretch `s0`, from any contents `V`, the buffer of main_v4 holds `stageX5` of what `V` holds at the buffers the stretch reads. -/
theorem s0_result (V : Valuation τ sig (Elt F)) :
    after s0 V (Proc.devRef .tc main_v4) = stageX5 (V (Proc.devRef .tc main_arg3)) (V (Proc.devRef .tc main_arg7)) (V (Proc.devRef .tc main_arg8)) := by
  simp only [s0]
  after_results_simp
  rfl

set_option maxRecDepth 8192 in
set_option maxHeartbeats 1500000 in
/-- After stretch `s1`, from any contents `V`, the buffer of main_v17 holds `stageRaw4` of what `V` holds at the buffers the stretch reads. -/
theorem s1_result (V : Valuation τ sig (Elt F)) :
    after s1 V (Proc.devRef .tc main_v17) = stageRaw4 (V (Proc.devRef .tc main_v4)) (V (Proc.devRef .tc main_arg2)) (V (Proc.devRef .tc main_arg6)) (V (Proc.devRef .tc main_arg9)) (V (Proc.devRef .tc main_arg10)) := by
  simp only [s1]
  after_results_simp
  rfl

set_option maxRecDepth 8192 in
set_option maxHeartbeats 4000000 in
/-- After stretch `s2`, from any contents `V`, the buffer of main_v40 holds `stageAct4` of what `V` holds at the buffers the stretch reads. -/
theorem s2_result (V : Valuation τ sig (Elt F)) :
    after s2 V (Proc.devRef .tc main_v40) = stageAct4 (V (Proc.devRef .tc main_v17)) (V (Proc.devRef .tc main_arg11)) (V (Proc.devRef .tc main_arg12)) := by
  simp only [s2]
  after_results_simp
  rfl

set_option maxRecDepth 8192 in
set_option maxHeartbeats 1500000 in
/-- After stretch `s3`, from any contents `V`, the buffer of main_v53 holds `stageRaw3` of what `V` holds at the buffers the stretch reads. -/
theorem s3_result (V : Valuation τ sig (Elt F)) :
    after s3 V (Proc.devRef .tc main_v53) = stageRaw3 (V (Proc.devRef .tc main_v40)) (V (Proc.devRef .tc main_arg1)) (V (Proc.devRef .tc main_arg5)) (V (Proc.devRef .tc main_arg13)) (V (Proc.devRef .tc main_arg14)) := by
  simp only [s3]
  after_results_simp
  rfl

set_option maxRecDepth 8192 in
set_option maxHeartbeats 4000000 in
/-- After stretch `s4`, from any contents `V`, the buffer of main_v76 holds `stageAct3` of what `V` holds at the buffers the stretch reads. -/
theorem s4_result (V : Valuation τ sig (Elt F)) :
    after s4 V (Proc.devRef .tc main_v76) = stageAct3 (V (Proc.devRef .tc main_v53)) (V (Proc.devRef .tc main_arg15)) (V (Proc.devRef .tc main_arg16)) := by
  simp only [s4]
  after_results_simp
  rfl

set_option maxRecDepth 8192 in
set_option maxHeartbeats 1500000 in
/-- After stretch `s5`, from any contents `V`, the buffer of main_v89 holds `stageOut` of what `V` holds at the buffers the stretch reads. -/
theorem s5_result (V : Valuation τ sig (Elt F)) :
    after s5 V (Proc.devRef .tc main_v89) = stageOut (V (Proc.devRef .tc main_v76)) (V (Proc.devRef .tc main_arg0)) (V (Proc.devRef .tc main_arg4)) (V (Proc.devRef .tc main_arg17)) (V (Proc.devRef .tc main_arg18)) := by
  simp only [s5]
  after_results_simp
  rfl

/-! ## The six values of the nineteen argument arrays -/

/-- The contents of %4: the first linear layer's output, f32[2048,2048]. -/
noncomputable def valX5
    (a0 : (⟨S131072x256, .f32⟩ : BufTy).Contents (Elt F))
    (a1 : (⟨S32768x512, .f32⟩ : BufTy).Contents (Elt F))
    (a2 : (⟨S8192x1024, .f32⟩ : BufTy).Contents (Elt F))
    (a3 : (⟨S2048x2048, .f32⟩ : BufTy).Contents (Elt F))
    (a4 : (⟨S131072, .i32⟩ : BufTy).Contents (Elt F))
    (a5 : (⟨S32768, .i32⟩ : BufTy).Contents (Elt F))
    (a6 : (⟨S8192, .i32⟩ : BufTy).Contents (Elt F))
    (a7 : (⟨S2048x2048, .f32⟩ : BufTy).Contents (Elt F))
    (a8 : (⟨S2048, .f32⟩ : BufTy).Contents (Elt F))
    (a9 : (⟨S1024x3072, .f32⟩ : BufTy).Contents (Elt F))
    (a10 : (⟨S1024, .f32⟩ : BufTy).Contents (Elt F))
    (a11 : (⟨S1024, .f32⟩ : BufTy).Contents (Elt F))
    (a12 : (⟨S1024, .f32⟩ : BufTy).Contents (Elt F))
    (a13 : (⟨S512x1536, .f32⟩ : BufTy).Contents (Elt F))
    (a14 : (⟨S512, .f32⟩ : BufTy).Contents (Elt F))
    (a15 : (⟨S512, .f32⟩ : BufTy).Contents (Elt F))
    (a16 : (⟨S512, .f32⟩ : BufTy).Contents (Elt F))
    (a17 : (⟨S256x768, .f32⟩ : BufTy).Contents (Elt F))
    (a18 : (⟨S256, .f32⟩ : BufTy).Contents (Elt F)) :
    (⟨S2048x2048, .f32⟩ : BufTy).Contents (Elt F) :=
  stageX5 a3 a7 a8

/-- The contents of %17: the decoder-4 linear layer's output, f32[8192,1024]. -/
noncomputable def valRaw4
    (a0 : (⟨S131072x256, .f32⟩ : BufTy).Contents (Elt F))
    (a1 : (⟨S32768x512, .f32⟩ : BufTy).Contents (Elt F))
    (a2 : (⟨S8192x1024, .f32⟩ : BufTy).Contents (Elt F))
    (a3 : (⟨S2048x2048, .f32⟩ : BufTy).Contents (Elt F))
    (a4 : (⟨S131072, .i32⟩ : BufTy).Contents (Elt F))
    (a5 : (⟨S32768, .i32⟩ : BufTy).Contents (Elt F))
    (a6 : (⟨S8192, .i32⟩ : BufTy).Contents (Elt F))
    (a7 : (⟨S2048x2048, .f32⟩ : BufTy).Contents (Elt F))
    (a8 : (⟨S2048, .f32⟩ : BufTy).Contents (Elt F))
    (a9 : (⟨S1024x3072, .f32⟩ : BufTy).Contents (Elt F))
    (a10 : (⟨S1024, .f32⟩ : BufTy).Contents (Elt F))
    (a11 : (⟨S1024, .f32⟩ : BufTy).Contents (Elt F))
    (a12 : (⟨S1024, .f32⟩ : BufTy).Contents (Elt F))
    (a13 : (⟨S512x1536, .f32⟩ : BufTy).Contents (Elt F))
    (a14 : (⟨S512, .f32⟩ : BufTy).Contents (Elt F))
    (a15 : (⟨S512, .f32⟩ : BufTy).Contents (Elt F))
    (a16 : (⟨S512, .f32⟩ : BufTy).Contents (Elt F))
    (a17 : (⟨S256x768, .f32⟩ : BufTy).Contents (Elt F))
    (a18 : (⟨S256, .f32⟩ : BufTy).Contents (Elt F)) :
    (⟨S8192x1024, .f32⟩ : BufTy).Contents (Elt F) :=
  stageRaw4 (valX5 a0 a1 a2 a3 a4 a5 a6 a7 a8 a9 a10 a11 a12 a13 a14 a15 a16 a17 a18) a2 a6 a9 a10

/-- The contents of %40: the first group normalisation and leaky rectifier's output, f32[8192,1024]. -/
noncomputable def valAct4
    (a0 : (⟨S131072x256, .f32⟩ : BufTy).Contents (Elt F))
    (a1 : (⟨S32768x512, .f32⟩ : BufTy).Contents (Elt F))
    (a2 : (⟨S8192x1024, .f32⟩ : BufTy).Contents (Elt F))
    (a3 : (⟨S2048x2048, .f32⟩ : BufTy).Contents (Elt F))
    (a4 : (⟨S131072, .i32⟩ : BufTy).Contents (Elt F))
    (a5 : (⟨S32768, .i32⟩ : BufTy).Contents (Elt F))
    (a6 : (⟨S8192, .i32⟩ : BufTy).Contents (Elt F))
    (a7 : (⟨S2048x2048, .f32⟩ : BufTy).Contents (Elt F))
    (a8 : (⟨S2048, .f32⟩ : BufTy).Contents (Elt F))
    (a9 : (⟨S1024x3072, .f32⟩ : BufTy).Contents (Elt F))
    (a10 : (⟨S1024, .f32⟩ : BufTy).Contents (Elt F))
    (a11 : (⟨S1024, .f32⟩ : BufTy).Contents (Elt F))
    (a12 : (⟨S1024, .f32⟩ : BufTy).Contents (Elt F))
    (a13 : (⟨S512x1536, .f32⟩ : BufTy).Contents (Elt F))
    (a14 : (⟨S512, .f32⟩ : BufTy).Contents (Elt F))
    (a15 : (⟨S512, .f32⟩ : BufTy).Contents (Elt F))
    (a16 : (⟨S512, .f32⟩ : BufTy).Contents (Elt F))
    (a17 : (⟨S256x768, .f32⟩ : BufTy).Contents (Elt F))
    (a18 : (⟨S256, .f32⟩ : BufTy).Contents (Elt F)) :
    (⟨S8192x1024, .f32⟩ : BufTy).Contents (Elt F) :=
  stageAct4 (valRaw4 a0 a1 a2 a3 a4 a5 a6 a7 a8 a9 a10 a11 a12 a13 a14 a15 a16 a17 a18) a11 a12

/-- The contents of %53: the decoder-3 linear layer's output, f32[32768,512]. -/
noncomputable def valRaw3
    (a0 : (⟨S131072x256, .f32⟩ : BufTy).Contents (Elt F))
    (a1 : (⟨S32768x512, .f32⟩ : BufTy).Contents (Elt F))
    (a2 : (⟨S8192x1024, .f32⟩ : BufTy).Contents (Elt F))
    (a3 : (⟨S2048x2048, .f32⟩ : BufTy).Contents (Elt F))
    (a4 : (⟨S131072, .i32⟩ : BufTy).Contents (Elt F))
    (a5 : (⟨S32768, .i32⟩ : BufTy).Contents (Elt F))
    (a6 : (⟨S8192, .i32⟩ : BufTy).Contents (Elt F))
    (a7 : (⟨S2048x2048, .f32⟩ : BufTy).Contents (Elt F))
    (a8 : (⟨S2048, .f32⟩ : BufTy).Contents (Elt F))
    (a9 : (⟨S1024x3072, .f32⟩ : BufTy).Contents (Elt F))
    (a10 : (⟨S1024, .f32⟩ : BufTy).Contents (Elt F))
    (a11 : (⟨S1024, .f32⟩ : BufTy).Contents (Elt F))
    (a12 : (⟨S1024, .f32⟩ : BufTy).Contents (Elt F))
    (a13 : (⟨S512x1536, .f32⟩ : BufTy).Contents (Elt F))
    (a14 : (⟨S512, .f32⟩ : BufTy).Contents (Elt F))
    (a15 : (⟨S512, .f32⟩ : BufTy).Contents (Elt F))
    (a16 : (⟨S512, .f32⟩ : BufTy).Contents (Elt F))
    (a17 : (⟨S256x768, .f32⟩ : BufTy).Contents (Elt F))
    (a18 : (⟨S256, .f32⟩ : BufTy).Contents (Elt F)) :
    (⟨S32768x512, .f32⟩ : BufTy).Contents (Elt F) :=
  stageRaw3 (valAct4 a0 a1 a2 a3 a4 a5 a6 a7 a8 a9 a10 a11 a12 a13 a14 a15 a16 a17 a18) a1 a5 a13 a14

/-- The contents of %76: the second group normalisation and leaky rectifier's output, f32[32768,512]. -/
noncomputable def valAct3
    (a0 : (⟨S131072x256, .f32⟩ : BufTy).Contents (Elt F))
    (a1 : (⟨S32768x512, .f32⟩ : BufTy).Contents (Elt F))
    (a2 : (⟨S8192x1024, .f32⟩ : BufTy).Contents (Elt F))
    (a3 : (⟨S2048x2048, .f32⟩ : BufTy).Contents (Elt F))
    (a4 : (⟨S131072, .i32⟩ : BufTy).Contents (Elt F))
    (a5 : (⟨S32768, .i32⟩ : BufTy).Contents (Elt F))
    (a6 : (⟨S8192, .i32⟩ : BufTy).Contents (Elt F))
    (a7 : (⟨S2048x2048, .f32⟩ : BufTy).Contents (Elt F))
    (a8 : (⟨S2048, .f32⟩ : BufTy).Contents (Elt F))
    (a9 : (⟨S1024x3072, .f32⟩ : BufTy).Contents (Elt F))
    (a10 : (⟨S1024, .f32⟩ : BufTy).Contents (Elt F))
    (a11 : (⟨S1024, .f32⟩ : BufTy).Contents (Elt F))
    (a12 : (⟨S1024, .f32⟩ : BufTy).Contents (Elt F))
    (a13 : (⟨S512x1536, .f32⟩ : BufTy).Contents (Elt F))
    (a14 : (⟨S512, .f32⟩ : BufTy).Contents (Elt F))
    (a15 : (⟨S512, .f32⟩ : BufTy).Contents (Elt F))
    (a16 : (⟨S512, .f32⟩ : BufTy).Contents (Elt F))
    (a17 : (⟨S256x768, .f32⟩ : BufTy).Contents (Elt F))
    (a18 : (⟨S256, .f32⟩ : BufTy).Contents (Elt F)) :
    (⟨S32768x512, .f32⟩ : BufTy).Contents (Elt F) :=
  stageAct3 (valRaw3 a0 a1 a2 a3 a4 a5 a6 a7 a8 a9 a10 a11 a12 a13 a14 a15 a16 a17 a18) a15 a16

/-- The contents of %89, @main's result, f32[131072,256]. -/
noncomputable def valOut
    (a0 : (⟨S131072x256, .f32⟩ : BufTy).Contents (Elt F))
    (a1 : (⟨S32768x512, .f32⟩ : BufTy).Contents (Elt F))
    (a2 : (⟨S8192x1024, .f32⟩ : BufTy).Contents (Elt F))
    (a3 : (⟨S2048x2048, .f32⟩ : BufTy).Contents (Elt F))
    (a4 : (⟨S131072, .i32⟩ : BufTy).Contents (Elt F))
    (a5 : (⟨S32768, .i32⟩ : BufTy).Contents (Elt F))
    (a6 : (⟨S8192, .i32⟩ : BufTy).Contents (Elt F))
    (a7 : (⟨S2048x2048, .f32⟩ : BufTy).Contents (Elt F))
    (a8 : (⟨S2048, .f32⟩ : BufTy).Contents (Elt F))
    (a9 : (⟨S1024x3072, .f32⟩ : BufTy).Contents (Elt F))
    (a10 : (⟨S1024, .f32⟩ : BufTy).Contents (Elt F))
    (a11 : (⟨S1024, .f32⟩ : BufTy).Contents (Elt F))
    (a12 : (⟨S1024, .f32⟩ : BufTy).Contents (Elt F))
    (a13 : (⟨S512x1536, .f32⟩ : BufTy).Contents (Elt F))
    (a14 : (⟨S512, .f32⟩ : BufTy).Contents (Elt F))
    (a15 : (⟨S512, .f32⟩ : BufTy).Contents (Elt F))
    (a16 : (⟨S512, .f32⟩ : BufTy).Contents (Elt F))
    (a17 : (⟨S256x768, .f32⟩ : BufTy).Contents (Elt F))
    (a18 : (⟨S256, .f32⟩ : BufTy).Contents (Elt F)) :
    (⟨S131072x256, .f32⟩ : BufTy).Contents (Elt F) :=
  stageOut (valAct3 a0 a1 a2 a3 a4 a5 a6 a7 a8 a9 a10 a11 a12 a13 a14 a15 a16 a17 a18) a0 a4 a17 a18

/-! ## The stretches in turn -/

/-- The device's buffer contents after the first 1 stretch, from contents `V`. -/
def W1 (V : Valuation τ sig (Elt F)) : Valuation τ sig (Elt F) := after s0 V

/-- A reference none of the first 1 stretch writes keeps its contents. -/
theorem W1_keep (V : Valuation τ sig (Elt F)) (r : Ref sig .tc) (h0 : r ∉ s0_W) :
    W1 V (Proc.devRef .tc r) = V (Proc.devRef .tc r) :=
  (after_of_writes_sub s0 _ s0_writes h0)

/-- After the first stretch the buffer of main_v4 holds `valX5` of the arguments' contents. -/
theorem W1_valX5 (V : Valuation τ sig (Elt F)) :
    W1 V (Proc.devRef .tc main_v4) = valX5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) :=
  s0_result V

/-- The device's buffer contents after the first 2 stretches, from contents `V`. -/
def W2 (V : Valuation τ sig (Elt F)) : Valuation τ sig (Elt F) := after s1 (W1 V)

/-- A reference none of the first 2 stretches writes keeps its contents. -/
theorem W2_keep (V : Valuation τ sig (Elt F)) (r : Ref sig .tc) (h0 : r ∉ s0_W) (h1 : r ∉ s1_W) :
    W2 V (Proc.devRef .tc r) = V (Proc.devRef .tc r) :=
  (after_of_writes_sub s1 _ s1_writes h1).trans (W1_keep V r h0)

/-- After the first 2 stretches the buffer of main_v17 holds `valRaw4` of the arguments' contents: the stretch's result
    over what the stretches before left, the arguments it reads unchanged by them. -/
theorem W2_valRaw4 (V : Valuation τ sig (Elt F)) :
    W2 V (Proc.devRef .tc main_v17) = valRaw4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  unfold W2
  rw [s1_result (W1 V), W1_valX5 V,
    W1_keep V main_arg2 (by decide),
    W1_keep V main_arg6 (by decide),
    W1_keep V main_arg9 (by decide),
    W1_keep V main_arg10 (by decide)]
  rfl

/-- The device's buffer contents after the first 3 stretches, from contents `V`. -/
def W3 (V : Valuation τ sig (Elt F)) : Valuation τ sig (Elt F) := after s2 (W2 V)

/-- A reference none of the first 3 stretches writes keeps its contents. -/
theorem W3_keep (V : Valuation τ sig (Elt F)) (r : Ref sig .tc) (h0 : r ∉ s0_W) (h1 : r ∉ s1_W) (h2 : r ∉ s2_W) :
    W3 V (Proc.devRef .tc r) = V (Proc.devRef .tc r) :=
  (after_of_writes_sub s2 _ s2_writes h2).trans (W2_keep V r h0 h1)

/-- After the first 3 stretches the buffer of main_v40 holds `valAct4` of the arguments' contents: the stretch's result
    over what the stretches before left, the arguments it reads unchanged by them. -/
theorem W3_valAct4 (V : Valuation τ sig (Elt F)) :
    W3 V (Proc.devRef .tc main_v40) = valAct4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  unfold W3
  rw [s2_result (W2 V), W2_valRaw4 V,
    W2_keep V main_arg11 (by decide) (by decide),
    W2_keep V main_arg12 (by decide) (by decide)]
  rfl

/-- The device's buffer contents after the first 4 stretches, from contents `V`. -/
def W4 (V : Valuation τ sig (Elt F)) : Valuation τ sig (Elt F) := after s3 (W3 V)

/-- A reference none of the first 4 stretches writes keeps its contents. -/
theorem W4_keep (V : Valuation τ sig (Elt F)) (r : Ref sig .tc) (h0 : r ∉ s0_W) (h1 : r ∉ s1_W) (h2 : r ∉ s2_W) (h3 : r ∉ s3_W) :
    W4 V (Proc.devRef .tc r) = V (Proc.devRef .tc r) :=
  (after_of_writes_sub s3 _ s3_writes h3).trans (W3_keep V r h0 h1 h2)

/-- After the first 4 stretches the buffer of main_v53 holds `valRaw3` of the arguments' contents: the stretch's result
    over what the stretches before left, the arguments it reads unchanged by them. -/
theorem W4_valRaw3 (V : Valuation τ sig (Elt F)) :
    W4 V (Proc.devRef .tc main_v53) = valRaw3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  unfold W4
  rw [s3_result (W3 V), W3_valAct4 V,
    W3_keep V main_arg1 (by decide) (by decide) (by decide),
    W3_keep V main_arg5 (by decide) (by decide) (by decide),
    W3_keep V main_arg13 (by decide) (by decide) (by decide),
    W3_keep V main_arg14 (by decide) (by decide) (by decide)]
  rfl

/-- The device's buffer contents after the first 5 stretches, from contents `V`. -/
def W5 (V : Valuation τ sig (Elt F)) : Valuation τ sig (Elt F) := after s4 (W4 V)

/-- A reference none of the first 5 stretches writes keeps its contents. -/
theorem W5_keep (V : Valuation τ sig (Elt F)) (r : Ref sig .tc) (h0 : r ∉ s0_W) (h1 : r ∉ s1_W) (h2 : r ∉ s2_W) (h3 : r ∉ s3_W) (h4 : r ∉ s4_W) :
    W5 V (Proc.devRef .tc r) = V (Proc.devRef .tc r) :=
  (after_of_writes_sub s4 _ s4_writes h4).trans (W4_keep V r h0 h1 h2 h3)

/-- After the first 5 stretches the buffer of main_v76 holds `valAct3` of the arguments' contents: the stretch's result
    over what the stretches before left, the arguments it reads unchanged by them. -/
theorem W5_valAct3 (V : Valuation τ sig (Elt F)) :
    W5 V (Proc.devRef .tc main_v76) = valAct3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  unfold W5
  rw [s4_result (W4 V), W4_valRaw3 V,
    W4_keep V main_arg15 (by decide) (by decide) (by decide) (by decide),
    W4_keep V main_arg16 (by decide) (by decide) (by decide) (by decide)]
  rfl

/-- The device's buffer contents after the first 6 stretches, from contents `V`. -/
def W6 (V : Valuation τ sig (Elt F)) : Valuation τ sig (Elt F) := after s5 (W5 V)

/-- A reference none of the first 6 stretches writes keeps its contents. -/
theorem W6_keep (V : Valuation τ sig (Elt F)) (r : Ref sig .tc) (h0 : r ∉ s0_W) (h1 : r ∉ s1_W) (h2 : r ∉ s2_W) (h3 : r ∉ s3_W) (h4 : r ∉ s4_W) (h5 : r ∉ s5_W) :
    W6 V (Proc.devRef .tc r) = V (Proc.devRef .tc r) :=
  (after_of_writes_sub s5 _ s5_writes h5).trans (W5_keep V r h0 h1 h2 h3 h4)

/-- After the first 6 stretches the buffer of main_v89 holds `valOut` of the arguments' contents: the stretch's result
    over what the stretches before left, the arguments it reads unchanged by them. -/
theorem W6_valOut (V : Valuation τ sig (Elt F)) :
    W6 V (Proc.devRef .tc main_v89) = valOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  unfold W6
  rw [s5_result (W5 V), W5_valAct3 V,
    W5_keep V main_arg0 (by decide) (by decide) (by decide) (by decide) (by decide),
    W5_keep V main_arg4 (by decide) (by decide) (by decide) (by decide) (by decide),
    W5_keep V main_arg17 (by decide) (by decide) (by decide) (by decide) (by decide),
    W5_keep V main_arg18 (by decide) (by decide) (by decide) (by decide) (by decide)]
  rfl

/-- The whole list folds to the six stretches folded in turn. -/
theorem after_ops (V : Valuation τ sig (Elt F)) : after ops V = W6 V := by
  simp only [ops, after_append']
  rfl

/-- After all of @main's operations the result buffer holds `valOut` of the arguments' contents. -/
theorem after_out (V : Valuation τ sig (Elt F)) :
    after ops V (Proc.devRef .tc main_v89) = valOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  rw [after_ops]
  exact W6_valOut V

/-- A reference no operation writes — each argument — keeps its contents. -/
theorem after_keep (V : Valuation τ sig (Elt F)) (r : Ref sig .tc) (h0 : r ∉ s0_W) (h1 : r ∉ s1_W) (h2 : r ∉ s2_W) (h3 : r ∉ s3_W) (h4 : r ∉ s4_W) (h5 : r ∉ s5_W) :
    after ops V (Proc.devRef .tc r) = V (Proc.devRef .tc r) := by
  rw [after_ops]
  exact W6_keep V r h0 h1 h2 h3 h4 h5

/-! ## The run -/

/-- On every device, for any float values, from any memory with zero counters: every weakly fair execution of
    @main terminates with the result at `valOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = valOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v89).trans (after_out (launchContents m c)),
      (h c main_arg0).trans (after_keep (launchContents m c) main_arg0 (by decide) (by decide) (by decide) (by decide) (by decide) (by decide)),
      (h c main_arg1).trans (after_keep (launchContents m c) main_arg1 (by decide) (by decide) (by decide) (by decide) (by decide) (by decide)),
      (h c main_arg2).trans (after_keep (launchContents m c) main_arg2 (by decide) (by decide) (by decide) (by decide) (by decide) (by decide)),
      (h c main_arg3).trans (after_keep (launchContents m c) main_arg3 (by decide) (by decide) (by decide) (by decide) (by decide) (by decide)),
      (h c main_arg4).trans (after_keep (launchContents m c) main_arg4 (by decide) (by decide) (by decide) (by decide) (by decide) (by decide)),
      (h c main_arg5).trans (after_keep (launchContents m c) main_arg5 (by decide) (by decide) (by decide) (by decide) (by decide) (by decide)),
      (h c main_arg6).trans (after_keep (launchContents m c) main_arg6 (by decide) (by decide) (by decide) (by decide) (by decide) (by decide)),
      (h c main_arg7).trans (after_keep (launchContents m c) main_arg7 (by decide) (by decide) (by decide) (by decide) (by decide) (by decide)),
      (h c main_arg8).trans (after_keep (launchContents m c) main_arg8 (by decide) (by decide) (by decide) (by decide) (by decide) (by decide)),
      (h c main_arg9).trans (after_keep (launchContents m c) main_arg9 (by decide) (by decide) (by decide) (by decide) (by decide) (by decide)),
      (h c main_arg10).trans (after_keep (launchContents m c) main_arg10 (by decide) (by decide) (by decide) (by decide) (by decide) (by decide)),
      (h c main_arg11).trans (after_keep (launchContents m c) main_arg11 (by decide) (by decide) (by decide) (by decide) (by decide) (by decide)),
      (h c main_arg12).trans (after_keep (launchContents m c) main_arg12 (by decide) (by decide) (by decide) (by decide) (by decide) (by decide)),
      (h c main_arg13).trans (after_keep (launchContents m c) main_arg13 (by decide) (by decide) (by decide) (by decide) (by decide) (by decide)),
      (h c main_arg14).trans (after_keep (launchContents m c) main_arg14 (by decide) (by decide) (by decide) (by decide) (by decide) (by decide)),
      (h c main_arg15).trans (after_keep (launchContents m c) main_arg15 (by decide) (by decide) (by decide) (by decide) (by decide) (by decide)),
      (h c main_arg16).trans (after_keep (launchContents m c) main_arg16 (by decide) (by decide) (by decide) (by decide) (by decide) (by decide)),
      (h c main_arg17).trans (after_keep (launchContents m c) main_arg17 (by decide) (by decide) (by decide) (by decide) (by decide) (by decide)),
      (h c main_arg18).trans (after_keep (launchContents m c) main_arg18 (by decide) (by decide) (by decide) (by decide) (by decide) (by decide))⟩)
    (run_seq scopedRefs_eq scopedSems_eq defs main (fun _ => ops) main_eq (fun _ => ops_sub) m ρ)

end Cert.ReferenceIdeal.RefRun

end
-- ==== Proof.RefRead.lean ====
/-
  The reference's six stage values read at an index, on the extended reals.  A linear layer's entry (r, c) is the
  sum over the contracted axis of the operand's row r against the weight's row c, plus the bias at c; over two
  operands joined along the columns the sum splits at the joint into the two operands' sums against the weight's
  two column blocks; a row gather reads row ρ(i) of its operand.  A group normalisation regroups the [A, C] array
  channel after channel into G groups, so that entry q of group g is row q mod A of channel P·g + q div A; its
  mean and centred second moment are sums over one group, and the leaky rectifier keeps a value that is at least
  zero and scales the others.
-/
import proofs.«117334_j39633958207498_2_alg».proof.Proof.RefRun
import proofs.«117334_j39633958207498_2_alg».proof.Proof.Stages
import proofs.«117334_j39633958207498_2_alg».proof.Proof.Consts
import proofs.«117334_j39633958207498_2_alg».proof.Proof.LibGather
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
import Idealize.ShloMosaic.Lib.KernelVsHost

noncomputable section

open scoped BigOperators

namespace Cert.ReferenceIdeal.RefRead

open Cert.ReferenceIdeal Cert.ReferenceIdeal.Gen Cert.ReferenceIdeal.RefRun Cert.FPN Idealize.ShloMosaic Idealize.ShloMosaic.ValueIdx

/-! ## A product of matrices read at an entry -/

/-- Entry (r, c) of an M×K by K×N product at the ideal values: the sum over the contracted axis. -/
theorem dot_plain_apply {M K N : Nat} {φ₁ φ₂ : FTy} (D : DotDims ⟨2, ![M, K]⟩ ⟨2, ![K, N]⟩ ⟨2, ![M, N]⟩) (hD : D = DotDims.plain M K N)
    (prec : Option ContractPrecision) (sched : HostSchedule)
    (x : FVec Ideal ⟨2, ![M, K]⟩ φ₁) (y : FVec Ideal ⟨2, ![K, N]⟩ φ₂) (r : Fin M) (c : Fin N) :
    FloatOps.dotGeneral D prec sched x y (ix2 r c) = ∑ q : Fin K, x (ix2 r q) * y (ix2 q c) := by
  subst hD
  rw [Ideal.dotGeneral_apply, ← Equiv.sum_comp (contrEquiv1 (DotDims.plain M K N) K rfl rfl).symm]
  refine Finset.sum_congr rfl fun q _ => ?_
  have hk := contrEquiv1_symm_val (DotDims.plain M K N) K rfl rfl q
  have el : (DotDims.plain M K N).lhsIdx (ix2 r c) ((contrEquiv1 (DotDims.plain M K N) K rfl rfl).symm q) = ix2 r q :=
    funext fun a => Fin.ext (by
      match a with
      | ⟨0, _⟩ => rfl
      | ⟨1, _⟩ => exact ((DotDims.plain M K N).lhsIdx_val_of_single rfl _ _).trans hk)
  have er : (DotDims.plain M K N).rhsIdx (ix2 r c) ((contrEquiv1 (DotDims.plain M K N) K rfl rfl).symm q) = ix2 q c :=
    funext fun a => Fin.ext (by
      match a with
      | ⟨0, _⟩ => exact ((DotDims.plain M K N).rhsIdx_val_of_single rfl _ _).trans hk
      | ⟨1, _⟩ => rfl)
  rw [el, er]

/-- The same against a transposed weight: entry (r, c) of x·Wᵀ. -/
theorem dot_transposed_apply {M K N : Nat} (D : DotDims ⟨2, ![M, K]⟩ ⟨2, ![K, N]⟩ ⟨2, ![M, N]⟩) (hD : D = DotDims.plain M K N)
    (prec : Option ContractPrecision) (sched : HostSchedule)
    (x : FVec Ideal ⟨2, ![M, K]⟩ .f32) (W : FVec Ideal ⟨2, ![N, K]⟩ .f32)
    (htr : (⟨2, ![N, K]⟩ : Shape).Transposes [1, 0] ⟨2, ![K, N]⟩) (r : Fin M) (c : Fin N) :
    FloatOps.dotGeneral D prec sched x (transpose ⟨2, ![K, N]⟩ [1, 0] W htr) (ix2 r c) = dot x W r c := by
  rw [dot_plain_apply D hD]
  exact Finset.sum_congr rfl fun q _ => by rw [transpose_ix2_apply]

/-- The same when the left operand is two arrays joined along the columns: the sum splits at the joint into the two
    arrays' sums against the weight's first K₁ and last K₂ columns. -/
theorem dot_joined_apply {M K₁ K₂ N : Nat} (D : DotDims ⟨2, ![M, K₁ + K₂]⟩ ⟨2, ![K₁ + K₂, N]⟩ ⟨2, ![M, N]⟩)
    (hD : D = DotDims.plain M (K₁ + K₂) N) (prec : Option ContractPrecision) (sched : HostSchedule)
    (xg : FVec Ideal ⟨2, ![M, K₁]⟩ .f32) (xf : FVec Ideal ⟨2, ![M, K₂]⟩ .f32) (W : FVec Ideal ⟨2, ![N, K₁ + K₂]⟩ .f32)
    (hcat : Shape.Concatenates [(⟨2, ![M, K₁]⟩ : Shape), ⟨2, ![M, K₂]⟩] ⟨2, ![M, K₁ + K₂]⟩ 1)
    (htr : (⟨2, ![N, K₁ + K₂]⟩ : Shape).Transposes [1, 0] ⟨2, ![K₁ + K₂, N]⟩) (r : Fin M) (c : Fin N) :
    FloatOps.dotGeneral D prec sched
        (concatenate ⟨2, ![M, K₁ + K₂]⟩ 1 [⟨⟨2, ![M, K₁]⟩, xg⟩, ⟨⟨2, ![M, K₂]⟩, xf⟩] hcat)
        (transpose ⟨2, ![K₁ + K₂, N]⟩ [1, 0] W htr) (ix2 r c)
      = dot xg (cols 0 K₁ (by omega) W) r c + dot xf (cols K₁ K₂ (le_refl _) W) r c := by
  rw [dot_transposed_apply D hD, dot, Fin.sum_univ_add]
  congr 1
  · refine Finset.sum_congr rfl fun q _ => ?_
    rw [cols_apply, concatenate_pair_apply_left 1 xg xf hcat (ix2 r (Fin.castAdd K₂ q)) rfl (ix2 r q)
      (fun b => match b with | ⟨0, _⟩ => rfl | ⟨1, _⟩ => rfl)]
    exact congrArg (xg (ix2 r q) * W ·) (congrArg (ix2 c) (Fin.ext (by simp)))
  · refine Finset.sum_congr rfl fun q _ => ?_
    rw [cols_apply, concatenate_pair_apply_right 1 xg xf hcat (ix2 r (Fin.natAdd K₁ q)) rfl rfl (ix2 r q)
      (fun b hb => match b, hb with | ⟨0, _⟩, _ => rfl | ⟨1, _⟩, hb => absurd rfl hb)
      (by show q.val + K₁ = K₁ + q.val; omega)]
    rfl

/-- A bias vector broadcast over the rows reads, at (i, n), its entry n. -/
theorem bias_apply {α : Type} {A N : Nat} (v : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![A, N]⟩ ![0, 1])
    (i : Fin A) (n : Fin N) :
    broadcastInDim ⟨2, ![A, N]⟩ ![0, 1] h2 (broadcastInDim ⟨2, ![1, N]⟩ ![1] h1 v) (ix2 i n) = v (ix1 n) := by
  have hn : n.val = if N = 1 then 0 else n.val := by
    split
    · have := n.isLt; omega
    · rfl
  rw [broadcastInDim_apply _ h2 _ (ix2 i n) (ix2 (0 : Fin 1) n) (fun a => match a with | ⟨0, _⟩ => rfl | ⟨1, _⟩ => hn),
    broadcastInDim_apply _ h1 _ (ix2 (0 : Fin 1) n) (ix1 n) (fun a => match a with | ⟨0, _⟩ => hn)]

/-! ## The linear layers -/

/-- (a) The first linear layer at (r, n). -/
theorem stageX5_apply (a3 : (⟨S2048x2048, .f32⟩ : BufTy).Contents (Elt Ideal)) (a7 : (⟨S2048x2048, .f32⟩ : BufTy).Contents (Elt Ideal)) (a8 : (⟨S2048, .f32⟩ : BufTy).Contents (Elt Ideal))
    (r n : Fin 2048) :
    stageX5 (F := Ideal) a3 a7 a8 (ix2 r n) = lin1 a3 a7 (rowOf a8) r n :=
  congrArg₂ (· + ·)
    (dot_transposed_apply dot_S2048x2048_S2048x2048_S2048x2048_1_0_0_1_n_n rfl none .single a3 a7 transposes_S2048x2048_S2048x2048_1_0 r n)
    (bias_apply a8 bcast_S2048_S1x2048_1 bcast_S1x2048_S2048x2048_0_1 r n)

/-- The start indices of the row gather at stage 4, wrapped (a negative index has 2048 added) and laid out as a column: kept as one name. -/
def normIdx4 (a6 : (⟨S8192, .i32⟩ : BufTy).Contents (Elt Ideal)) : (⟨S8192x1, .i32⟩ : BufTy).Contents (Elt Ideal) :=
  broadcastInDim S8192x1 ![0] bcast_S8192_S8192x1_0 (select (cmpi .slt a6 (broadcastInDim S8192 ![] bcast_S_S8192 (constantI S_ 32 0#32))) (addi a6 (broadcastInDim S8192 ![] bcast_S_S8192 (constantI S_ 32 2048#32))) a6)

/-- (b) The decoder-4 linear layer at (i, n): the gathered rows of the previous stage against the weight's first 2048 columns, the skip features against its last 1024, plus the bias. -/
theorem stageRaw4_apply (x5 : (⟨S2048x2048, .f32⟩ : BufTy).Contents (Elt Ideal)) (a2 : (⟨S8192x1024, .f32⟩ : BufTy).Contents (Elt Ideal)) (a6 : (⟨S8192, .i32⟩ : BufTy).Contents (Elt Ideal)) (a9 : (⟨S1024x3072, .f32⟩ : BufTy).Contents (Elt Ideal)) (a10 : (⟨S1024, .f32⟩ : BufTy).Contents (Elt Ideal))
    (i : Fin 8192) (n : Fin 1024) :
    stageRaw4 (F := Ideal) x5 a2 a6 a9 a10 (ix2 i n)
      = lin2 (pick (rowMap gather_S2048x2048_S8192x1_S8192x2048_1_0_n_n_0_1_12048 (normIdx4 a6) (by decide)) x5) a2 (cols 0 2048 (by decide) a9) (cols 2048 1024 (by decide) a9) (rowOf a10) i n := by
  refine (congrArg₂ (· + ·)
    (dot_joined_apply (K₁ := 2048) (K₂ := 1024) dot_S8192x3072_S3072x1024_S8192x1024_1_0_0_1_n_n rfl none .single
      (Host.gather gather_S2048x2048_S8192x1_S8192x2048_1_0_n_n_0_1_12048 x5 (normIdx4 a6)) a2 a9 concatenates_S8192x2048_S8192x1024_S8192x3072_d1 transposes_S1024x3072_S3072x1024_1_0 i n)
    (bias_apply a10 bcast_S1024_S1x1024_1 bcast_S1x1024_S8192x1024_0_1 i n)).trans ?_
  have hg : dot (Host.gather gather_S2048x2048_S8192x1_S8192x2048_1_0_n_n_0_1_12048 x5 (normIdx4 a6)) (cols 0 2048 (by decide) a9) i n
      = dot (pick (rowMap gather_S2048x2048_S8192x1_S8192x2048_1_0_n_n_0_1_12048 (normIdx4 a6) (by decide)) x5) (cols 0 2048 (by decide) a9) i n :=
    Finset.sum_congr rfl fun q _ => by
      rw [pick_apply, gather_rows_apply_of_eq (by decide) gather_S2048x2048_S8192x1_S8192x2048_1_0_n_n_0_1_12048 rfl (by decide)]
  rw [hg]
  rfl

/-- The start indices of the row gather at stage 3, wrapped (a negative index has 8192 added) and laid out as a column: kept as one name. -/
def normIdx3 (a5 : (⟨S32768, .i32⟩ : BufTy).Contents (Elt Ideal)) : (⟨S32768x1, .i32⟩ : BufTy).Contents (Elt Ideal) :=
  broadcastInDim S32768x1 ![0] bcast_S32768_S32768x1_0 (select (cmpi .slt a5 (broadcastInDim S32768 ![] bcast_S_S32768 (constantI S_ 32 0#32))) (addi a5 (broadcastInDim S32768 ![] bcast_S_S32768 (constantI S_ 32 8192#32))) a5)

/-- (d) The decoder-3 linear layer at (i, n). -/
theorem stageRaw3_apply (act4 : (⟨S8192x1024, .f32⟩ : BufTy).Contents (Elt Ideal)) (a1 : (⟨S32768x512, .f32⟩ : BufTy).Contents (Elt Ideal)) (a5 : (⟨S32768, .i32⟩ : BufTy).Contents (Elt Ideal)) (a13 : (⟨S512x1536, .f32⟩ : BufTy).Contents (Elt Ideal)) (a14 : (⟨S512, .f32⟩ : BufTy).Contents (Elt Ideal))
    (i : Fin 32768) (n : Fin 512) :
    stageRaw3 (F := Ideal) act4 a1 a5 a13 a14 (ix2 i n)
      = lin2 (pick (rowMap gather_S8192x1024_S32768x1_S32768x1024_1_0_n_n_0_1_11024 (normIdx3 a5) (by decide)) act4) a1 (cols 0 1024 (by decide) a13) (cols 1024 512 (by decide) a13) (rowOf a14) i n := by
  refine (congrArg₂ (· + ·)
    (dot_joined_apply (K₁ := 1024) (K₂ := 512) dot_S32768x1536_S1536x512_S32768x512_1_0_0_1_n_n rfl none .single
      (Host.gather gather_S8192x1024_S32768x1_S32768x1024_1_0_n_n_0_1_11024 act4 (normIdx3 a5)) a1 a13 concatenates_S32768x1024_S32768x512_S32768x1536_d1 transposes_S512x1536_S1536x512_1_0 i n)
    (bias_apply a14 bcast_S512_S1x512_1 bcast_S1x512_S32768x512_0_1 i n)).trans ?_
  have hg : dot (Host.gather gather_S8192x1024_S32768x1_S32768x1024_1_0_n_n_0_1_11024 act4 (normIdx3 a5)) (cols 0 1024 (by decide) a13) i n
      = dot (pick (rowMap gather_S8192x1024_S32768x1_S32768x1024_1_0_n_n_0_1_11024 (normIdx3 a5) (by decide)) act4) (cols 0 1024 (by decide) a13) i n :=
    Finset.sum_congr rfl fun q _ => by
      rw [pick_apply, gather_rows_apply_of_eq (by decide) gather_S8192x1024_S32768x1_S32768x1024_1_0_n_n_0_1_11024 rfl (by decide)]
  rw [hg]
  rfl

/-- The start indices of the row gather at stage 2, wrapped (a negative index has 32768 added) and laid out as a column: kept as one name. -/
def normIdx2 (a4 : (⟨S131072, .i32⟩ : BufTy).Contents (Elt Ideal)) : (⟨S131072x1, .i32⟩ : BufTy).Contents (Elt Ideal) :=
  broadcastInDim S131072x1 ![0] bcast_S131072_S131072x1_0 (select (cmpi .slt a4 (broadcastInDim S131072 ![] bcast_S_S131072 (constantI S_ 32 0#32))) (addi a4 (broadcastInDim S131072 ![] bcast_S_S131072 (constantI S_ 32 32768#32))) a4)

/-- (f) The last linear layer at (i, n). -/
theorem stageOut_apply (act3 : (⟨S32768x512, .f32⟩ : BufTy).Contents (Elt Ideal)) (a0 : (⟨S131072x256, .f32⟩ : BufTy).Contents (Elt Ideal)) (a4 : (⟨S131072, .i32⟩ : BufTy).Contents (Elt Ideal)) (a17 : (⟨S256x768, .f32⟩ : BufTy).Contents (Elt Ideal)) (a18 : (⟨S256, .f32⟩ : BufTy).Contents (Elt Ideal))
    (i : Fin 131072) (n : Fin 256) :
    stageOut (F := Ideal) act3 a0 a4 a17 a18 (ix2 i n)
      = lin2 (pick (rowMap gather_S32768x512_S131072x1_S131072x512_1_0_n_n_0_1_1512 (normIdx2 a4) (by decide)) act3) a0 (cols 0 512 (by decide) a17) (cols 512 256 (by decide) a17) (rowOf a18) i n := by
  refine (congrArg₂ (· + ·)
    (dot_joined_apply (K₁ := 512) (K₂ := 256) dot_S131072x768_S768x256_S131072x256_1_0_0_1_n_n rfl none .single
      (Host.gather gather_S32768x512_S131072x1_S131072x512_1_0_n_n_0_1_1512 act3 (normIdx2 a4)) a0 a17 concatenates_S131072x512_S131072x256_S131072x768_d1 transposes_S256x768_S768x256_1_0 i n)
    (bias_apply a18 bcast_S256_S1x256_1 bcast_S1x256_S131072x256_0_1 i n)).trans ?_
  have hg : dot (Host.gather gather_S32768x512_S131072x1_S131072x512_1_0_n_n_0_1_1512 act3 (normIdx2 a4)) (cols 0 512 (by decide) a17) i n
      = dot (pick (rowMap gather_S32768x512_S131072x1_S131072x512_1_0_n_n_0_1_1512 (normIdx2 a4) (by decide)) act3) (cols 0 512 (by decide) a17) i n :=
    Finset.sum_congr rfl fun q _ => by
      rw [pick_apply, gather_rows_apply_of_eq (by decide) gather_S32768x512_S131072x1_S131072x512_1_0_n_n_0_1_1512 rfl (by decide)]
  rw [hg]
  rfl

/-! ## The printed constants, as extended reals -/

/-- Zero, the rectifier's slope and ε, as their words denote them at the ideal values. -/
abbrev Z : EReal := Ideal.ofBits .f32 0x00000000#32
abbrev SL : EReal := Ideal.ofBits .f32 0x3DCCCCCD#32
abbrev EPS : EReal := Ideal.ofBits .f32 0x3727C5AC#32

/-! ## The group normalisation and leaky rectifier at stage 4: 8192 rows, 1024 channels in 32 groups of 32 -/

theorem d4 : GNDims 8192 1024 32 32 := ⟨by decide, by decide, by decide⟩

/-- The count of one group's entries as printed, and the variance's divisor: the count less the converted correction 0. -/
abbrev CNT4 : EReal := Ideal.ofBits .f32 0x48800000#32
abbrev CNTM4 : EReal := Ideal.ofBits .f32 0x48800000#32 - FloatOps.sitofp (F := Ideal) .f32 (0#32 : BitVec 32)

theorem cntm4_eq : CNTM4 = ((262144 : ℝ) : EReal) := by
  show Ideal.ofBits .f32 0x48800000#32 - (((0#32 : BitVec 32).toInt : ℝ) : EReal) = _
  rw [Consts.ofBits_count4]
  simp

/-- The divisor is positive, so the variance is the quotient and not the not-a-number branch. -/
theorem cntm4_pos : FloatOps.cmpf (F := Ideal) (φ := .f32) .ogt CNTM4 Z = 1#1 := by
  have h : Z < CNTM4 := by
    rw [cntm4_eq]
    show Ideal.ofBits .f32 0x00000000#32 < _
    rw [Consts.ofBits_zero]
    exact EReal.coe_pos.mpr (by norm_num)
  show BitVec.ofBool (decide (Z < CNTM4)) = 1#1
  rw [decide_eq_true h]
  rfl

theorem gnCnt4_apply : gnCnt4 (F := Ideal) ix0 = CNTM4 := rfl

/-- The regrouped input at (g, q): row q mod 8192 of channel 32·g + q div 8192. -/
theorem gnIn4_apply (raw : (⟨S8192x1024, .f32⟩ : BufTy).Contents (Elt Ideal)) (g : Fin 32) (q : Fin 262144) :
    gnIn4 (F := Ideal) raw (ix2 g q) = d4.entry (fun i n => raw (ix2 i n)) g q := by
  unfold gnIn4
  rw [shapeCast_apply _ shapeCasts_S1024x8192_S32x262144 (ix2 g q)
    (ix2 (⟨32 * g.val + q.val / 8192, by have := g.isLt; have := q.isLt; omega⟩ : Fin 1024) (⟨q.val % 8192, by omega⟩ : Fin 8192))
    (by rw [Shape.rowMajor_val_two, Shape.rowMajor_val_two]
        show (32 * g.val + q.val / 8192) * 8192 + q.val % 8192 = g.val * 262144 + q.val
        have := q.isLt; omega)]
  exact transpose_ix2_apply raw transposes_S8192x1024_S1024x8192_1_0 _ _

/-- One group's sum. -/
theorem groupSum4 (X : FVec Ideal S32x262144 .f32) (g : Fin 32) :
    Host.reduceAdd (F := Ideal) X (constant (F := Ideal) S_ .f32 0x00000000#32) reducesTo_S32x262144_S32_d1 h_S_ (ix1 g)
      = Z + ∑ q : Fin 262144, X (ix2 g q) := by
  rw [hostReduceAdd_apply, Ideal.hostReduceAdd_single reducesTo_S32x262144_S32_d1 (by decide)]
  exact congrArg₂ (· + ·) rfl (Finset.sum_congr rfl fun k _ => congrArg X (funext fun a => Fin.ext (by
    match a with
    | ⟨0, _⟩ => rfl
    | ⟨1, _⟩ => rfl)))

theorem col4 (v : FVec Ideal S32 .f32) (g : Fin 32) :
    broadcastInDim S32x1 ![0] bcast_S32_S32x1_0 v (ix2 g (0 : Fin 1)) = v (ix1 g) :=
  broadcastInDim_apply _ _ _ _ (ix1 g) (fun a => match a with | ⟨0, _⟩ => rfl)

theorem wide4 (v : FVec Ideal S32x1 .f32) (g : Fin 32) (q : Fin 262144) :
    broadcastInDim S32x262144 ![0, 1] bcast_S32x1_S32x262144_0_1 v (ix2 g q) = v (ix2 g (0 : Fin 1)) :=
  broadcastInDim_apply _ _ _ _ (ix2 g (0 : Fin 1)) (fun a => match a with | ⟨0, _⟩ => rfl | ⟨1, _⟩ => rfl)

/-- The groups' means of an array laid out group by group. -/
def meanOf4 (X : FVec Ideal S32x262144 .f32) : FVec Ideal S32x1 .f32 :=
  Host.divf (broadcastInDim S32x1 ![0] bcast_S32_S32x1_0 (Host.reduceAdd X (constant S_ .f32 0x00000000#32) reducesTo_S32x262144_S32_d1 h_S_))
    (broadcastInDim S32x1 ![] bcast_S_S32x1 (constant S_ .f32 0x48800000#32))

theorem meanOf4_apply (X : FVec Ideal S32x262144 .f32) (g : Fin 32) :
    meanOf4 X (ix2 g (0 : Fin 1)) = Ideal.div (Z + ∑ q : Fin 262144, X (ix2 g q)) CNT4 := by
  unfold meanOf4
  rw [hostDivf_apply, col4, groupSum4, broadcastInDim_scalar_apply]
  all_goals rfl

theorem gnDev4_apply (raw : (⟨S8192x1024, .f32⟩ : BufTy).Contents (Elt Ideal)) (g : Fin 32) (q : Fin 262144) :
    gnDev4 (F := Ideal) raw (ix2 g q)
      = gnIn4 (F := Ideal) raw (ix2 g q) - Ideal.div (Z + ∑ q' : Fin 262144, gnIn4 (F := Ideal) raw (ix2 g q')) CNT4 := by
  show gnIn4 (F := Ideal) raw (ix2 g q) - broadcastInDim S32x262144 ![0, 1] bcast_S32x1_S32x262144_0_1 (meanOf4 (gnIn4 (F := Ideal) raw)) (ix2 g q) = _
  rw [wide4, meanOf4_apply]

/-- The groups' centred second moments over the divisor, of the array of deviations. -/
def varOf4 (D : FVec Ideal S32x262144 .f32) : FVec Ideal S32x1 .f32 :=
  select (broadcastInDim S32x1 ![] bcast_S_S32x1 (cmpf (F := Ideal) .ogt (gnCnt4 (F := Ideal)) (constant S_ .f32 0x00000000#32)))
    (Host.divf (broadcastInDim S32x1 ![0] bcast_S32_S32x1_0 (Host.reduceAdd (mulf D D) (constant S_ .f32 0x00000000#32) reducesTo_S32x262144_S32_d1 h_S_))
      (broadcastInDim S32x1 ![] bcast_S_S32x1 (gnCnt4 (F := Ideal))))
    (broadcastInDim S32x1 ![] bcast_S_S32x1 (id (constant S_ .f32 0x7FC00000#32)))

theorem varOf4_apply (D : FVec Ideal S32x262144 .f32) (g : Fin 32) :
    varOf4 D (ix2 g (0 : Fin 1)) = Ideal.div (Z + ∑ q : Fin 262144, D (ix2 g q) * D (ix2 g q)) CNTM4 := by
  unfold varOf4
  rw [select_apply, broadcastInDim_scalar_apply, cmpf_apply,
    show FloatOps.cmpf (F := Ideal) .ogt (gnCnt4 (F := Ideal) ix0) (constant (F := Ideal) S_ .f32 0x00000000#32 ix0) = 1#1 from cntm4_pos,
    select_one, hostDivf_apply, col4, groupSum4, broadcastInDim_scalar_apply]
  all_goals rfl

/-- The normalised array, group by group: deviation from the group's mean over the root of its variance plus ε. -/
def normed4 (raw : (⟨S8192x1024, .f32⟩ : BufTy).Contents (Elt Ideal)) : FVec Ideal S32x262144 .f32 :=
  Host.divf (subf (gnIn4 (F := Ideal) raw) (broadcastInDim S32x262144 ![0, 1] bcast_S32x1_S32x262144_0_1 (meanOf4 (gnIn4 (F := Ideal) raw))))
    (broadcastInDim S32x262144 ![0, 1] bcast_S32x1_S32x262144_0_1
      (Host.sqrt (addf (varOf4 (gnDev4 (F := Ideal) raw)) (broadcastInDim S32x1 ![] bcast_S_S32x1 (constant S_ .f32 0x3727C5AC#32)))))

theorem normed4_apply (raw : (⟨S8192x1024, .f32⟩ : BufTy).Contents (Elt Ideal)) (g : Fin 32) (q : Fin 262144) :
    normed4 raw (ix2 g q)
      = Ideal.div (gnIn4 (F := Ideal) raw (ix2 g q) - meanOf4 (gnIn4 (F := Ideal) raw) (ix2 g (0 : Fin 1)))
          (Ideal.sqrt (varOf4 (gnDev4 (F := Ideal) raw) (ix2 g (0 : Fin 1)) + EPS)) := by
  unfold normed4
  rw [hostDivf_apply, subf_apply, wide4, wide4]
  show Ideal.div _ (Ideal.sqrt (_ + broadcastInDim S32x1 ![] bcast_S_S32x1 (constant (F := Ideal) S_ .f32 0x3727C5AC#32) (ix2 g (0 : Fin 1)))) = _
  rw [broadcastInDim_scalar_apply]
  rfl

/-- The normalised, scaled and shifted value at (i, n), before the rectifier. -/
theorem gnOut4_apply (raw : (⟨S8192x1024, .f32⟩ : BufTy).Contents (Elt Ideal)) (a11 : (⟨S1024, .f32⟩ : BufTy).Contents (Elt Ideal)) (a12 : (⟨S1024, .f32⟩ : BufTy).Contents (Elt Ideal)) (i : Fin 8192) (n : Fin 1024) :
    gnOut4 (F := Ideal) raw a11 a12 (ix2 i n)
      = normed4 raw (ix2 (⟨n.val / 32, by have := n.isLt; omega⟩ : Fin 32)
          (⟨(n.val % 32) * 8192 + i.val, by have := i.isLt; have := n.isLt; omega⟩ : Fin 262144)) * a11 (ix1 n) + a12 (ix1 n) := by
  show transpose S8192x1024 [1, 0] (shapeCast S1024x8192 (normed4 raw) shapeCasts_S32x262144_S1024x8192) transposes_S1024x8192_S8192x1024_1_0 (ix2 i n)
      * broadcastInDim S8192x1024 ![0, 1] bcast_S1x1024_S8192x1024_0_1 (broadcastInDim S1x1024 ![1] bcast_S1024_S1x1024_1 a11) (ix2 i n)
      + broadcastInDim S8192x1024 ![0, 1] bcast_S1x1024_S8192x1024_0_1 (broadcastInDim S1x1024 ![1] bcast_S1024_S1x1024_1 a12) (ix2 i n) = _
  rw [transpose_ix2_apply, bias_apply, bias_apply,
    shapeCast_apply _ shapeCasts_S32x262144_S1024x8192 (ix2 n i)
      (ix2 (⟨n.val / 32, by have := n.isLt; omega⟩ : Fin 32) (⟨(n.val % 32) * 8192 + i.val, by have := i.isLt; have := n.isLt; omega⟩ : Fin 262144))
      (by rw [Shape.rowMajor_val_two, Shape.rowMajor_val_two]
          show n.val / 32 * 262144 + ((n.val % 32) * 8192 + i.val) = n.val * 8192 + i.val
          omega)]

/-- (c) The group normalisation and leaky rectifier at (i, n). -/
theorem stageAct4_apply (raw : (⟨S8192x1024, .f32⟩ : BufTy).Contents (Elt Ideal)) (a11 : (⟨S1024, .f32⟩ : BufTy).Contents (Elt Ideal)) (a12 : (⟨S1024, .f32⟩ : BufTy).Contents (Elt Ideal)) (i : Fin 8192) (n : Fin 1024) :
    stageAct4 (F := Ideal) raw a11 a12 (ix2 i n)
      = actR Z SL (d4.normR Z CNT4 CNTM4 EPS (fun i n => raw (ix2 i n)) (fun n => a11 (ix1 n)) (fun n => a12 (ix1 n)) i n) := by
  have e1 : ((n.val % 32) * 8192 + i.val) % 8192 = i.val := by have := i.isLt; omega
  have e2 : 32 * (n.val / 32) + ((n.val % 32) * 8192 + i.val) / 8192 = n.val := by have := i.isLt; omega
  have he : d4.entry (fun i n => raw (ix2 i n)) (⟨n.val / 32, by have := n.isLt; omega⟩ : Fin 32)
      (⟨(n.val % 32) * 8192 + i.val, by have := i.isLt; have := n.isLt; omega⟩ : Fin 262144) = raw (ix2 i n) := by
    unfold GNDims.entry
    refine congrArg raw (funext fun a => Fin.ext ?_)
    match a with
    | ⟨0, _⟩ => exact e1
    | ⟨1, _⟩ => exact e2
  have hY : gnOut4 (F := Ideal) raw a11 a12 (ix2 i n)
      = d4.normR Z CNT4 CNTM4 EPS (fun i n => raw (ix2 i n)) (fun n => a11 (ix1 n)) (fun n => a12 (ix1 n)) i n := by
    rw [gnOut4_apply, normed4_apply, meanOf4_apply, varOf4_apply]
    simp only [gnDev4_apply, gnIn4_apply]
    rw [he]
    rfl
  show Scalar.select (FloatOps.cmpf (F := Ideal) .oge (gnOut4 (F := Ideal) raw a11 a12 (ix2 i n))
        (broadcastInDim S8192x1024 ![] bcast_S_S8192x1024 (constant (F := Ideal) S_ .f32 0x00000000#32) (ix2 i n)))
      (gnOut4 (F := Ideal) raw a11 a12 (ix2 i n))
      (broadcastInDim S8192x1024 ![] bcast_S_S8192x1024 (id (constant (F := Ideal) S_ .f32 0x3DCCCCCD#32)) (ix2 i n) * gnOut4 (F := Ideal) raw a11 a12 (ix2 i n)) = _
  rw [broadcastInDim_scalar_apply, broadcastInDim_scalar_apply, hY]
  rfl

/-! ## The group normalisation and leaky rectifier at stage 3: 32768 rows, 512 channels in 32 groups of 16 -/

theorem d3 : GNDims 32768 512 32 16 := ⟨by decide, by decide, by decide⟩

/-- The count of one group's entries as printed, and the variance's divisor: the count less the converted correction 0. -/
abbrev CNT3 : EReal := Ideal.ofBits .f32 0x49000000#32
abbrev CNTM3 : EReal := Ideal.ofBits .f32 0x49000000#32 - FloatOps.sitofp (F := Ideal) .f32 (0#32 : BitVec 32)

theorem cntm3_eq : CNTM3 = ((524288 : ℝ) : EReal) := by
  show Ideal.ofBits .f32 0x49000000#32 - (((0#32 : BitVec 32).toInt : ℝ) : EReal) = _
  rw [Consts.ofBits_count3]
  simp

/-- The divisor is positive, so the variance is the quotient and not the not-a-number branch. -/
theorem cntm3_pos : FloatOps.cmpf (F := Ideal) (φ := .f32) .ogt CNTM3 Z = 1#1 := by
  have h : Z < CNTM3 := by
    rw [cntm3_eq]
    show Ideal.ofBits .f32 0x00000000#32 < _
    rw [Consts.ofBits_zero]
    exact EReal.coe_pos.mpr (by norm_num)
  show BitVec.ofBool (decide (Z < CNTM3)) = 1#1
  rw [decide_eq_true h]
  rfl

theorem gnCnt3_apply : gnCnt3 (F := Ideal) ix0 = CNTM3 := rfl

/-- The regrouped input at (g, q): row q mod 32768 of channel 16·g + q div 32768. -/
theorem gnIn3_apply (raw : (⟨S32768x512, .f32⟩ : BufTy).Contents (Elt Ideal)) (g : Fin 32) (q : Fin 524288) :
    gnIn3 (F := Ideal) raw (ix2 g q) = d3.entry (fun i n => raw (ix2 i n)) g q := by
  unfold gnIn3
  rw [shapeCast_apply _ shapeCasts_S512x32768_S32x524288 (ix2 g q)
    (ix2 (⟨16 * g.val + q.val / 32768, by have := g.isLt; have := q.isLt; omega⟩ : Fin 512) (⟨q.val % 32768, by omega⟩ : Fin 32768))
    (by rw [Shape.rowMajor_val_two, Shape.rowMajor_val_two]
        show (16 * g.val + q.val / 32768) * 32768 + q.val % 32768 = g.val * 524288 + q.val
        have := q.isLt; omega)]
  exact transpose_ix2_apply raw transposes_S32768x512_S512x32768_1_0 _ _

/-- One group's sum. -/
theorem groupSum3 (X : FVec Ideal S32x524288 .f32) (g : Fin 32) :
    Host.reduceAdd (F := Ideal) X (constant (F := Ideal) S_ .f32 0x00000000#32) reducesTo_S32x524288_S32_d1 h_S_ (ix1 g)
      = Z + ∑ q : Fin 524288, X (ix2 g q) := by
  rw [hostReduceAdd_apply, Ideal.hostReduceAdd_single reducesTo_S32x524288_S32_d1 (by decide)]
  exact congrArg₂ (· + ·) rfl (Finset.sum_congr rfl fun k _ => congrArg X (funext fun a => Fin.ext (by
    match a with
    | ⟨0, _⟩ => rfl
    | ⟨1, _⟩ => rfl)))

theorem col3 (v : FVec Ideal S32 .f32) (g : Fin 32) :
    broadcastInDim S32x1 ![0] bcast_S32_S32x1_0 v (ix2 g (0 : Fin 1)) = v (ix1 g) :=
  broadcastInDim_apply _ _ _ _ (ix1 g) (fun a => match a with | ⟨0, _⟩ => rfl)

theorem wide3 (v : FVec Ideal S32x1 .f32) (g : Fin 32) (q : Fin 524288) :
    broadcastInDim S32x524288 ![0, 1] bcast_S32x1_S32x524288_0_1 v (ix2 g q) = v (ix2 g (0 : Fin 1)) :=
  broadcastInDim_apply _ _ _ _ (ix2 g (0 : Fin 1)) (fun a => match a with | ⟨0, _⟩ => rfl | ⟨1, _⟩ => rfl)

/-- The groups' means of an array laid out group by group. -/
def meanOf3 (X : FVec Ideal S32x524288 .f32) : FVec Ideal S32x1 .f32 :=
  Host.divf (broadcastInDim S32x1 ![0] bcast_S32_S32x1_0 (Host.reduceAdd X (constant S_ .f32 0x00000000#32) reducesTo_S32x524288_S32_d1 h_S_))
    (broadcastInDim S32x1 ![] bcast_S_S32x1 (constant S_ .f32 0x49000000#32))

theorem meanOf3_apply (X : FVec Ideal S32x524288 .f32) (g : Fin 32) :
    meanOf3 X (ix2 g (0 : Fin 1)) = Ideal.div (Z + ∑ q : Fin 524288, X (ix2 g q)) CNT3 := by
  unfold meanOf3
  rw [hostDivf_apply, col3, groupSum3, broadcastInDim_scalar_apply]
  all_goals rfl

theorem gnDev3_apply (raw : (⟨S32768x512, .f32⟩ : BufTy).Contents (Elt Ideal)) (g : Fin 32) (q : Fin 524288) :
    gnDev3 (F := Ideal) raw (ix2 g q)
      = gnIn3 (F := Ideal) raw (ix2 g q) - Ideal.div (Z + ∑ q' : Fin 524288, gnIn3 (F := Ideal) raw (ix2 g q')) CNT3 := by
  show gnIn3 (F := Ideal) raw (ix2 g q) - broadcastInDim S32x524288 ![0, 1] bcast_S32x1_S32x524288_0_1 (meanOf3 (gnIn3 (F := Ideal) raw)) (ix2 g q) = _
  rw [wide3, meanOf3_apply]

/-- The groups' centred second moments over the divisor, of the array of deviations. -/
def varOf3 (D : FVec Ideal S32x524288 .f32) : FVec Ideal S32x1 .f32 :=
  select (broadcastInDim S32x1 ![] bcast_S_S32x1 (cmpf (F := Ideal) .ogt (gnCnt3 (F := Ideal)) (constant S_ .f32 0x00000000#32)))
    (Host.divf (broadcastInDim S32x1 ![0] bcast_S32_S32x1_0 (Host.reduceAdd (mulf D D) (constant S_ .f32 0x00000000#32) reducesTo_S32x524288_S32_d1 h_S_))
      (broadcastInDim S32x1 ![] bcast_S_S32x1 (gnCnt3 (F := Ideal))))
    (broadcastInDim S32x1 ![] bcast_S_S32x1 (id (constant S_ .f32 0x7FC00000#32)))

theorem varOf3_apply (D : FVec Ideal S32x524288 .f32) (g : Fin 32) :
    varOf3 D (ix2 g (0 : Fin 1)) = Ideal.div (Z + ∑ q : Fin 524288, D (ix2 g q) * D (ix2 g q)) CNTM3 := by
  unfold varOf3
  rw [select_apply, broadcastInDim_scalar_apply, cmpf_apply,
    show FloatOps.cmpf (F := Ideal) .ogt (gnCnt3 (F := Ideal) ix0) (constant (F := Ideal) S_ .f32 0x00000000#32 ix0) = 1#1 from cntm3_pos,
    select_one, hostDivf_apply, col3, groupSum3, broadcastInDim_scalar_apply]
  all_goals rfl

/-- The normalised array, group by group: deviation from the group's mean over the root of its variance plus ε. -/
def normed3 (raw : (⟨S32768x512, .f32⟩ : BufTy).Contents (Elt Ideal)) : FVec Ideal S32x524288 .f32 :=
  Host.divf (subf (gnIn3 (F := Ideal) raw) (broadcastInDim S32x524288 ![0, 1] bcast_S32x1_S32x524288_0_1 (meanOf3 (gnIn3 (F := Ideal) raw))))
    (broadcastInDim S32x524288 ![0, 1] bcast_S32x1_S32x524288_0_1
      (Host.sqrt (addf (varOf3 (gnDev3 (F := Ideal) raw)) (broadcastInDim S32x1 ![] bcast_S_S32x1 (constant S_ .f32 0x3727C5AC#32)))))

theorem normed3_apply (raw : (⟨S32768x512, .f32⟩ : BufTy).Contents (Elt Ideal)) (g : Fin 32) (q : Fin 524288) :
    normed3 raw (ix2 g q)
      = Ideal.div (gnIn3 (F := Ideal) raw (ix2 g q) - meanOf3 (gnIn3 (F := Ideal) raw) (ix2 g (0 : Fin 1)))
          (Ideal.sqrt (varOf3 (gnDev3 (F := Ideal) raw) (ix2 g (0 : Fin 1)) + EPS)) := by
  unfold normed3
  rw [hostDivf_apply, subf_apply, wide3, wide3]
  show Ideal.div _ (Ideal.sqrt (_ + broadcastInDim S32x1 ![] bcast_S_S32x1 (constant (F := Ideal) S_ .f32 0x3727C5AC#32) (ix2 g (0 : Fin 1)))) = _
  rw [broadcastInDim_scalar_apply]
  rfl

/-- The normalised, scaled and shifted value at (i, n), before the rectifier. -/
theorem gnOut3_apply (raw : (⟨S32768x512, .f32⟩ : BufTy).Contents (Elt Ideal)) (a15 : (⟨S512, .f32⟩ : BufTy).Contents (Elt Ideal)) (a16 : (⟨S512, .f32⟩ : BufTy).Contents (Elt Ideal)) (i : Fin 32768) (n : Fin 512) :
    gnOut3 (F := Ideal) raw a15 a16 (ix2 i n)
      = normed3 raw (ix2 (⟨n.val / 16, by have := n.isLt; omega⟩ : Fin 32)
          (⟨(n.val % 16) * 32768 + i.val, by have := i.isLt; have := n.isLt; omega⟩ : Fin 524288)) * a15 (ix1 n) + a16 (ix1 n) := by
  show transpose S32768x512 [1, 0] (shapeCast S512x32768 (normed3 raw) shapeCasts_S32x524288_S512x32768) transposes_S512x32768_S32768x512_1_0 (ix2 i n)
      * broadcastInDim S32768x512 ![0, 1] bcast_S1x512_S32768x512_0_1 (broadcastInDim S1x512 ![1] bcast_S512_S1x512_1 a15) (ix2 i n)
      + broadcastInDim S32768x512 ![0, 1] bcast_S1x512_S32768x512_0_1 (broadcastInDim S1x512 ![1] bcast_S512_S1x512_1 a16) (ix2 i n) = _
  rw [transpose_ix2_apply, bias_apply, bias_apply,
    shapeCast_apply _ shapeCasts_S32x524288_S512x32768 (ix2 n i)
      (ix2 (⟨n.val / 16, by have := n.isLt; omega⟩ : Fin 32) (⟨(n.val % 16) * 32768 + i.val, by have := i.isLt; have := n.isLt; omega⟩ : Fin 524288))
      (by rw [Shape.rowMajor_val_two, Shape.rowMajor_val_two]
          show n.val / 16 * 524288 + ((n.val % 16) * 32768 + i.val) = n.val * 32768 + i.val
          omega)]

/-- (e) The group normalisation and leaky rectifier at (i, n). -/
theorem stageAct3_apply (raw : (⟨S32768x512, .f32⟩ : BufTy).Contents (Elt Ideal)) (a15 : (⟨S512, .f32⟩ : BufTy).Contents (Elt Ideal)) (a16 : (⟨S512, .f32⟩ : BufTy).Contents (Elt Ideal)) (i : Fin 32768) (n : Fin 512) :
    stageAct3 (F := Ideal) raw a15 a16 (ix2 i n)
      = actR Z SL (d3.normR Z CNT3 CNTM3 EPS (fun i n => raw (ix2 i n)) (fun n => a15 (ix1 n)) (fun n => a16 (ix1 n)) i n) := by
  have e1 : ((n.val % 16) * 32768 + i.val) % 32768 = i.val := by have := i.isLt; omega
  have e2 : 16 * (n.val / 16) + ((n.val % 16) * 32768 + i.val) / 32768 = n.val := by have := i.isLt; omega
  have he : d3.entry (fun i n => raw (ix2 i n)) (⟨n.val / 16, by have := n.isLt; omega⟩ : Fin 32)
      (⟨(n.val % 16) * 32768 + i.val, by have := i.isLt; have := n.isLt; omega⟩ : Fin 524288) = raw (ix2 i n) := by
    unfold GNDims.entry
    refine congrArg raw (funext fun a => Fin.ext ?_)
    match a with
    | ⟨0, _⟩ => exact e1
    | ⟨1, _⟩ => exact e2
  have hY : gnOut3 (F := Ideal) raw a15 a16 (ix2 i n)
      = d3.normR Z CNT3 CNTM3 EPS (fun i n => raw (ix2 i n)) (fun n => a15 (ix1 n)) (fun n => a16 (ix1 n)) i n := by
    rw [gnOut3_apply, normed3_apply, meanOf3_apply, varOf3_apply]
    simp only [gnDev3_apply, gnIn3_apply]
    rw [he]
    rfl
  show Scalar.select (FloatOps.cmpf (F := Ideal) .oge (gnOut3 (F := Ideal) raw a15 a16 (ix2 i n))
        (broadcastInDim S32768x512 ![] bcast_S_S32768x512 (constant (F := Ideal) S_ .f32 0x00000000#32) (ix2 i n)))
      (gnOut3 (F := Ideal) raw a15 a16 (ix2 i n))
      (broadcastInDim S32768x512 ![] bcast_S_S32768x512 (id (constant (F := Ideal) S_ .f32 0x3DCCCCCD#32)) (ix2 i n) * gnOut3 (F := Ideal) raw a15 a16 (ix2 i n)) = _
  rw [broadcastInDim_scalar_apply, broadcastInDim_scalar_apply, hY]
  rfl

end Cert.ReferenceIdeal.RefRead

end
-- ==== Proof.RefValue.lean ====
/-
  The reference's six values of the nineteen argument arrays are the decoder's closed forms: the first linear
  layer; the second over the first's gathered rows; its group normalisation and leaky rectifier; the third linear
  layer over those gathered rows; its normalisation and rectifier; the last linear layer.  Each stage is read at an
  entry and the stage before it replaced by its closed form.
-/
import proofs.«117334_j39633958207498_2_alg».proof.Proof.RefRead
import proofs.«117334_j39633958207498_2_alg».proof.Proof.LibDecoder

noncomputable section

namespace Cert.ReferenceIdeal.RefValue

open Cert.ReferenceIdeal Cert.ReferenceIdeal.Gen Cert.ReferenceIdeal.RefRun Cert.ReferenceIdeal.RefRead Cert.FPN
  Idealize.ShloMosaic Idealize.ShloMosaic.ValueIdx

/-- The row of the first layer's output that row i of the second layer's gathered operand reads. -/
def rho4 (a6 : (⟨S8192, .i32⟩ : BufTy).Contents (Elt Ideal)) : Fin 8192 → Fin 2048 :=
  rowMap gather_S2048x2048_S8192x1_S8192x2048_1_0_n_n_0_1_12048 (normIdx4 a6) (by decide)

/-- The row of the first normalised array that row i of the third layer's gathered operand reads. -/
def rho3 (a5 : (⟨S32768, .i32⟩ : BufTy).Contents (Elt Ideal)) : Fin 32768 → Fin 8192 :=
  rowMap gather_S8192x1024_S32768x1_S32768x1024_1_0_n_n_0_1_11024 (normIdx3 a5) (by decide)

/-- The row of the second normalised array that row i of the last layer's gathered operand reads. -/
def rho2 (a4 : (⟨S131072, .i32⟩ : BufTy).Contents (Elt Ideal)) : Fin 131072 → Fin 32768 :=
  rowMap gather_S32768x512_S131072x1_S131072x512_1_0_n_n_0_1_1512 (normIdx2 a4) (by decide)

variable
  (a0 : (⟨S131072x256, .f32⟩ : BufTy).Contents (Elt Ideal))
  (a1 : (⟨S32768x512, .f32⟩ : BufTy).Contents (Elt Ideal))
  (a2 : (⟨S8192x1024, .f32⟩ : BufTy).Contents (Elt Ideal))
  (a3 : (⟨S2048x2048, .f32⟩ : BufTy).Contents (Elt Ideal))
  (a4 : (⟨S131072, .i32⟩ : BufTy).Contents (Elt Ideal))
  (a5 : (⟨S32768, .i32⟩ : BufTy).Contents (Elt Ideal))
  (a6 : (⟨S8192, .i32⟩ : BufTy).Contents (Elt Ideal))
  (a7 : (⟨S2048x2048, .f32⟩ : BufTy).Contents (Elt Ideal))
  (a8 : (⟨S2048, .f32⟩ : BufTy).Contents (Elt Ideal))
  (a9 : (⟨S1024x3072, .f32⟩ : BufTy).Contents (Elt Ideal))
  (a10 : (⟨S1024, .f32⟩ : BufTy).Contents (Elt Ideal))
  (a11 : (⟨S1024, .f32⟩ : BufTy).Contents (Elt Ideal))
  (a12 : (⟨S1024, .f32⟩ : BufTy).Contents (Elt Ideal))
  (a13 : (⟨S512x1536, .f32⟩ : BufTy).Contents (Elt Ideal))
  (a14 : (⟨S512, .f32⟩ : BufTy).Contents (Elt Ideal))
  (a15 : (⟨S512, .f32⟩ : BufTy).Contents (Elt Ideal))
  (a16 : (⟨S512, .f32⟩ : BufTy).Contents (Elt Ideal))
  (a17 : (⟨S256x768, .f32⟩ : BufTy).Contents (Elt Ideal))
  (a18 : (⟨S256, .f32⟩ : BufTy).Contents (Elt Ideal))

/-- The first linear layer's value is its closed form. -/
theorem valX5_eq : valX5 (F := Ideal) a0 a1 a2 a3 a4 a5 a6 a7 a8 a9 a10 a11 a12 a13 a14 a15 a16 a17 a18 = decX5 a3 a7 a8 := by
  funext j
  obtain ⟨r, n, rfl⟩ : ∃ (r : Fin 2048) (n : Fin 2048), j = ix2 r n := ⟨j 0, j 1, eq_ix2 j⟩
  exact stageX5_apply a3 a7 a8 r n

/-- The second linear layer's value, entry by entry. -/
theorem valRaw4_eq : (fun i n => valRaw4 (F := Ideal) a0 a1 a2 a3 a4 a5 a6 a7 a8 a9 a10 a11 a12 a13 a14 a15 a16 a17 a18 (ix2 i n)) = decR4 a3 a7 a8 a2 a9 a10 (rho4 a6) := by
  funext i n
  show stageRaw4 (F := Ideal) (valX5 (F := Ideal) a0 a1 a2 a3 a4 a5 a6 a7 a8 a9 a10 a11 a12 a13 a14 a15 a16 a17 a18) a2 a6 a9 a10 (ix2 i n) = _
  rw [stageRaw4_apply, valX5_eq]
  rfl

/-- The first normalised and activated value. -/
theorem valAct4_eq : valAct4 (F := Ideal) a0 a1 a2 a3 a4 a5 a6 a7 a8 a9 a10 a11 a12 a13 a14 a15 a16 a17 a18
    = arr2 (decAct4 a3 a7 a8 a2 a9 a10 a11 a12 (rho4 a6) CNTM4 d4) := by
  funext j
  obtain ⟨i, n, rfl⟩ : ∃ (i : Fin 8192) (n : Fin 1024), j = ix2 i n := ⟨j 0, j 1, eq_ix2 j⟩
  show stageAct4 (F := Ideal) (valRaw4 (F := Ideal) a0 a1 a2 a3 a4 a5 a6 a7 a8 a9 a10 a11 a12 a13 a14 a15 a16 a17 a18) a11 a12 (ix2 i n) = _
  rw [stageAct4_apply, valRaw4_eq]
  rfl

/-- The third linear layer's value, entry by entry. -/
theorem valRaw3_eq : (fun i n => valRaw3 (F := Ideal) a0 a1 a2 a3 a4 a5 a6 a7 a8 a9 a10 a11 a12 a13 a14 a15 a16 a17 a18 (ix2 i n))
    = decR3R a3 a7 a8 a2 a9 a10 a11 a12 a1 a13 a14 (rho4 a6) (rho3 a5) CNTM4 d4 := by
  funext i n
  show stageRaw3 (F := Ideal) (valAct4 (F := Ideal) a0 a1 a2 a3 a4 a5 a6 a7 a8 a9 a10 a11 a12 a13 a14 a15 a16 a17 a18) a1 a5 a13 a14 (ix2 i n) = _
  rw [stageRaw3_apply, valAct4_eq]
  rfl

/-- The second normalised and activated value. -/
theorem valAct3_eq : valAct3 (F := Ideal) a0 a1 a2 a3 a4 a5 a6 a7 a8 a9 a10 a11 a12 a13 a14 a15 a16 a17 a18
    = arr2 (decAct3 a3 a7 a8 a2 a9 a10 a11 a12 a1 a13 a14 a15 a16 (rho4 a6) (rho3 a5) CNTM4 CNTM3 d4 d3) := by
  funext j
  obtain ⟨i, n, rfl⟩ : ∃ (i : Fin 32768) (n : Fin 512), j = ix2 i n := ⟨j 0, j 1, eq_ix2 j⟩
  show stageAct3 (F := Ideal) (valRaw3 (F := Ideal) a0 a1 a2 a3 a4 a5 a6 a7 a8 a9 a10 a11 a12 a13 a14 a15 a16 a17 a18) a15 a16 (ix2 i n) = _
  rw [stageAct3_apply, valRaw3_eq]
  rfl

/-- The result is the decoder's closed form. -/
theorem valOut_eq : valOut (F := Ideal) a0 a1 a2 a3 a4 a5 a6 a7 a8 a9 a10 a11 a12 a13 a14 a15 a16 a17 a18
    = arr2 (decOutR a3 a7 a8 a2 a9 a10 a11 a12 a1 a13 a14 a15 a16 a0 a17 a18 (rho4 a6) (rho3 a5) (rho2 a4) CNTM4 CNTM3 d4 d3) := by
  funext j
  obtain ⟨i, n, rfl⟩ : ∃ (i : Fin 131072) (n : Fin 256), j = ix2 i n := ⟨j 0, j 1, eq_ix2 j⟩
  show stageOut (F := Ideal) (valAct3 (F := Ideal) a0 a1 a2 a3 a4 a5 a6 a7 a8 a9 a10 a11 a12 a13 a14 a15 a16 a17 a18) a0 a4 a17 a18 (ix2 i n) = _
  rw [stageOut_apply, valAct3_eq]
  rfl

end Cert.ReferenceIdeal.RefValue

end
-- ==== Proof.PreFinite.lean ====
/-
  The precondition read back. The printed predicate (the module imported first below) computes, for each of the sixteen
  float inputs x, the and-reduction over every axis of the entrywise comparison |x j| < +∞ (the bound is the pattern
  0x7F800000, +∞, broadcast from a rank-0 constant), and and-s the sixteen one-bit results; the claim's hypothesis says
  the result is 1. Over the extended reals |x| is max x (−x), which is +∞ at both infinities, so the comparison is 1 exactly
  when x is neither infinity, that is, when x is a real number. Hence: every entry of every float input is a real number.
  The three integer inputs do not occur in the predicate.
-/
import proofs.«117334_j39633958207498_2_alg».proof.Pre_finite_inputs
import Idealize.ShloMosaic.Lib.ReduceAll
import Idealize.ShloMosaic.Lib.ValueIdx
import Idealize.ShloMosaic.Lib.KernelVsHost
import Idealize.ShloMosaic.PureOps.Ideal
import Idealize.ShloMosaic.PureOps.Ideal.Laws

noncomputable section

namespace Cert.PreFinite

open Idealize.ShloMosaic Cert.Pre_finite_inputs

/-- The rank-0 shape has one index. -/
instance subsingleton_idx_S_ : Subsingleton S_.Idx := ⟨fun a b => funext fun d => d.elim0⟩

/-- A one-bit word whose complement is 1 is 0. -/
theorem eq_zero_of_xori_one : ∀ b : BitVec 1, IntOp.xori b 1#1 = 1#1 → b = 0#1 := by decide

/-- A truth value whose one-bit word is 0 is false. -/
theorem eq_false_of_ofBool : ∀ b : Bool, BitVec.ofBool b = 0#1 → b = false := by decide

/-- The and of two one-bit vectors, read at an index. -/
theorem andi_apply {s : Shape} {w : Nat} (x y : IVec s w) (i : s.Idx) : andi x y i = IntOp.andi (x i) (y i) := rfl

/-- An extended real that is neither infinity is a real number. -/
theorem real_of_not_inf (x : EReal) (hn : ¬ (x = ⊤ ∨ x = ⊥)) : ∃ r : ℝ, x = (r : EReal) := by
  induction x using EReal.rec with
  | bot => exact absurd (Or.inr rfl) hn
  | coe r => exact ⟨r, rfl⟩
  | top => exact absurd (Or.inl rfl) hn

/-- One entry: the comparison |x| < +∞ coming out 1 says x is a real number. The comparison is the complement of
    "x is an infinity" (max x (−x) is +∞ exactly at ±∞), so that bit is 0. -/
theorem real_of_cmp (x : Ideal .f32)
    (h : FloatOps.cmpf .olt (FloatOps.hostAbsf x) (FloatOps.ofBits (F := Ideal) .f32 0x7F800000#32) = 1#1) :
    ∃ r : ℝ, x = (r : EReal) := by
  rw [← Ideal.xori_weird_eq_hostAbsf_olt_inf] at h
  have hw : BitVec.ofBool (decide ((x : EReal) = ⊤ ∨ (x : EReal) = ⊥)) = 0#1 := eq_zero_of_xori_one _ h
  exact real_of_not_inf x (of_decide_eq_false (eq_false_of_ofBool _ hw))

/-- THE GENERAL LEMMA. For any shape S and x : S → EReal, if the and-reduction over all axes of the entrywise comparison
    |x j| < +∞ (the bound broadcast from a rank-0 constant) is 1, then every entry of x is a real number. -/
theorem finite_of_all {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi
          (cmpf .olt (Host.absf x) (broadcastInDim S ![] hb (constant (F := Ideal) S_ .f32 0x7F800000#32)))
          (constantI S_ 1 1#1) hr hu ValueIdx.ix0 = 1#1) :
    ∀ j, ∃ r : ℝ, x j = (r : EReal) := fun j =>
  real_of_cmp (x j) (Host.reduce_andi_all _ _ hr hu ValueIdx.ix0 e j)

/-- THE PRECONDITION DECODED. The printed predicate and-s, over the sixteen float inputs, the reduction "every entry has
    absolute value below +∞"; its being 1 at the one index of the rank-0 result gives, input by input, that every entry is
    a real number. The three integer inputs are not constrained. -/
theorem finite_of_pre [Cert.Pre_finite_inputs.Facts]
    (a0 : FVec Ideal S131072x256 .f32) (a1 : FVec Ideal S32768x512 .f32) (a2 : FVec Ideal S8192x1024 .f32)
    (a3 : FVec Ideal S2048x2048 .f32) (a4 : IVec S131072 32) (a5 : IVec S32768 32) (a6 : IVec S8192 32)
    (a7 : FVec Ideal S2048x2048 .f32) (a8 : FVec Ideal S2048 .f32) (a9 : FVec Ideal S1024x3072 .f32)
    (a10 a11 a12 : FVec Ideal S1024 .f32) (a13 : FVec Ideal S512x1536 .f32) (a14 a15 a16 : FVec Ideal S512 .f32)
    (a17 : FVec Ideal S256x768 .f32) (a18 : FVec Ideal S256 .f32)
    (h : Cert.Pre_finite_inputs.fn (F := Ideal) a0 a1 a2 a3 a4 a5 a6 a7 a8 a9 a10 a11 a12 a13 a14 a15 a16 a17 a18
          = fun _ => 1#1) :
    (∀ j, ∃ r : ℝ, a0 j = (r : EReal)) ∧
      (∀ j, ∃ r : ℝ, a1 j = (r : EReal)) ∧
      (∀ j, ∃ r : ℝ, a2 j = (r : EReal)) ∧
      (∀ j, ∃ r : ℝ, a3 j = (r : EReal)) ∧
      (∀ j, ∃ r : ℝ, a7 j = (r : EReal)) ∧
      (∀ j, ∃ r : ℝ, a8 j = (r : EReal)) ∧
      (∀ j, ∃ r : ℝ, a9 j = (r : EReal)) ∧
      (∀ j, ∃ r : ℝ, a10 j = (r : EReal)) ∧
      (∀ j, ∃ r : ℝ, a11 j = (r : EReal)) ∧
      (∀ j, ∃ r : ℝ, a12 j = (r : EReal)) ∧
      (∀ j, ∃ r : ℝ, a13 j = (r : EReal)) ∧
      (∀ j, ∃ r : ℝ, a14 j = (r : EReal)) ∧
      (∀ j, ∃ r : ℝ, a15 j = (r : EReal)) ∧
      (∀ j, ∃ r : ℝ, a16 j = (r : EReal)) ∧
      (∀ j, ∃ r : ℝ, a17 j = (r : EReal)) ∧
      (∀ j, ∃ r : ℝ, a18 j = (r : EReal)) := by
  have e := congrFun h ValueIdx.ix0
  dsimp only [Cert.Pre_finite_inputs.fn] at e
  dsimp only [Cert.Pre_finite_inputs.fn_part1] at e
  dsimp only [Cert.Pre_finite_inputs.fn_part2] at e
  dsimp only [Cert.Pre_finite_inputs.fn_part3] at e
  dsimp only [Cert.Pre_finite_inputs.fn_part4] at e
  simp only [andi_apply, IntOp.andi_eq_one] at e
  obtain ⟨⟨⟨⟨⟨⟨⟨⟨⟨⟨⟨⟨⟨⟨⟨ha0, ha1⟩, ha2⟩, ha3⟩, ha7⟩, ha8⟩, ha9⟩, ha10⟩, ha11⟩, ha12⟩, ha13⟩, ha14⟩, ha15⟩, ha16⟩, ha17⟩, ha18⟩ := e
  exact ⟨finite_of_all a0 _ _ _ ha0,
    finite_of_all a1 _ _ _ ha1,
    finite_of_all a2 _ _ _ ha2,
    finite_of_all a3 _ _ _ ha3,
    finite_of_all a7 _ _ _ ha7,
    finite_of_all a8 _ _ _ ha8,
    finite_of_all a9 _ _ _ ha9,
    finite_of_all a10 _ _ _ ha10,
    finite_of_all a11 _ _ _ ha11,
    finite_of_all a12 _ _ _ ha12,
    finite_of_all a13 _ _ _ ha13,
    finite_of_all a14 _ _ _ ha14,
    finite_of_all a15 _ _ _ ha15,
    finite_of_all a16 _ _ _ ha16,
    finite_of_all a17 _ _ _ ha17,
    finite_of_all a18 _ _ _ ha18⟩

end Cert.PreFinite

end
-- ==== Proof.lean ====
/-
  The certificate: a feature-pyramid decoder written as four Pallas kernels (an input projection, two
  decoder layers that also emit per-block column sums and sums of squares, and a last linear layer) agrees,
  on the extended reals, with its jnp reference, whenever every float input is finite.

  Both programs gather rows of the previous stage's output and apply a linear layer to the gathered rows
  joined with a plain operand.  The kernel splits each weight matrix into the columns that meet the
  gathered operand and those that meet the plain one, so the layer is a sum of two products; the reference
  multiplies the joined operand once — the same sum, split at the join.  Between the layers the reference
  normalises each group of channels by its mean and centred second moment, scales by γ, shifts by β and
  applies a leaky ReLU.  The kernel never forms the normalised array: from the block sums it takes each
  group's mean m and variance E[x²] − m², folds them with γ and β into one scale a = γ/√(v + ε) and
  shift b = β − m·a per channel, and the next kernel applies x·a + b and the leaky ReLU to the gathered
  rows, which is the same because both act channel by channel and so commute with picking rows.  The two
  variance formulas agree and the affine maps agree over the reals; on the extended reals that needs every
  entry finite, which the precondition gives for the inputs and the layers preserve.

  The frames are the generated ones (the reference's is its run with the result dropped); the ideal pass
  rewrote nothing, so the kernel is its own idealization.
-/
import proofs.«117334_j39633958207498_2_alg».proof.Defs
import proofs.«117334_j39633958207498_2_alg».proof.Proof.Gen.Kernel
import proofs.«117334_j39633958207498_2_alg».proof.Proof.Gen.Kernel.Frame
import proofs.«117334_j39633958207498_2_alg».proof.Proof.Gen.KernelIdeal
import proofs.«117334_j39633958207498_2_alg».proof.Proof.Gen.KernelIdeal.Frame
import proofs.«117334_j39633958207498_2_alg».proof.Proof.Gen.ReferenceIdeal
import proofs.«117334_j39633958207498_2_alg».proof.Proof.Gen.Pre_finite_inputs
import proofs.«117334_j39633958207498_2_alg».proof.Proof.KernelRun
import proofs.«117334_j39633958207498_2_alg».proof.Proof.KValue
import proofs.«117334_j39633958207498_2_alg».proof.Proof.LibDecoder
import proofs.«117334_j39633958207498_2_alg».proof.Proof.RefRun
import proofs.«117334_j39633958207498_2_alg».proof.Proof.RefValue
import proofs.«117334_j39633958207498_2_alg».proof.Proof.PreFinite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.FPN

/-- The kernel's result, written with the stage functions of the kernel-side modules, is the decoder's kernel
    form of the launch arrays: the two spell the same expression. -/
theorem kOut_eq (m : (ℓ : Loc Cert.KernelIdeal.nD Cert.KernelIdeal.τ Cert.KernelIdeal.sig) → Buf (Elt Ideal) ℓ) (c : Dev Cert.KernelIdeal.nD) :
    Cert.KernelIdeal.Value.kOut m c
      = decOutK (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg2)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg1)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg0)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
          (rowMap Cert.KernelIdeal.Value.gd4 (Cert.KernelIdeal.Value.nIdx4 (m ((c.tc : Thread Cert.KernelIdeal.nD Cert.KernelIdeal.τ).loc Cert.KernelIdeal.main_arg6))) (by decide))
          (rowMap Cert.KernelIdeal.Value.gd3 (Cert.KernelIdeal.Value.nIdx3 (m ((c.tc : Thread Cert.KernelIdeal.nD Cert.KernelIdeal.τ).loc Cert.KernelIdeal.main_arg5))) (by decide))
          (rowMap Cert.KernelIdeal.Value.gd2 (Cert.KernelIdeal.Value.nIdx2 (m ((c.tc : Thread Cert.KernelIdeal.nD Cert.KernelIdeal.τ).loc Cert.KernelIdeal.main_arg4))) (by decide))
          Cert.KernelIdeal.Host.d4 Cert.KernelIdeal.Host.d3 Cert.KernelIdeal.Reg1.rows_lt Cert.KernelIdeal.Reg2.rows_lt := rfl

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- The two picked-row maps are one function of the index vector: the same gather, the same normalised indices. -/
theorem rho4_eq (a6 : IVec Cert.KernelIdeal.S8192 32) :
    Cert.ReferenceIdeal.RefValue.rho4 a6 = rowMap Cert.KernelIdeal.Value.gd4 (Cert.KernelIdeal.Value.nIdx4 a6) (by decide) := rfl
theorem rho3_eq (a5 : IVec Cert.KernelIdeal.S32768 32) :
    Cert.ReferenceIdeal.RefValue.rho3 a5 = rowMap Cert.KernelIdeal.Value.gd3 (Cert.KernelIdeal.Value.nIdx3 a5) (by decide) := rfl
theorem rho2_eq (a4 : IVec Cert.KernelIdeal.S131072 32) :
    Cert.ReferenceIdeal.RefValue.rho2 a4 = rowMap Cert.KernelIdeal.Value.gd2 (Cert.KernelIdeal.Value.nIdx2 a4) (by decide) := rfl

/-- At the ideal instance, from memories that agree on the arguments, both programs end with the decoder's
    value of the launch arrays in their result buffers: the kernel in its kernel form, the reference in its
    reference form, and the two forms are equal on finite inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (arr2 (Cert.KernelIdeal.Value.kOut m c) : M 131072 256), ?_, ?_⟩
  · exact (θ_run Cert.KernelIdeal.defs _ _).mono
      (fun r h c => ⟨(h c).1.trans (Cert.KernelIdeal.Value.result_eq m ρ c), (h c).2⟩) (Cert.KernelIdeal.Run.result m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9, e10, e11, e12, e13, e14, e15, e16, e17, e18⟩ := hagree c
    rw [e0, e1, e2, e3, e4, e5, e6, e7, e8, e9, e10, e11, e12, e13, e14, e15, e16, e17, e18]
    rw [Cert.ReferenceIdeal.RefValue.valOut_eq, rho4_eq, rho3_eq, rho2_eq]
    show _ = arr2 (Cert.KernelIdeal.Value.kOut m c)
    rw [kOut_eq]
    refine congrArg arr2 (funext fun i => funext fun n => ?_)
    obtain ⟨h0, h1, h2, h3, h7, h8, h9, h10, h11, h12, h13, h14, h15, h16, h17, h18⟩ :=
      @Cert.PreFinite.finite_of_pre Cert.Pre_finite_inputs.Gen.facts _ _ _ _ _ _ _ _ _ _ _ _ _ _ _ _ _ _ _ (hpre c)
    exact (decoder_eq _ _ _ _ _ _ _ _ _ _ _ _ _ _ _ _ _ _ _ _ _
      Cert.ReferenceIdeal.RefRead.cntm4_eq Cert.ReferenceIdeal.RefRead.cntm3_eq _ _ _ _
      h3 h7 h8 h2 h9 h10 h11 h12 h1 h13 h14 h15 h16 h0 h17 h18 i n).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
